-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part3 {F : FTy → Type} [FloatOps F] (main_arg12 : FVec F S64 .f32) (main_arg13 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg8 : FVec F S64 .f32) (main_arg9 : FVec F S64x64 .f32) (main_arg10 : FVec F S64 .f32) (main_arg11 : FVec F S64 .f32) (main_arg12 : FVec F S64 .f32) (main_arg13 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_v48 main_v49 main_v50

def fn_part1 {F : FTy → Type} [FloatOps F] (main_arg5 : FVec F S64 .f32) (main_arg6 : FVec F S64 .f32) (main_arg7 : FVec F S64 .f32) (main_arg8 : FVec F S64 .f32) (main_arg9 : FVec F S64x64 .f32) (main_arg10 : FVec F S64 .f32) (main_arg11 : FVec F S64 .f32) (main_arg12 : FVec F S64 .f32) (main_arg13 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x128 .f32) (main_arg1 : IVec S2x1000000 32) (main_arg2 : FVec F S128x64 .f32) (main_arg3 : FVec F S64 .f32) (main_arg4 : FVec F S64x64 .f32) (main_arg5 : FVec F S64 .f32) (main_arg6 : FVec F S64 .f32) (main_arg7 : FVec F S64 .f32) (main_arg8 : FVec F S64 .f32) (main_arg9 : FVec F S64x64 .f32) (main_arg10 : FVec F S64 .f32) (main_arg11 : FVec F S64 .f32) (main_arg12 : FVec F S64 .f32) (main_arg13 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_arg13 main_v13 main_v16
-- ==== Kernel.lean ====
abbrev S100000x128 : Shape := ⟨2, ![100000, 128]⟩
abbrev S2x1000000 : Shape := ⟨2, ![2, 1000000]⟩
abbrev S128x64 : Shape := ⟨2, ![128, 64]⟩
abbrev S64 : Shape := ⟨1, ![64]⟩
abbrev S64x64 : Shape := ⟨2, ![64, 64]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S1x64 : Shape := ⟨2, ![1, 64]⟩
abbrev S100000x64 : Shape := ⟨2, ![100000, 64]⟩
abbrev S5000x128 : Shape := ⟨2, ![5000, 128]⟩
abbrev S5000x64 : Shape := ⟨2, ![5000, 64]⟩
abbrev S1000000x64 : Shape := ⟨2, ![1000000, 64]⟩
abbrev S5000x1 : Shape := ⟨2, ![5000, 1]⟩

abbrev nBuf : Space → Nat
  | .hbm => 145
  | .vmem => 58
  | .smem => 0
  | _ => 0

abbrev hbmTy0_0 (i : Nat) : BufTy := match i % 128 with
  | 0 => ⟨S100000x128, .f32⟩
  | 1 => ⟨S2x1000000, .i32⟩
  | 2 => ⟨S128x64, .f32⟩
  | 3 => ⟨S64, .f32⟩
  | 4 => ⟨S64x64, .f32⟩
  | 5 => ⟨S64, .f32⟩
  | 6 => ⟨S64, .f32⟩
  | 7 => ⟨S64, .f32⟩
  | 8 => ⟨S64, .f32⟩
  | 9 => ⟨S64x64, .f32⟩
  | 10 => ⟨S64, .f32⟩
  | 11 => ⟨S64, .f32⟩
  | 12 => ⟨S64, .f32⟩
  | 13 => ⟨S64, .f32⟩
  | 14 => ⟨S1x1000000, .i32⟩
  | 15 => ⟨S1000000, .i32⟩
  | 16 => ⟨S1x1000000, .i32⟩
  | 17 => ⟨S1000000, .i32⟩
  | 18 => ⟨S_, .f32⟩
  | 19 => ⟨S1000000, .f32⟩
  | 20 => ⟨S_, .f32⟩
  | 21 => ⟨S100000, .f32⟩
  | 22 => ⟨S1000000x1, .i32⟩
  | 23 => ⟨S100000, .f32⟩
  | 24 => ⟨S_, .f32⟩
  | 25 => ⟨S100000, .f32⟩
  | 26 => ⟨S100000, .f32⟩
  | 27 => ⟨S100000, .f32⟩
  | 28 => ⟨S_, .i32⟩
  | 29 => ⟨S1000000, .i32⟩
  | 30 => ⟨S1000000, .i1⟩
  | 31 => ⟨S_, .i32⟩
  | 32 => ⟨S1000000, .i32⟩
  | 33 => ⟨S1000000, .i32⟩
  | 34 => ⟨S1000000, .i32⟩
  | 35 => ⟨S1000000x1, .i32⟩
  | 36 => ⟨S1000000, .f32⟩
  | 37 => ⟨S_, .i32⟩
  | 38 => ⟨S1000000, .i32⟩
  | 39 => ⟨S1000000, .i1⟩
  | 40 => ⟨S_, .i32⟩
  | 41 => ⟨S1000000, .i32⟩
  | 42 => ⟨S1000000, .i32⟩
  | 43 => ⟨S1000000, .i32⟩
  | 44 => ⟨S1000000x1, .i32⟩
  | 45 => ⟨S1000000, .f32⟩
  | 46 => ⟨S1000000, .f32⟩
  | 47 => ⟨S100000, .f32⟩
  | 48 => ⟨S100000x1, .f32⟩
  | 49 => ⟨S1x64, .f32⟩
  | 50 => ⟨S100000x64, .f32⟩
  | 51 => ⟨S_, .f32⟩
  | 52 => ⟨S64, .f32⟩
  | 53 => ⟨S1x64, .f32⟩
  | 54 => ⟨S100000x64, .f32⟩
  | 55 => ⟨S_, .i32⟩
  | 56 => ⟨S1000000, .i32⟩
  | 57 => ⟨S1000000, .i1⟩
  | 58 => ⟨S_, .i32⟩
  | 59 => ⟨S1000000, .i32⟩
  | 60 => ⟨S1000000, .i32⟩
  | 61 => ⟨S1000000, .i32⟩
  | 62 => ⟨S1000000x1, .i32⟩
  | 63 => ⟨S1000000x64, .f32⟩
  | 64 => ⟨S1000000x1, .f32⟩
  | 65 => ⟨S1000000x64, .f32⟩
  | 66 => ⟨S1000000x64, .f32⟩
  | 67 => ⟨S_, .f32⟩
  | 68 => ⟨S100000x64, .f32⟩
  | 69 => ⟨S1000000x1, .i32⟩
  | 70 => ⟨S100000x64, .f32⟩
  | 71 => ⟨S1x64, .f32⟩
  | 72 => ⟨S100000x64, .f32⟩
  | 73 => ⟨S1x64, .f32⟩
  | 74 => ⟨S1x64, .f32⟩
  | 75 => ⟨S_, .f32⟩
  | 76 => ⟨S1x64, .f32⟩
  | 77 => ⟨S1x64, .f32⟩
  | 78 => ⟨S_, .f32⟩
  | 79 => ⟨S1x64, .f32⟩
  | 80 => ⟨S1x64, .f32⟩
  | 81 => ⟨S1x64, .f32⟩
  | 82 => ⟨S1x64, .f32⟩
  | 83 => ⟨S1x64, .f32⟩
  | 84 => ⟨S_, .f32⟩
  | 85 => ⟨S1x64, .f32⟩
  | 86 => ⟨S1x64, .f32⟩
  | 87 => ⟨S1x64, .f32⟩
  | 88 => ⟨S1x64, .f32⟩
  | 89 => ⟨S1x64, .f32⟩
  | 90 => ⟨S_, .f32⟩
  | 91 => ⟨S1x64, .f32⟩
  | 92 => ⟨S1x64, .f32⟩
  | 93 => ⟨S1x64, .f32⟩
  | 94 => ⟨S1x64, .f32⟩
  | 95 => ⟨S1x64, .f32⟩
  | 96 => ⟨S1x64, .f32⟩
  | 97 => ⟨S100000x64, .f32⟩
  | 98 => ⟨S_, .f32⟩
  | 99 => ⟨S64, .f32⟩
  | 100 => ⟨S1x64, .f32⟩
  | 101 => ⟨S100000x64, .f32⟩
  | 102 => ⟨S_, .i32⟩
  | 103 => ⟨S1000000, .i32⟩
  | 104 => ⟨S1000000, .i1⟩
  | 105 => ⟨S_, .i32⟩
  | 106 => ⟨S1000000, .i32⟩
  | 107 => ⟨S1000000, .i32⟩
  | 108 => ⟨S1000000, .i32⟩
  | 109 => ⟨S1000000x1, .i32⟩
  | 110 => ⟨S1000000x64, .f32⟩
  | 111 => ⟨S1000000x1, .f32⟩
  | 112 => ⟨S1000000x64, .f32⟩
  | 113 => ⟨S1000000x64, .f32⟩
  | 114 => ⟨S_, .f32⟩
  | 115 => ⟨S100000x64, .f32⟩
  | 116 => ⟨S1000000x1, .i32⟩
  | 117 => ⟨S100000x64, .f32⟩
  | 118 => ⟨S1x64, .f32⟩
  | 119 => ⟨S100000x64, .f32⟩
  | 120 => ⟨S1x64, .f32⟩
  | 121 => ⟨S1x64, .f32⟩
  | 122 => ⟨S_, .f32⟩
  | 123 => ⟨S1x64, .f32⟩
  | 124 => ⟨S1x64, .f32⟩
  | 125 => ⟨S_, .f32⟩
  | 126 => ⟨S1x64, .f32⟩
  | 127 => ⟨S1x64, .f32⟩
  | _ => ⟨S100000x128, .f32⟩

abbrev hbmTy0_1 (i : Nat) : BufTy := match i % 128 with
  | 0 => ⟨S1x64, .f32⟩
  | 1 => ⟨S1x64, .f32⟩
  | 2 => ⟨S1x64, .f32⟩
  | 3 => ⟨S_, .f32⟩
  | 4 => ⟨S1x64, .f32⟩
  | 5 => ⟨S1x64, .f32⟩
  | 6 => ⟨S1x64, .f32⟩
  | 7 => ⟨S1x64, .f32⟩
  | 8 => ⟨S1x64, .f32⟩
  | 9 => ⟨S_, .f32⟩
  | 10 => ⟨S1x64, .f32⟩
  | 11 => ⟨S1x64, .f32⟩
  | 12 => ⟨S1x64, .f32⟩
  | 13 => ⟨S1x64, .f32⟩
  | 14 => ⟨S1x64, .f32⟩
  | 15 => ⟨S1x64, .f32⟩
  | 16 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x1, .f32⟩
  | .local _ .vmem, ⟨17, _⟩ => ⟨S5000x1, .f32⟩
  | .local _ .vmem, ⟨18, _⟩ => ⟨S1x64, .f32⟩
  | .local _ .vmem, ⟨19, _⟩ => ⟨S5000x64, .f32⟩
  | .local _ .vmem, ⟨20, _⟩ => ⟨S5000x64, .f32⟩
  | .local _ .vmem, ⟨21, _⟩ => ⟨S1x64, .f32⟩
  | .local _ .vmem, ⟨22, _⟩ => ⟨S1x64, .f32⟩
  | .local _ .vmem, ⟨23, _⟩ => ⟨S5000x64, .f32⟩
  | .local _ .vmem, ⟨24, _⟩ => ⟨S5000x64, .f32⟩
  | .local _ .vmem, ⟨25, _⟩ => ⟨S1x64, .f32⟩
  | .local _ .vmem, ⟨26, _⟩ => ⟨S1x64, .f32⟩
  | .local _ .vmem, ⟨27, _⟩ => ⟨S1x64, .f32⟩
  | .local _ .vmem, ⟨28, _⟩ => ⟨S1x64, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S64x64, .f32⟩
  | .local _ .vmem, ⟨35, _⟩ => ⟨S1x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S5000x1, .f32⟩
  | .local _ .vmem, ⟨43, _⟩ => ⟨S5000x1, .f32⟩
  | .local _ .vmem, ⟨44, _⟩ => ⟨S1x64, .f32⟩
  | .local _ .vmem, ⟨45, _⟩ => ⟨S5000x64, .f32⟩
  | .local _ .vmem, ⟨46, _⟩ => ⟨S5000x64, .f32⟩
  | .local _ .vmem, ⟨47, _⟩ => ⟨S1x64, .f32⟩
  | .local _ .vmem, ⟨48, _⟩ => ⟨S1x64, .f32⟩
  | .local _ .vmem, ⟨49, _⟩ => ⟨S5000x64, .f32⟩
  | .local _ .vmem, ⟨50, _⟩ => ⟨S5000x64, .f32⟩
  | .local _ .vmem, ⟨51, _⟩ => ⟨S1x64, .f32⟩
  | .local _ .vmem, ⟨52, _⟩ => ⟨S1x64, .f32⟩
  | .local _ .vmem, ⟨53, _⟩ => ⟨S1x64, .f32⟩
  | .local _ .vmem, ⟨54, _⟩ => ⟨S1x64, .f32⟩
  | .local _ .vmem, ⟨55, _⟩ => ⟨S1x64, .f32⟩
  | .local _ .vmem, ⟨56, _⟩ => ⟨S5000x64, .f32⟩
  | .local _ .vmem, ⟨57, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_6 : Ref sig .tc := ⟨.hbm, 55, rfl⟩
abbrev main_v33 : Ref sig .tc := ⟨.hbm, 56, rfl⟩
abbrev main_v34 : Ref sig .tc := ⟨.hbm, 57, rfl⟩
abbrev main_c_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47_0 : Ref sig .tc := ⟨.hbm, 72, rfl⟩
abbrev main_v47_1 : Ref sig .tc := ⟨.hbm, 73, rfl⟩
abbrev main_v47_2 : Ref sig .tc := ⟨.hbm, 74, rfl⟩
abbrev main_cst_9 : Ref sig .tc := ⟨.hbm, 75, rfl⟩
abbrev main_v48 : Ref sig .tc := ⟨.hbm, 76, rfl⟩
abbrev main_v49 : Ref sig .tc := ⟨.hbm, 77, rfl⟩
abbrev main_cst_10 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_11 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_12 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_13 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_c_14 : Ref sig .tc := ⟨.hbm, 102, rfl⟩
abbrev main_v70 : Ref sig .tc := ⟨.hbm, 103, rfl⟩
abbrev main_v71 : Ref sig .tc := ⟨.hbm, 104, rfl⟩
abbrev main_c_15 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_16 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84_0 : Ref sig .tc := ⟨.hbm, 119, rfl⟩
abbrev main_v84_1 : Ref sig .tc := ⟨.hbm, 120, rfl⟩
abbrev main_v84_2 : Ref sig .tc := ⟨.hbm, 121, rfl⟩
abbrev main_cst_17 : Ref sig .tc := ⟨.hbm, 122, rfl⟩
abbrev main_v85 : Ref sig .tc := ⟨.hbm, 123, rfl⟩
abbrev main_v86 : Ref sig .tc := ⟨.hbm, 124, rfl⟩
abbrev main_cst_18 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_cst_19 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_20 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_stg6_0 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg6_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg2_1 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg4_1 : Ref sig .tc := ⟨.vmem, 46, rfl⟩
abbrev cc5_stg5_0 : Ref sig .tc := ⟨.vmem, 47, rfl⟩
abbrev cc5_stg6_0 : Ref sig .tc := ⟨.vmem, 48, rfl⟩
abbrev cc6_stg0_0 : Ref sig .tc := ⟨.vmem, 49, rfl⟩
abbrev cc6_stg0_1 : Ref sig .tc := ⟨.vmem, 50, rfl⟩
abbrev cc6_stg1_0 : Ref sig .tc := ⟨.vmem, 51, rfl⟩
abbrev cc6_stg2_0 : Ref sig .tc := ⟨.vmem, 52, rfl⟩
abbrev cc6_stg3_0 : Ref sig .tc := ⟨.vmem, 53, rfl⟩
abbrev cc6_stg4_0 : Ref sig .tc := ⟨.vmem, 54, rfl⟩
abbrev cc6_stg5_0 : Ref sig .tc := ⟨.vmem, 55, rfl⟩
abbrev cc6_stg6_0 : Ref sig .tc := ⟨.vmem, 56, rfl⟩
abbrev cc6_stg6_1 : Ref sig .tc := ⟨.vmem, 57, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem4_1 : DmaSem sig := 20
abbrev cc2_sem5_0 : DmaSem sig := 21
abbrev cc2_sem6_0 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem6_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem3_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem2_1 : DmaSem sig := 43
abbrev cc5_sem3_0 : DmaSem sig := 44
abbrev cc5_sem4_0 : DmaSem sig := 45
abbrev cc5_sem4_1 : DmaSem sig := 46
abbrev cc5_sem5_0 : DmaSem sig := 47
abbrev cc5_sem6_0 : DmaSem sig := 48
abbrev cc6_sem0_0 : DmaSem sig := 49
abbrev cc6_sem0_1 : DmaSem sig := 50
abbrev cc6_sem1_0 : DmaSem sig := 51
abbrev cc6_sem2_0 : DmaSem sig := 52
abbrev cc6_sem3_0 : DmaSem sig := 53
abbrev cc6_sem4_0 : DmaSem sig := 54
abbrev cc6_sem5_0 : DmaSem sig := 55
abbrev cc6_sem6_0 : DmaSem sig := 56
abbrev cc6_sem6_1 : DmaSem sig := 57

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S5000x64 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  shapeCasts_S100000_S100000x1 : S100000.ShapeCasts S100000x1
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S64 : S_.BroadcastsInDim S64 (![] : Fin 0 → Fin S64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  reduces_S5000x64_S64 : S5000x64.Reduces [0] S64
  bcast_S_S1x64 : S_.BroadcastsInDim S1x64 (![] : Fin 0 → Fin S1x64.rank)
  scatter_S100000_S1000000x1_S1000000_n_0_0_1_wf : ScatterDims.WF S100000 S1000000x1 S1000000 [] [0] [0] 1
  gather_S100000_S1000000x1_S1000000_n_0_n_n_0_1_1_wf : GatherDims.WF S100000 S1000000x1 S1000000 [] [0] [] [0] [] 1 ![1]
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .f32 = 32 ∨ (Rect.block (s := S100000x64) S5000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S100000x64.size a
  hwx4_3 : ∀ i : grid4.Coords, EltTy.bits .f32 = 32 ∨ (Rect.block (s := S100000x64) S5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S100000x64.size a
  hwx5_4 : ∀ i : grid5.Coords, EltTy.bits .f32 = 32 ∨ (Rect.block (s := S100000x64) S5000x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x64.size a ≤ S1x64.size a
  hwx5_6 : ∀ i : grid5.Coords, EltTy.bits .f32 = 32 ∨ (Rect.block (s := S1x64) S1x64.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x64.size a ≤ S1x64.size a
  hwx6_5 : ∀ i : grid6.Coords, EltTy.bits .f32 = 32 ∨ (Rect.block (s := S1x64) S1x64.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x64.size a ≤ S100000x64.size a
  hwx6_6 : ∀ i : grid6.Coords, EltTy.bits .f32 = 32 ∨ (Rect.block (s := S100000x64) S5000x64.size (cc6_transform_6 i) (hinb6_6 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v46) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47_0) S5000x64.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v47_1) S1x64.size cc2_transform_5 reads2_5 true true 1 stage2_5 sem2_5
    hrank2 hreads2_5 hinb2_5 nbuf2_5 (Memref.isWhole_whole _) hwx2_5 hstage2_5

abbrev win2_6 : Pipeline.Window sig grid2 :=
  Pipeline.Window.ofSpec (Memref.whole main_v47_2) S1x64.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v47_0) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v63) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v64) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v65) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v66) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v66) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v68) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v69) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v82) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v69) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v27) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v83) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v84_0) S5000x64.size cc5_transform_4 reads5_4 true false 2 stage5_4 sem5_4
    hrank5 hreads5_4 hinb5_4 nbuf5_4 (Memref.isWhole_whole _) hwx5_4 hstage5_4

abbrev win5_5 : Pipeline.Window sig grid5 :=
  Pipeline.Window.ofSpec (Memref.whole main_v84_1) S1x64.size cc5_transform_5 reads5_5 true true 1 stage5_5 sem5_5
    hrank5 hreads5_5 hinb5_5 nbuf5_5 (Memref.isWhole_whole _) hwx5_5 hstage5_5

abbrev win5_6 : Pipeline.Window sig grid5 :=
  Pipeline.Window.ofSpec (Memref.whole main_v84_2) S1x64.size cc5_transform_6 reads5_6 true true 1 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v84_0) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v86) S1x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v99) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v100) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v101) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v102) S1x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v103) S5000x64.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S128x64 : Shape := ⟨2, ![128, 64]⟩
abbrev S64 : Shape := ⟨1, ![64]⟩
abbrev S64x64 : Shape := ⟨2, ![64, 64]⟩
abbrev S1x1000000 : Shape := ⟨2, ![1, 1000000]⟩
abbrev S1000000 : Shape := ⟨1, ![1000000]⟩
abbrev S100000x64 : Shape := ⟨2, ![100000, 64]⟩
abbrev S1x64 : Shape := ⟨2, ![1, 64]⟩
abbrev S_ : Shape := ⟨0, ![]⟩
abbrev S100000 : Shape := ⟨1, ![100000]⟩
abbrev S1000000x1 : Shape := ⟨2, ![1000000, 1]⟩
abbrev S1000000x64 : Shape := ⟨2, ![1000000, 64]⟩
abbrev S100000x1 : Shape := ⟨2, ![100000, 1]⟩

abbrev nBuf : Space → Nat
  | .hbm => 193
  | .vmem => 0
  | .smem => 0
  | _ => 0

abbrev hbmTy0_0 (i : Nat) : BufTy := match i % 128 with
  | 0 => ⟨S100000x128, .f32⟩
  | 1 => ⟨S2x1000000, .i32⟩
  | 2 => ⟨S128x64, .f32⟩
  | 3 => ⟨S64, .f32⟩
  | 4 => ⟨S64x64, .f32⟩
  | 5 => ⟨S64, .f32⟩
  | 6 => ⟨S64, .f32⟩
  | 7 => ⟨S64, .f32⟩
  | 8 => ⟨S64, .f32⟩
  | 9 => ⟨S64x64, .f32⟩
  | 10 => ⟨S64, .f32⟩
  | 11 => ⟨S64, .f32⟩
  | 12 => ⟨S64, .f32⟩
  | 13 => ⟨S64, .f32⟩
  | 14 => ⟨S1x1000000, .i32⟩
  | 15 => ⟨S1000000, .i32⟩
  | 16 => ⟨S1x1000000, .i32⟩
  | 17 => ⟨S1000000, .i32⟩
  | 18 => ⟨S100000x64, .f32⟩
  | 19 => ⟨S1x64, .f32⟩
  | 20 => ⟨S100000x64, .f32⟩
  | 21 => ⟨S100000x64, .f32⟩
  | 22 => ⟨S100000x64, .f32⟩
  | 23 => ⟨S_, .f32⟩
  | 24 => ⟨S1000000, .f32⟩
  | 25 => ⟨S_, .f32⟩
  | 26 => ⟨S100000, .f32⟩
  | 27 => ⟨S1000000x1, .i32⟩
  | 28 => ⟨S100000, .f32⟩
  | 29 => ⟨S_, .f32⟩
  | 30 => ⟨S100000, .f32⟩
  | 31 => ⟨S100000, .f32⟩
  | 32 => ⟨S100000, .f32⟩
  | 33 => ⟨S_, .i32⟩
  | 34 => ⟨S1000000, .i32⟩
  | 35 => ⟨S1000000, .i1⟩
  | 36 => ⟨S_, .i32⟩
  | 37 => ⟨S1000000, .i32⟩
  | 38 => ⟨S1000000, .i32⟩
  | 39 => ⟨S1000000, .i32⟩
  | 40 => ⟨S1000000x1, .i32⟩
  | 41 => ⟨S1000000, .f32⟩
  | 42 => ⟨S_, .i32⟩
  | 43 => ⟨S1000000, .i32⟩
  | 44 => ⟨S1000000, .i1⟩
  | 45 => ⟨S_, .i32⟩
  | 46 => ⟨S1000000, .i32⟩
  | 47 => ⟨S1000000, .i32⟩
  | 48 => ⟨S1000000, .i32⟩
  | 49 => ⟨S1000000x1, .i32⟩
  | 50 => ⟨S1000000, .f32⟩
  | 51 => ⟨S1000000, .f32⟩
  | 52 => ⟨S_, .i32⟩
  | 53 => ⟨S1000000, .i32⟩
  | 54 => ⟨S1000000, .i1⟩
  | 55 => ⟨S_, .i32⟩
  | 56 => ⟨S1000000, .i32⟩
  | 57 => ⟨S1000000, .i32⟩
  | 58 => ⟨S1000000, .i32⟩
  | 59 => ⟨S1000000x1, .i32⟩
  | 60 => ⟨S1000000x64, .f32⟩
  | 61 => ⟨S1000000x1, .f32⟩
  | 62 => ⟨S1000000x64, .f32⟩
  | 63 => ⟨S1000000x64, .f32⟩
  | 64 => ⟨S_, .f32⟩
  | 65 => ⟨S100000x64, .f32⟩
  | 66 => ⟨S1000000x1, .i32⟩
  | 67 => ⟨S100000x64, .f32⟩
  | 68 => ⟨S100000, .f32⟩
  | 69 => ⟨S100000x1, .f32⟩
  | 70 => ⟨S100000x64, .f32⟩
  | 71 => ⟨S100000x64, .f32⟩
  | 72 => ⟨S100000x64, .f32⟩
  | 73 => ⟨S1x64, .f32⟩
  | 74 => ⟨S100000x64, .f32⟩
  | 75 => ⟨S100000x64, .f32⟩
  | 76 => ⟨S_, .f32⟩
  | 77 => ⟨S64, .f32⟩
  | 78 => ⟨S_, .f32⟩
  | 79 => ⟨S64, .f32⟩
  | 80 => ⟨S64, .f32⟩
  | 81 => ⟨S64, .f32⟩
  | 82 => ⟨S1x64, .f32⟩
  | 83 => ⟨S100000x64, .f32⟩
  | 84 => ⟨S100000x64, .f32⟩
  | 85 => ⟨S100000x64, .f32⟩
  | 86 => ⟨S_, .f32⟩
  | 87 => ⟨S64, .f32⟩
  | 88 => ⟨S_, .f32⟩
  | 89 => ⟨S64, .f32⟩
  | 90 => ⟨S64, .f32⟩
  | 91 => ⟨S1x64, .f32⟩
  | 92 => ⟨S100000x64, .f32⟩
  | 93 => ⟨S100000x64, .f32⟩
  | 94 => ⟨S_, .f32⟩
  | 95 => ⟨S64, .f32⟩
  | 96 => ⟨S64, .f32⟩
  | 97 => ⟨S64, .f32⟩
  | 98 => ⟨S1x64, .f32⟩
  | 99 => ⟨S100000x64, .f32⟩
  | 100 => ⟨S100000x64, .f32⟩
  | 101 => ⟨S1x64, .f32⟩
  | 102 => ⟨S100000x64, .f32⟩
  | 103 => ⟨S100000x64, .f32⟩
  | 104 => ⟨S_, .f32⟩
  | 105 => ⟨S100000x64, .f32⟩
  | 106 => ⟨S100000x64, .i1⟩
  | 107 => ⟨S_, .f32⟩
  | 108 => ⟨S100000x64, .f32⟩
  | 109 => ⟨S100000x64, .f32⟩
  | 110 => ⟨S100000x64, .f32⟩
  | 111 => ⟨S100000x64, .f32⟩
  | 112 => ⟨S_, .f32⟩
  | 113 => ⟨S1000000, .f32⟩
  | 114 => ⟨S_, .f32⟩
  | 115 => ⟨S100000, .f32⟩
  | 116 => ⟨S1000000x1, .i32⟩
  | 117 => ⟨S100000, .f32⟩
  | 118 => ⟨S_, .f32⟩
  | 119 => ⟨S100000, .f32⟩
  | 120 => ⟨S100000, .f32⟩
  | 121 => ⟨S100000, .f32⟩
  | 122 => ⟨S_, .i32⟩
  | 123 => ⟨S1000000, .i32⟩
  | 124 => ⟨S1000000, .i1⟩
  | 125 => ⟨S_, .i32⟩
  | 126 => ⟨S1000000, .i32⟩
  | 127 => ⟨S1000000, .i32⟩
  | _ => ⟨S100000x128, .f32⟩

abbrev hbmTy0_1 (i : Nat) : BufTy := match i % 128 with
  | 0 => ⟨S1000000, .i32⟩
  | 1 => ⟨S1000000x1, .i32⟩
  | 2 => ⟨S1000000, .f32⟩
  | 3 => ⟨S_, .i32⟩
  | 4 => ⟨S1000000, .i32⟩
  | 5 => ⟨S1000000, .i1⟩
  | 6 => ⟨S_, .i32⟩
  | 7 => ⟨S1000000, .i32⟩
  | 8 => ⟨S1000000, .i32⟩
  | 9 => ⟨S1000000, .i32⟩
  | 10 => ⟨S1000000x1, .i32⟩
  | 11 => ⟨S1000000, .f32⟩
  | 12 => ⟨S1000000, .f32⟩
  | 13 => ⟨S_, .i32⟩
  | 14 => ⟨S1000000, .i32⟩
  | 15 => ⟨S1000000, .i1⟩
  | 16 => ⟨S_, .i32⟩
  | 17 => ⟨S1000000, .i32⟩
  | 18 => ⟨S1000000, .i32⟩
  | 19 => ⟨S1000000, .i32⟩
  | 20 => ⟨S1000000x1, .i32⟩
  | 21 => ⟨S1000000x64, .f32⟩
  | 22 => ⟨S1000000x1, .f32⟩
  | 23 => ⟨S1000000x64, .f32⟩
  | 24 => ⟨S1000000x64, .f32⟩
  | 25 => ⟨S_, .f32⟩
  | 26 => ⟨S100000x64, .f32⟩
  | 27 => ⟨S1000000x1, .i32⟩
  | 28 => ⟨S100000x64, .f32⟩
  | 29 => ⟨S100000, .f32⟩
  | 30 => ⟨S100000x1, .f32⟩
  | 31 => ⟨S100000x64, .f32⟩
  | 32 => ⟨S100000x64, .f32⟩
  | 33 => ⟨S100000x64, .f32⟩
  | 34 => ⟨S1x64, .f32⟩
  | 35 => ⟨S100000x64, .f32⟩
  | 36 => ⟨S100000x64, .f32⟩
  | 37 => ⟨S_, .f32⟩
  | 38 => ⟨S64, .f32⟩
  | 39 => ⟨S_, .f32⟩
  | 40 => ⟨S64, .f32⟩
  | 41 => ⟨S64, .f32⟩
  | 42 => ⟨S64, .f32⟩
  | 43 => ⟨S1x64, .f32⟩
  | 44 => ⟨S100000x64, .f32⟩
  | 45 => ⟨S100000x64, .f32⟩
  | 46 => ⟨S100000x64, .f32⟩
  | 47 => ⟨S_, .f32⟩
  | 48 => ⟨S64, .f32⟩
  | 49 => ⟨S_, .f32⟩
  | 50 => ⟨S64, .f32⟩
  | 51 => ⟨S64, .f32⟩
  | 52 => ⟨S1x64, .f32⟩
  | 53 => ⟨S100000x64, .f32⟩
  | 54 => ⟨S100000x64, .f32⟩
  | 55 => ⟨S_, .f32⟩
  | 56 => ⟨S64, .f32⟩
  | 57 => ⟨S64, .f32⟩
  | 58 => ⟨S64, .f32⟩
  | 59 => ⟨S1x64, .f32⟩
  | 60 => ⟨S100000x64, .f32⟩
  | 61 => ⟨S100000x64, .f32⟩
  | 62 => ⟨S1x64, .f32⟩
  | 63 => ⟨S100000x64, .f32⟩
  | 64 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_3 : Ref sig .tc := ⟨.hbm, 42, rfl⟩
abbrev main_v23 : Ref sig .tc := ⟨.hbm, 43, rfl⟩
abbrev main_v24 : Ref sig .tc := ⟨.hbm, 44, rfl⟩
abbrev main_c_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_5 : Ref sig .tc := ⟨.hbm, 52, rfl⟩
abbrev main_v31 : Ref sig .tc := ⟨.hbm, 53, rfl⟩
abbrev main_v32 : Ref sig .tc := ⟨.hbm, 54, rfl⟩
abbrev main_c_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_7 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_8 : Ref sig .tc := ⟨.hbm, 76, rfl⟩
abbrev main_v52 : Ref sig .tc := ⟨.hbm, 77, rfl⟩
abbrev main_cst_9 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_10 : Ref sig .tc := ⟨.hbm, 86, rfl⟩
abbrev main_v60 : Ref sig .tc := ⟨.hbm, 87, rfl⟩
abbrev main_cst_11 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_12 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_13 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_15 : Ref sig .tc := ⟨.hbm, 112, rfl⟩
abbrev main_v81 : Ref sig .tc := ⟨.hbm, 113, rfl⟩
abbrev main_cst_16 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_17 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_c_18 : Ref sig .tc := ⟨.hbm, 122, rfl⟩
abbrev main_v88 : Ref sig .tc := ⟨.hbm, 123, rfl⟩
abbrev main_v89 : Ref sig .tc := ⟨.hbm, 124, rfl⟩
abbrev main_c_19 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_c_20 : Ref sig .tc := ⟨.hbm, 131, rfl⟩
abbrev main_v95 : Ref sig .tc := ⟨.hbm, 132, rfl⟩
abbrev main_v96 : Ref sig .tc := ⟨.hbm, 133, rfl⟩
abbrev main_c_21 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_c_22 : Ref sig .tc := ⟨.hbm, 141, rfl⟩
abbrev main_v103 : Ref sig .tc := ⟨.hbm, 142, rfl⟩
abbrev main_v104 : Ref sig .tc := ⟨.hbm, 143, rfl⟩
abbrev main_c_23 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_24 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_cst_25 : Ref sig .tc := ⟨.hbm, 165, rfl⟩
abbrev main_v124 : Ref sig .tc := ⟨.hbm, 166, rfl⟩
abbrev main_cst_26 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_cst_27 : Ref sig .tc := ⟨.hbm, 175, rfl⟩
abbrev main_v132 : Ref sig .tc := ⟨.hbm, 176, rfl⟩
abbrev main_cst_28 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_cst_29 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []
  scatter_S100000_S1000000x1_S1000000_n_0_0_1_wf : ScatterDims.WF S100000 S1000000x1 S1000000 [] [0] [0] 1
  gather_S100000_S1000000x1_S1000000_n_0_n_n_0_1_1_wf : GatherDims.WF S100000 S1000000x1 S1000000 [] [0] [] [0] [] 1 ![1]
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

class Facts : Prop extends Facts₀ where

variable [Facts]
-- ==== Proof.Spec.lean ====
import proofs.«169252_j42494406426958_1_alg».proof.ReferenceIdeal
import Idealize.ShloMosaic.PureOps.Ideal

/-!
# The two-layer graph network, as one function of its inputs

A node table `x : [100000, 128]`, an edge table `e : [2, 1000000]` (row 0 the source node of each edge, row 1
its destination), and per layer a weight, a bias and the three GraphNorm vectors. One layer is

* `xw = h · W`;
* the degree of node `i`: one plus the number of edges whose destination is `i`; `dinv = deg^(-1/2)`;
* `coef(edge) = dinv[src] · dinv[dst]`;
* `agg[i] = Σ over edges into i of xw[src] · coef`;
* `c = agg + xw · dinv² + b`;
* GraphNorm over the node axis: `mean = (Σᵢ c[i]) / n`, `d = c − α·mean`, `var = (Σᵢ d[i]²) / n`,
  `out = γ · d · (var + ε)^(-1/2) + β`.

The model is `layer₂ (leaky (layer₁ (x · W_in + b_in)))`. Every stage is spelt with the host operations of
the reference program, over its shapes and dimension records, so that the reference's composed term is this
function by unfolding.
-/

noncomputable section

namespace Cert.Spec

open Cert.ReferenceIdeal Cert.ReferenceIdeal.Facts₀ Idealize.ShloMosaic

variable {F : FTy → Type} [FloatOps F] [Cert.ReferenceIdeal.Facts₀]

/-- A float array of shape `s`. -/
abbrev FA (F : FTy → Type) [FloatOps F] (s : Shape) : Type := (⟨s, .f32⟩ : BufTy).Contents (Elt F)
/-- A 32-bit integer array of shape `s`. -/
abbrev IA (F : FTy → Type) [FloatOps F] (s : Shape) : Type := (⟨s, .i32⟩ : BufTy).Contents (Elt F)

/-- The source node of every edge: row 0 of the edge table, flattened. -/
def srcOf (e : IA F S2x1000000) : IA F S1000000 :=
  shapeCast _ (extractStridedSlice S1x1000000 ![0, 0] e slices_S2x1000000_S1x1000000_0_0) shapeCasts_S1x1000000_S1000000

/-- The destination node of every edge: row 1 of the edge table, flattened. -/
def dstOf (e : IA F S2x1000000) : IA F S1000000 :=
  shapeCast _ (extractStridedSlice S1x1000000 ![1, 0] e slices_S2x1000000_S1x1000000_1_0) shapeCasts_S1x1000000_S1000000

/-- A node index with a negative one counted from the end: `s < 0 ? s + 100000 : s`. -/
def wrap (s : IA F S1000000) : IA F S1000000 :=
  select (cmpi .slt s (broadcastInDim S1000000 ![] bcast_S_S1000000 (constantI S_ 32 0#32)))
    (addi s (broadcastInDim S1000000 ![] bcast_S_S1000000 (constantI S_ 32 100000#32))) s

/-- One index per edge, as the column `[1000000, 1]` a gather or a scatter takes. -/
def col (s : IA F S1000000) : IA F S1000000x1 :=
  broadcastInDim S1000000x1 ![0] bcast_S1000000_S1000000x1_0 s

/-- The degree of every node with its self-loop: one plus the number of edges into it. -/
def deg (e : IA F S2x1000000) : FA F S100000 :=
  addf
    (Host.scatterAdd scatter_S100000_S1000000x1_S1000000_n_0_0_1
      (broadcastInDim S100000 ![] bcast_S_S100000 (constant S_ .f32 0x00000000#32))
      (col (dstOf e))
      (broadcastInDim S1000000 ![] bcast_S_S1000000 (constant S_ .f32 0x3F800000#32)))
    (broadcastInDim S100000 ![] bcast_S_S100000 (constant S_ .f32 0x3F800000#32))

/-- `deg^(-1/2)`. -/
def dinv (e : IA F S2x1000000) : FA F S100000 := Host.rsqrt (deg e)

/-- The weight of every edge from a table `dv` of node factors: `dv[src] · dv[dst]`. -/
def coefCore (dv : FA F S100000) (src dst : IA F S1000000) : FA F S1000000 :=
  mulf (Host.gather gather_S100000_S1000000x1_S1000000_n_0_n_n_0_1_1 dv (col (wrap src)))
    (Host.gather gather_S100000_S1000000x1_S1000000_n_0_n_n_0_1_1 dv (col (wrap dst)))

/-- The weight of every edge: `dinv[src] · dinv[dst]`. -/
def coef (e : IA F S2x1000000) : FA F S1000000 := coefCore (dinv e) (srcOf e) (dstOf e)

/-- The messages summed at their destinations, from the edges' ends and weights:
    `agg[i] = Σ over edges with dst = i of xw[src] · cf`. -/
def aggCore (xw : FA F S100000x64) (src dst : IA F S1000000) (cf : FA F S1000000) : FA F S100000x64 :=
  Host.scatterAdd scatter_S100000x64_S1000000x1_S1000000x64_1_0_0_1
    (broadcastInDim S100000x64 ![] bcast_S_S100000x64 (constant S_ .f32 0x00000000#32))
    (col dst)
    (mulf (Host.gather gather_S100000x64_S1000000x1_S1000000x64_1_0_n_n_0_1_164 xw (col (wrap src)))
      (broadcastInDim S1000000x64 ![0, 1] bcast_S1000000x1_S1000000x64_0_1
        (broadcastInDim S1000000x1 ![0] bcast_S1000000_S1000000x1_0 cf)))

/-- The messages summed at their destinations: `agg[i] = Σ over edges into i of xw[src] · coef`. -/
def agg (xw : FA F S100000x64) (e : IA F S2x1000000) : FA F S100000x64 :=
  aggCore xw (srcOf e) (dstOf e) (coef e)

/-- A feature vector `[64]` repeated on every node's row. -/
def rowB (b : FA F S64) : FA F S100000x64 :=
  broadcastInDim S100000x64 ![0, 1] bcast_S1x64_S100000x64_0_1 (broadcastInDim S1x64 ![1] bcast_S64_S1x64_1 b)

/-- The input projection `x · W + b`. -/
def proj (x : FA F S100000x128) (w : FA F S128x64) (b : FA F S64) : FA F S100000x64 :=
  addf (Host.dotGeneral dot_S100000x128_S128x64_S100000x64_1_0_0_1_n_n none x w) (rowB b)

/-- A layer's product `h · W`. -/
def prod (h : FA F S100000x64) (w : FA F S64x64) : FA F S100000x64 :=
  Host.dotGeneral dot_S100000x64_S64x64_S100000x64_1_0_0_1_n_n none h w

/-- The convolution's result `agg + xw · dinv² + b`. -/
def combine (xw : FA F S100000x64) (e : IA F S2x1000000) (b : FA F S64) : FA F S100000x64 :=
  addf
    (addf (agg xw e)
      (mulf xw
        (broadcastInDim S100000x64 ![0, 1] bcast_S100000x1_S100000x64_0_1
          (broadcastInDim S100000x1 ![0] bcast_S100000_S100000x1_0 (mulf (dinv e) (dinv e))))))
    (rowB b)

/-- The sum over the nodes, per feature. -/
def colSum (c : FA F S100000x64) : FA F S64 :=
  Host.reduceAdd c (constant S_ .f32 0x00000000#32) reducesTo_S100000x64_S64_d0 h_S_

/-- The number of nodes, on every feature. -/
def nNodes : FA F S64 := broadcastInDim S64 ![] bcast_S_S64 (constant S_ .f32 0x47C35000#32)

/-- The mean over the nodes. -/
def mean (c : FA F S100000x64) : FA F S64 := Host.divf (colSum c) nNodes

/-- `c − α · mean`. -/
def centered (c : FA F S100000x64) (α : FA F S64) : FA F S100000x64 := subf c (rowB (mulf α (mean c)))

/-- The mean of the squares of `c − α · mean`. -/
def variance (c : FA F S100000x64) (α : FA F S64) : FA F S64 :=
  Host.divf (colSum (mulf (centered c α) (centered c α))) nNodes

/-- `(var + ε)^(-1/2)`. -/
def invStd (c : FA F S100000x64) (α : FA F S64) : FA F S64 :=
  Host.rsqrt (addf (variance c α) (broadcastInDim S64 ![] bcast_S_S64 (constant S_ .f32 0x3727C5AC#32)))

/-- GraphNorm: `γ · (c − α·mean) · (var + ε)^(-1/2) + β`. -/
def graphNorm (c : FA F S100000x64) (α γ β : FA F S64) : FA F S100000x64 :=
  addf (mulf (mulf (rowB γ) (centered c α)) (rowB (invStd c α))) (rowB β)

/-- LeakyReLU with slope 0.2: `y > 0 ? y : 0.2 · y`. -/
def leaky (y : FA F S100000x64) : FA F S100000x64 :=
  select (cmpf .ogt y (broadcastInDim S100000x64 ![] bcast_S_S100000x64 (constant S_ .f32 0x00000000#32))) y
    (mulf (broadcastInDim S100000x64 ![] bcast_S_S100000x64 (constant S_ .f32 0x3E4CCCCD#32)) y)

/-- One graph-convolution layer followed by GraphNorm. -/
def layer (h : FA F S100000x64) (w : FA F S64x64) (b α γ β : FA F S64) (e : IA F S2x1000000) : FA F S100000x64 :=
  graphNorm (combine (prod h w) e b) α γ β

/-- The whole network. -/
def model (x : FA F S100000x128) (e : IA F S2x1000000) (wIn : FA F S128x64) (bIn : FA F S64)
    (w1 : FA F S64x64) (b1 α1 γ1 β1 : FA F S64) (w2 : FA F S64x64) (b2 α2 γ2 β2 : FA F S64) : FA F S100000x64 :=
  layer (leaky (layer (proj x wIn bIn) w1 b1 α1 γ1 β1 e)) w2 b2 α2 γ2 β2 e

end Cert.Spec

end
-- ==== Proof.FiniteInputs.lean ====
/-
  The precondition read back. The predicate evaluates, for every floating-point argument array x, the
  conjunction over all indices of |x i| < +∞, and conjoins the thirteen results; the claim's hypothesis says the
  outcome is the bit 1. Over the extended reals |a| = max a (-a), and max a (-a) < ⊤ excludes both a = ⊤ and a = ⊥
  (whose negation is ⊤), so every entry of every floating-point argument is a real number.
-/
import proofs.«169252_j42494406426958_1_alg».proof.Defs
import Idealize.ShloMosaic.Lib.ReduceAll
import Idealize.ShloMosaic.Lib.ValueIdx

noncomputable section

namespace Cert.FiniteInputs

open Idealize.ShloMosaic Idealize.SL.Sem
open Cert.Pre_finite_inputs

/-- The rank-0 shape has exactly one index. -/
instance subsingleton_scalar_idx : Subsingleton S_.Idx := ⟨fun a b => funext fun d => d.elim0⟩

/-- The word 0x7F800000 denotes +∞. -/
theorem inf_word : Ideal.ofBits .f32 0x7F800000#32 = (⊤ : EReal) := by
  simp [Ideal.ofBits, Ideal.ieee]

/-- An extended real whose absolute value max a (-a) is strictly below +∞ is a real number. -/
theorem real_of_abs_lt_top (a : EReal) (h : max a (-a) < ⊤) : ∃ r : ℝ, a = (r : EReal) := by
  induction a using EReal.rec with
  | bot => simp at h
  | coe r => exact ⟨r, rfl⟩
  | top => simp at h

/-- The comparison bit of |a| < +∞ being 1 makes a a real number. -/
theorem real_of_cmp (a : EReal)
    (h : Ideal.cmp .olt (max a (-a)) (Ideal.ofBits .f32 0x7F800000#32) = 1#1) : ∃ r : ℝ, a = (r : EReal) := by
  rw [inf_word] at h
  refine real_of_abs_lt_top a ?_
  unfold Ideal.cmp at h
  by_contra hn
  simp [hn] at h

/-- ONE ARRAY: if the conjunction over all indices of |x i| < +∞ is 1, every entry of x is a real number. -/
theorem real_of_all {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi
          (cmpf .olt (Host.absf x) (broadcastInDim s ![] hb (constant (F := Ideal) S_ .f32 0x7F800000#32)))
          (constantI S_ 1 1#1) hr hu j = 1#1) :
    ∀ i, ∃ r : ℝ, x i = (r : EReal) := by
  intro i
  have h := Host.reduce_andi_all _ _ hr hu j e i
  exact real_of_cmp (x i) h

/-- Every entry of each of the thirteen floating-point arguments is a real number. -/
structure RealArgs (x0 : FVec Ideal S100000x128 .f32) (x2 : FVec Ideal S128x64 .f32) (x3 : FVec Ideal S64 .f32) (x4 : FVec Ideal S64x64 .f32) (x5 : FVec Ideal S64 .f32) (x6 : FVec Ideal S64 .f32) (x7 : FVec Ideal S64 .f32) (x8 : FVec Ideal S64 .f32) (x9 : FVec Ideal S64x64 .f32) (x10 : FVec Ideal S64 .f32) (x11 : FVec Ideal S64 .f32) (x12 : FVec Ideal S64 .f32) (x13 : FVec Ideal S64 .f32) : Prop where
  arg0 : ∀ i, ∃ r : ℝ, x0 i = (r : EReal)
  arg2 : ∀ i, ∃ r : ℝ, x2 i = (r : EReal)
  arg3 : ∀ i, ∃ r : ℝ, x3 i = (r : EReal)
  arg4 : ∀ i, ∃ r : ℝ, x4 i = (r : EReal)
  arg5 : ∀ i, ∃ r : ℝ, x5 i = (r : EReal)
  arg6 : ∀ i, ∃ r : ℝ, x6 i = (r : EReal)
  arg7 : ∀ i, ∃ r : ℝ, x7 i = (r : EReal)
  arg8 : ∀ i, ∃ r : ℝ, x8 i = (r : EReal)
  arg9 : ∀ i, ∃ r : ℝ, x9 i = (r : EReal)
  arg10 : ∀ i, ∃ r : ℝ, x10 i = (r : EReal)
  arg11 : ∀ i, ∃ r : ℝ, x11 i = (r : EReal)
  arg12 : ∀ i, ∃ r : ℝ, x12 i = (r : EReal)
  arg13 : ∀ i, ∃ r : ℝ, x13 i = (r : EReal)

/-- THE PRECONDITION DECODED: if the predicate evaluates to 1 on the fourteen arguments, every entry of every
    floating-point argument is a real number (the integer argument x1 is not constrained). -/
theorem realArgs_of_pre [Cert.Pre_finite_inputs.Facts] (x0 : FVec Ideal S100000x128 .f32) (x1 : IVec S2x1000000 32) (x2 : FVec Ideal S128x64 .f32) (x3 : FVec Ideal S64 .f32) (x4 : FVec Ideal S64x64 .f32) (x5 : FVec Ideal S64 .f32) (x6 : FVec Ideal S64 .f32) (x7 : FVec Ideal S64 .f32) (x8 : FVec Ideal S64 .f32) (x9 : FVec Ideal S64x64 .f32) (x10 : FVec Ideal S64 .f32) (x11 : FVec Ideal S64 .f32) (x12 : FVec Ideal S64 .f32) (x13 : FVec Ideal S64 .f32)
    (h : Cert.Pre_finite_inputs.fn (F := Ideal) x0 x1 x2 x3 x4 x5 x6 x7 x8 x9 x10 x11 x12 x13 = (fun _ => 1#1)) :
    RealArgs x0 x2 x3 x4 x5 x6 x7 x8 x9 x10 x11 x12 x13 := by
  have e := congrFun h ValueIdx.ix0
  unfold Cert.Pre_finite_inputs.fn Cert.Pre_finite_inputs.fn_part1 Cert.Pre_finite_inputs.fn_part2
    Cert.Pre_finite_inputs.fn_part3 at e
  dsimp only at e
  simp only [andi, IntOp.andi_eq_one] at e
  obtain ⟨⟨⟨⟨⟨⟨⟨⟨⟨⟨⟨⟨e0, e2⟩, e3⟩, e4⟩, e5⟩, e6⟩, e7⟩, e8⟩, e9⟩, e10⟩, e11⟩, e12⟩, e13⟩ := e
  exact ⟨real_of_all x0 _ _ _ _ e0,
    real_of_all x2 _ _ _ _ e2,
    real_of_all x3 _ _ _ _ e3,
    real_of_all x4 _ _ _ _ e4,
    real_of_all x5 _ _ _ _ e5,
    real_of_all x6 _ _ _ _ e6,
    real_of_all x7 _ _ _ _ e7,
    real_of_all x8 _ _ _ _ e8,
    real_of_all x9 _ _ _ _ e9,
    real_of_all x10 _ _ _ _ e10,
    real_of_all x11 _ _ _ _ e11,
    real_of_all x12 _ _ _ _ e12,
    real_of_all x13 _ _ _ _ e13⟩

/-- Every floating-point argument array of the kernel holds only real numbers, on every device, under the claim's precondition. -/
theorem real_args_KernelIdeal [Cert.Pre_finite_inputs.Facts] [Cert.KernelIdeal.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    RealArgs (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)) :=
  realArgs_of_pre _ _ _ _ _ _ _ _ _ _ _ _ _ _ (h c)

/-- Every floating-point argument array of the reference holds only real numbers, on every device, under the claim's precondition. -/
theorem real_args_ReferenceIdeal [Cert.Pre_finite_inputs.Facts] [Cert.ReferenceIdeal.Facts]
    (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    RealArgs (m ((c.tc : Thread Cert.ReferenceIdeal.nD Cert.ReferenceIdeal.τ).loc Cert.ReferenceIdeal.main_arg0))
      (m ((c.tc : Thread Cert.ReferenceIdeal.nD Cert.ReferenceIdeal.τ).loc Cert.ReferenceIdeal.main_arg2))
      (m ((c.tc : Thread Cert.ReferenceIdeal.nD Cert.ReferenceIdeal.τ).loc Cert.ReferenceIdeal.main_arg3))
      (m ((c.tc : Thread Cert.ReferenceIdeal.nD Cert.ReferenceIdeal.τ).loc Cert.ReferenceIdeal.main_arg4))
      (m ((c.tc : Thread Cert.ReferenceIdeal.nD Cert.ReferenceIdeal.τ).loc Cert.ReferenceIdeal.main_arg5))
      (m ((c.tc : Thread Cert.ReferenceIdeal.nD Cert.ReferenceIdeal.τ).loc Cert.ReferenceIdeal.main_arg6))
      (m ((c.tc : Thread Cert.ReferenceIdeal.nD Cert.ReferenceIdeal.τ).loc Cert.ReferenceIdeal.main_arg7))
      (m ((c.tc : Thread Cert.ReferenceIdeal.nD Cert.ReferenceIdeal.τ).loc Cert.ReferenceIdeal.main_arg8))
      (m ((c.tc : Thread Cert.ReferenceIdeal.nD Cert.ReferenceIdeal.τ).loc Cert.ReferenceIdeal.main_arg9))
      (m ((c.tc : Thread Cert.ReferenceIdeal.nD Cert.ReferenceIdeal.τ).loc Cert.ReferenceIdeal.main_arg10))
      (m ((c.tc : Thread Cert.ReferenceIdeal.nD Cert.ReferenceIdeal.τ).loc Cert.ReferenceIdeal.main_arg11))
      (m ((c.tc : Thread Cert.ReferenceIdeal.nD Cert.ReferenceIdeal.τ).loc Cert.ReferenceIdeal.main_arg12))
      (m ((c.tc : Thread Cert.ReferenceIdeal.nD Cert.ReferenceIdeal.τ).loc Cert.ReferenceIdeal.main_arg13)) :=
  realArgs_of_pre _ _ _ _ _ _ _ _ _ _ _ _ _ _ (h c)

end Cert.FiniteInputs

end
-- ==== Proof.KernelRun.lean ====
import proofs.«169252_j42494406426958_1_alg».proof.Proof.Gen.KernelIdeal.Frame

/-!
# The kernel program's run, with its result named

Every weakly fair execution of the idealized kernel program terminates without a fault, its arguments end as
launched, and its result buffer ends at the contents the last boundary of the run assigns it: the seventh
region's output array after that region. The statement is the generated frame's with one more conjunct, read
off the same final thread state; its proof is the frame's own, over the same segments.
-/

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the kernel program: termination, no fault, the result buffer at the last boundary's contents, and
    the fourteen arguments unchanged. -/
theorem run_named : θ_run defs (onTc (τ := τ) (main (F := F))) ⟨m, fun _ => 0, ρ⟩ (fun r => ∀ c : Dev nD,
      r.2.mem ((c.tc : Thread nD τ).loc main_v103) = W14 m ρ c (Proc.devRef .tc main_v103)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v103 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c)⟩)

end Cert.KernelIdeal.RunNamed

end
-- ==== Proof.KernelWalk.lean ====
import proofs.«169252_j42494406426958_1_alg».proof.Proof.Gen.KernelIdeal.Frame

/-!
# What each boundary of the kernel program's run still holds of earlier results

The run of the kernel program passes fifteen boundaries: the launch, then alternately the end of a stretch of
host operations and the end of a region. A buffer written before a boundary and read after a later one is
unchanged in between: a stretch leaves every buffer it does not write, a region every buffer that is not one of
its arrays. Each lemma below walks one buffer back from the boundary where it is read to the boundary where it
was written (for an argument: to the launch), one step per boundary.
-/

set_option maxRecDepth 16384

noncomputable section

namespace Cert.KernelIdeal.Walk

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- A stretch of host operations leaves a buffer none of its operations writes. -/
macro "keeps_host" : tactic => `(tactic| (
  refine StableHlo.after_of_forall_not_mem _ _ (List.forall_iff_forall_mem.mp ?_)
  simp only [hostOps0, hostOps1, hostOps2, hostOps3, hostOps4, hostOps5, hostOps6, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## The arguments -/

/-- Argument 0 is as launched when boundary 1 is reached: nothing before it writes it. -/
theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := by keeps_host
    _ = m ((c : Thread nD τ).loc main_arg0) := rfl

/-- Argument 1 is as launched when boundary 0 is reached: nothing before it writes it. -/
theorem W0_arg1 (c : Dev nD) : W0 m ρ c (Proc.devRef .tc main_arg1) = m ((c : Thread nD τ).loc main_arg1) :=
  calc W0 m ρ c (Proc.devRef .tc main_arg1)
    _ = m ((c : Thread nD τ).loc main_arg1) := rfl

/-- Argument 2 is as launched when boundary 1 is reached: nothing before it writes it. -/
theorem W1_arg2 (c : Dev nD) : W1 m ρ c (Proc.devRef .tc main_arg2) = m ((c : Thread nD τ).loc main_arg2) :=
  calc W1 m ρ c (Proc.devRef .tc main_arg2)
    _ = W0 m ρ c (Proc.devRef .tc main_arg2) := by keeps_host
    _ = m ((c : Thread nD τ).loc main_arg2) := rfl

/-- Argument 3 is as launched when boundary 0 is reached: nothing before it writes it. -/
theorem W0_arg3 (c : Dev nD) : W0 m ρ c (Proc.devRef .tc main_arg3) = m ((c : Thread nD τ).loc main_arg3) :=
  calc W0 m ρ c (Proc.devRef .tc main_arg3)
    _ = m ((c : Thread nD τ).loc main_arg3) := rfl

/-- Argument 4 is as launched when boundary 3 is reached: nothing before it writes it. -/
theorem W3_arg4 (c : Dev nD) : W3 m ρ c (Proc.devRef .tc main_arg4) = m ((c : Thread nD τ).loc main_arg4) :=
  calc W3 m ρ c (Proc.devRef .tc main_arg4)
    _ = W2 m ρ c (Proc.devRef .tc main_arg4) := by keeps_host
    _ = W1 m ρ c (Proc.devRef .tc main_arg4) := W2_of_ne m ρ c main_arg4 (by decide)
    _ = W0 m ρ c (Proc.devRef .tc main_arg4) := by keeps_host
    _ = m ((c : Thread nD τ).loc main_arg4) := rfl

/-- Argument 5 is as launched when boundary 4 is reached: nothing before it writes it. -/
theorem W4_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := by keeps_host
    _ = W1 m ρ c (Proc.devRef .tc main_arg5) := W2_of_ne m ρ c main_arg5 (by decide)
    _ = W0 m ρ c (Proc.devRef .tc main_arg5) := by keeps_host
    _ = m ((c : Thread nD τ).loc main_arg5) := rfl

/-- Argument 6 is as launched when boundary 6 is reached: nothing before it writes it. -/
theorem W6_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := by keeps_host
    _ = W3 m ρ c (Proc.devRef .tc main_arg6) := W4_of_ne m ρ c main_arg6 (by decide)
    _ = W2 m ρ c (Proc.devRef .tc main_arg6) := by keeps_host
    _ = W1 m ρ c (Proc.devRef .tc main_arg6) := W2_of_ne m ρ c main_arg6 (by decide)
    _ = W0 m ρ c (Proc.devRef .tc main_arg6) := by keeps_host
    _ = m ((c : Thread nD τ).loc main_arg6) := rfl

/-- Argument 7 is as launched when boundary 6 is reached: nothing before it writes it. -/
theorem W6_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := by keeps_host
    _ = W3 m ρ c (Proc.devRef .tc main_arg7) := W4_of_ne m ρ c main_arg7 (by decide)
    _ = W2 m ρ c (Proc.devRef .tc main_arg7) := by keeps_host
    _ = W1 m ρ c (Proc.devRef .tc main_arg7) := W2_of_ne m ρ c main_arg7 (by decide)
    _ = W0 m ρ c (Proc.devRef .tc main_arg7) := by keeps_host
    _ = m ((c : Thread nD τ).loc main_arg7) := rfl

/-- Argument 8 is as launched when boundary 6 is reached: nothing before it writes it. -/
theorem W6_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := by keeps_host
    _ = W3 m ρ c (Proc.devRef .tc main_arg8) := W4_of_ne m ρ c main_arg8 (by decide)
    _ = W2 m ρ c (Proc.devRef .tc main_arg8) := by keeps_host
    _ = W1 m ρ c (Proc.devRef .tc main_arg8) := W2_of_ne m ρ c main_arg8 (by decide)
    _ = W0 m ρ c (Proc.devRef .tc main_arg8) := by keeps_host
    _ = m ((c : Thread nD τ).loc main_arg8) := rfl

/-- Argument 9 is as launched when boundary 9 is reached: nothing before it writes it. -/
theorem W9_arg9 (c : Dev nD) : W9 m ρ c (Proc.devRef .tc main_arg9) = m ((c : Thread nD τ).loc main_arg9) :=
  calc W9 m ρ c (Proc.devRef .tc main_arg9)
    _ = W8 m ρ c (Proc.devRef .tc main_arg9) := by keeps_host
    _ = W7 m ρ c (Proc.devRef .tc main_arg9) := W8_of_ne m ρ c main_arg9 (by decide)
    _ = W6 m ρ c (Proc.devRef .tc main_arg9) := by keeps_host
    _ = W5 m ρ c (Proc.devRef .tc main_arg9) := W6_of_ne m ρ c main_arg9 (by decide)
    _ = W4 m ρ c (Proc.devRef .tc main_arg9) := by keeps_host
    _ = W3 m ρ c (Proc.devRef .tc main_arg9) := W4_of_ne m ρ c main_arg9 (by decide)
    _ = W2 m ρ c (Proc.devRef .tc main_arg9) := by keeps_host
    _ = W1 m ρ c (Proc.devRef .tc main_arg9) := W2_of_ne m ρ c main_arg9 (by decide)
    _ = W0 m ρ c (Proc.devRef .tc main_arg9) := by keeps_host
    _ = m ((c : Thread nD τ).loc main_arg9) := rfl

/-- Argument 10 is as launched when boundary 10 is reached: nothing before it writes it. -/
theorem W10_arg10 (c : Dev nD) : W10 m ρ c (Proc.devRef .tc main_arg10) = m ((c : Thread nD τ).loc main_arg10) :=
  calc W10 m ρ c (Proc.devRef .tc main_arg10)
    _ = W9 m ρ c (Proc.devRef .tc main_arg10) := W10_of_ne m ρ c main_arg10 (by decide)
    _ = W8 m ρ c (Proc.devRef .tc main_arg10) := by keeps_host
    _ = W7 m ρ c (Proc.devRef .tc main_arg10) := W8_of_ne m ρ c main_arg10 (by decide)
    _ = W6 m ρ c (Proc.devRef .tc main_arg10) := by keeps_host
    _ = W5 m ρ c (Proc.devRef .tc main_arg10) := W6_of_ne m ρ c main_arg10 (by decide)
    _ = W4 m ρ c (Proc.devRef .tc main_arg10) := by keeps_host
    _ = W3 m ρ c (Proc.devRef .tc main_arg10) := W4_of_ne m ρ c main_arg10 (by decide)
    _ = W2 m ρ c (Proc.devRef .tc main_arg10) := by keeps_host
    _ = W1 m ρ c (Proc.devRef .tc main_arg10) := W2_of_ne m ρ c main_arg10 (by decide)
    _ = W0 m ρ c (Proc.devRef .tc main_arg10) := by keeps_host
    _ = m ((c : Thread nD τ).loc main_arg10) := rfl

/-- Argument 11 is as launched when boundary 12 is reached: nothing before it writes it. -/
theorem W12_arg11 (c : Dev nD) : W12 m ρ c (Proc.devRef .tc main_arg11) = m ((c : Thread nD τ).loc main_arg11) :=
  calc W12 m ρ c (Proc.devRef .tc main_arg11)
    _ = W11 m ρ c (Proc.devRef .tc main_arg11) := W12_of_ne m ρ c main_arg11 (by decide)
    _ = W10 m ρ c (Proc.devRef .tc main_arg11) := by keeps_host
    _ = W9 m ρ c (Proc.devRef .tc main_arg11) := W10_of_ne m ρ c main_arg11 (by decide)
    _ = W8 m ρ c (Proc.devRef .tc main_arg11) := by keeps_host
    _ = W7 m ρ c (Proc.devRef .tc main_arg11) := W8_of_ne m ρ c main_arg11 (by decide)
    _ = W6 m ρ c (Proc.devRef .tc main_arg11) := by keeps_host
    _ = W5 m ρ c (Proc.devRef .tc main_arg11) := W6_of_ne m ρ c main_arg11 (by decide)
    _ = W4 m ρ c (Proc.devRef .tc main_arg11) := by keeps_host
    _ = W3 m ρ c (Proc.devRef .tc main_arg11) := W4_of_ne m ρ c main_arg11 (by decide)
    _ = W2 m ρ c (Proc.devRef .tc main_arg11) := by keeps_host
    _ = W1 m ρ c (Proc.devRef .tc main_arg11) := W2_of_ne m ρ c main_arg11 (by decide)
    _ = W0 m ρ c (Proc.devRef .tc main_arg11) := by keeps_host
    _ = m ((c : Thread nD τ).loc main_arg11) := rfl

/-- Argument 12 is as launched when boundary 12 is reached: nothing before it writes it. -/
theorem W12_arg12 (c : Dev nD) : W12 m ρ c (Proc.devRef .tc main_arg12) = m ((c : Thread nD τ).loc main_arg12) :=
  calc W12 m ρ c (Proc.devRef .tc main_arg12)
    _ = W11 m ρ c (Proc.devRef .tc main_arg12) := W12_of_ne m ρ c main_arg12 (by decide)
    _ = W10 m ρ c (Proc.devRef .tc main_arg12) := by keeps_host
    _ = W9 m ρ c (Proc.devRef .tc main_arg12) := W10_of_ne m ρ c main_arg12 (by decide)
    _ = W8 m ρ c (Proc.devRef .tc main_arg12) := by keeps_host
    _ = W7 m ρ c (Proc.devRef .tc main_arg12) := W8_of_ne m ρ c main_arg12 (by decide)
    _ = W6 m ρ c (Proc.devRef .tc main_arg12) := by keeps_host
    _ = W5 m ρ c (Proc.devRef .tc main_arg12) := W6_of_ne m ρ c main_arg12 (by decide)
    _ = W4 m ρ c (Proc.devRef .tc main_arg12) := by keeps_host
    _ = W3 m ρ c (Proc.devRef .tc main_arg12) := W4_of_ne m ρ c main_arg12 (by decide)
    _ = W2 m ρ c (Proc.devRef .tc main_arg12) := by keeps_host
    _ = W1 m ρ c (Proc.devRef .tc main_arg12) := W2_of_ne m ρ c main_arg12 (by decide)
    _ = W0 m ρ c (Proc.devRef .tc main_arg12) := by keeps_host
    _ = m ((c : Thread nD τ).loc main_arg12) := rfl

/-- Argument 13 is as launched when boundary 12 is reached: nothing before it writes it. -/
theorem W12_arg13 (c : Dev nD) : W12 m ρ c (Proc.devRef .tc main_arg13) = m ((c : Thread nD τ).loc main_arg13) :=
  calc W12 m ρ c (Proc.devRef .tc main_arg13)
    _ = W11 m ρ c (Proc.devRef .tc main_arg13) := W12_of_ne m ρ c main_arg13 (by decide)
    _ = W10 m ρ c (Proc.devRef .tc main_arg13) := by keeps_host
    _ = W9 m ρ c (Proc.devRef .tc main_arg13) := W10_of_ne m ρ c main_arg13 (by decide)
    _ = W8 m ρ c (Proc.devRef .tc main_arg13) := by keeps_host
    _ = W7 m ρ c (Proc.devRef .tc main_arg13) := W8_of_ne m ρ c main_arg13 (by decide)
    _ = W6 m ρ c (Proc.devRef .tc main_arg13) := by keeps_host
    _ = W5 m ρ c (Proc.devRef .tc main_arg13) := W6_of_ne m ρ c main_arg13 (by decide)
    _ = W4 m ρ c (Proc.devRef .tc main_arg13) := by keeps_host
    _ = W3 m ρ c (Proc.devRef .tc main_arg13) := W4_of_ne m ρ c main_arg13 (by decide)
    _ = W2 m ρ c (Proc.devRef .tc main_arg13) := by keeps_host
    _ = W1 m ρ c (Proc.devRef .tc main_arg13) := W2_of_ne m ρ c main_arg13 (by decide)
    _ = W0 m ρ c (Proc.devRef .tc main_arg13) := by keeps_host
    _ = m ((c : Thread nD τ).loc main_arg13) := rfl

/-! ## The edges' ends and weights, computed once before the first region and read again before the third and the sixth -/

/-- The buffer is still as the first stretch left it when the third stretch starts. -/
theorem W4_v1 (c : Dev nD) : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := by keeps_host
    _ = W1 m ρ c (Proc.devRef .tc main_v1) := W2_of_ne m ρ c main_v1 (by decide)

/-- The buffer is still as the first stretch left it when the sixth stretch starts. -/
theorem W10_v1 (c : Dev nD) : W10 m ρ c (Proc.devRef .tc main_v1) = W1 m ρ c (Proc.devRef .tc main_v1) :=
  calc W10 m ρ c (Proc.devRef .tc main_v1)
    _ = W9 m ρ c (Proc.devRef .tc main_v1) := W10_of_ne m ρ c main_v1 (by decide)
    _ = W8 m ρ c (Proc.devRef .tc main_v1) := by keeps_host
    _ = W7 m ρ c (Proc.devRef .tc main_v1) := W8_of_ne m ρ c main_v1 (by decide)
    _ = W6 m ρ c (Proc.devRef .tc main_v1) := by keeps_host
    _ = W5 m ρ c (Proc.devRef .tc main_v1) := W6_of_ne m ρ c main_v1 (by decide)
    _ = W4 m ρ c (Proc.devRef .tc main_v1) := by keeps_host
    _ = W3 m ρ c (Proc.devRef .tc main_v1) := W4_of_ne m ρ c main_v1 (by decide)
    _ = W2 m ρ c (Proc.devRef .tc main_v1) := by keeps_host
    _ = W1 m ρ c (Proc.devRef .tc main_v1) := W2_of_ne m ρ c main_v1 (by decide)

/-- The buffer is still as the first stretch left it when the third stretch starts. -/
theorem W4_v3 (c : Dev nD) : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := by keeps_host
    _ = W1 m ρ c (Proc.devRef .tc main_v3) := W2_of_ne m ρ c main_v3 (by decide)

/-- The buffer is still as the first stretch left it when the sixth stretch starts. -/
theorem W10_v3 (c : Dev nD) : W10 m ρ c (Proc.devRef .tc main_v3) = W1 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := by keeps_host
    _ = W7 m ρ c (Proc.devRef .tc main_v3) := W8_of_ne m ρ c main_v3 (by decide)
    _ = W6 m ρ c (Proc.devRef .tc main_v3) := by keeps_host
    _ = W5 m ρ c (Proc.devRef .tc main_v3) := W6_of_ne m ρ c main_v3 (by decide)
    _ = W4 m ρ c (Proc.devRef .tc main_v3) := by keeps_host
    _ = W3 m ρ c (Proc.devRef .tc main_v3) := W4_of_ne m ρ c main_v3 (by decide)
    _ = W2 m ρ c (Proc.devRef .tc main_v3) := by keeps_host
    _ = W1 m ρ c (Proc.devRef .tc main_v3) := W2_of_ne m ρ c main_v3 (by decide)

/-- The buffer is still as the first stretch left it when the third stretch starts. -/
theorem W4_v25 (c : Dev nD) : W4 m ρ c (Proc.devRef .tc main_v25) = W1 m ρ c (Proc.devRef .tc main_v25) :=
  calc W4 m ρ c (Proc.devRef .tc main_v25)
    _ = W3 m ρ c (Proc.devRef .tc main_v25) := W4_of_ne m ρ c main_v25 (by decide)
    _ = W2 m ρ c (Proc.devRef .tc main_v25) := by keeps_host
    _ = W1 m ρ c (Proc.devRef .tc main_v25) := W2_of_ne m ρ c main_v25 (by decide)

/-- The buffer is still as the first stretch left it when the sixth stretch starts. -/
theorem W10_v25 (c : Dev nD) : W10 m ρ c (Proc.devRef .tc main_v25) = W1 m ρ c (Proc.devRef .tc main_v25) :=
  calc W10 m ρ c (Proc.devRef .tc main_v25)
    _ = W9 m ρ c (Proc.devRef .tc main_v25) := W10_of_ne m ρ c main_v25 (by decide)
    _ = W8 m ρ c (Proc.devRef .tc main_v25) := by keeps_host
    _ = W7 m ρ c (Proc.devRef .tc main_v25) := W8_of_ne m ρ c main_v25 (by decide)
    _ = W6 m ρ c (Proc.devRef .tc main_v25) := by keeps_host
    _ = W5 m ρ c (Proc.devRef .tc main_v25) := W6_of_ne m ρ c main_v25 (by decide)
    _ = W4 m ρ c (Proc.devRef .tc main_v25) := by keeps_host
    _ = W3 m ρ c (Proc.devRef .tc main_v25) := W4_of_ne m ρ c main_v25 (by decide)
    _ = W2 m ρ c (Proc.devRef .tc main_v25) := by keeps_host
    _ = W1 m ρ c (Proc.devRef .tc main_v25) := W2_of_ne m ρ c main_v25 (by decide)

/-! ## The squared inverse root degrees, read by the third and the sixth region -/

/-- The column is still as the first stretch left it when the third region starts. -/
theorem W5_v27 (c : Dev nD) : W5 m ρ c (Proc.devRef .tc main_v27) = W1 m ρ c (Proc.devRef .tc main_v27) :=
  calc W5 m ρ c (Proc.devRef .tc main_v27)
    _ = W4 m ρ c (Proc.devRef .tc main_v27) := by keeps_host
    _ = W3 m ρ c (Proc.devRef .tc main_v27) := W4_of_ne m ρ c main_v27 (by decide)
    _ = W2 m ρ c (Proc.devRef .tc main_v27) := by keeps_host
    _ = W1 m ρ c (Proc.devRef .tc main_v27) := W2_of_ne m ρ c main_v27 (by decide)

/-- The column is still as the first stretch left it when the sixth region starts (the third region reads it through an input window, which leaves it). -/
theorem W11_v27 (c : Dev nD) : W11 m ρ c (Proc.devRef .tc main_v27) = W1 m ρ c (Proc.devRef .tc main_v27) :=
  calc W11 m ρ c (Proc.devRef .tc main_v27)
    _ = W10 m ρ c (Proc.devRef .tc main_v27) := by keeps_host
    _ = W9 m ρ c (Proc.devRef .tc main_v27) := W10_of_ne m ρ c main_v27 (by decide)
    _ = W8 m ρ c (Proc.devRef .tc main_v27) := by keeps_host
    _ = W7 m ρ c (Proc.devRef .tc main_v27) := W8_of_ne m ρ c main_v27 (by decide)
    _ = W6 m ρ c (Proc.devRef .tc main_v27) := by keeps_host
    _ = W5 m ρ c (Proc.devRef .tc main_v27) := (W6_arr m ρ c 2).trans (((dat2 (V5 m ρ) c).arrAt_in 2 rfl _).trans (A_eq2 (V5 m ρ) c 2))
    _ = W4 m ρ c (Proc.devRef .tc main_v27) := by keeps_host
    _ = W3 m ρ c (Proc.devRef .tc main_v27) := W4_of_ne m ρ c main_v27 (by decide)
    _ = W2 m ρ c (Proc.devRef .tc main_v27) := by keeps_host
    _ = W1 m ρ c (Proc.devRef .tc main_v27) := W2_of_ne m ρ c main_v27 (by decide)

/-! ## A region's output, read by the next region after one stretch -/

/-- The projection's output when the second region starts. -/
theorem W3_v29 (c : Dev nD) : W3 m ρ c (Proc.devRef .tc main_v29) = W2 m ρ c (Proc.devRef .tc main_v29) :=
  calc W3 m ρ c (Proc.devRef .tc main_v29)
    _ = W2 m ρ c (Proc.devRef .tc main_v29) := by keeps_host

/-- The first layer's product when the third region starts. -/
theorem W5_v32 (c : Dev nD) : W5 m ρ c (Proc.devRef .tc main_v32) = W4 m ρ c (Proc.devRef .tc main_v32) :=
  calc W5 m ρ c (Proc.devRef .tc main_v32)
    _ = W4 m ρ c (Proc.devRef .tc main_v32) := by keeps_host

/-- The first layer's convolution when the fourth region starts. -/
theorem W7_v47 (c : Dev nD) : W7 m ρ c (Proc.devRef .tc main_v47_0) = W6 m ρ c (Proc.devRef .tc main_v47_0) :=
  calc W7 m ρ c (Proc.devRef .tc main_v47_0)
    _ = W6 m ρ c (Proc.devRef .tc main_v47_0) := by keeps_host

/-- The first layer's output when the fifth region starts. -/
theorem W9_v66 (c : Dev nD) : W9 m ρ c (Proc.devRef .tc main_v66) = W8 m ρ c (Proc.devRef .tc main_v66) :=
  calc W9 m ρ c (Proc.devRef .tc main_v66)
    _ = W8 m ρ c (Proc.devRef .tc main_v66) := by keeps_host

/-- The second layer's product when the sixth region starts. -/
theorem W11_v69 (c : Dev nD) : W11 m ρ c (Proc.devRef .tc main_v69) = W10 m ρ c (Proc.devRef .tc main_v69) :=
  calc W11 m ρ c (Proc.devRef .tc main_v69)
    _ = W10 m ρ c (Proc.devRef .tc main_v69) := by keeps_host

/-- The second layer's convolution when the seventh region starts. -/
theorem W13_v84 (c : Dev nD) : W13 m ρ c (Proc.devRef .tc main_v84_0) = W12 m ρ c (Proc.devRef .tc main_v84_0) :=
  calc W13 m ρ c (Proc.devRef .tc main_v84_0)
    _ = W12 m ρ c (Proc.devRef .tc main_v84_0) := by keeps_host

end Cert.KernelIdeal.Walk

end
-- ==== Proof.LibRowBias.lean ====
/-
  A vector laid out as a one-row table.

  Reshaping a vector of length n to the table [1, n] moves no element: the table's one row is the vector.  So the
  table read at row 0, column k is the vector's entry k.  This is how a bias vector reaches a kernel that takes its
  bias as a [1, n] row.
-/
import Idealize.ShloMosaic.Lib.ValueIdx
import Idealize.ShloMosaic.Lib.ValueLayout

namespace Cert.LibRowBias

open Idealize.ShloMosaic Idealize.ShloMosaic.ValueIdx

/-- A length-n vector laid out as a one-row table reads, at the row's one coordinate u and column k, the vector's
    entry k. -/
theorem row_of_vec_apply_at {n : ℕ} {α : Type} (b : (⟨1, ![n]⟩ : Shape).Idx → α)
    (h : (⟨1, ![n]⟩ : Shape).ShapeCasts ⟨2, ![1, n]⟩) (u : Fin 1) (k : Fin n) :
    shapeCast (⟨2, ![1, n]⟩ : Shape) b h (ix2 u k) = b (ix1 k) :=
  shapeCast_a_1a_apply b h u k

/-- A length-n vector laid out as a one-row table reads, at row 0 and column k, the vector's entry k. -/
theorem row_of_vec_apply {n : ℕ} {α : Type} (b : (⟨1, ![n]⟩ : Shape).Idx → α)
    (h : (⟨1, ![n]⟩ : Shape).ShapeCasts ⟨2, ![1, n]⟩) (k : Fin n) :
    shapeCast (⟨2, ![1, n]⟩ : Shape) b h (ix2 (0 : Fin 1) k) = b (ix1 k) :=
  row_of_vec_apply_at b h 0 k

end Cert.LibRowBias
-- ==== Proof.LibKeepdims.lean ====
/-
  Two layout facts every sum taken with its axis kept (a column of row sums) needs, read at an index given by
  coordinates: a vector of length `a` laid as a column `[a, 1]` reads its entry `i` at `(i, u)`, and a column `[a, 1]`
  broadcast over `b` columns reads, at `(p, c)`, the column's entry `p`. They sit beside the library's row forms
  (a vector laid as a row `[1, a]`; a row broadcast over many rows).
-/
import Idealize.ShloMosaic.Lib.ValueLayout

namespace Idealize.ShloMosaic.ValueIdx

open Idealize.ShloMosaic

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.ValueIdx
-- ==== Proof.SpecRead.lean ====
/-
  The specification's stages, each read at one index.

  Every stage of the two-layer graph network is an array built from arrays by elementwise arithmetic, by
  repeating a vector along an axis, or by summing over the node axis.  Read at one node i and one feature q,
  each of them is ordinary arithmetic on extended reals:

  * a feature vector repeated on every row reads its entry q;
  * the projection is the matrix product's entry plus the bias entry;
  * the convolution's result is the aggregated entry, plus the product entry scaled by the squared inverse
    root degree of node i, plus the bias entry;
  * the column sum is the plain sum over the nodes (its initial value is the zero word, and adding zero
    changes nothing on the extended reals);
  * mean, centered value, variance, inverse deviation, GraphNorm and LeakyReLU follow the formulas in the
    specification's header, entry by entry.

  The first section holds the layout facts these rest on, for any element type: a vector laid as a row or as a
  column, a row or a column repeated to a table, and a scalar repeated everywhere.
-/
import proofs.«169252_j42494406426958_1_alg».proof.Proof.Spec
import proofs.«169252_j42494406426958_1_alg».proof.Proof.LibRowBias
import proofs.«169252_j42494406426958_1_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.SpecRead

open Cert.ReferenceIdeal Cert.ReferenceIdeal.Facts₀ Idealize.ShloMosaic Idealize.ShloMosaic.ValueIdx

/-! ## Layout: repeating an array along an axis, read at coordinates -/

section Layout
variable {α : Type}

/-- A scalar repeated over any shape reads the scalar everywhere. -/
theorem bcast_scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

/-- A vector of length n laid as the one-row table [1, n] (its entries along axis 1) reads, at (u, k), its
    entry k. -/
theorem bcast_vec_row_apply {n : ℕ} (h : (⟨1, ![n]⟩ : Shape).BroadcastsInDim ⟨2, ![1, n]⟩ (![1] : Fin 1 → Fin 2))
    (b : (⟨1, ![n]⟩ : Shape).Idx → α) (u : Fin 1) (k : Fin n) :
    broadcastInDim ⟨2, ![1, n]⟩ (![1] : Fin 1 → Fin 2) h b (ix2 u k) = b (ix1 k) := by
  refine broadcastInDim_apply _ h b (ix2 u k) (ix1 k) fun a => ?_
  match a with
  | ⟨0, _⟩ =>
    show k.val = if n = 1 then 0 else k.val
    split
    · have := k.isLt; omega
    · rfl

/-- A vector of length a laid as the column [a, 1] (its entries along axis 0) reads, at (i, u), its entry i. -/
theorem bcast_vec_col_apply {a : ℕ} (h : (⟨1, ![a]⟩ : Shape).BroadcastsInDim ⟨2, ![a, 1]⟩ (![0] : Fin 1 → Fin 2))
    (v : (⟨1, ![a]⟩ : Shape).Idx → α) (i : Fin a) (u : Fin 1) :
    broadcastInDim ⟨2, ![a, 1]⟩ (![0] : Fin 1 → Fin 2) h v (ix2 i u) = v (ix1 i) := by
  refine broadcastInDim_apply _ h v (ix2 i u) (ix1 i) fun ax => ?_
  match ax with
  | ⟨0, _⟩ =>
    show i.val = if a = 1 then 0 else i.val
    split
    · have := i.isLt; omega
    · rfl

/-- A one-row table [1, b] repeated on a rows reads, at (p, c), the row's entry c. -/
theorem bcast_row_rows_apply {a b : ℕ} (h : (⟨2, ![1, b]⟩ : Shape).BroadcastsInDim ⟨2, ![a, b]⟩ (![0, 1] : Fin 2 → Fin 2))
    (v : (⟨2, ![1, b]⟩ : Shape).Idx → α) (p : Fin a) (c : Fin b) :
    broadcastInDim ⟨2, ![a, b]⟩ (![0, 1] : Fin 2 → Fin 2) h v (ix2 p c) = v (ix2 (0 : Fin 1) c) := by
  refine broadcastInDim_apply _ h v (ix2 p c) (ix2 (0 : Fin 1) c) fun ax => ?_
  match ax with
  | ⟨0, _⟩ =>
    show 0 = if (1 : ℕ) = 1 then 0 else p.val
    rw [if_pos rfl]
  | ⟨1, _⟩ =>
    show c.val = if b = 1 then 0 else c.val
    split
    · have := c.isLt; omega
    · rfl

/-- A column [a, 1] repeated over b columns reads, at (p, c), the column's entry p. -/
theorem bcast_col_cols_apply {a b : ℕ} (h : (⟨2, ![a, 1]⟩ : Shape).BroadcastsInDim ⟨2, ![a, b]⟩ (![0, 1] : Fin 2 → Fin 2))
    (v : (⟨2, ![a, 1]⟩ : Shape).Idx → α) (p : Fin a) (c : Fin b) :
    broadcastInDim ⟨2, ![a, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- A vector repeated on every row of a table, through the one-row table: at (p, c) it reads the vector's
    entry c. -/
theorem bcast_vec_rows_apply {a b : ℕ} (h₁ : (⟨1, ![b]⟩ : Shape).BroadcastsInDim ⟨2, ![1, b]⟩ (![1] : Fin 1 → Fin 2))
    (h₂ : (⟨2, ![1, b]⟩ : Shape).BroadcastsInDim ⟨2, ![a, b]⟩ (![0, 1] : Fin 2 → Fin 2))
    (v : (⟨1, ![b]⟩ : Shape).Idx → α) (p : Fin a) (c : Fin b) :
    broadcastInDim ⟨2, ![a, b]⟩ (![0, 1] : Fin 2 → Fin 2) h₂
      (broadcastInDim ⟨2, ![1, b]⟩ (![1] : Fin 1 → Fin 2) h₁ v) (ix2 p c) = v (ix1 c) :=
  (bcast_row_rows_apply h₂ _ p c).trans (bcast_vec_row_apply h₁ v 0 c)

/-- A vector repeated on every column of a table, through the column: at (p, c) it reads the vector's entry p. -/
theorem bcast_vec_cols_apply {a b : ℕ} (h₁ : (⟨1, ![a]⟩ : Shape).BroadcastsInDim ⟨2, ![a, 1]⟩ (![0] : Fin 1 → Fin 2))
    (h₂ : (⟨2, ![a, 1]⟩ : Shape).BroadcastsInDim ⟨2, ![a, b]⟩ (![0, 1] : Fin 2 → Fin 2))
    (v : (⟨1, ![a]⟩ : Shape).Idx → α) (p : Fin a) (c : Fin b) :
    broadcastInDim ⟨2, ![a, b]⟩ (![0, 1] : Fin 2 → Fin 2) h₂
      (broadcastInDim ⟨2, ![a, 1]⟩ (![0] : Fin 1 → Fin 2) h₁ v) (ix2 p c) = v (ix1 p) :=
  (bcast_col_cols_apply h₂ _ p c).trans (bcast_vec_col_apply h₁ v p 0)

/-- A vector [64] reshaped to the row [1, 64] reads its entry q at (0, q). -/
theorem row64_of_vec_apply (b : (⟨1, ![64]⟩ : Shape).Idx → α)
    (h : (⟨1, ![64]⟩ : Shape).ShapeCasts ⟨2, ![1, 64]⟩) (q : Fin 64) :
    shapeCast (⟨2, ![1, 64]⟩ : Shape) b h (ix2 (0 : Fin 1) q) = b (ix1 q) :=
  Cert.LibRowBias.row_of_vec_apply b h q

/-- A vector [100000] reshaped to the column [100000, 1] reads its entry i at (i, 0). -/
theorem col100000_of_vec_apply (v : (⟨1, ![100000]⟩ : Shape).Idx → α)
    (h : (⟨1, ![100000]⟩ : Shape).ShapeCasts ⟨2, ![100000, 1]⟩) (i : Fin 100000) :
    shapeCast (⟨2, ![100000, 1]⟩ : Shape) v h (ix2 i (0 : Fin 1)) = v (ix1 i) :=
  shapeCast_a_a1_apply v h i 0

/-- A scalar float constant repeated to the row [1, 64] reads the constant's value at (0, q). -/
theorem bcast_const_row64_apply (w : BitVec 32) (dims : Fin 0 → Fin 2)
    (h : (⟨0, ![]⟩ : Shape).BroadcastsInDim ⟨2, ![1, 64]⟩ dims) (q : Fin 64) :
    broadcastInDim (⟨2, ![1, 64]⟩ : Shape) dims h (constant (F := Ideal) ⟨0, ![]⟩ .f32 w) (ix2 (0 : Fin 1) q)
      = Ideal.ofBits .f32 w :=
  bcast_scalar_apply (α := Ideal .f32) dims h (constant (F := Ideal) ⟨0, ![]⟩ .f32 w) (ix2 (0 : Fin 1) q)

end Layout

/-! ## The stages at an index -/

section Stages
variable [Cert.ReferenceIdeal.Facts₀]

/-- A feature vector repeated on every node's row reads its entry q. -/
theorem rowB_apply {F : FTy → Type} [FloatOps F] (b : Spec.FA F S64) (i : Fin 100000) (q : Fin 64) :
    Spec.rowB b (ix2 i q) = b (ix1 q) :=
  bcast_vec_rows_apply bcast_S64_S1x64_1 bcast_S1x64_S100000x64_0_1 b i q

/-- The input projection: the product's entry plus the bias entry. -/
theorem proj_apply (x : Spec.FA Ideal S100000x128) (w : Spec.FA Ideal S128x64) (b : Spec.FA Ideal S64)
    (i : Fin 100000) (q : Fin 64) :
    Spec.proj x w b (ix2 i q)
      = Host.dotGeneral (F := Ideal) (φ₁ := .f32) (φ₂ := .f32) dot_S100000x128_S128x64_S100000x64_1_0_0_1_n_n none x w (ix2 i q) + b (ix1 q) := by
  unfold Spec.proj
  rw [addf_apply, rowB_apply]

/-- The convolution's result: the aggregate, plus the product scaled by the squared inverse root degree of the
    node, plus the bias. -/
theorem combine_apply (xw : Spec.FA Ideal S100000x64) (e : Spec.IA Ideal S2x1000000) (b : Spec.FA Ideal S64)
    (i : Fin 100000) (q : Fin 64) :
    Spec.combine xw e b (ix2 i q)
      = Spec.agg xw e (ix2 i q) + xw (ix2 i q) * (Spec.dinv e (ix1 i) * Spec.dinv e (ix1 i)) + b (ix1 q) := by
  unfold Spec.combine
  rw [addf_apply, addf_apply, mulf_apply, rowB_apply,
    bcast_vec_cols_apply bcast_S100000_S100000x1_0 bcast_S100000x1_S100000x64_0_1, mulf_apply]

/-- The sum over the nodes of one feature. -/
theorem colSum_apply (c : Spec.FA Ideal S100000x64) (q : Fin 64) :
    Spec.colSum c (ix1 q) = ∑ k : Fin 100000, c (ix2 k q) := by
  unfold Spec.colSum
  simp only [Host.reduceAdd, Ideal.hostReduceAdd_def]
  rw [Ideal.hostReduceAdd_single reducesTo_S100000x64_S64_d0 (by decide)]
  rw [constant_apply, Ideal.ofBits_zero_f32, zero_add]
  refine Finset.sum_congr rfl fun k _ => ?_
  exact congrArg c (funext fun a => Fin.ext (by match a with | ⟨0, _⟩ => rfl | ⟨1, _⟩ => rfl))

/-- The node count on every feature. -/
theorem nNodes_apply (q : Fin 64) : Spec.nNodes (F := Ideal) (ix1 q) = (Ideal.ofBits .f32 0x47C35000#32) :=
  bcast_scalar_apply _ bcast_S_S64 _ _

/-- The mean over the nodes. -/
theorem mean_apply (c : Spec.FA Ideal S100000x64) (q : Fin 64) :
    Spec.mean c (ix1 q) = FloatOps.hostDivf (F := Ideal) (φ := .f32) (Spec.colSum c (ix1 q)) (Ideal.ofBits .f32 0x47C35000#32) := by
  unfold Spec.mean
  show FloatOps.hostDivf (F := Ideal) (φ := .f32) (Spec.colSum c (ix1 q)) (Spec.nNodes (F := Ideal) (ix1 q)) = _
  rw [nNodes_apply]

/-- The centered value: the entry minus the scaled mean of its feature. -/
theorem centered_apply (c : Spec.FA Ideal S100000x64) (α : Spec.FA Ideal S64) (i : Fin 100000) (q : Fin 64) :
    Spec.centered c α (ix2 i q) = c (ix2 i q) - α (ix1 q) * Spec.mean c (ix1 q) := by
  unfold Spec.centered
  rw [subf_apply, rowB_apply, mulf_apply]

/-- The variance: the mean of the squared centered values of one feature. -/
theorem variance_apply (c : Spec.FA Ideal S100000x64) (α : Spec.FA Ideal S64) (q : Fin 64) :
    Spec.variance c α (ix1 q)
      = FloatOps.hostDivf (F := Ideal) (φ := .f32)
          (∑ k : Fin 100000, Spec.centered c α (ix2 k q) * Spec.centered c α (ix2 k q)) (Ideal.ofBits .f32 0x47C35000#32) := by
  unfold Spec.variance
  show FloatOps.hostDivf (F := Ideal) (φ := .f32) (Spec.colSum (mulf (Spec.centered c α) (Spec.centered c α)) (ix1 q))
      (Spec.nNodes (F := Ideal) (ix1 q)) = _
  rw [nNodes_apply, colSum_apply]
  rfl

/-- The inverse deviation: the inverse root of the variance plus epsilon. -/
theorem invStd_apply (c : Spec.FA Ideal S100000x64) (α : Spec.FA Ideal S64) (q : Fin 64) :
    Spec.invStd c α (ix1 q) = FloatOps.hostUnary (F := Ideal) (φ := .f32) .rsqrt (Spec.variance c α (ix1 q) + Ideal.ofBits .f32 0x3727C5AC#32) := by
  unfold Spec.invStd
  show FloatOps.hostUnary (F := Ideal) (φ := .f32) .rsqrt
      (addf (Spec.variance c α) (broadcastInDim S64 ![] bcast_S_S64 (constant (F := Ideal) S_ .f32 0x3727C5AC#32)) (ix1 q)) = _
  rw [addf_apply, bcast_scalar_apply]
  rfl

/-- GraphNorm at an entry. -/
theorem graphNorm_apply (c : Spec.FA Ideal S100000x64) (α γ β : Spec.FA Ideal S64) (i : Fin 100000) (q : Fin 64) :
    Spec.graphNorm c α γ β (ix2 i q)
      = γ (ix1 q) * Spec.centered c α (ix2 i q) * Spec.invStd c α (ix1 q) + β (ix1 q) := by
  unfold Spec.graphNorm
  rw [addf_apply, mulf_apply, mulf_apply, rowB_apply, rowB_apply, rowB_apply]

/-- LeakyReLU at an entry: the entry itself where it is positive, 0.2 times it elsewhere. -/
theorem leaky_apply (y : Spec.FA Ideal S100000x64) (i : Fin 100000) (q : Fin 64) :
    Spec.leaky y (ix2 i q)
      = Scalar.select (FloatOps.cmpf (F := Ideal) (φ := .f32) .ogt (y (ix2 i q)) (Ideal.ofBits .f32 0x00000000#32))
          (y (ix2 i q)) (Ideal.ofBits .f32 0x3E4CCCCD#32 * y (ix2 i q)) := by
  unfold Spec.leaky
  rw [select_apply, cmpf_apply, mulf_apply, bcast_scalar_apply, bcast_scalar_apply]
  rfl

end Stages

end Cert.SpecRead

end
-- ==== Proof.KernelHost.lean ====
/-
  The kernel program's host stretches, read back. Between its seven regions the program runs straight lines of
  array operations; over any contents W of the buffers when a stretch starts, what the stretch leaves in each
  buffer a later region reads is a closed term over W: the edge table's two rows, the edge weights
  dinv[src] · dinv[dst], the squared node factors as a column, parameter vectors as rows, the zero row, the
  gathered-weighted-scattered messages, and the mean and inverse standard deviation rows of the normalization.
-/
import proofs.«169252_j42494406426958_1_alg».proof.Proof.Gen.KernelIdeal.Launch
import proofs.«169252_j42494406426958_1_alg».proof.Proof.Spec
import Idealize.ShloMosaic.Lib.StableHlo.Run
import proofs.«169252_j42494406426958_1_alg».proof.Proof.SpecRead

noncomputable section

namespace Cert.KernelIdeal.HostRead

open Idealize.ShloMosaic Idealize.SL.Sem
open Cert.KernelIdeal Cert.KernelIdeal.Facts₀
open Idealize.ShloMosaic.ValueIdx (ix2 addf_apply mulf_apply subf_apply)

variable {F : FTy → Type} [FloatOps F] [Cert.ReferenceIdeal.Facts₀]

/-! ## Before the first region: the edge table's rows, the edge weights, the squared node factors, the input bias -/

/-- The source node of every edge is row 0 of the edge table. -/
theorem edge_sources (W : Valuation τ sig (Elt F)) :
    StableHlo.after (Gen.hostOps0 (F := F)) W (Proc.devRef .tc main_v1)
      = Cert.Spec.srcOf (W (Proc.devRef .tc main_arg1)) := by
  after_results_simp
  rfl

/-- The destination node of every edge is row 1 of the edge table. -/
theorem edge_destinations (W : Valuation τ sig (Elt F)) :
    StableHlo.after (Gen.hostOps0 (F := F)) W (Proc.devRef .tc main_v3)
      = Cert.Spec.dstOf (W (Proc.devRef .tc main_arg1)) := by
  after_results_simp
  rfl

/-- The weight of every edge is dinv[src] · dinv[dst], dinv the inverse square root of the degree with the self-loop. -/
theorem edge_weights (W : Valuation τ sig (Elt F)) :
    StableHlo.after (Gen.hostOps0 (F := F)) W (Proc.devRef .tc main_v25)
      = Cert.Spec.coef (W (Proc.devRef .tc main_arg1)) := by
  after_results_simp
  rfl

/-- The squared node factors dinv², as a column [100000, 1]. -/
theorem node_factor_squares (W : Valuation τ sig (Elt F)) :
    StableHlo.after (Gen.hostOps0 (F := F)) W (Proc.devRef .tc main_v27)
      = shapeCast _ (mulf (Cert.Spec.dinv (W (Proc.devRef .tc main_arg1))) (Cert.Spec.dinv (W (Proc.devRef .tc main_arg1)))) shapeCasts_S100000_S100000x1 := by
  after_results_simp
  rfl

/-- The input projection's bias as a row [1, 64]. -/
theorem input_bias_row (W : Valuation τ sig (Elt F)) :
    StableHlo.after (Gen.hostOps0 (F := F)) W (Proc.devRef .tc main_v28)
      = shapeCast _ (W (Proc.devRef .tc main_arg3)) shapeCasts_S64_S1x64 := by
  after_results_simp
  rfl

/-! ## Between the regions -/

/-- The initial value of the first layer's column sums: the zero row. -/
theorem zero_row_first (W : Valuation τ sig (Elt F)) :
    StableHlo.after (Gen.hostOps1 (F := F)) W (Proc.devRef .tc main_v31)
      = shapeCast _ (broadcastInDim S64 ![] bcast_S_S64 (constant (F := F) S_ .f32 0x00000000#32)) shapeCasts_S64_S1x64 := by
  after_results_simp
  rfl

/-- The first layer's messages: the projected rows gathered at the sources, weighted, and summed at the destinations. -/
theorem messages_first (W : Valuation τ sig (Elt F)) :
    StableHlo.after (Gen.hostOps2 (F := F)) W (Proc.devRef .tc main_v45)
      = Cert.Spec.aggCore (W (Proc.devRef .tc main_v32)) (W (Proc.devRef .tc main_v1)) (W (Proc.devRef .tc main_v3)) (W (Proc.devRef .tc main_v25)) := by
  after_results_simp
  rfl

/-- The first layer's bias as a row [1, 64]. -/
theorem bias_row_first (W : Valuation τ sig (Elt F)) :
    StableHlo.after (Gen.hostOps2 (F := F)) W (Proc.devRef .tc main_v46)
      = shapeCast _ (W (Proc.devRef .tc main_arg5)) shapeCasts_S64_S1x64 := by
  after_results_simp
  rfl

/-- The mean over the 100000 nodes from a row of column sums: s / n. -/
def meanRow (s : Cert.Spec.FA F S1x64) : Cert.Spec.FA F S1x64 :=
  Host.divf s (broadcastInDim S1x64 ![] bcast_S_S1x64 (constant S_ .f32 0x47C35000#32))

/-- The inverse standard deviation of c − a·mean from the column sums s of c and s2 of c²:
    with m = s / n, the mean of (c − a·m)² is s2 / n + m² · (a² − 2·a), and the result is (that + ε)^(-1/2). -/
def invStdRow (s s2 a : Cert.Spec.FA F S1x64) : Cert.Spec.FA F S1x64 :=
  Host.rsqrt
    (addf
      (addf (meanRow s2)
        (mulf (mulf (meanRow s) (meanRow s))
          (subf (mulf a a) (mulf (broadcastInDim S1x64 ![] bcast_S_S1x64 (constant S_ .f32 0x40000000#32)) a))))
      (broadcastInDim S1x64 ![] bcast_S_S1x64 (constant S_ .f32 0x3727C5AC#32)))

/-- The first layer's mean row. -/
theorem mean_first (W : Valuation τ sig (Elt F)) :
    StableHlo.after (Gen.hostOps3 (F := F)) W (Proc.devRef .tc main_v49)
      = meanRow (W (Proc.devRef .tc main_v47_1)) := by
  after_results_simp
  rfl

/-- The first layer's inverse standard deviation row. -/
theorem inv_std_first (W : Valuation τ sig (Elt F)) :
    StableHlo.after (Gen.hostOps3 (F := F)) W (Proc.devRef .tc main_v62)
      = invStdRow (W (Proc.devRef .tc main_v47_1)) (W (Proc.devRef .tc main_v47_2)) (shapeCast _ (W (Proc.devRef .tc main_arg6)) shapeCasts_S64_S1x64) := by
  after_results_simp
  rfl

/-- The first layer's mean scale α as a row. -/
theorem alpha_row_first (W : Valuation τ sig (Elt F)) :
    StableHlo.after (Gen.hostOps3 (F := F)) W (Proc.devRef .tc main_v63)
      = shapeCast _ (W (Proc.devRef .tc main_arg6)) shapeCasts_S64_S1x64 := by
  after_results_simp
  rfl

/-- The first layer's weight γ as a row. -/
theorem gamma_row_first (W : Valuation τ sig (Elt F)) :
    StableHlo.after (Gen.hostOps3 (F := F)) W (Proc.devRef .tc main_v64)
      = shapeCast _ (W (Proc.devRef .tc main_arg7)) shapeCasts_S64_S1x64 := by
  after_results_simp
  rfl

/-- The first layer's shift β as a row. -/
theorem beta_row_first (W : Valuation τ sig (Elt F)) :
    StableHlo.after (Gen.hostOps3 (F := F)) W (Proc.devRef .tc main_v65)
      = shapeCast _ (W (Proc.devRef .tc main_arg8)) shapeCasts_S64_S1x64 := by
  after_results_simp
  rfl

/-- The initial value of the second layer's column sums: the zero row. -/
theorem zero_row_second (W : Valuation τ sig (Elt F)) :
    StableHlo.after (Gen.hostOps4 (F := F)) W (Proc.devRef .tc main_v68)
      = shapeCast _ (broadcastInDim S64 ![] bcast_S_S64 (constant (F := F) S_ .f32 0x00000000#32)) shapeCasts_S64_S1x64 := by
  after_results_simp
  rfl

/-- The second layer's messages: the projected rows gathered at the sources, weighted, and summed at the destinations. -/
theorem messages_second (W : Valuation τ sig (Elt F)) :
    StableHlo.after (Gen.hostOps5 (F := F)) W (Proc.devRef .tc main_v82)
      = Cert.Spec.aggCore (W (Proc.devRef .tc main_v69)) (W (Proc.devRef .tc main_v1)) (W (Proc.devRef .tc main_v3)) (W (Proc.devRef .tc main_v25)) := by
  after_results_simp
  rfl

/-- The second layer's bias as a row [1, 64]. -/
theorem bias_row_second (W : Valuation τ sig (Elt F)) :
    StableHlo.after (Gen.hostOps5 (F := F)) W (Proc.devRef .tc main_v83)
      = shapeCast _ (W (Proc.devRef .tc main_arg10)) shapeCasts_S64_S1x64 := by
  after_results_simp
  rfl

/-- The second layer's mean row. -/
theorem mean_second (W : Valuation τ sig (Elt F)) :
    StableHlo.after (Gen.hostOps6 (F := F)) W (Proc.devRef .tc main_v86)
      = meanRow (W (Proc.devRef .tc main_v84_1)) := by
  after_results_simp
  rfl

/-- The second layer's inverse standard deviation row. -/
theorem inv_std_second (W : Valuation τ sig (Elt F)) :
    StableHlo.after (Gen.hostOps6 (F := F)) W (Proc.devRef .tc main_v99)
      = invStdRow (W (Proc.devRef .tc main_v84_1)) (W (Proc.devRef .tc main_v84_2)) (shapeCast _ (W (Proc.devRef .tc main_arg11)) shapeCasts_S64_S1x64) := by
  after_results_simp
  rfl

/-- The second layer's mean scale α as a row. -/
theorem alpha_row_second (W : Valuation τ sig (Elt F)) :
    StableHlo.after (Gen.hostOps6 (F := F)) W (Proc.devRef .tc main_v100)
      = shapeCast _ (W (Proc.devRef .tc main_arg11)) shapeCasts_S64_S1x64 := by
  after_results_simp
  rfl

/-- The second layer's weight γ as a row. -/
theorem gamma_row_second (W : Valuation τ sig (Elt F)) :
    StableHlo.after (Gen.hostOps6 (F := F)) W (Proc.devRef .tc main_v101)
      = shapeCast _ (W (Proc.devRef .tc main_arg12)) shapeCasts_S64_S1x64 := by
  after_results_simp
  rfl

/-- The second layer's shift β as a row. -/
theorem beta_row_second (W : Valuation τ sig (Elt F)) :
    StableHlo.after (Gen.hostOps6 (F := F)) W (Proc.devRef .tc main_v102)
      = shapeCast _ (W (Proc.devRef .tc main_arg13)) shapeCasts_S64_S1x64 := by
  after_results_simp
  rfl

/-! ## The two row forms at an entry, over the extended reals -/

/-- The mean row at feature q: the column sum's entry divided by the node count. -/
theorem meanRow_apply (s : Cert.Spec.FA Ideal S1x64) (q : Fin 64) :
    meanRow (F := Ideal) s (ix2 (0 : Fin 1) q)
      = FloatOps.hostDivf (F := Ideal) (φ := .f32) (s (ix2 0 q)) (Ideal.ofBits .f32 0x47C35000#32) := by
  unfold meanRow
  show FloatOps.hostDivf (F := Ideal) (φ := .f32) (s (ix2 0 q))
      (broadcastInDim S1x64 ![] bcast_S_S1x64 (constant (F := Ideal) S_ .f32 0x47C35000#32) (ix2 0 q)) = _
  rw [Cert.SpecRead.bcast_const_row64_apply]

/-- The inverse standard deviation row at feature q: with μ the mean of the feature,
    (s2 / n + μ² · (a² − 2·a) + ε)^(-1/2). -/
theorem invStdRow_apply (s s2 a : Cert.Spec.FA Ideal S1x64) (q : Fin 64) :
    invStdRow (F := Ideal) s s2 a (ix2 (0 : Fin 1) q)
      = FloatOps.hostUnary (F := Ideal) (φ := .f32) .rsqrt
          ((FloatOps.hostDivf (F := Ideal) (φ := .f32) (s2 (ix2 0 q)) (Ideal.ofBits .f32 0x47C35000#32)
              + (FloatOps.hostDivf (F := Ideal) (φ := .f32) (s (ix2 0 q)) (Ideal.ofBits .f32 0x47C35000#32)
                  * FloatOps.hostDivf (F := Ideal) (φ := .f32) (s (ix2 0 q)) (Ideal.ofBits .f32 0x47C35000#32))
                * (a (ix2 0 q) * a (ix2 0 q) - Ideal.ofBits .f32 0x40000000#32 * a (ix2 0 q)))
            + Ideal.ofBits .f32 0x3727C5AC#32) := by
  unfold invStdRow
  show FloatOps.hostUnary (F := Ideal) (φ := .f32) .rsqrt (addf _ _ (ix2 0 q)) = _
  rw [addf_apply, addf_apply, mulf_apply, mulf_apply, subf_apply, mulf_apply, mulf_apply, meanRow_apply, meanRow_apply,
    Cert.SpecRead.bcast_const_row64_apply, Cert.SpecRead.bcast_const_row64_apply]

end Cert.KernelIdeal.HostRead

end
-- ==== Proof.SpecFinite.lean ====
/-
  Every stage of the two-layer graph network maps arrays of real numbers to arrays of real numbers.

  At the extended reals a float is a real number, +∞ or −∞. The sum and the product of two reals are real, and so
  is every finite sum of reals; a broadcast, a gather and a select only move entries around; the degree of a node is
  one plus a count, hence a real number ≥ 1, and the reciprocal square root of a positive real is a positive real;
  the number of nodes and the variance's ε are positive reals, so the mean, the variance (a mean of squares, hence
  ≥ 0) and (variance + ε)^(-1/2) are real. Composing these facts stage by stage gives the statement for a whole
  layer: real inputs give a real output, whatever the edge table holds.
-/
import proofs.«169252_j42494406426958_1_alg».proof.Proof.Spec
import Idealize.ShloMosaic.PureOps.Ideal.Laws
import Idealize.ShloMosaic.Lib.IdealHost

noncomputable section

open scoped BigOperators

namespace Cert.SpecFinite

open Idealize.ShloMosaic Cert.ReferenceIdeal Cert.ReferenceIdeal.Facts₀

/-! ## The three predicates -/

/-- Every entry of the array is a real number (neither +∞ nor −∞). -/
def RealValued {s : Shape} (A : s.Idx → EReal) : Prop := ∀ i, ∃ r : ℝ, A i = (r : EReal)

/-- Every entry of the array is a real number ≥ 0. -/
def NonnegValued {s : Shape} (A : s.Idx → EReal) : Prop := ∀ i, ∃ r : ℝ, 0 ≤ r ∧ A i = (r : EReal)

/-- Every entry of the array is a real number > 0. -/
def PosValued {s : Shape} (A : s.Idx → EReal) : Prop := ∀ i, ∃ r : ℝ, 0 < r ∧ A i = (r : EReal)

theorem PosValued.nonneg {s : Shape} {A : s.Idx → EReal} (h : PosValued A) : NonnegValued A :=
  fun i => let ⟨r, hr, e⟩ := h i; ⟨r, hr.le, e⟩

theorem NonnegValued.real {s : Shape} {A : s.Idx → EReal} (h : NonnegValued A) : RealValued A :=
  fun i => let ⟨r, _, e⟩ := h i; ⟨r, e⟩

theorem PosValued.real {s : Shape} {A : s.Idx → EReal} (h : PosValued A) : RealValued A := h.nonneg.real

/-! ## Single extended reals -/

theorem real_add {a b : EReal} (ha : ∃ r : ℝ, a = (r : EReal)) (hb : ∃ r : ℝ, b = (r : EReal)) :
    ∃ r : ℝ, a + b = (r : EReal) := by
  obtain ⟨x, rfl⟩ := ha; obtain ⟨y, rfl⟩ := hb; exact ⟨x + y, (EReal.coe_add x y).symm⟩

theorem real_sub {a b : EReal} (ha : ∃ r : ℝ, a = (r : EReal)) (hb : ∃ r : ℝ, b = (r : EReal)) :
    ∃ r : ℝ, a - b = (r : EReal) := by
  obtain ⟨x, rfl⟩ := ha; obtain ⟨y, rfl⟩ := hb; exact ⟨x - y, (EReal.coe_sub x y).symm⟩

theorem real_mul {a b : EReal} (ha : ∃ r : ℝ, a = (r : EReal)) (hb : ∃ r : ℝ, b = (r : EReal)) :
    ∃ r : ℝ, a * b = (r : EReal) := by
  obtain ⟨x, rfl⟩ := ha; obtain ⟨y, rfl⟩ := hb; exact ⟨x * y, (EReal.coe_mul x y).symm⟩

theorem nonneg_add {a b : EReal} (ha : ∃ r : ℝ, 0 ≤ r ∧ a = (r : EReal)) (hb : ∃ r : ℝ, 0 ≤ r ∧ b = (r : EReal)) :
    ∃ r : ℝ, 0 ≤ r ∧ a + b = (r : EReal) := by
  obtain ⟨x, hx, rfl⟩ := ha; obtain ⟨y, hy, rfl⟩ := hb; exact ⟨x + y, add_nonneg hx hy, (EReal.coe_add x y).symm⟩

/-- The square of a real number is a real number ≥ 0. -/
theorem nonneg_sq {a : EReal} (ha : ∃ r : ℝ, a = (r : EReal)) : ∃ r : ℝ, 0 ≤ r ∧ a * a = (r : EReal) := by
  obtain ⟨x, rfl⟩ := ha; exact ⟨x * x, mul_self_nonneg x, (EReal.coe_mul x x).symm⟩

/-- A finite sum of real numbers is a real number. -/
theorem real_sum {ι : Type*} (t : Finset ι) (f : ι → EReal) (h : ∀ i ∈ t, ∃ r : ℝ, f i = (r : EReal)) :
    ∃ r : ℝ, ∑ i ∈ t, f i = (r : EReal) := by
  classical
  induction t using Finset.induction_on with
  | empty => exact ⟨0, by simp⟩
  | insert a t ha ih =>
    rw [Finset.sum_insert ha]
    exact real_add (h a (Finset.mem_insert_self a t)) (ih fun i hi => h i (Finset.mem_insert_of_mem hi))

/-- A finite sum of real numbers ≥ 0 is a real number ≥ 0. -/
theorem nonneg_sum {ι : Type*} (t : Finset ι) (f : ι → EReal) (h : ∀ i ∈ t, ∃ r : ℝ, 0 ≤ r ∧ f i = (r : EReal)) :
    ∃ r : ℝ, 0 ≤ r ∧ ∑ i ∈ t, f i = (r : EReal) := by
  classical
  induction t using Finset.induction_on with
  | empty => exact ⟨0, le_refl 0, by simp⟩
  | insert a t ha ih =>
    rw [Finset.sum_insert ha]
    exact nonneg_add (h a (Finset.mem_insert_self a t)) (ih fun i hi => h i (Finset.mem_insert_of_mem hi))

/-- The reciprocal square root of a positive real is a positive real. -/
theorem rsqrt_pos {a : EReal} (ha : ∃ r : ℝ, 0 < r ∧ a = (r : EReal)) :
    ∃ q : ℝ, 0 < q ∧ Ideal.rsqrt a = (q : EReal) := by
  obtain ⟨r, hr, rfl⟩ := ha
  exact ⟨(Real.sqrt r)⁻¹, inv_pos.mpr (Real.sqrt_pos.mpr hr),
    by rw [Ideal.rsqrt_coe, if_neg (not_lt.mpr hr.le), if_neg hr.ne']⟩

/-- A real number divided by a nonzero real is a real number. -/
theorem real_div {a : EReal} (ha : ∃ r : ℝ, a = (r : EReal)) {y : ℝ} (hy : y ≠ 0) :
    ∃ r : ℝ, Ideal.div a (y : EReal) = (r : EReal) := by
  obtain ⟨x, rfl⟩ := ha
  rw [Ideal.div_coe hy]
  exact ⟨x * (1 / y), (EReal.coe_mul _ _).symm⟩

/-- A real number ≥ 0 divided by a positive real is a real number ≥ 0. -/
theorem nonneg_div {a : EReal} (ha : ∃ r : ℝ, 0 ≤ r ∧ a = (r : EReal)) {y : ℝ} (hy : 0 < y) :
    ∃ r : ℝ, 0 ≤ r ∧ Ideal.div a (y : EReal) = (r : EReal) := by
  obtain ⟨x, hx, rfl⟩ := ha
  rw [Ideal.div_coe hy.ne']
  exact ⟨x * (1 / y), mul_nonneg hx (one_div_pos.mpr hy).le, (EReal.coe_mul _ _).symm⟩

/-! ## The float literals of the network -/

/-- The word 0x47C35000 denotes the number of nodes, 100000. -/
theorem nodes_word : Ideal.ofBits .f32 0x47C35000#32 = ((100000 : ℝ) : EReal) := by
  simp [Ideal.ofBits, Ideal.ieee, -EReal.coe_mul]; norm_num

/-- The word 0x00000000 denotes the real number 0. -/
theorem zero_word : Ideal.ofBits .f32 0x00000000#32 = ((0 : ℝ) : EReal) := by
  rw [Ideal.ofBits_zero_f32, EReal.coe_zero]

/-- The word 0x3F800000 denotes the real number 1. -/
theorem one_word : Ideal.ofBits .f32 0x3F800000#32 = ((1 : ℝ) : EReal) := by
  rw [Ideal.ofBits_one_f32, EReal.coe_one]

/-- The word 0x3727C5AC, the variance's ε, denotes a positive real number. -/
theorem eps_word : ∃ r : ℝ, 0 < r ∧ Ideal.ofBits .f32 0x3727C5AC#32 = (r : EReal) := by
  simp [Ideal.ofBits, Ideal.ieee, -EReal.coe_mul]

/-- The word 0x3E4CCCCD, LeakyReLU's slope, denotes a real number. -/
theorem slope_word : ∃ r : ℝ, Ideal.ofBits .f32 0x3E4CCCCD#32 = (r : EReal) := by
  simp [Ideal.ofBits, Ideal.ieee, -EReal.coe_mul]

/-! ## Whole arrays: each operation the network uses -/

section Arrays

variable {s : Shape} {φ : FTy}

theorem RealValued.add {x y : FVec Ideal s φ} (hx : RealValued x) (hy : RealValued y) : RealValued (addf x y) :=
  fun i => real_add (hx i) (hy i)

theorem RealValued.sub {x y : FVec Ideal s φ} (hx : RealValued x) (hy : RealValued y) : RealValued (subf x y) :=
  fun i => real_sub (hx i) (hy i)

theorem RealValued.mul {x y : FVec Ideal s φ} (hx : RealValued x) (hy : RealValued y) : RealValued (mulf x y) :=
  fun i => real_mul (hx i) (hy i)

/-- The entrywise square of a real-valued array has entries ≥ 0. -/
theorem RealValued.mul_self {x : FVec Ideal s φ} (hx : RealValued x) : NonnegValued (mulf x x) :=
  fun i => nonneg_sq (hx i)

/-- A number ≥ 0 plus a number > 0 is > 0. -/
theorem NonnegValued.add_pos {x y : FVec Ideal s φ} (hx : NonnegValued x) (hy : PosValued y) : PosValued (addf x y) :=
  fun i => by
    obtain ⟨a, ha, ea⟩ := hx i
    obtain ⟨b, hb, eb⟩ := hy i
    refine ⟨a + b, add_pos_of_nonneg_of_pos ha hb, ?_⟩
    show x i + y i = _
    rw [ea, eb, EReal.coe_add]

/-- A select takes each entry from one of its two branches. -/
theorem RealValued.sel (c : IVec s 1) {a b : s.Idx → EReal} (ha : RealValued a) (hb : RealValued b) :
    RealValued (select c a b) := fun i => by
  show ∃ r : ℝ, Scalar.select (c i) (a i) (b i) = (r : EReal)
  unfold Scalar.select
  split
  · exact ha i
  · exact hb i

/-- The reciprocal square root of an array of positive reals is an array of positive reals. -/
theorem PosValued.rsqrt {x : FVec Ideal s φ} (hx : PosValued x) : PosValued (Host.rsqrt x) :=
  fun i => rsqrt_pos (hx i)

/-- A real-valued array divided entrywise by a constant nonzero real is real-valued. -/
theorem RealValued.div {x y : FVec Ideal s φ} (hx : RealValued x) {c : ℝ} (hc : c ≠ 0) (hy : ∀ i, y i = (c : EReal)) :
    RealValued (Host.divf x y) := fun i => by
  show ∃ r : ℝ, Ideal.div (x i) (y i) = (r : EReal)
  rw [hy i]
  exact real_div (hx i) hc

/-- An array of reals ≥ 0 divided entrywise by a constant positive real has entries ≥ 0. -/
theorem NonnegValued.div {x y : FVec Ideal s φ} (hx : NonnegValued x) {c : ℝ} (hc : 0 < c) (hy : ∀ i, y i = (c : EReal)) :
    NonnegValued (Host.divf x y) := fun i => by
  show ∃ r : ℝ, 0 ≤ r ∧ Ideal.div (x i) (y i) = (r : EReal)
  rw [hy i]
  exact nonneg_div (hx i) hc

/-- A constant array whose word denotes a real number is real-valued. -/
theorem constant_real {w : BitVec 32} {r : ℝ} (hw : Ideal.ofBits .f32 w = (r : EReal)) :
    RealValued (constant (F := Ideal) s .f32 w) := fun _ => ⟨r, hw⟩

theorem constant_nonneg {w : BitVec 32} {r : ℝ} (hr : 0 ≤ r) (hw : Ideal.ofBits .f32 w = (r : EReal)) :
    NonnegValued (constant (F := Ideal) s .f32 w) := fun _ => ⟨r, hr, hw⟩

theorem constant_pos {w : BitVec 32} {r : ℝ} (hr : 0 < r) (hw : Ideal.ofBits .f32 w = (r : EReal)) :
    PosValued (constant (F := Ideal) s .f32 w) := fun _ => ⟨r, hr, hw⟩

end Arrays

/-- A broadcast reads each of its entries off its operand. -/
theorem RealValued.bcast {s t : Shape} {dims : Fin s.rank → Fin t.rank} {x : s.Idx → EReal}
    (hx : RealValued x) (h : s.BroadcastsInDim t dims) : RealValued (broadcastInDim t dims h x) := fun _ => hx _

theorem NonnegValued.bcast {s t : Shape} {dims : Fin s.rank → Fin t.rank} {x : s.Idx → EReal}
    (hx : NonnegValued x) (h : s.BroadcastsInDim t dims) : NonnegValued (broadcastInDim t dims h x) := fun _ => hx _

theorem PosValued.bcast {s t : Shape} {dims : Fin s.rank → Fin t.rank} {x : s.Idx → EReal}
    (hx : PosValued x) (h : s.BroadcastsInDim t dims) : PosValued (broadcastInDim t dims h x) := fun _ => hx _

/-- A gather reads each of its entries off its table, at some index of the table: for ANY dimension numbers and ANY
    start indices, a gather of a real-valued table is real-valued. -/
theorem RealValued.gather {s si t : Shape} {w : Nat} (d : GatherDims s si t) {x : s.Idx → EReal} (hx : RealValued x)
    (idx : IVec si w) : RealValued (Host.gather d x idx) := fun _ => hx _

/-- A matrix product of real-valued operands is real-valued: each entry is a finite sum of products of entries. -/
theorem RealValued.dot {sl sr so : Shape} {φ₁ φ₂ : FTy} (d : DotDims sl sr so) (prec : Option ContractPrecision)
    {x : FVec Ideal sl φ₁} {y : FVec Ideal sr φ₂} (hx : RealValued x) (hy : RealValued y) :
    RealValued (Host.dotGeneral (F := Ideal) d prec x y) := fun j => by
  show ∃ r : ℝ, FloatOps.dotGeneral d prec .single x y j = (r : EReal)
  rw [Ideal.dotGeneral_apply]
  exact real_sum _ _ fun k _ => real_mul (hx _) (hy _)

/-- A sum along axes of a real-valued array, from a real initial value, is real-valued. -/
theorem RealValued.reduceAdd {s t u : Shape} {φ : FTy} {axes : List (Fin s.rank)} {x : FVec Ideal s φ}
    {init : u.Idx → Ideal φ} (hx : RealValued x) (hi : RealValued init) (h : s.ReducesTo axes t) (hu : 0 < u.numel) :
    RealValued (Host.reduceAdd (F := Ideal) x init h hu) := fun j => by
  show ∃ r : ℝ, Ideal.hostReduceAdd h x (init (Shape.Idx.first hu)) j = (r : EReal)
  unfold Ideal.hostReduceAdd
  exact real_add (hi _) (real_sum _ _ fun i _ => hx i)

/-- A sum along axes of an array of reals ≥ 0, from an initial value ≥ 0, has entries ≥ 0. -/
theorem NonnegValued.reduceAdd {s t u : Shape} {φ : FTy} {axes : List (Fin s.rank)} {x : FVec Ideal s φ}
    {init : u.Idx → Ideal φ} (hx : NonnegValued x) (hi : NonnegValued init) (h : s.ReducesTo axes t) (hu : 0 < u.numel) :
    NonnegValued (Host.reduceAdd (F := Ideal) x init h hu) := fun j => by
  show ∃ r : ℝ, 0 ≤ r ∧ Ideal.hostReduceAdd h x (init (Shape.Idx.first hu)) j = (r : EReal)
  unfold Ideal.hostReduceAdd
  exact nonneg_add (hi _) (nonneg_sum _ _ fun i _ => hx i)

/-- An accumulating scatter adds to each entry of its operand a finite sum of entries of the updates: real-valued
    operand and updates give a real-valued result, for ANY dimension numbers and ANY scatter indices. -/
theorem RealValued.scatterAdd {s si u : Shape} {φ : FTy} {w : Nat} (d : ScatterDims s si u) {x : FVec Ideal s φ}
    (idx : IVec si w) {upd : FVec Ideal u φ} (hx : RealValued x) (hu : RealValued upd) :
    RealValued (Host.scatterAdd (F := Ideal) d x idx upd) := fun i => by
  show ∃ r : ℝ, Ideal.hostScatterAdd d x idx upd i = (r : EReal)
  unfold Ideal.hostScatterAdd
  exact real_add (hx i) (real_sum _ _ fun j _ => hu j)

/-- The same with every entry ≥ 0. -/
theorem NonnegValued.scatterAdd {s si u : Shape} {φ : FTy} {w : Nat} (d : ScatterDims s si u) {x : FVec Ideal s φ}
    (idx : IVec si w) {upd : FVec Ideal u φ} (hx : NonnegValued x) (hu : NonnegValued upd) :
    NonnegValued (Host.scatterAdd (F := Ideal) d x idx upd) := fun i => by
  show ∃ r : ℝ, 0 ≤ r ∧ Ideal.hostScatterAdd d x idx upd i = (r : EReal)
  unfold Ideal.hostScatterAdd
  exact nonneg_add (hx i) (nonneg_sum _ _ fun j _ => hu j)

/-! ## The stages of the network -/

section Stages

variable [Cert.ReferenceIdeal.Facts₀]

open Cert.Spec (FA IA)

/-- A real feature vector repeated on every node's row. -/
theorem rowB_real {b : FA Ideal S64} (hb : RealValued b) : RealValued (Spec.rowB b) := by
  unfold Spec.rowB
  exact (hb.bcast _).bcast _

/-- The input projection x · W + b. -/
theorem proj_real {x : FA Ideal S100000x128} {w : FA Ideal S128x64} {b : FA Ideal S64}
    (hx : RealValued x) (hw : RealValued w) (hb : RealValued b) : RealValued (Spec.proj x w b) := by
  unfold Spec.proj
  exact (RealValued.dot _ _ hx hw).add (rowB_real hb)

/-- A layer's product h · W. -/
theorem prod_real {h : FA Ideal S100000x64} {w : FA Ideal S64x64} (hh : RealValued h) (hw : RealValued w) :
    RealValued (Spec.prod h w) := by
  unfold Spec.prod
  exact RealValued.dot _ _ hh hw

/-- The degree of every node is a real number > 0 (it is one plus a sum of ones, so in fact ≥ 1), whatever the edge
    table holds. -/
theorem deg_pos (e : IA Ideal S2x1000000) : PosValued (Spec.deg (F := Ideal) e) := by
  unfold Spec.deg
  exact NonnegValued.add_pos
    (NonnegValued.scatterAdd _ _ ((constant_nonneg (le_refl 0) zero_word).bcast _)
      ((constant_nonneg zero_le_one one_word).bcast _))
    ((constant_pos zero_lt_one one_word).bcast _)

/-- deg^(-1/2) is a real number > 0 at every node, whatever the edge table holds. -/
theorem dinv_pos (e : IA Ideal S2x1000000) : PosValued (Spec.dinv (F := Ideal) e) := by
  unfold Spec.dinv
  exact (deg_pos e).rsqrt

theorem dinv_real (e : IA Ideal S2x1000000) : RealValued (Spec.dinv (F := Ideal) e) := (dinv_pos e).real

/-- The edge weights from a real table of node factors are real, whatever the edges' ends are. -/
theorem coefCore_real {dv : FA Ideal S100000} (hdv : RealValued dv) (src dst : IA Ideal S1000000) :
    RealValued (Spec.coefCore dv src dst) := by
  unfold Spec.coefCore
  exact (hdv.gather _ _).mul (hdv.gather _ _)

/-- The edge weights dinv[src] · dinv[dst] are real, whatever the edge table holds. -/
theorem coef_real (e : IA Ideal S2x1000000) : RealValued (Spec.coef (F := Ideal) e) := by
  unfold Spec.coef
  exact coefCore_real (dinv_real e) _ _

/-- The messages summed at their destinations, from real features and real edge weights. -/
theorem aggCore_real {xw : FA Ideal S100000x64} (hxw : RealValued xw) (src dst : IA Ideal S1000000)
    {cf : FA Ideal S1000000} (hcf : RealValued cf) : RealValued (Spec.aggCore xw src dst cf) := by
  unfold Spec.aggCore
  exact RealValued.scatterAdd _ _ ((constant_real zero_word).bcast _)
    ((hxw.gather _ _).mul ((hcf.bcast _).bcast _))

/-- The aggregation of real features is real, whatever the edge table holds. -/
theorem agg_real {xw : FA Ideal S100000x64} (hxw : RealValued xw) (e : IA Ideal S2x1000000) :
    RealValued (Spec.agg xw e) := by
  unfold Spec.agg
  exact aggCore_real hxw _ _ (coef_real e)

/-- The convolution's result agg + xw · dinv² + b. -/
theorem combine_real {xw : FA Ideal S100000x64} (hxw : RealValued xw) (e : IA Ideal S2x1000000) {b : FA Ideal S64}
    (hb : RealValued b) : RealValued (Spec.combine xw e b) := by
  unfold Spec.combine
  exact ((agg_real hxw e).add (hxw.mul ((((dinv_real e).mul (dinv_real e)).bcast _).bcast _))).add (rowB_real hb)

/-- The sum over the nodes of a real-valued array. -/
theorem colSum_real {c : FA Ideal S100000x64} (hc : RealValued c) : RealValued (Spec.colSum c) := by
  unfold Spec.colSum
  exact hc.reduceAdd (constant_real zero_word) _ _

/-- The sum over the nodes of an array of reals ≥ 0. -/
theorem colSum_nonneg {c : FA Ideal S100000x64} (hc : NonnegValued c) : NonnegValued (Spec.colSum c) := by
  unfold Spec.colSum
  exact hc.reduceAdd (constant_nonneg (le_refl 0) zero_word) _ _

/-- The number of nodes is the real 100000 on every feature. -/
theorem nNodes_apply (i : S64.Idx) : Spec.nNodes (F := Ideal) i = ((100000 : ℝ) : EReal) := nodes_word

/-- The mean over the nodes. -/
theorem mean_real {c : FA Ideal S100000x64} (hc : RealValued c) : RealValued (Spec.mean c) := by
  unfold Spec.mean
  exact (colSum_real hc).div (by norm_num) nNodes_apply

/-- c − α · mean. -/
theorem centered_real {c : FA Ideal S100000x64} {α : FA Ideal S64} (hc : RealValued c) (hα : RealValued α) :
    RealValued (Spec.centered c α) := by
  unfold Spec.centered
  exact hc.sub (rowB_real (hα.mul (mean_real hc)))

/-- The variance, a mean of squares of reals, is a real number ≥ 0. -/
theorem variance_nonneg {c : FA Ideal S100000x64} {α : FA Ideal S64} (hc : RealValued c) (hα : RealValued α) :
    NonnegValued (Spec.variance c α) := by
  unfold Spec.variance
  exact (colSum_nonneg (centered_real hc hα).mul_self).div (by norm_num) nNodes_apply

theorem variance_real {c : FA Ideal S100000x64} {α : FA Ideal S64} (hc : RealValued c) (hα : RealValued α) :
    RealValued (Spec.variance c α) := (variance_nonneg hc hα).real

/-- (variance + ε)^(-1/2) is a real number > 0: the variance is ≥ 0 and ε > 0. -/
theorem invStd_pos {c : FA Ideal S100000x64} {α : FA Ideal S64} (hc : RealValued c) (hα : RealValued α) :
    PosValued (Spec.invStd c α) := by
  obtain ⟨r, hr, hw⟩ := eps_word
  unfold Spec.invStd
  exact ((variance_nonneg hc hα).add_pos ((constant_pos hr hw).bcast _)).rsqrt

theorem invStd_real {c : FA Ideal S100000x64} {α : FA Ideal S64} (hc : RealValued c) (hα : RealValued α) :
    RealValued (Spec.invStd c α) := (invStd_pos hc hα).real

/-- GraphNorm of a real-valued array with real parameters. -/
theorem graphNorm_real {c : FA Ideal S100000x64} {α γ β : FA Ideal S64} (hc : RealValued c) (hα : RealValued α)
    (hγ : RealValued γ) (hβ : RealValued β) : RealValued (Spec.graphNorm c α γ β) := by
  unfold Spec.graphNorm
  exact (((rowB_real hγ).mul (centered_real hc hα)).mul (rowB_real (invStd_real hc hα))).add (rowB_real hβ)

/-- LeakyReLU takes each entry to itself or to a real multiple of itself. -/
theorem leaky_real {y : FA Ideal S100000x64} (hy : RealValued y) : RealValued (Spec.leaky y) := by
  obtain ⟨r, hw⟩ := slope_word
  unfold Spec.leaky
  exact RealValued.sel _ hy (((constant_real hw).bcast _).mul hy)

/-- ONE LAYER: real features and real parameters give real features, whatever the edge table holds. -/
theorem layer_real {h : FA Ideal S100000x64} {w : FA Ideal S64x64} {b α γ β : FA Ideal S64} (hh : RealValued h)
    (hw : RealValued w) (hb : RealValued b) (hα : RealValued α) (hγ : RealValued γ) (hβ : RealValued β)
    (e : IA Ideal S2x1000000) : RealValued (Spec.layer h w b α γ β e) := by
  unfold Spec.layer
  exact graphNorm_real (combine_real (prod_real hh hw) e hb) hα hγ hβ

/-- THE WHOLE NETWORK: real inputs and real parameters give a real-valued result, whatever the edge table holds. -/
theorem model_real {x : FA Ideal S100000x128} (e : IA Ideal S2x1000000) {wIn : FA Ideal S128x64} {bIn : FA Ideal S64}
    {w1 : FA Ideal S64x64} {b1 α1 γ1 β1 : FA Ideal S64} {w2 : FA Ideal S64x64} {b2 α2 γ2 β2 : FA Ideal S64}
    (hx : RealValued x) (hwIn : RealValued wIn) (hbIn : RealValued bIn)
    (hw1 : RealValued w1) (hb1 : RealValued b1) (hα1 : RealValued α1) (hγ1 : RealValued γ1) (hβ1 : RealValued β1)
    (hw2 : RealValued w2) (hb2 : RealValued b2) (hα2 : RealValued α2) (hγ2 : RealValued γ2) (hβ2 : RealValued β2) :
    RealValued (Spec.model x e wIn bIn w1 b1 α1 γ1 β1 w2 b2 α2 γ2 β2) := by
  unfold Spec.model
  exact layer_real (leaky_real (layer_real (proj_real hx hwIn hbIn) hw1 hb1 hα1 hγ1 hβ1 e)) hw2 hb2 hα2 hγ2 hβ2 e

end Stages

end Cert.SpecFinite

end
-- ==== Proof.Variance.lean ====
/- The algebraic law that joins a variance computed from the sums of `c` and of `c²` with the variance
   computed as the mean of the squared deviations from a scaled mean, on the extended reals.

   For real-valued `c k` and a real `a`, with `μ = (∑ c) / n`:

     (1/n) ∑ (c k − a μ)²  =  (1/n) ∑ (c k)² + μ² (a² − 2a),

   because `∑ (c k − a μ)² = ∑ (c k)² − 2 a μ ∑ c k + n a² μ²` and `∑ c k = n μ`.  The hypotheses that every
   `c k` and `a` are real are needed: multiplication does not distribute over subtraction at `±∞`. -/
import Idealize.ShloMosaic.PureOps.Ideal

noncomputable section

namespace Cert.Variance

open Idealize.ShloMosaic
open scoped BigOperators

/-- The coercion `ℝ → EReal` commutes with finite sums. -/
@[norm_cast]
theorem coe_finset_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The law over the reals, division spelt as the product with the reciprocal. -/
theorem real_law (n : ℕ) (hn : 0 < n) (r : Fin n → ℝ) (a : ℝ) :
    (∑ k, (r k - a * ((∑ j, r j) * (1 / (n : ℝ)))) * (r k - a * ((∑ j, r j) * (1 / (n : ℝ))))) * (1 / (n : ℝ))
      = (∑ k, r k * r k) * (1 / (n : ℝ))
        + (((∑ j, r j) * (1 / (n : ℝ))) * ((∑ j, r j) * (1 / (n : ℝ)))) * (a * a - 2 * a) := by
  have hn' : (n : ℝ) ≠ 0 := by exact_mod_cast hn.ne'
  generalize hS : (∑ j, r j) = S
  generalize hm : S * (1 / (n : ℝ)) = m
  have hSm : S = (n : ℝ) * m := by rw [← hm]; field_simp
  have h1 : (∑ k, (r k - a * m) * (r k - a * m))
      = (∑ k, r k * r k) - (2 * a * m) * S + (n : ℝ) * (a * m * (a * m)) := by
    have e : ∀ k, (r k - a * m) * (r k - a * m) = r k * r k - (2 * a * m) * r k + a * m * (a * m) := by
      intro k; ring
    simp only [e]
    rw [Finset.sum_add_distrib, Finset.sum_sub_distrib, ← Finset.mul_sum, hS, Finset.sum_const,
      Finset.card_univ, Fintype.card_fin, nsmul_eq_mul]
  rw [h1, hSm]
  field_simp
  ring

/-- The mean of squares of real numbers is nonnegative. -/
theorem real_nonneg (n : ℕ) (d : Fin n → ℝ) : 0 ≤ (∑ k, d k * d k) * (1 / (n : ℝ)) := by
  apply mul_nonneg
  · exact Finset.sum_nonneg fun k _ => mul_self_nonneg (d k)
  · positivity

/-- The deviation form of the variance is a nonnegative real. -/
theorem deviation_real (n : ℕ) (hn : 0 < n) (c : Fin n → EReal) (hc : ∀ k, ∃ r : ℝ, c k = r)
    (a : EReal) (ha : ∃ r : ℝ, a = r) :
    ∃ v : ℝ, 0 ≤ v ∧
      Ideal.div (∑ k, (c k - a * Ideal.div (∑ j, c j) ((n : ℝ) : EReal))
        * (c k - a * Ideal.div (∑ j, c j) ((n : ℝ) : EReal))) ((n : ℝ) : EReal) = (v : EReal) := by
  have hn' : (n : ℝ) ≠ 0 := by exact_mod_cast hn.ne'
  choose r hr using hc
  obtain ⟨b, rfl⟩ := ha
  obtain rfl : c = fun k => (r k : EReal) := funext hr
  refine ⟨(∑ k, (r k - b * ((∑ j, r j) * (1 / (n : ℝ)))) * (r k - b * ((∑ j, r j) * (1 / (n : ℝ))))) * (1 / (n : ℝ)),
    real_nonneg n _, ?_⟩
  simp only [Ideal.div_coe hn']
  norm_cast

/-- The law on the extended reals. -/
theorem law (n : ℕ) (hn : 0 < n) (c : Fin n → EReal) (hc : ∀ k, ∃ r : ℝ, c k = r)
    (a : EReal) (ha : ∃ r : ℝ, a = r) :
    Ideal.div (∑ k, (c k - a * Ideal.div (∑ j, c j) ((n : ℝ) : EReal))
        * (c k - a * Ideal.div (∑ j, c j) ((n : ℝ) : EReal))) ((n : ℝ) : EReal)
      = Ideal.div (∑ k, c k * c k) ((n : ℝ) : EReal)
        + (Ideal.div (∑ j, c j) ((n : ℝ) : EReal) * Ideal.div (∑ j, c j) ((n : ℝ) : EReal))
          * (a * a - ((2 : ℝ) : EReal) * a) := by
  have hn' : (n : ℝ) ≠ 0 := by exact_mod_cast hn.ne'
  choose r hr using hc
  obtain ⟨b, rfl⟩ := ha
  obtain rfl : c = fun k => (r k : EReal) := funext hr
  simp only [Ideal.div_coe hn']
  have h := real_law n hn r b
  exact_mod_cast h

/-- Both forms of the variance are one and the same nonnegative real. -/
theorem law_real (n : ℕ) (hn : 0 < n) (c : Fin n → EReal) (hc : ∀ k, ∃ r : ℝ, c k = r)
    (a : EReal) (ha : ∃ r : ℝ, a = r) :
    ∃ v : ℝ, 0 ≤ v ∧
      Ideal.div (∑ k, (c k - a * Ideal.div (∑ j, c j) ((n : ℝ) : EReal))
        * (c k - a * Ideal.div (∑ j, c j) ((n : ℝ) : EReal))) ((n : ℝ) : EReal) = (v : EReal) ∧
      Ideal.div (∑ k, c k * c k) ((n : ℝ) : EReal)
        + (Ideal.div (∑ j, c j) ((n : ℝ) : EReal) * Ideal.div (∑ j, c j) ((n : ℝ) : EReal))
          * (a * a - ((2 : ℝ) : EReal) * a) = (v : EReal) := by
  obtain ⟨v, hv, e⟩ := deviation_real n hn c hc a ha
  exact ⟨v, hv, e, (law n hn c hc a ha).symm.trans e⟩

/-- A nonnegative real plus a positive real is a positive real. -/
theorem add_pos_real {x : EReal} (hx : ∃ v : ℝ, 0 ≤ v ∧ x = (v : EReal)) {ε : ℝ} (hε : 0 < ε) :
    ∃ w : ℝ, 0 < w ∧ x + (ε : EReal) = (w : EReal) := by
  obtain ⟨v, hv, rfl⟩ := hx
  exact ⟨v + ε, by linarith, by norm_cast⟩

/-! ### The same statements with the host's quotient spelt as the float operation -/

/-- The law, the quotient spelt `FloatOps.hostDivf` at the extended reals. -/
theorem law_hostDivf {φ : FTy} (n : ℕ) (hn : 0 < n) (c : Fin n → Ideal φ) (hc : ∀ k, ∃ r : ℝ, c k = (r : EReal))
    (a : Ideal φ) (ha : ∃ r : ℝ, a = (r : EReal)) :
    FloatOps.hostDivf (F := Ideal) (φ := φ)
        (∑ k, (c k - a * FloatOps.hostDivf (F := Ideal) (φ := φ) (∑ j, c j) ((n : ℝ) : EReal))
          * (c k - a * FloatOps.hostDivf (F := Ideal) (φ := φ) (∑ j, c j) ((n : ℝ) : EReal))) ((n : ℝ) : EReal)
      = FloatOps.hostDivf (F := Ideal) (φ := φ) (∑ k, c k * c k) ((n : ℝ) : EReal)
        + (FloatOps.hostDivf (F := Ideal) (φ := φ) (∑ j, c j) ((n : ℝ) : EReal)
            * FloatOps.hostDivf (F := Ideal) (φ := φ) (∑ j, c j) ((n : ℝ) : EReal))
          * (a * a - ((2 : ℝ) : EReal) * a) :=
  law n hn c hc a ha

/-! ### The two float literals -/

/-- The pattern of `100000.0` denotes the real `100000`. -/
theorem ofBits_100000 : Ideal.ofBits .f32 0x47C35000#32 = ((100000 : ℝ) : EReal) := by
  simp [Ideal.ofBits, Ideal.ieee, -EReal.coe_mul]; norm_num

/-- The pattern of `2.0` denotes the real `2`. -/
theorem ofBits_two : Ideal.ofBits .f32 0x40000000#32 = ((2 : ℝ) : EReal) := by
  simp [Ideal.ofBits, Ideal.ieee, -EReal.coe_mul]; norm_num

/-! ### The law at one hundred thousand terms, the count and the factor two spelt as the literals -/

/-- The law for `100000` terms with the literals in place of the count and of two. -/
theorem law_100000 (c : Fin 100000 → EReal) (hc : ∀ k, ∃ r : ℝ, c k = r)
    (a : EReal) (ha : ∃ r : ℝ, a = r) :
    Ideal.div (∑ k, (c k - a * Ideal.div (∑ j, c j) (Ideal.ofBits .f32 0x47C35000#32))
        * (c k - a * Ideal.div (∑ j, c j) (Ideal.ofBits .f32 0x47C35000#32))) (Ideal.ofBits .f32 0x47C35000#32)
      = Ideal.div (∑ k, c k * c k) (Ideal.ofBits .f32 0x47C35000#32)
        + (Ideal.div (∑ j, c j) (Ideal.ofBits .f32 0x47C35000#32)
            * Ideal.div (∑ j, c j) (Ideal.ofBits .f32 0x47C35000#32))
          * (a * a - Ideal.ofBits .f32 0x40000000#32 * a) := by
  have h := law 100000 (by norm_num) c hc a ha
  rw [ofBits_100000, ofBits_two]
  have e : (((100000 : ℕ) : ℝ) : EReal) = ((100000 : ℝ) : EReal) := by norm_num
  rw [e] at h
  exact h

/-- Both forms at `100000` terms are one and the same nonnegative real. -/
theorem law_real_100000 (c : Fin 100000 → EReal) (hc : ∀ k, ∃ r : ℝ, c k = r)
    (a : EReal) (ha : ∃ r : ℝ, a = r) :
    ∃ v : ℝ, 0 ≤ v ∧
      Ideal.div (∑ k, (c k - a * Ideal.div (∑ j, c j) (Ideal.ofBits .f32 0x47C35000#32))
        * (c k - a * Ideal.div (∑ j, c j) (Ideal.ofBits .f32 0x47C35000#32))) (Ideal.ofBits .f32 0x47C35000#32)
        = (v : EReal) ∧
      Ideal.div (∑ k, c k * c k) (Ideal.ofBits .f32 0x47C35000#32)
        + (Ideal.div (∑ j, c j) (Ideal.ofBits .f32 0x47C35000#32)
            * Ideal.div (∑ j, c j) (Ideal.ofBits .f32 0x47C35000#32))
          * (a * a - Ideal.ofBits .f32 0x40000000#32 * a) = (v : EReal) := by
  obtain ⟨v, hv, e1, e2⟩ := law_real 100000 (by norm_num) c hc a ha
  rw [ofBits_100000, ofBits_two]
  have e : (((100000 : ℕ) : ℝ) : EReal) = ((100000 : ℝ) : EReal) := by norm_num
  rw [e] at e1 e2
  exact ⟨v, hv, e1, e2⟩

/-- The law for `100000` terms, the quotient spelt `FloatOps.hostDivf` and the literals `FloatOps.ofBits`. -/
theorem law_100000_hostDivf (c : Fin 100000 → Ideal .f32) (hc : ∀ k, ∃ r : ℝ, c k = (r : EReal))
    (a : Ideal .f32) (ha : ∃ r : ℝ, a = (r : EReal)) :
    FloatOps.hostDivf (F := Ideal) (φ := .f32)
        (∑ k, (c k - a * FloatOps.hostDivf (F := Ideal) (φ := .f32) (∑ j, c j) (FloatOps.ofBits (F := Ideal) .f32 0x47C35000#32))
          * (c k - a * FloatOps.hostDivf (F := Ideal) (φ := .f32) (∑ j, c j) (FloatOps.ofBits (F := Ideal) .f32 0x47C35000#32)))
        (FloatOps.ofBits (F := Ideal) .f32 0x47C35000#32)
      = FloatOps.hostDivf (F := Ideal) (φ := .f32) (∑ k, c k * c k) (FloatOps.ofBits (F := Ideal) .f32 0x47C35000#32)
        + (FloatOps.hostDivf (F := Ideal) (φ := .f32) (∑ j, c j) (FloatOps.ofBits (F := Ideal) .f32 0x47C35000#32)
            * FloatOps.hostDivf (F := Ideal) (φ := .f32) (∑ j, c j) (FloatOps.ofBits (F := Ideal) .f32 0x47C35000#32))
          * (a * a - FloatOps.ofBits (F := Ideal) .f32 0x40000000#32 * a) :=
  law_100000 c hc a ha

end Cert.Variance

end
-- ==== Proof.LibTileMatmul.lean ====
/-
  A plain matrix product read at an index, at the extended reals, and the bridge between a ROW TILE's product and
  the whole array's.

  Both a `tpu.matmul` into the zero accumulator and a host `dot_general`, with the dimension numbers of the plain
  product (the left operand's axis 1 contracted against the right operand's axis 0, no batch axis), are at output
  index (a, b) the finite sum `∑ c, A (a, c) * B (c, b)` over the contracted coordinate. No rounding is left at the
  extended reals, so the two sums have literally the same terms, and a product of a row tile `T` of `X` (row `p` of
  the tile is row `r + p` of `X`) with `B` is, row by row, the product of `X` with `B`.

  Stated over the library only: the dimension-number record is spelt with its six lists and ANY proof `w` of its
  side conditions, which is how a printed program's record unfolds.
-/
import Idealize.ShloMosaic.PureOps.Ideal.Laws
import Idealize.ShloMosaic.Lib.ValueIdx

noncomputable section

open scoped BigOperators

namespace Idealize.ShloMosaic.TileMatmul

open Idealize.ShloMosaic Idealize.ShloMosaic.ValueIdx

variable {m k n : Nat} {φ₁ φ₂ : FTy}

/-- The plain product's dimension numbers over [m, k] × [k, n] → [m, n], from any proof of their side conditions. -/
abbrev plainDims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's index at output index (a, b) and contracted coordinate c is (a, c). -/
theorem lhsIdx_plain (w : DotDims.WF ⟨2, ![m, k]⟩ ⟨2, ![k, n]⟩ ⟨2, ![m, n]⟩ [1] [0] [0] [1] [] [])
    (a : Fin m) (b : Fin n) (c : Fin k) :
    (plainDims w).lhsIdx (ix2 a b) ((contrEquiv1 (plainDims w) k rfl rfl).symm c) = ix2 a c := by
  have c2 := contrEquiv1_symm_val (plainDims w) k rfl rfl c
  funext ax; apply Fin.ext
  match ax with
  | ⟨0, _⟩ => simp [DotDims.lhsIdx]; rfl
  | ⟨1, _⟩ => simp [DotDims.lhsIdx]; exact c2

/-- The right operand's index there is (c, b). -/
theorem rhsIdx_plain (w : DotDims.WF ⟨2, ![m, k]⟩ ⟨2, ![k, n]⟩ ⟨2, ![m, n]⟩ [1] [0] [0] [1] [] [])
    (a : Fin m) (b : Fin n) (c : Fin k) :
    (plainDims w).rhsIdx (ix2 a b) ((contrEquiv1 (plainDims w) k rfl rfl).symm c) = ix2 c b := by
  have c2 := contrEquiv1_symm_val (plainDims w) k rfl rfl c
  funext ax; apply Fin.ext
  match ax with
  | ⟨0, _⟩ => simp [DotDims.rhsIdx]; exact c2
  | ⟨1, _⟩ => simp [DotDims.rhsIdx]; rfl

/-- A `tpu.matmul` with the plain product's dimension numbers into the zero accumulator, at (a, b): the sum over the
    contracted coordinate of the products of the entries. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (F := Ideal) (plainDims w) prec A B (constant (F := Ideal) ⟨2, ![m, n]⟩ .f32 0x00000000#32) (ix2 a b)
      = ∑ c : Fin k, A (ix2 a c) * B (ix2 c b) := by
  show FloatOps.matmul (plainDims w) prec A B (constant ⟨2, ![m, n]⟩ .f32 0x00000000#32) (ix2 a b) = _
  rw [Ideal.matmul_constant_zero_apply, ← Equiv.sum_comp (contrEquiv1 (plainDims w) k rfl rfl).symm]
  refine Finset.sum_congr rfl fun c _ => ?_
  rw [lhsIdx_plain, rhsIdx_plain]

/-- A host `dot_general` with the same dimension numbers, at (a, b): the same sum. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (F := Ideal) (plainDims w) prec A B (ix2 a b) = ∑ c : Fin k, A (ix2 a c) * B (ix2 c b) := by
  show FloatOps.dotGeneral (plainDims w) prec _ A B (ix2 a b) = _
  rw [Ideal.dotGeneral_apply, ← Equiv.sum_comp (contrEquiv1 (plainDims w) k rfl rfl).symm]
  refine Finset.sum_congr rfl fun c _ => ?_
  rw [lhsIdx_plain, rhsIdx_plain]

/-- THE BRIDGE. `T` is a tile of `M'` rows of `X` starting at row `r` (`hT`: entry (p, c) of the tile is entry
    (r + p, c) of `X`; the two may carry different float formats, which are one type at the extended reals). Then the
    tile's product with `B` into the zero accumulator, at (p, q), is the whole product `X · B` at (r + p, q). -/
theorem matmul_tile_eq_dotGeneral {M : Nat} {ψ₁ ψ₂ : FTy}
    (wT : DotDims.WF ⟨2, ![m, k]⟩ ⟨2, ![k, n]⟩ ⟨2, ![m, n]⟩ [1] [0] [0] [1] [] [])
    (wX : DotDims.WF ⟨2, ![M, k]⟩ ⟨2, ![k, n]⟩ ⟨2, ![M, n]⟩ [1] [0] [0] [1] [] [])
    (prec prec' : Option ContractPrecision)
    (T : FVec Ideal ⟨2, ![m, k]⟩ φ₁) (B : FVec Ideal ⟨2, ![k, n]⟩ φ₂)
    (X : FVec Ideal ⟨2, ![M, k]⟩ ψ₁) (B' : FVec Ideal ⟨2, ![k, n]⟩ ψ₂)
    (p : Fin m) (q : Fin n) (i : Fin M)
    (hT : ∀ c : Fin k, (T (ix2 p c) : EReal) = X (ix2 i c)) (hB : ∀ c : Fin k, (B (ix2 c q) : EReal) = B' (ix2 c q)) :
    (matmul (F := Ideal) (plainDims wT) prec T B (constant (F := Ideal) ⟨2, ![m, n]⟩ .f32 0x00000000#32) (ix2 p q) : EReal)
      = Host.dotGeneral (F := Ideal) (plainDims wX) prec' X B' (ix2 i q) := by
  rw [matmul_zero_apply, dotGeneral_apply]
  exact Finset.sum_congr rfl fun c _ => by rw [hT c, hB c]

end Idealize.ShloMosaic.TileMatmul

end
-- ==== Proof.Bridges.lean ====
/-
  What the kernel's regions compute, entry by entry, joined to the stages of the specification.

  Each statement below has on its left ordinary arithmetic on extended reals at one node i and one feature q — a
  matrix product's entry plus a bias entry read off a one-row table, an aggregate plus a product scaled by an entry
  of a column plus a bias entry, or GraphNorm assembled from the two column sums `∑ c` and `∑ c²` — and on its
  right a stage of the specification read at (i, q).

  * The projection and the layer product are the host matrix product's entry plus the bias row's entry; an all-zero
    bias row adds nothing.
  * The convolution's result reads the squared inverse root degree off a column `[100000, 1]`.
  * GraphNorm from the column sums: with `μ = (∑ c) / n`, the variance `(1/n) ∑ (c − α μ)²` of the specification
    is `(1/n) ∑ c² + μ² (α² − 2α)`, for real-valued `c` and `α`.
  * LeakyReLU on top of GraphNorm.
-/
import proofs.«169252_j42494406426958_1_alg».proof.Proof.Spec
import proofs.«169252_j42494406426958_1_alg».proof.Proof.SpecRead
import proofs.«169252_j42494406426958_1_alg».proof.Proof.Variance
import proofs.«169252_j42494406426958_1_alg».proof.Proof.LibRowBias
import proofs.«169252_j42494406426958_1_alg».proof.Proof.LibKeepdims
import proofs.«169252_j42494406426958_1_alg».proof.Proof.LibTileMatmul
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Bridges

open Cert.ReferenceIdeal Cert.ReferenceIdeal.Facts₀ Idealize.ShloMosaic Idealize.ShloMosaic.ValueIdx

variable [Cert.ReferenceIdeal.Facts₀]

/-! ## The matrix products with their bias rows -/

/-- The projection: the product's entry plus the bias vector's entry read off its one-row table. -/
theorem proj_entry (w : DotDims.WF S100000x128 S128x64 S100000x64 [1] [0] [0] [1] [] [])
    (x : Spec.FA Ideal S100000x128) (wt : Spec.FA Ideal S128x64) (b : Spec.FA Ideal S64)
    (hcast : S64.ShapeCasts S1x64) (i : Fin 100000) (q : Fin 64) :
    Host.dotGeneral (F := Ideal) (φ₁ := .f32) (φ₂ := .f32) (TileMatmul.plainDims w) none x wt (ix2 i q)
        + shapeCast S1x64 b hcast (ix2 (0 : Fin 1) q)
      = Spec.proj x wt b (ix2 i q) := by
  rw [SpecRead.proj_apply, SpecRead.row64_of_vec_apply]
  rfl

/-- A layer's product with the all-zero bias row: the zero adds nothing. -/
theorem prod_entry (w : DotDims.WF S100000x64 S64x64 S100000x64 [1] [0] [0] [1] [] [])
    (h : Spec.FA Ideal S100000x64) (wt : Spec.FA Ideal S64x64)
    (hb : S_.BroadcastsInDim S64 (![] : Fin 0 → Fin S64.rank)) (hcast : S64.ShapeCasts S1x64)
    (i : Fin 100000) (q : Fin 64) :
    Host.dotGeneral (F := Ideal) (φ₁ := .f32) (φ₂ := .f32) (TileMatmul.plainDims w) none h wt (ix2 i q)
        + shapeCast S1x64 (broadcastInDim S64 ![] hb (constant (F := Ideal) S_ .f32 0x00000000#32)) hcast
            (ix2 (0 : Fin 1) q)
      = Spec.prod h wt (ix2 i q) := by
  rw [SpecRead.row64_of_vec_apply, SpecRead.bcast_scalar_apply, constant_apply, Ideal.ofBits_zero_f32, add_zero]
  rfl

/-! ## The convolution's result -/

/-- The aggregate, plus the product scaled by the squared inverse root degree read off its column, plus the bias
    entry read off its row. -/
theorem combine_entry (xw : Spec.FA Ideal S100000x64) (e : Spec.IA Ideal S2x1000000) (b : Spec.FA Ideal S64)
    (hcol : S100000.ShapeCasts S100000x1) (hcast : S64.ShapeCasts S1x64) (i : Fin 100000) (q : Fin 64) :
    Spec.agg xw e (ix2 i q)
        + xw (ix2 i q) * shapeCast S100000x1 (mulf (Spec.dinv e) (Spec.dinv e)) hcol (ix2 i (0 : Fin 1))
        + shapeCast S1x64 b hcast (ix2 (0 : Fin 1) q)
      = Spec.combine xw e b (ix2 i q) := by
  rw [SpecRead.combine_apply, SpecRead.col100000_of_vec_apply, mulf_apply, SpecRead.row64_of_vec_apply]

/-! ## GraphNorm from the column sums -/

/-- The variance of the specification, from the sums of `c` and of `c²` over the nodes. -/
theorem variance_entry (c : Spec.FA Ideal S100000x64) (α : Spec.FA Ideal S64)
    (hc : ∀ j, ∃ r : ℝ, c j = (r : EReal)) (hα : ∀ j, ∃ r : ℝ, α j = (r : EReal)) (q : Fin 64) :
    FloatOps.hostDivf (F := Ideal) (φ := .f32) (∑ k : Fin 100000, c (ix2 k q) * c (ix2 k q))
          (Ideal.ofBits .f32 0x47C35000#32)
        + (FloatOps.hostDivf (F := Ideal) (φ := .f32) (∑ k : Fin 100000, c (ix2 k q)) (Ideal.ofBits .f32 0x47C35000#32)
            * FloatOps.hostDivf (F := Ideal) (φ := .f32) (∑ k : Fin 100000, c (ix2 k q)) (Ideal.ofBits .f32 0x47C35000#32))
          * (α (ix1 q) * α (ix1 q) - Ideal.ofBits .f32 0x40000000#32 * α (ix1 q))
      = Spec.variance c α (ix1 q) := by
  rw [SpecRead.variance_apply]
  simp only [SpecRead.centered_apply, SpecRead.mean_apply, SpecRead.colSum_apply]
  exact (Variance.law_100000_hostDivf (fun k => c (ix2 k q)) (fun k => hc _) (α (ix1 q)) (hα _)).symm

/-- GraphNorm at an entry, assembled from the two column sums. -/
theorem graphNorm_entry (c : Spec.FA Ideal S100000x64) (α γ β : Spec.FA Ideal S64)
    (hc : ∀ j, ∃ r : ℝ, c j = (r : EReal)) (hα : ∀ j, ∃ r : ℝ, α j = (r : EReal)) (i : Fin 100000) (q : Fin 64) :
    γ (ix1 q)
          * (c (ix2 i q) - α (ix1 q)
              * FloatOps.hostDivf (F := Ideal) (φ := .f32) (∑ k : Fin 100000, c (ix2 k q)) (Ideal.ofBits .f32 0x47C35000#32))
          * FloatOps.hostUnary (F := Ideal) (φ := .f32) .rsqrt
              (FloatOps.hostDivf (F := Ideal) (φ := .f32) (∑ k : Fin 100000, c (ix2 k q) * c (ix2 k q))
                    (Ideal.ofBits .f32 0x47C35000#32)
                  + (FloatOps.hostDivf (F := Ideal) (φ := .f32) (∑ k : Fin 100000, c (ix2 k q)) (Ideal.ofBits .f32 0x47C35000#32)
                      * FloatOps.hostDivf (F := Ideal) (φ := .f32) (∑ k : Fin 100000, c (ix2 k q)) (Ideal.ofBits .f32 0x47C35000#32))
                    * (α (ix1 q) * α (ix1 q) - Ideal.ofBits .f32 0x40000000#32 * α (ix1 q))
                + Ideal.ofBits .f32 0x3727C5AC#32)
        + β (ix1 q)
      = Spec.graphNorm c α γ β (ix2 i q) := by
  rw [SpecRead.graphNorm_apply, SpecRead.invStd_apply, ← variance_entry c α hc hα q, SpecRead.centered_apply,
    SpecRead.mean_apply, SpecRead.colSum_apply]

/-- The same with the two column sums given by name. -/
theorem graphNorm_entry_of_sums (c : Spec.FA Ideal S100000x64) (α γ β : Spec.FA Ideal S64)
    (hc : ∀ j, ∃ r : ℝ, c j = (r : EReal)) (hα : ∀ j, ∃ r : ℝ, α j = (r : EReal)) (i : Fin 100000) (q : Fin 64)
    (s s2 : EReal) (hs : s = ∑ k : Fin 100000, c (ix2 k q)) (hs2 : s2 = ∑ k : Fin 100000, c (ix2 k q) * c (ix2 k q)) :
    γ (ix1 q)
          * (c (ix2 i q) - α (ix1 q) * FloatOps.hostDivf (F := Ideal) (φ := .f32) s (Ideal.ofBits .f32 0x47C35000#32))
          * FloatOps.hostUnary (F := Ideal) (φ := .f32) .rsqrt
              (FloatOps.hostDivf (F := Ideal) (φ := .f32) s2 (Ideal.ofBits .f32 0x47C35000#32)
                  + (FloatOps.hostDivf (F := Ideal) (φ := .f32) s (Ideal.ofBits .f32 0x47C35000#32)
                      * FloatOps.hostDivf (F := Ideal) (φ := .f32) s (Ideal.ofBits .f32 0x47C35000#32))
                    * (α (ix1 q) * α (ix1 q) - Ideal.ofBits .f32 0x40000000#32 * α (ix1 q))
                + Ideal.ofBits .f32 0x3727C5AC#32)
        + β (ix1 q)
      = Spec.graphNorm c α γ β (ix2 i q) := by
  rw [hs, hs2]
  exact graphNorm_entry c α γ β hc hα i q

/-! ## LeakyReLU on top of GraphNorm -/

/-- LeakyReLU of GraphNorm at an entry, from any value `y` that is GraphNorm's entry. -/
theorem leaky_entry_of (c : Spec.FA Ideal S100000x64) (α γ β : Spec.FA Ideal S64) (i : Fin 100000) (q : Fin 64)
    (y : EReal) (hy : y = Spec.graphNorm c α γ β (ix2 i q)) :
    Scalar.select (FloatOps.cmpf (F := Ideal) (φ := .f32) .ogt y (Ideal.ofBits .f32 0x00000000#32)) y
        (Ideal.ofBits .f32 0x3E4CCCCD#32 * y)
      = Spec.leaky (Spec.graphNorm c α γ β) (ix2 i q) := by
  subst hy
  rw [SpecRead.leaky_apply]

/-- LeakyReLU of GraphNorm at an entry, GraphNorm assembled from the two column sums. -/
theorem leaky_graphNorm_entry (c : Spec.FA Ideal S100000x64) (α γ β : Spec.FA Ideal S64)
    (hc : ∀ j, ∃ r : ℝ, c j = (r : EReal)) (hα : ∀ j, ∃ r : ℝ, α j = (r : EReal)) (i : Fin 100000) (q : Fin 64)
    (s s2 y : EReal) (hs : s = ∑ k : Fin 100000, c (ix2 k q)) (hs2 : s2 = ∑ k : Fin 100000, c (ix2 k q) * c (ix2 k q))
    (hy : y = γ (ix1 q)
          * (c (ix2 i q) - α (ix1 q) * FloatOps.hostDivf (F := Ideal) (φ := .f32) s (Ideal.ofBits .f32 0x47C35000#32))
          * FloatOps.hostUnary (F := Ideal) (φ := .f32) .rsqrt
              (FloatOps.hostDivf (F := Ideal) (φ := .f32) s2 (Ideal.ofBits .f32 0x47C35000#32)
                  + (FloatOps.hostDivf (F := Ideal) (φ := .f32) s (Ideal.ofBits .f32 0x47C35000#32)
                      * FloatOps.hostDivf (F := Ideal) (φ := .f32) s (Ideal.ofBits .f32 0x47C35000#32))
                    * (α (ix1 q) * α (ix1 q) - Ideal.ofBits .f32 0x40000000#32 * α (ix1 q))
                + Ideal.ofBits .f32 0x3727C5AC#32)
        + β (ix1 q)) :
    Scalar.select (FloatOps.cmpf (F := Ideal) (φ := .f32) .ogt y (Ideal.ofBits .f32 0x00000000#32)) y
        (Ideal.ofBits .f32 0x3E4CCCCD#32 * y)
      = Spec.leaky (Spec.graphNorm c α γ β) (ix2 i q) :=
  leaky_entry_of c α γ β i q y (hy.trans (graphNorm_entry_of_sums c α γ β hc hα i q s s2 hs hs2))

end Cert.Bridges

end
-- ==== Proof.RegionLinear.lean ====
/-
  The three "matrix product plus bias row" regions of the kernel, read entry by entry.

  Each of the regions 0, 1 and 4 walks a grid of 20 points down the rows of its left operand X : [100000, K]
  (K = 128 in region 0, K = 64 in regions 1 and 4).  Point t takes the tile of rows 5000 t … 5000 t + 4999 of X, the
  whole weight W : [K, 64] and the whole bias row b : [1, 64], and writes rows 5000 t … 5000 t + 4999 of the output
  with  (tile · W) + (b repeated down the rows).

  At the extended reals a change of float format is the identity and a product into the zero accumulator is the plain
  sum of products, so entry (p, q) of the tile's product is ∑ c, X (5000 t + p, c) * W (c, q): term by term the sum
  that is entry (5000 t + p, q) of the product of the WHOLE of X with W.  Row r of the output lies in the tile of point
  r / 5000, the twenty tiles cover the rows, and so after the region the output array holds, at (i, q),

      (X · W) (i, q) + b (0, q).

  `projection_value`, `layer1_product_value` and `layer2_product_value` say this for the three regions, whatever the
  buffers hold when the region is entered; `windowR_W` names the buffer behind window W of region R.
-/
import proofs.«169252_j42494406426958_1_alg».proof.Proof.Gen.KernelIdeal.Frame
import proofs.«169252_j42494406426958_1_alg».proof.Proof.LibTileMatmul
import Idealize.ShloMosaic.Lib.ValueLayout
import Idealize.ShloMosaic.Lib.Pipeline.Value

noncomputable section

namespace Cert.KernelIdeal.RegionLinear

open Idealize.ShloMosaic Idealize.ShloMosaic.TcCoe Idealize.SL.Sem
open Idealize.ShloMosaic.Pipeline (Dat)
open Idealize.ShloMosaic.ValueIdx Idealize.ShloMosaic.TileMatmul
open Cert.KernelIdeal Cert.KernelIdeal.Gen

/-! ## What the three regions share -/

/-- The two zero offsets of a whole-buffer access, as a constant function. -/
theorem zero_offsets : (![0, 0] : Fin 2 → Nat) = fun _ => 0 := funext fun a => by fin_cases a <;> rfl

/-- The bias row repeated down a tile's rows reads, at (p, q), the row's entry q. -/
theorem bias_rows_apply {a : ℕ} (b : Vec Ideal S1x64 .f32) (hc : S1x64.ShapeCasts S1x64)
    (hb : S1x64.Broadcasts ⟨2, ![a, 64]⟩) (p : Fin a) (q : Fin 64) :
    (broadcastTo ⟨2, ![a, 64]⟩ (shapeCast S1x64 b hc) hb (ix2 p q) : EReal) = b (ix2 (0 : Fin 1) q) := by
  rw [shapeCast_self]
  exact broadcastTo_1b_ab_apply b hb p q

/-! ## Region 0: the 128-column operand -/
/-- What region 0 leaves in its output array, as a function of the three arrays it reads: entry (i, q) is the product's
    entry plus the row's entry q. -/
abbrev linear128 (w : DotDims.WF S100000x128 S128x64 S100000x64 [1] [0] [0] [1] [] [])
    (X : FVec Ideal S100000x128 .f32) (W : FVec Ideal S128x64 .f32) (b : FVec Ideal S1x64 .f32) : FVec Ideal S100000x64 .f32 :=
  fun j => Host.dotGeneral (F := Ideal) (φ₁ := .f32) (φ₂ := .f32) (plainDims w) none X W j + b (ix2 (0 : Fin 1) (j 1))

/-- One tile of region 0: the body's result at (p, q) is the whole product's entry at the tile's row, plus the bias
    row's entry q. -/
theorem tile128_value (x0 : Vec Ideal S5000x128 .f32) (x1 : Vec Ideal S128x64 .f32) (x2 : Vec Ideal S1x64 .f32)
    (X : FVec Ideal S100000x128 .f32) (W : FVec Ideal S128x64 .f32) (b : FVec Ideal S1x64 .f32)
    (w : DotDims.WF S100000x128 S128x64 S100000x64 [1] [0] [0] [1] [] [])
    (p : Fin 5000) (q : Fin 64) (i : Fin 100000)
    (hX : ∀ c : Fin 128, (x0 (ix2 p c) : EReal) = X (ix2 i c))
    (hW : ∀ c : Fin 128, (x1 (ix2 c q) : EReal) = W (ix2 c q))
    (hb : (x2 (ix2 (0 : Fin 1) q) : EReal) = b (ix2 (0 : Fin 1) q)) :
    (Gen.out0_3 (F := Ideal) x0 x1 x2 (ix2 p q) : EReal)
      = Host.dotGeneral (F := Ideal) (φ₁ := .f32) (φ₂ := .f32) (plainDims w) none X W (ix2 i q) + b (ix2 (0 : Fin 1) q) := by
  unfold Gen.out0_3
  rw [View.canon_unit_zero zero_offsets]
  simp only [View.ld_unit_zero (S := S5000x128) zero_offsets, View.ld_unit_zero (S := S128x64) zero_offsets,
    View.ld_unit_zero (S := S1x64) zero_offsets]
  unfold Gen.k0_pay1
  show (_ : EReal) + _ = _
  rw [bias_rows_apply, hb]
  refine congrArg (· + _) ?_
  exact matmul_tile_eq_dotGeneral Gen.dot_S5000x128_S128x64_S5000x64_1_0_0_1_n_n_wf w none none _ _ X W p q i hX hW

/-- The index maps over the grid: the left operand's and the output's tiles move down the rows with the point, the
    weight and the bias row stay. -/
theorem tile_points0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of point t's tile of the left operand is row 5000 t + p of the array. -/
theorem left_tile0 (t : Fin cfg0.N) (X : FVec Ideal S100000x128 .f32) (p : Fin 5000) (k : Fin 128) (i : Fin 100000)
    (hi : i.val = 5000 * t.val + p.val) :
    ((((cfg0.win 0).blk t).view.read (Elt Ideal) X : Vec Ideal S5000x128 .f32) (ix2 p k) : EReal) = X (ix2 i k) := by
  obtain ⟨e0, e1, -⟩ := tile_points0 t
  show X (((cfg0.win 0).blk t).view.emb (ix2 p k)) = X (ix2 i k)
  refine congrArg X (funext fun a => Fin.ext ?_)
  match a with
  | ⟨0, _⟩ => show win0_0.index t (0 : Fin 2) * 5000 + 1 * p.val = i.val; omega
  | ⟨1, _⟩ => show win0_0.index t (1 : Fin 2) * 128 + 1 * k.val = k.val; omega

/-- The weight's one block is the weight. -/
theorem weight_tile0 (t : Fin cfg0.N) (W : FVec Ideal S128x64 .f32) (a : Fin 128) (b : Fin 64) :
    ((((cfg0.win 1).blk t).view.read (Elt Ideal) W : Vec Ideal S128x64 .f32) (ix2 a b) : EReal) = W (ix2 a b) := by
  obtain ⟨-, -, e2, e3, -⟩ := tile_points0 t
  show W (((cfg0.win 1).blk t).view.emb (ix2 a b)) = W (ix2 a b)
  refine congrArg W (funext fun ax => Fin.ext ?_)
  match ax with
  | ⟨0, _⟩ => show win0_1.index t (0 : Fin 2) * 128 + 1 * a.val = a.val; omega
  | ⟨1, _⟩ => show win0_1.index t (1 : Fin 2) * 64 + 1 * b.val = b.val; omega

/-- The bias row's one block is the row. -/
theorem bias_tile0 (t : Fin cfg0.N) (r : FVec Ideal S1x64 .f32) (a : Fin 1) (b : Fin 64) :
    ((((cfg0.win 2).blk t).view.read (Elt Ideal) r : Vec Ideal S1x64 .f32) (ix2 a b) : EReal) = r (ix2 a b) := by
  obtain ⟨-, -, -, -, e4, e5, -⟩ := tile_points0 t
  show r (((cfg0.win 2).blk t).view.emb (ix2 a b)) = r (ix2 a b)
  refine congrArg r (funext fun ax => Fin.ext ?_)
  match ax with
  | ⟨0, _⟩ => show win0_2.index t (0 : Fin 2) * 1 + 1 * a.val = a.val; omega
  | ⟨1, _⟩ => show win0_2.index t (1 : Fin 2) * 64 + 1 * b.val = b.val; omega

/-- What point t writes back, from any three arrays: tile t of the product plus the bias row. -/
theorem projection_block_of (t : Fin cfg0.N) (X : FVec Ideal S100000x128 .f32) (W : FVec Ideal S128x64 .f32)
    (r : FVec Ideal S1x64 .f32) (w : DotDims.WF S100000x128 S128x64 S100000x64 [1] [0] [0] [1] [] []) :
    (cfg0.win 3).cut (grid0.coords t) (Gen.out0_3 (F := Ideal) (((cfg0.win 0).blk t).view.read (Elt Ideal) X)
        (((cfg0.win 1).blk t).view.read (Elt Ideal) W) (((cfg0.win 2).blk t).view.read (Elt Ideal) r))
      = ((cfg0.win 3).blk t).view.read (Elt Ideal) (linear128 w X W r) := by
  obtain ⟨-, -, -, -, -, -, e6, e7⟩ := tile_points0 t
  have hN : grid0.N = 20 := Gen.N_0
  have ht : t.val < 20 := hN ▸ t.isLt
  funext j
  have hp : (j 0).val < 5000 := (j 0).isLt
  have hq : (j 1).val < 64 := (j 1).isLt
  have hemb : ((cfg0.win 3).blk t).view.emb j
      = ix2 (⟨5000 * t.val + (j 0).val, by omega⟩ : Fin 100000) (⟨(j 1).val, hq⟩ : Fin 64) := by
    funext a; apply Fin.ext
    match a with
    | ⟨0, _⟩ => show win0_3.index t (0 : Fin 2) * 5000 + 1 * (j 0).val = 5000 * t.val + (j 0).val; omega
    | ⟨1, _⟩ => show win0_3.index t (1 : Fin 2) * 64 + 1 * (j 1).val = (j 1).val; omega
  have hx : (cfg0.win 3).xinj (grid0.coords t) j = ix2 (⟨(j 0).val, hp⟩ : Fin 5000) (⟨(j 1).val, hq⟩ : Fin 64) := by
    funext a; match a with | ⟨0, _⟩ => rfl | ⟨1, _⟩ => rfl
  show (Gen.out0_3 (F := Ideal) _ _ _ ((cfg0.win 3).xinj (grid0.coords t) j) : EReal)
    = linear128 w X W r (((cfg0.win 3).blk t).view.emb j)
  rw [hx, hemb]
  exact tile128_value _ _ _ X W r w _ _ _ (fun c => left_tile0 t X _ c _ rfl) (fun c => weight_tile0 t W c _)
    (bias_tile0 t r 0 _)

/-- An index of the output array is in point t's block iff each coordinate is in the block's range on its axis. -/
theorem mem_out_block0 (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v29).slice (win0_3.rect t)).set ↔ _
  rw [View.set_slice_whole, Rect.mem_set_unit]
  exact Iff.rfl

/-- Row r of the output is written back by point r / 5000. -/
theorem rows_covered0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : grid0.N = 20 := Gen.N_0
  obtain ⟨t, ht⟩ : ∃ t : Fin cfg0.N, t.val = (i 0).val / 5000 :=
    ⟨⟨(i 0).val / 5000, by show _ < grid0.N; rw [hN]; omega⟩, rfl⟩
  obtain ⟨-, -, -, -, -, -, e6, e7⟩ := tile_points0 t
  refine ⟨t, Gen.flush0_3 t, ?_⟩
  rw [mem_out_block0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

section Entry0
variable (V : (c : Dev nD) → (b : Ref sig .tc) → Buf (Elt Ideal) ((c : Thread nD τ).loc b))

/-- What point t of region 0 writes back is tile t of the product plus the bias row, of the arrays the region finds. -/
theorem projection_flushed (c : Dev nD) (w : DotDims.WF S100000x128 S128x64 S100000x64 [1] [0] [0] [1] [] [])
    (t : Fin cfg0.N) :
    (Gen.dat0 (F := Ideal) V c).flushed 3 t = ((cfg0.win 3).blk t).view.read (Elt Ideal)
      (linear128 w (V c (Pipeline.arrRef spec0 0)) (V c (Pipeline.arrRef spec0 1)) (V c (Pipeline.arrRef spec0 2))) := by
  show (cfg0.win 3).cut (grid0.coords t) ((Gen.dat0 (F := Ideal) V c).after 3 t) = _
  rw [Gen.after0_3]
  unfold Gen.iblk0
  exact projection_block_of t _ _ _ w

/-- The output array after region 0. -/
theorem projection_array (c : Dev nD) (w : DotDims.WF S100000x128 S128x64 S100000x64 [1] [0] [0] [1] [] []) :
    (Gen.dat0 (F := Ideal) V c).arrAt 3 cfg0.N
      = linear128 w (V c (Pipeline.arrRef spec0 0)) (V c (Pipeline.arrRef spec0 1)) (V c (Pipeline.arrRef spec0 2)) :=
  (Gen.dat0 (F := Ideal) V c).arrAt_eq_of_cover 3 _ (fun t _ => projection_flushed V c w t) rows_covered0

/-- REGION 0, entry by entry: the left operand's product with the weight, plus the bias row. -/
theorem projection_value (c : Dev nD) (w : DotDims.WF S100000x128 S128x64 S100000x64 [1] [0] [0] [1] [] [])
    (i : Fin 100000) (q : Fin 64) :
    (((Gen.dat0 (F := Ideal) V c).arrAt 3 cfg0.N : S100000x64.Idx → EReal) (ix2 i q) : EReal)
      = Host.dotGeneral (F := Ideal) (φ₁ := .f32) (φ₂ := .f32) (plainDims w) none
          (V c (Pipeline.arrRef spec0 0) : S100000x128.Idx → EReal) (V c (Pipeline.arrRef spec0 1) : S128x64.Idx → EReal) (ix2 i q)
        + (V c (Pipeline.arrRef spec0 2) : S1x64.Idx → EReal) (ix2 (0 : Fin 1) q) := by
  rw [projection_array V c w]

end Entry0

/-- Which buffers region 0's windows stage. -/
theorem window0_0 : Pipeline.arrRef spec0 0 = main_arg0 := rfl
theorem window0_1 : Pipeline.arrRef spec0 1 = main_arg2 := rfl
theorem window0_2 : Pipeline.arrRef spec0 2 = main_v28 := rfl
theorem window0_3 : Pipeline.arrRef spec0 3 = main_v29 := rfl

/-! ## Regions 1 and 4: the 64-column operand, one body -/

/-- The function a "product plus bias row" region with a 64-column left operand leaves in its output array. -/
abbrev linear64 (w : DotDims.WF S100000x64 S64x64 S100000x64 [1] [0] [0] [1] [] [])
    (X : FVec Ideal S100000x64 .f32) (W : FVec Ideal S64x64 .f32) (b : FVec Ideal S1x64 .f32) : FVec Ideal S100000x64 .f32 :=
  fun j => Host.dotGeneral (F := Ideal) (φ₁ := .f32) (φ₂ := .f32) (plainDims w) none X W j + b (ix2 (0 : Fin 1) (j 1))

/-- One tile of a 64-column region: the body's result at (p, q) is the whole product's entry at the tile's row, plus
    the bias row's entry q. -/
theorem tile64_value (x0 : Vec Ideal S5000x64 .f32) (x1 : Vec Ideal S64x64 .f32) (x2 : Vec Ideal S1x64 .f32)
    (X : FVec Ideal S100000x64 .f32) (W : FVec Ideal S64x64 .f32) (b : FVec Ideal S1x64 .f32)
    (w : DotDims.WF S100000x64 S64x64 S100000x64 [1] [0] [0] [1] [] [])
    (p : Fin 5000) (q : Fin 64) (i : Fin 100000)
    (hX : ∀ c : Fin 64, (x0 (ix2 p c) : EReal) = X (ix2 i c))
    (hW : ∀ c : Fin 64, (x1 (ix2 c q) : EReal) = W (ix2 c q))
    (hb : (x2 (ix2 (0 : Fin 1) q) : EReal) = b (ix2 (0 : Fin 1) q)) :
    (Gen.out1_3 (F := Ideal) x0 x1 x2 (ix2 p q) : EReal)
      = Host.dotGeneral (F := Ideal) (φ₁ := .f32) (φ₂ := .f32) (plainDims w) none X W (ix2 i q) + b (ix2 (0 : Fin 1) q) := by
  unfold Gen.out1_3
  rw [View.canon_unit_zero zero_offsets]
  simp only [View.ld_unit_zero (S := S5000x64) zero_offsets, View.ld_unit_zero (S := S64x64) zero_offsets,
    View.ld_unit_zero (S := S1x64) zero_offsets]
  unfold Gen.k1_pay1
  show (_ : EReal) + _ = _
  rw [bias_rows_apply, hb]
  refine congrArg (· + _) ?_
  exact matmul_tile_eq_dotGeneral Gen.dot_S5000x64_S64x64_S5000x64_1_0_0_1_n_n_wf w none none _ _ X W p q i
    (fun c => (congrFun (shapeCast_self x0 Gen.shapeCasts_S5000x64_S5000x64) (ix2 p c)).trans (hX c)) hW

/-- Regions 1 and 4 run the same body. -/
theorem out4_eq_out1 (x0 : Vec Ideal S5000x64 .f32) (x1 : Vec Ideal S64x64 .f32) (x2 : Vec Ideal S1x64 .f32) :
    Gen.out4_3 (F := Ideal) x0 x1 x2 = Gen.out1_3 (F := Ideal) x0 x1 x2 := rfl

/-! ## Region 1 -/

/-- Region 1's index maps over the grid: the left operand's and the output's tiles move down the rows with the point,
    the weight and the bias row stay. -/
theorem tile_points1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of point t's tile of region 1's left operand is row 5000 t + p of the array. -/
theorem left_tile1 (t : Fin cfg1.N) (X : FVec Ideal S100000x64 .f32) (p : Fin 5000) (k : Fin 64) (i : Fin 100000)
    (hi : i.val = 5000 * t.val + p.val) :
    ((((cfg1.win 0).blk t).view.read (Elt Ideal) X : Vec Ideal S5000x64 .f32) (ix2 p k) : EReal) = X (ix2 i k) := by
  obtain ⟨e0, e1, -⟩ := tile_points1 t
  show X (((cfg1.win 0).blk t).view.emb (ix2 p k)) = X (ix2 i k)
  refine congrArg X (funext fun a => Fin.ext ?_)
  match a with
  | ⟨0, _⟩ => show win1_0.index t (0 : Fin 2) * 5000 + 1 * p.val = i.val; omega
  | ⟨1, _⟩ => show win1_0.index t (1 : Fin 2) * 64 + 1 * k.val = k.val; omega

/-- Region 1's weight's one block is the weight. -/
theorem weight_tile1 (t : Fin cfg1.N) (W : FVec Ideal S64x64 .f32) (a : Fin 64) (b : Fin 64) :
    ((((cfg1.win 1).blk t).view.read (Elt Ideal) W : Vec Ideal S64x64 .f32) (ix2 a b) : EReal) = W (ix2 a b) := by
  obtain ⟨-, -, e2, e3, -⟩ := tile_points1 t
  show W (((cfg1.win 1).blk t).view.emb (ix2 a b)) = W (ix2 a b)
  refine congrArg W (funext fun ax => Fin.ext ?_)
  match ax with
  | ⟨0, _⟩ => show win1_1.index t (0 : Fin 2) * 64 + 1 * a.val = a.val; omega
  | ⟨1, _⟩ => show win1_1.index t (1 : Fin 2) * 64 + 1 * b.val = b.val; omega

/-- Region 1's bias row's one block is the row. -/
theorem bias_tile1 (t : Fin cfg1.N) (r : FVec Ideal S1x64 .f32) (a : Fin 1) (b : Fin 64) :
    ((((cfg1.win 2).blk t).view.read (Elt Ideal) r : Vec Ideal S1x64 .f32) (ix2 a b) : EReal) = r (ix2 a b) := by
  obtain ⟨-, -, -, -, e4, e5, -⟩ := tile_points1 t
  show r (((cfg1.win 2).blk t).view.emb (ix2 a b)) = r (ix2 a b)
  refine congrArg r (funext fun ax => Fin.ext ?_)
  match ax with
  | ⟨0, _⟩ => show win1_2.index t (0 : Fin 2) * 1 + 1 * a.val = a.val; omega
  | ⟨1, _⟩ => show win1_2.index t (1 : Fin 2) * 64 + 1 * b.val = b.val; omega

/-- What point t of region 1 writes back, from any three arrays: tile t of the product plus the bias row. -/
theorem layer1_block_of (t : Fin cfg1.N) (X : FVec Ideal S100000x64 .f32) (W : FVec Ideal S64x64 .f32)
    (r : FVec Ideal S1x64 .f32) (w : DotDims.WF S100000x64 S64x64 S100000x64 [1] [0] [0] [1] [] []) :
    (cfg1.win 3).cut (grid1.coords t) (Gen.out1_3 (F := Ideal) (((cfg1.win 0).blk t).view.read (Elt Ideal) X)
        (((cfg1.win 1).blk t).view.read (Elt Ideal) W) (((cfg1.win 2).blk t).view.read (Elt Ideal) r))
      = ((cfg1.win 3).blk t).view.read (Elt Ideal) (linear64 w X W r) := by
  obtain ⟨-, -, -, -, -, -, e6, e7⟩ := tile_points1 t
  have hN : grid1.N = 20 := Gen.N_1
  have ht : t.val < 20 := hN ▸ t.isLt
  funext j
  have hp : (j 0).val < 5000 := (j 0).isLt
  have hq : (j 1).val < 64 := (j 1).isLt
  have hemb : ((cfg1.win 3).blk t).view.emb j
      = ix2 (⟨5000 * t.val + (j 0).val, by omega⟩ : Fin 100000) (⟨(j 1).val, hq⟩ : Fin 64) := by
    funext a; apply Fin.ext
    match a with
    | ⟨0, _⟩ => show win1_3.index t (0 : Fin 2) * 5000 + 1 * (j 0).val = 5000 * t.val + (j 0).val; omega
    | ⟨1, _⟩ => show win1_3.index t (1 : Fin 2) * 64 + 1 * (j 1).val = (j 1).val; omega
  have hx : (cfg1.win 3).xinj (grid1.coords t) j = ix2 (⟨(j 0).val, hp⟩ : Fin 5000) (⟨(j 1).val, hq⟩ : Fin 64) := by
    funext a; match a with | ⟨0, _⟩ => rfl | ⟨1, _⟩ => rfl
  show (Gen.out1_3 (F := Ideal) _ _ _ ((cfg1.win 3).xinj (grid1.coords t) j) : EReal)
    = linear64 w X W r (((cfg1.win 3).blk t).view.emb j)
  rw [hx, hemb]
  exact tile64_value _ _ _ X W r w _ _ _ (fun c => left_tile1 t X _ c _ rfl) (fun c => weight_tile1 t W c _)
    (bias_tile1 t r 0 _)

/-- An index of region 1's output array is in point t's block iff each coordinate is in the block's range on its axis. -/
theorem mem_out_block1 (t : Fin cfg1.N) (i : S100000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v32).slice (win1_3.rect t)).set ↔ _
  rw [View.set_slice_whole, Rect.mem_set_unit]
  exact Iff.rfl

/-- Row r of region 1's output is written back by point r / 5000. -/
theorem rows_covered1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : grid1.N = 20 := Gen.N_1
  obtain ⟨t, ht⟩ : ∃ t : Fin cfg1.N, t.val = (i 0).val / 5000 :=
    ⟨⟨(i 0).val / 5000, by show _ < grid1.N; rw [hN]; omega⟩, rfl⟩
  obtain ⟨-, -, -, -, -, -, e6, e7⟩ := tile_points1 t
  refine ⟨t, Gen.flush1_3 t, ?_⟩
  rw [mem_out_block1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

section Entry1
variable (V : (c : Dev nD) → (b : Ref sig .tc) → Buf (Elt Ideal) ((c : Thread nD τ).loc b))

/-- What point t of region 1 writes back is tile t of the product plus the bias row, of the arrays the region finds. -/
theorem layer1_product_flushed (c : Dev nD) (w : DotDims.WF S100000x64 S64x64 S100000x64 [1] [0] [0] [1] [] [])
    (t : Fin cfg1.N) :
    (Gen.dat1 (F := Ideal) V c).flushed 3 t = ((cfg1.win 3).blk t).view.read (Elt Ideal)
      (linear64 w (V c (Pipeline.arrRef spec1 0)) (V c (Pipeline.arrRef spec1 1)) (V c (Pipeline.arrRef spec1 2))) := by
  show (cfg1.win 3).cut (grid1.coords t) ((Gen.dat1 (F := Ideal) V c).after 3 t) = _
  rw [Gen.after1_3]
  unfold Gen.iblk1
  exact layer1_block_of t _ _ _ w

/-- The output array after region 1. -/
theorem layer1_product_array (c : Dev nD) (w : DotDims.WF S100000x64 S64x64 S100000x64 [1] [0] [0] [1] [] []) :
    (Gen.dat1 (F := Ideal) V c).arrAt 3 cfg1.N
      = linear64 w (V c (Pipeline.arrRef spec1 0)) (V c (Pipeline.arrRef spec1 1)) (V c (Pipeline.arrRef spec1 2)) :=
  (Gen.dat1 (F := Ideal) V c).arrAt_eq_of_cover 3 _ (fun t _ => layer1_product_flushed V c w t) rows_covered1

/-- REGION 1, entry by entry: the left operand's product with the weight, plus the bias row. -/
theorem layer1_product_value (c : Dev nD) (w : DotDims.WF S100000x64 S64x64 S100000x64 [1] [0] [0] [1] [] [])
    (i : Fin 100000) (q : Fin 64) :
    (((Gen.dat1 (F := Ideal) V c).arrAt 3 cfg1.N : S100000x64.Idx → EReal) (ix2 i q) : EReal)
      = Host.dotGeneral (F := Ideal) (φ₁ := .f32) (φ₂ := .f32) (plainDims w) none
          (V c (Pipeline.arrRef spec1 0) : S100000x64.Idx → EReal) (V c (Pipeline.arrRef spec1 1) : S64x64.Idx → EReal) (ix2 i q)
        + (V c (Pipeline.arrRef spec1 2) : S1x64.Idx → EReal) (ix2 (0 : Fin 1) q) := by
  rw [layer1_product_array V c w]

end Entry1

/-- Which buffers region 1's windows stage. -/
theorem window1_0 : Pipeline.arrRef spec1 0 = main_v29 := rfl
theorem window1_1 : Pipeline.arrRef spec1 1 = main_arg4 := rfl
theorem window1_2 : Pipeline.arrRef spec1 2 = main_v31 := rfl
theorem window1_3 : Pipeline.arrRef spec1 3 = main_v32 := rfl

/-! ## Region 4 -/

/-- Region 4's index maps over the grid: the left operand's and the output's tiles move down the rows with the point,
    the weight and the bias row stay. -/
theorem tile_points4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Row p of point t's tile of region 4's left operand is row 5000 t + p of the array. -/
theorem left_tile4 (t : Fin cfg4.N) (X : FVec Ideal S100000x64 .f32) (p : Fin 5000) (k : Fin 64) (i : Fin 100000)
    (hi : i.val = 5000 * t.val + p.val) :
    ((((cfg4.win 0).blk t).view.read (Elt Ideal) X : Vec Ideal S5000x64 .f32) (ix2 p k) : EReal) = X (ix2 i k) := by
  obtain ⟨e0, e1, -⟩ := tile_points4 t
  show X (((cfg4.win 0).blk t).view.emb (ix2 p k)) = X (ix2 i k)
  refine congrArg X (funext fun a => Fin.ext ?_)
  match a with
  | ⟨0, _⟩ => show win4_0.index t (0 : Fin 2) * 5000 + 1 * p.val = i.val; omega
  | ⟨1, _⟩ => show win4_0.index t (1 : Fin 2) * 64 + 1 * k.val = k.val; omega

/-- Region 4's weight's one block is the weight. -/
theorem weight_tile4 (t : Fin cfg4.N) (W : FVec Ideal S64x64 .f32) (a : Fin 64) (b : Fin 64) :
    ((((cfg4.win 1).blk t).view.read (Elt Ideal) W : Vec Ideal S64x64 .f32) (ix2 a b) : EReal) = W (ix2 a b) := by
  obtain ⟨-, -, e2, e3, -⟩ := tile_points4 t
  show W (((cfg4.win 1).blk t).view.emb (ix2 a b)) = W (ix2 a b)
  refine congrArg W (funext fun ax => Fin.ext ?_)
  match ax with
  | ⟨0, _⟩ => show win4_1.index t (0 : Fin 2) * 64 + 1 * a.val = a.val; omega
  | ⟨1, _⟩ => show win4_1.index t (1 : Fin 2) * 64 + 1 * b.val = b.val; omega

/-- Region 4's bias row's one block is the row. -/
theorem bias_tile4 (t : Fin cfg4.N) (r : FVec Ideal S1x64 .f32) (a : Fin 1) (b : Fin 64) :
    ((((cfg4.win 2).blk t).view.read (Elt Ideal) r : Vec Ideal S1x64 .f32) (ix2 a b) : EReal) = r (ix2 a b) := by
  obtain ⟨-, -, -, -, e4, e5, -⟩ := tile_points4 t
  show r (((cfg4.win 2).blk t).view.emb (ix2 a b)) = r (ix2 a b)
  refine congrArg r (funext fun ax => Fin.ext ?_)
  match ax with
  | ⟨0, _⟩ => show win4_2.index t (0 : Fin 2) * 1 + 1 * a.val = a.val; omega
  | ⟨1, _⟩ => show win4_2.index t (1 : Fin 2) * 64 + 1 * b.val = b.val; omega

/-- What point t of region 4 writes back, from any three arrays: tile t of the product plus the bias row. -/
theorem layer2_block_of (t : Fin cfg4.N) (X : FVec Ideal S100000x64 .f32) (W : FVec Ideal S64x64 .f32)
    (r : FVec Ideal S1x64 .f32) (w : DotDims.WF S100000x64 S64x64 S100000x64 [1] [0] [0] [1] [] []) :
    (cfg4.win 3).cut (grid4.coords t) (Gen.out4_3 (F := Ideal) (((cfg4.win 0).blk t).view.read (Elt Ideal) X)
        (((cfg4.win 1).blk t).view.read (Elt Ideal) W) (((cfg4.win 2).blk t).view.read (Elt Ideal) r))
      = ((cfg4.win 3).blk t).view.read (Elt Ideal) (linear64 w X W r) := by
  obtain ⟨-, -, -, -, -, -, e6, e7⟩ := tile_points4 t
  have hN : grid4.N = 20 := Gen.N_4
  have ht : t.val < 20 := hN ▸ t.isLt
  funext j
  have hp : (j 0).val < 5000 := (j 0).isLt
  have hq : (j 1).val < 64 := (j 1).isLt
  have hemb : ((cfg4.win 3).blk t).view.emb j
      = ix2 (⟨5000 * t.val + (j 0).val, by omega⟩ : Fin 100000) (⟨(j 1).val, hq⟩ : Fin 64) := by
    funext a; apply Fin.ext
    match a with
    | ⟨0, _⟩ => show win4_3.index t (0 : Fin 2) * 5000 + 1 * (j 0).val = 5000 * t.val + (j 0).val; omega
    | ⟨1, _⟩ => show win4_3.index t (1 : Fin 2) * 64 + 1 * (j 1).val = (j 1).val; omega
  have hx : (cfg4.win 3).xinj (grid4.coords t) j = ix2 (⟨(j 0).val, hp⟩ : Fin 5000) (⟨(j 1).val, hq⟩ : Fin 64) := by
    funext a; match a with | ⟨0, _⟩ => rfl | ⟨1, _⟩ => rfl
  show (Gen.out4_3 (F := Ideal) _ _ _ ((cfg4.win 3).xinj (grid4.coords t) j) : EReal)
    = linear64 w X W r (((cfg4.win 3).blk t).view.emb j)
  rw [hx, hemb, out4_eq_out1]
  exact tile64_value _ _ _ X W r w _ _ _ (fun c => left_tile4 t X _ c _ rfl) (fun c => weight_tile4 t W c _)
    (bias_tile4 t r 0 _)

/-- An index of region 4's output array is in point t's block iff each coordinate is in the block's range on its axis. -/
theorem mem_out_block4 (t : Fin cfg4.N) (i : S100000x64.Idx) :
    i ∈ ((cfg4.win 3).blk t).view.set ↔ ∀ a : Fin 2, win4_3.index t a * S5000x64.size a ≤ (i a).val
      ∧ (i a).val < win4_3.index t a * S5000x64.size a + S5000x64.size a := by
  show i ∈ ((View.whole main_v69).slice (win4_3.rect t)).set ↔ _
  rw [View.set_slice_whole, Rect.mem_set_unit]
  exact Iff.rfl

/-- Row r of region 4's output is written back by point r / 5000. -/
theorem rows_covered4 (i : S100000x64.Idx) :
    ∃ t : Fin cfg4.N, (cfg4.win 3).flush t = true ∧ i ∈ ((cfg4.win 3).blk t).view.set := by
  have hi0 : (i 0).val < 100000 := (i 0).isLt
  have hi1 : (i 1).val < 64 := (i 1).isLt
  have hN : grid4.N = 20 := Gen.N_4
  obtain ⟨t, ht⟩ : ∃ t : Fin cfg4.N, t.val = (i 0).val / 5000 :=
    ⟨⟨(i 0).val / 5000, by show _ < grid4.N; rw [hN]; omega⟩, rfl⟩
  obtain ⟨-, -, -, -, -, -, e6, e7⟩ := tile_points4 t
  refine ⟨t, Gen.flush4_3 t, ?_⟩
  rw [mem_out_block4]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 64 ≤ (i 1).val ∧ (i 1).val < win4_3.index t (1 : Fin 2) * 64 + 64; omega

section Entry4
variable (V : (c : Dev nD) → (b : Ref sig .tc) → Buf (Elt Ideal) ((c : Thread nD τ).loc b))

/-- What point t of region 4 writes back is tile t of the product plus the bias row, of the arrays the region finds. -/
theorem layer2_product_flushed (c : Dev nD) (w : DotDims.WF S100000x64 S64x64 S100000x64 [1] [0] [0] [1] [] [])
    (t : Fin cfg4.N) :
    (Gen.dat4 (F := Ideal) V c).flushed 3 t = ((cfg4.win 3).blk t).view.read (Elt Ideal)
      (linear64 w (V c (Pipeline.arrRef spec4 0)) (V c (Pipeline.arrRef spec4 1)) (V c (Pipeline.arrRef spec4 2))) := by
  show (cfg4.win 3).cut (grid4.coords t) ((Gen.dat4 (F := Ideal) V c).after 3 t) = _
  rw [Gen.after4_3]
  unfold Gen.iblk4
  exact layer2_block_of t _ _ _ w

/-- The output array after region 4. -/
theorem layer2_product_array (c : Dev nD) (w : DotDims.WF S100000x64 S64x64 S100000x64 [1] [0] [0] [1] [] []) :
    (Gen.dat4 (F := Ideal) V c).arrAt 3 cfg4.N
      = linear64 w (V c (Pipeline.arrRef spec4 0)) (V c (Pipeline.arrRef spec4 1)) (V c (Pipeline.arrRef spec4 2)) :=
  (Gen.dat4 (F := Ideal) V c).arrAt_eq_of_cover 3 _ (fun t _ => layer2_product_flushed V c w t) rows_covered4

/-- REGION 4, entry by entry: the left operand's product with the weight, plus the bias row. -/
theorem layer2_product_value (c : Dev nD) (w : DotDims.WF S100000x64 S64x64 S100000x64 [1] [0] [0] [1] [] [])
    (i : Fin 100000) (q : Fin 64) :
    (((Gen.dat4 (F := Ideal) V c).arrAt 3 cfg4.N : S100000x64.Idx → EReal) (ix2 i q) : EReal)
      = Host.dotGeneral (F := Ideal) (φ₁ := .f32) (φ₂ := .f32) (plainDims w) none
          (V c (Pipeline.arrRef spec4 0) : S100000x64.Idx → EReal) (V c (Pipeline.arrRef spec4 1) : S64x64.Idx → EReal) (ix2 i q)
        + (V c (Pipeline.arrRef spec4 2) : S1x64.Idx → EReal) (ix2 (0 : Fin 1) q) := by
  rw [layer2_product_array V c w]

end Entry4

/-- Which buffers region 4's windows stage. -/
theorem window4_0 : Pipeline.arrRef spec4 0 = main_v66 := rfl
theorem window4_1 : Pipeline.arrRef spec4 1 = main_arg9 := rfl
theorem window4_2 : Pipeline.arrRef spec4 2 = main_v68 := rfl
theorem window4_3 : Pipeline.arrRef spec4 3 = main_v69 := rfl

end Cert.KernelIdeal.RegionLinear

end
-- ==== Proof.LibBlockSum.lean ====
/-
  Sums over rows cut into equal blocks.

  A table of B·R rows is processed block by block, R rows at a time, and a running total is kept: it starts from
  zero, takes the first block's sum, and then one more block's sum per step.  The two lemmas say that the sum over all
  rows is the sum over the blocks of the sums inside each block, and that the running total after step n is the sum of
  the blocks 0, …, n.  Both hold in any commutative additive monoid, so at infinite values too.
-/
import Idealize.ShloMosaic.PureOps.Ideal

open scoped BigOperators

namespace Cert.LibBlockSum

/-- Row r of block t, in a table of B blocks of R rows, is a row of the table: t·R + r < B·R. -/
theorem block_lt {B R : ℕ} (t : Fin B) (r : Fin R) : t.val * R + r.val < B * R :=
  calc t.val * R + r.val < t.val * R + R := Nat.add_lt_add_left r.isLt _
    _ = (t.val + 1) * R := (Nat.succ_mul _ _).symm
    _ ≤ B * R := Nat.mul_le_mul_right _ t.isLt

/-- A sum over B·R rows is the sum over the B blocks of the sums over the R rows inside each block, row r of block t
    being row t·R + r. -/
theorem sum_blocks {M : Type*} [AddCommMonoid M] (B R : ℕ) (f : Fin (B * R) → M) :
    ∑ i : Fin (B * R), f i = ∑ t : Fin B, ∑ r : Fin R, f ⟨t.val * R + r.val, block_lt t r⟩ := by
  rw [← Equiv.sum_comp finProdFinEquiv f, Fintype.sum_prod_type]
  refine Finset.sum_congr rfl fun t _ => Finset.sum_congr rfl fun r _ => congrArg f (Fin.ext ?_)
  show r.val + R * t.val = t.val * R + r.val
  rw [Nat.mul_comm, Nat.add_comm]

/-- The same for a function of the row's number. -/
theorem sum_blocks_nat {M : Type*} [AddCommMonoid M] (B R : ℕ) (f : ℕ → M) :
    ∑ i : Fin (B * R), f i.val = ∑ t : Fin B, ∑ r : Fin R, f (t.val * R + r.val) :=
  sum_blocks B R fun i => f i.val

/-- A running total that starts from zero plus block 0's sum and adds block k+1's sum at step k+1 holds, after step n,
    the sum of the blocks 0, …, n. -/
theorem acc_blocks {M : Type*} [AddCommMonoid M] (g : ℕ → M) :
    ∀ n, (Nat.rec (0 + g 0) (fun k acc => acc + g (k + 1)) n : M) = ∑ t ∈ Finset.range (n + 1), g t := by
  intro n
  induction n with
  | zero =>
    rw [Finset.sum_range_one]
    exact zero_add (g 0)
  | succ n ih =>
    show (Nat.rec (0 + g 0) (fun k acc => acc + g (k + 1)) n : M) + g (n + 1) = _
    rw [ih, Finset.sum_range_succ _ (n + 1)]

/-- A sum over the first B naturals is the sum over the B-element index type. -/
theorem sum_range_eq_fin {M : Type*} [AddCommMonoid M] (g : ℕ → M) (B : ℕ) :
    ∑ t ∈ Finset.range B, g t = ∑ t : Fin B, g t.val :=
  (Fin.sum_univ_eq_sum_range g B).symm

/-- So for a table of B + 1 blocks of R rows, with the blocks' sums g t = ∑ r, f (t·R + r), the running total after
    the last step, step B, is the sum over all (B + 1)·R rows. -/
theorem acc_all_rows {M : Type*} [AddCommMonoid M] (B R : ℕ) (f : ℕ → M) :
    (Nat.rec (0 + ∑ r : Fin R, f (0 * R + r.val)) (fun k acc => acc + ∑ r : Fin R, f ((k + 1) * R + r.val)) B : M)
      = ∑ i : Fin ((B + 1) * R), f i.val := by
  rw [acc_blocks (fun t => ∑ r : Fin R, f (t * R + r.val)) B, sum_range_eq_fin, sum_blocks_nat]

end Cert.LibBlockSum
-- ==== Proof.RegionCombine.lean ====
/-
  The two combine-and-reduce regions of the network's forward pass, read as values.

  Each of them walks the 100000 rows of its operand arrays in twenty tiles of 5000 rows. On a tile it forms

      c = agg + xw · dinv + bias

  (dinv is one factor per row, the same on all 64 lanes; bias is one row, the same on all rows), writes c out as
  that tile of the combined array, and adds to two one-row blocks the tile's column sums of c and of c · c. The two
  blocks are zeroed at the first tile, carried from tile to tile, and written out once, after the last tile.

  So the combined array ends holding c entry by entry, and the two one-row arrays end holding, lane by lane, the
  sums over all 100000 rows of c and of c · c. The argument: an entry of a tile is the array's entry at row
  5000 · t + r; a running total that starts from zero and takes one tile's sum per step holds, after step n, the
  sum of the tiles 0, …, n; and a sum over 20 · 5000 rows is the sum over the 20 tiles of the sums inside each.
  Only commutativity and associativity of addition are used, so everything holds over the extended reals with no
  finiteness asked of the operands.

  The statements are at any contents of the buffers when the region is entered, and name the arrays by the
  windows that move them; which arrays of the whole program those are is stated beside them.
-/
import proofs.«169252_j42494406426958_1_alg».proof.Proof.Gen.KernelIdeal.Frame
import proofs.«169252_j42494406426958_1_alg».proof.Proof.LibBlockSum
import Idealize.ShloMosaic.Lib.Pipeline.Value
import Idealize.ShloMosaic.Lib.ValueIdx
import Idealize.ShloMosaic.PureOps.Ideal.Laws
import Idealize.ShloMosaic.Lib.Tactic

noncomputable section

open scoped BigOperators
open Idealize.ShloMosaic Idealize.ShloMosaic.TcCoe Idealize.ShloMosaic.ValueIdx Idealize.ShloMosaic.Tactic
open Idealize.SL.Sem
open Idealize.ShloMosaic.Pipeline (Dat)

namespace Cert.KernelIdeal.RegionCombine

open Cert.KernelIdeal Cert.KernelIdeal.Gen

/-- One entry of the combined tile: row r, lane q. -/
def combAt (x0 x1 : Vec Ideal S5000x64 .f32) (x2 : Vec Ideal S5000x1 .f32) (x3 : Vec Ideal S1x64 .f32)
    (r : Fin 5000) (q : Fin 64) : EReal :=
  x0 (ix2 r q) + x1 (ix2 r q) * x2 (ix2 r (0 : Fin 1)) + x3 (ix2 (0 : Fin 1) q)

theorem bcast_col (x2 : Vec Ideal S5000x1 .f32) (r : Fin 5000) (q : Fin 64) :
    broadcastTo S5000x64 x2 broadcasts_S5000x1_S5000x64 (ix2 r q) = x2 (ix2 r (0 : Fin 1)) :=
  broadcastTo_apply x2 broadcasts_S5000x1_S5000x64 (ix2 r q) (ix2 r (0 : Fin 1)) (fun a => by
    match a with
    | ⟨0, _⟩ => rfl
    | ⟨1, _⟩ => rfl)

theorem bcast_row (x3 : Vec Ideal S1x64 .f32) (r : Fin 5000) (q : Fin 64) :
    broadcastTo S5000x64 x3 broadcasts_S1x64_S5000x64 (ix2 r q) = x3 (ix2 (0 : Fin 1) q) :=
  broadcastTo_apply x3 broadcasts_S1x64_S5000x64 (ix2 r q) (ix2 (0 : Fin 1) q) (fun a => by
    match a with
    | ⟨0, _⟩ => rfl
    | ⟨1, _⟩ => rfl)

theorem pay3_2 (x0 x1 : Vec Ideal S5000x64 .f32) (x2 : Vec Ideal S5000x1 .f32) (x3 : Vec Ideal S1x64 .f32)
    (r : Fin 5000) (q : Fin 64) :
    k2_pay3 (F := Ideal) x0 x1 x2 x3 (ix2 r q) = combAt x0 x1 x2 x3 r q := by
  unfold k2_pay3 combAt
  simp only [shapeCast_self]
  show (x0 (ix2 r q) + x1 (ix2 r q) * broadcastTo S5000x64 x2 broadcasts_S5000x1_S5000x64 (ix2 r q))
      + broadcastTo S5000x64 x3 broadcasts_S1x64_S5000x64 (ix2 r q) = _
  rw [bcast_col, bcast_row]

theorem lift_rows (h : S5000x64.Reduces [0] S64) (q : Fin 64) (r : Fin 5000) :
    h.lift (ix1 q) r = ix2 r q := by
  funext c
  apply Fin.ext
  match c with
  | ⟨0, _⟩ => rfl
  | ⟨1, _⟩ => rfl

/-- The sum over the tile's rows, stored as a one-row block, at lane q. -/
theorem rowsum_apply (src : FVec Ideal S5000x64 .f32) (q : Fin 64) :
    shapeCast S1x64 (multiReduction .add [0] S64 src 0x00000000#32 reduces_S5000x64_S64 (.inl rfl) rfl)
        shapeCasts_S64_S1x64 (ix2 (0 : Fin 1) q)
      = ∑ r : Fin 5000, src (ix2 r q) := by
  refine (shapeCast_apply _ shapeCasts_S64_S1x64 (ix2 (0 : Fin 1) q) (ix1 q) ?_).trans ?_
  · rw [Shape.rowMajor_val_one, Shape.rowMajor_val_two]
    show q.val = 0 * 64 + q.val
    omega
  · refine (Ideal.multiReduction_add_single src 0x00000000#32 reduces_S5000x64_S64 (.inl rfl) rfl (ix1 q)).trans ?_
    exact Finset.sum_congr rfl fun r _ => congrArg src (lift_rows _ q r)

theorem pay4_2 (x0 x1 : Vec Ideal S5000x64 .f32) (x2 : Vec Ideal S5000x1 .f32) (x3 acc : Vec Ideal S1x64 .f32)
    (q : Fin 64) :
    k2_pay4 (F := Ideal) x0 x1 x2 x3 acc (ix2 (0 : Fin 1) q)
      = acc (ix2 (0 : Fin 1) q) + ∑ r : Fin 5000, combAt x0 x1 x2 x3 r q := by
  unfold k2_pay4
  simp only [shapeCast_self]
  refine congrArg (fun z => acc (ix2 (0 : Fin 1) q) + z) ?_
  refine (rowsum_apply _ q).trans ?_
  exact Finset.sum_congr rfl fun r _ => pay3_2 x0 x1 x2 x3 r q

theorem pay5_2 (x0 x1 : Vec Ideal S5000x64 .f32) (x2 : Vec Ideal S5000x1 .f32) (x3 acc : Vec Ideal S1x64 .f32)
    (q : Fin 64) :
    k2_pay5 (F := Ideal) x0 x1 x2 x3 acc (ix2 (0 : Fin 1) q)
      = acc (ix2 (0 : Fin 1) q) + ∑ r : Fin 5000, combAt x0 x1 x2 x3 r q * combAt x0 x1 x2 x3 r q := by
  unfold k2_pay5
  simp only [shapeCast_self]
  refine congrArg (fun z => acc (ix2 (0 : Fin 1) q) + z) ?_
  refine (rowsum_apply _ q).trans ?_
  refine Finset.sum_congr rfl fun r _ => ?_
  show k2_pay3 (F := Ideal) x0 x1 x2 x3 (ix2 r q) * k2_pay3 (F := Ideal) x0 x1 x2 x3 (ix2 r q) = _
  rw [pay3_2]

theorem pay1_2z (q : Fin 64) : k2_pay1 (F := Ideal) (ix2 (0 : Fin 1) q) = 0 := by
  unfold k2_pay1
  exact Ideal.ofBits_zero_f32
theorem pay2_2z (q : Fin 64) : k2_pay2 (F := Ideal) (ix2 (0 : Fin 1) q) = 0 := by
  unfold k2_pay2
  exact Ideal.ofBits_zero_f32

/-- Region 5 runs the same body: its payloads are the same terms. -/
theorem pay3_5 (x0 x1 : Vec Ideal S5000x64 .f32) (x2 : Vec Ideal S5000x1 .f32) (x3 : Vec Ideal S1x64 .f32)
    (r : Fin 5000) (q : Fin 64) :
    k5_pay3 (F := Ideal) x0 x1 x2 x3 (ix2 r q) = combAt x0 x1 x2 x3 r q :=
  pay3_2 x0 x1 x2 x3 r q
theorem pay4_5 (x0 x1 : Vec Ideal S5000x64 .f32) (x2 : Vec Ideal S5000x1 .f32) (x3 acc : Vec Ideal S1x64 .f32)
    (q : Fin 64) :
    k5_pay4 (F := Ideal) x0 x1 x2 x3 acc (ix2 (0 : Fin 1) q)
      = acc (ix2 (0 : Fin 1) q) + ∑ r : Fin 5000, combAt x0 x1 x2 x3 r q :=
  pay4_2 x0 x1 x2 x3 acc q
theorem pay5_5 (x0 x1 : Vec Ideal S5000x64 .f32) (x2 : Vec Ideal S5000x1 .f32) (x3 acc : Vec Ideal S1x64 .f32)
    (q : Fin 64) :
    k5_pay5 (F := Ideal) x0 x1 x2 x3 acc (ix2 (0 : Fin 1) q)
      = acc (ix2 (0 : Fin 1) q) + ∑ r : Fin 5000, combAt x0 x1 x2 x3 r q * combAt x0 x1 x2 x3 r q :=
  pay5_2 x0 x1 x2 x3 acc q
theorem pay1_5z (q : Fin 64) : k5_pay1 (F := Ideal) (ix2 (0 : Fin 1) q) = 0 := pay1_2z q
theorem pay2_5z (q : Fin 64) : k5_pay2 (F := Ideal) (ix2 (0 : Fin 1) q) = 0 := pay2_2z q

theorem hz : (![0, 0] : Fin 2 → Nat) = fun _ => 0 := funext fun a => by fin_cases a <;> rfl

section Pieces
variable {F : FTy → Type} [FloatOps F]

/-! ### Region 2: what each case of the body leaves in each output's staging buffer -/

theorem out2_A_4_eq (c : Dev nD) (i : grid2.Coords) (a1 : Memref sig .tc .vmem S5000x64 .f32) (h1 : a1.IsWhole) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : cond2_0 i) (x0 : Vec F S5000x64 .f32) (x1 : Vec F S5000x64 .f32) (x2 : Vec F S5000x1 .f32) (x3 : Vec F S1x64 .f32) :
    out2_A_4 c i a1 h1 a2 h2 a3 h3 a4 h4 a5 h5 a6 h6 a7 h7 hc x0 x1 x2 x3 = k2_pay3 x0 x1 x2 x3 := by
  unfold out2_A_4
  rw [View.read_writes_eq_canon _ _ _ (cover2_A_4 c i a1 h1 a2 h2 a3 h3 a4 h4 a5 h5 a6 h6 a7 h7 hc x0 x1 x2 x3)]
  unfold kernelRun2_A
  dsimp only
  (try sl_unfold_words)
  rw [View.canon_cons_unit_zero (S := S5000x64) hz]
  simp only [View.readAt_eq_ld, h1.read_unread, h2.read_unread, h3.read_unread, h4.read_unread, h6.read_unread, h7.read_unread,
    View.ld_unit_zero (S := S5000x64) hz, View.ld_unit_zero (S := S5000x1) hz, View.ld_unit_zero (S := S1x64) hz]

theorem out2_A_5_eq (c : Dev nD) (i : grid2.Coords) (a1 : Memref sig .tc .vmem S5000x64 .f32) (h1 : a1.IsWhole) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : cond2_0 i) (x0 : Vec F S5000x64 .f32) (x1 : Vec F S5000x64 .f32) (x2 : Vec F S5000x1 .f32) (x3 : Vec F S1x64 .f32) :
    out2_A_5 c i a1 h1 a2 h2 a3 h3 a4 h4 a5 h5 a6 h6 a7 h7 hc x0 x1 x2 x3 = k2_pay4 x0 x1 x2 x3 k2_pay1 := by
  unfold out2_A_5
  rw [View.read_writes_eq_canon _ _ _ (cover2_A_5 c i a1 h1 a2 h2 a3 h3 a4 h4 a5 h5 a6 h6 a7 h7 hc x0 x1 x2 x3)]
  unfold kernelRun2_A
  dsimp only
  (try sl_unfold_words)
  rw [View.canon_cons_unit_zero (S := S1x64) hz]
  rw [View.readCov_unit_zero (S := S1x64) _ hz]
  simp only [View.readAt_eq_ld, h1.read_unread, h2.read_unread, h3.read_unread, h4.read_unread, h6.read_unread, h7.read_unread,
    View.ld_unit_zero (S := S5000x64) hz, View.ld_unit_zero (S := S5000x1) hz, View.ld_unit_zero (S := S1x64) hz]

theorem out2_A_6_eq (c : Dev nD) (i : grid2.Coords) (a1 : Memref sig .tc .vmem S5000x64 .f32) (h1 : a1.IsWhole) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : cond2_0 i) (x0 : Vec F S5000x64 .f32) (x1 : Vec F S5000x64 .f32) (x2 : Vec F S5000x1 .f32) (x3 : Vec F S1x64 .f32) :
    out2_A_6 c i a1 h1 a2 h2 a3 h3 a4 h4 a5 h5 a6 h6 a7 h7 hc x0 x1 x2 x3 = k2_pay5 x0 x1 x2 x3 k2_pay2 := by
  unfold out2_A_6
  rw [View.read_writes_eq_canon _ _ _ (cover2_A_6 c i a1 h1 a2 h2 a3 h3 a4 h4 a5 h5 a6 h6 a7 h7 hc x0 x1 x2 x3)]
  unfold kernelRun2_A
  dsimp only
  (try sl_unfold_words)
  rw [View.canon_cons_unit_zero (S := S1x64) hz]
  rw [View.readCov_unit_zero (S := S1x64) _ hz]
  simp only [View.readAt_eq_ld, h1.read_unread, h2.read_unread, h3.read_unread, h4.read_unread, h6.read_unread, h7.read_unread,
    View.ld_unit_zero (S := S5000x64) hz, View.ld_unit_zero (S := S5000x1) hz, View.ld_unit_zero (S := S1x64) hz]

theorem out2_B_4_eq (c : Dev nD) (i : grid2.Coords) (a1 : Memref sig .tc .vmem S5000x64 .f32) (h1 : a1.IsWhole) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : ¬cond2_0 i) (x0 : Vec F S5000x64 .f32) (x1 : Vec F S5000x64 .f32) (x2 : Vec F S5000x1 .f32) (x3 : Vec F S1x64 .f32) (xo5 : Vec F S1x64 .f32) (xo6 : Vec F S1x64 .f32) :
    out2_B_4 c i a1 h1 a2 h2 a3 h3 a4 h4 a5 h5 a6 h6 a7 h7 hc x0 x1 x2 x3 xo5 xo6 = k2_pay3 x0 x1 x2 x3 := by
  unfold out2_B_4
  rw [View.read_writes_eq_canon _ _ _ (cover2_B_4 c i a1 h1 a2 h2 a3 h3 a4 h4 a5 h5 a6 h6 a7 h7 hc x0 x1 x2 x3 xo5 xo6)]
  unfold kernelRun2_B
  dsimp only
  (try sl_unfold_words)
  rw [View.canon_cons_unit_zero (S := S5000x64) hz]
  simp only [View.readAt_eq_ld, h1.read_unread, h2.read_unread, h3.read_unread, h4.read_unread, h6.read_unread, h7.read_unread,
    View.ld_unit_zero (S := S5000x64) hz, View.ld_unit_zero (S := S5000x1) hz, View.ld_unit_zero (S := S1x64) hz]

theorem out2_B_5_eq (c : Dev nD) (i : grid2.Coords) (a1 : Memref sig .tc .vmem S5000x64 .f32) (h1 : a1.IsWhole) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : ¬cond2_0 i) (x0 : Vec F S5000x64 .f32) (x1 : Vec F S5000x64 .f32) (x2 : Vec F S5000x1 .f32) (x3 : Vec F S1x64 .f32) (xo5 : Vec F S1x64 .f32) (xo6 : Vec F S1x64 .f32) :
    out2_B_5 c i a1 h1 a2 h2 a3 h3 a4 h4 a5 h5 a6 h6 a7 h7 hc x0 x1 x2 x3 xo5 xo6 = k2_pay4 x0 x1 x2 x3 xo5 := by
  unfold out2_B_5
  rw [View.read_writes_eq_canon _ _ _ (cover2_B_5 c i a1 h1 a2 h2 a3 h3 a4 h4 a5 h5 a6 h6 a7 h7 hc x0 x1 x2 x3 xo5 xo6)]
  unfold kernelRun2_B
  dsimp only
  (try sl_unfold_words)
  rw [View.canon_cons_unit_zero (S := S1x64) hz]
  simp only [View.readAt_eq_ld, h1.read_unread, h2.read_unread, h3.read_unread, h4.read_unread, h6.read_unread, h7.read_unread,
    View.ld_unit_zero (S := S5000x64) hz, View.ld_unit_zero (S := S5000x1) hz, View.ld_unit_zero (S := S1x64) hz]

theorem out2_B_6_eq (c : Dev nD) (i : grid2.Coords) (a1 : Memref sig .tc .vmem S5000x64 .f32) (h1 : a1.IsWhole) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : ¬cond2_0 i) (x0 : Vec F S5000x64 .f32) (x1 : Vec F S5000x64 .f32) (x2 : Vec F S5000x1 .f32) (x3 : Vec F S1x64 .f32) (xo5 : Vec F S1x64 .f32) (xo6 : Vec F S1x64 .f32) :
    out2_B_6 c i a1 h1 a2 h2 a3 h3 a4 h4 a5 h5 a6 h6 a7 h7 hc x0 x1 x2 x3 xo5 xo6 = k2_pay5 x0 x1 x2 x3 xo6 := by
  unfold out2_B_6
  rw [View.read_writes_eq_canon _ _ _ (cover2_B_6 c i a1 h1 a2 h2 a3 h3 a4 h4 a5 h5 a6 h6 a7 h7 hc x0 x1 x2 x3 xo5 xo6)]
  unfold kernelRun2_B
  dsimp only
  (try sl_unfold_words)
  rw [View.canon_cons_unit_zero (S := S1x64) hz]
  simp only [View.readAt_eq_ld, h1.read_unread, h2.read_unread, h3.read_unread, h4.read_unread, h6.read_unread, h7.read_unread,
    View.ld_unit_zero (S := S5000x64) hz, View.ld_unit_zero (S := S5000x1) hz, View.ld_unit_zero (S := S1x64) hz]

/-! ### Region 5: what each case of the body leaves in each output's staging buffer -/

theorem out5_A_4_eq (c : Dev nD) (i : grid5.Coords) (a1 : Memref sig .tc .vmem S5000x64 .f32) (h1 : a1.IsWhole) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : cond5_0 i) (x0 : Vec F S5000x64 .f32) (x1 : Vec F S5000x64 .f32) (x2 : Vec F S5000x1 .f32) (x3 : Vec F S1x64 .f32) :
    out5_A_4 c i a1 h1 a2 h2 a3 h3 a4 h4 a5 h5 a6 h6 a7 h7 hc x0 x1 x2 x3 = k5_pay3 x0 x1 x2 x3 := by
  unfold out5_A_4
  rw [View.read_writes_eq_canon _ _ _ (cover5_A_4 c i a1 h1 a2 h2 a3 h3 a4 h4 a5 h5 a6 h6 a7 h7 hc x0 x1 x2 x3)]
  unfold kernelRun5_A
  dsimp only
  (try sl_unfold_words)
  rw [View.canon_cons_unit_zero (S := S5000x64) hz]
  simp only [View.readAt_eq_ld, h1.read_unread, h2.read_unread, h3.read_unread, h4.read_unread, h6.read_unread, h7.read_unread,
    View.ld_unit_zero (S := S5000x64) hz, View.ld_unit_zero (S := S5000x1) hz, View.ld_unit_zero (S := S1x64) hz]

theorem out5_A_5_eq (c : Dev nD) (i : grid5.Coords) (a1 : Memref sig .tc .vmem S5000x64 .f32) (h1 : a1.IsWhole) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : cond5_0 i) (x0 : Vec F S5000x64 .f32) (x1 : Vec F S5000x64 .f32) (x2 : Vec F S5000x1 .f32) (x3 : Vec F S1x64 .f32) :
    out5_A_5 c i a1 h1 a2 h2 a3 h3 a4 h4 a5 h5 a6 h6 a7 h7 hc x0 x1 x2 x3 = k5_pay4 x0 x1 x2 x3 k5_pay1 := by
  unfold out5_A_5
  rw [View.read_writes_eq_canon _ _ _ (cover5_A_5 c i a1 h1 a2 h2 a3 h3 a4 h4 a5 h5 a6 h6 a7 h7 hc x0 x1 x2 x3)]
  unfold kernelRun5_A
  dsimp only
  (try sl_unfold_words)
  rw [View.canon_cons_unit_zero (S := S1x64) hz]
  rw [View.readCov_unit_zero (S := S1x64) _ hz]
  simp only [View.readAt_eq_ld, h1.read_unread, h2.read_unread, h3.read_unread, h4.read_unread, h6.read_unread, h7.read_unread,
    View.ld_unit_zero (S := S5000x64) hz, View.ld_unit_zero (S := S5000x1) hz, View.ld_unit_zero (S := S1x64) hz]

theorem out5_A_6_eq (c : Dev nD) (i : grid5.Coords) (a1 : Memref sig .tc .vmem S5000x64 .f32) (h1 : a1.IsWhole) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : cond5_0 i) (x0 : Vec F S5000x64 .f32) (x1 : Vec F S5000x64 .f32) (x2 : Vec F S5000x1 .f32) (x3 : Vec F S1x64 .f32) :
    out5_A_6 c i a1 h1 a2 h2 a3 h3 a4 h4 a5 h5 a6 h6 a7 h7 hc x0 x1 x2 x3 = k5_pay5 x0 x1 x2 x3 k5_pay2 := by
  unfold out5_A_6
  rw [View.read_writes_eq_canon _ _ _ (cover5_A_6 c i a1 h1 a2 h2 a3 h3 a4 h4 a5 h5 a6 h6 a7 h7 hc x0 x1 x2 x3)]
  unfold kernelRun5_A
  dsimp only
  (try sl_unfold_words)
  rw [View.canon_cons_unit_zero (S := S1x64) hz]
  rw [View.readCov_unit_zero (S := S1x64) _ hz]
  simp only [View.readAt_eq_ld, h1.read_unread, h2.read_unread, h3.read_unread, h4.read_unread, h6.read_unread, h7.read_unread,
    View.ld_unit_zero (S := S5000x64) hz, View.ld_unit_zero (S := S5000x1) hz, View.ld_unit_zero (S := S1x64) hz]

theorem out5_B_4_eq (c : Dev nD) (i : grid5.Coords) (a1 : Memref sig .tc .vmem S5000x64 .f32) (h1 : a1.IsWhole) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : ¬cond5_0 i) (x0 : Vec F S5000x64 .f32) (x1 : Vec F S5000x64 .f32) (x2 : Vec F S5000x1 .f32) (x3 : Vec F S1x64 .f32) (xo5 : Vec F S1x64 .f32) (xo6 : Vec F S1x64 .f32) :
    out5_B_4 c i a1 h1 a2 h2 a3 h3 a4 h4 a5 h5 a6 h6 a7 h7 hc x0 x1 x2 x3 xo5 xo6 = k5_pay3 x0 x1 x2 x3 := by
  unfold out5_B_4
  rw [View.read_writes_eq_canon _ _ _ (cover5_B_4 c i a1 h1 a2 h2 a3 h3 a4 h4 a5 h5 a6 h6 a7 h7 hc x0 x1 x2 x3 xo5 xo6)]
  unfold kernelRun5_B
  dsimp only
  (try sl_unfold_words)
  rw [View.canon_cons_unit_zero (S := S5000x64) hz]
  simp only [View.readAt_eq_ld, h1.read_unread, h2.read_unread, h3.read_unread, h4.read_unread, h6.read_unread, h7.read_unread,
    View.ld_unit_zero (S := S5000x64) hz, View.ld_unit_zero (S := S5000x1) hz, View.ld_unit_zero (S := S1x64) hz]

theorem out5_B_5_eq (c : Dev nD) (i : grid5.Coords) (a1 : Memref sig .tc .vmem S5000x64 .f32) (h1 : a1.IsWhole) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : ¬cond5_0 i) (x0 : Vec F S5000x64 .f32) (x1 : Vec F S5000x64 .f32) (x2 : Vec F S5000x1 .f32) (x3 : Vec F S1x64 .f32) (xo5 : Vec F S1x64 .f32) (xo6 : Vec F S1x64 .f32) :
    out5_B_5 c i a1 h1 a2 h2 a3 h3 a4 h4 a5 h5 a6 h6 a7 h7 hc x0 x1 x2 x3 xo5 xo6 = k5_pay4 x0 x1 x2 x3 xo5 := by
  unfold out5_B_5
  rw [View.read_writes_eq_canon _ _ _ (cover5_B_5 c i a1 h1 a2 h2 a3 h3 a4 h4 a5 h5 a6 h6 a7 h7 hc x0 x1 x2 x3 xo5 xo6)]
  unfold kernelRun5_B
  dsimp only
  (try sl_unfold_words)
  rw [View.canon_cons_unit_zero (S := S1x64) hz]
  simp only [View.readAt_eq_ld, h1.read_unread, h2.read_unread, h3.read_unread, h4.read_unread, h6.read_unread, h7.read_unread,
    View.ld_unit_zero (S := S5000x64) hz, View.ld_unit_zero (S := S5000x1) hz, View.ld_unit_zero (S := S1x64) hz]

theorem out5_B_6_eq (c : Dev nD) (i : grid5.Coords) (a1 : Memref sig .tc .vmem S5000x64 .f32) (h1 : a1.IsWhole) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : ¬cond5_0 i) (x0 : Vec F S5000x64 .f32) (x1 : Vec F S5000x64 .f32) (x2 : Vec F S5000x1 .f32) (x3 : Vec F S1x64 .f32) (xo5 : Vec F S1x64 .f32) (xo6 : Vec F S1x64 .f32) :
    out5_B_6 c i a1 h1 a2 h2 a3 h3 a4 h4 a5 h5 a6 h6 a7 h7 hc x0 x1 x2 x3 xo5 xo6 = k5_pay5 x0 x1 x2 x3 xo6 := by
  unfold out5_B_6
  rw [View.read_writes_eq_canon _ _ _ (cover5_B_6 c i a1 h1 a2 h2 a3 h3 a4 h4 a5 h5 a6 h6 a7 h7 hc x0 x1 x2 x3 xo5 xo6)]
  unfold kernelRun5_B
  dsimp only
  (try sl_unfold_words)
  rw [View.canon_cons_unit_zero (S := S1x64) hz]
  simp only [View.readAt_eq_ld, h1.read_unread, h2.read_unread, h3.read_unread, h4.read_unread, h6.read_unread, h7.read_unread,
    View.ld_unit_zero (S := S5000x64) hz, View.ld_unit_zero (S := S5000x1) hz, View.ld_unit_zero (S := S1x64) hz]

end Pieces

/-! ## The whole arrays: rows cut into twenty tiles of 5000 -/

/-- The combined array's entry at row i, lane q, from the four operand arrays: the aggregate, the transformed
    features scaled by the row's factor, and the bias row. -/
def cmb (A X : S100000x64.Idx → EReal) (D : S100000x1.Idx → EReal) (B : S1x64.Idx → EReal)
    (i : Fin 100000) (q : Fin 64) : EReal :=
  A (ix2 i q) + X (ix2 i q) * D (ix2 i (0 : Fin 1)) + B (ix2 (0 : Fin 1) q)

/-- The combined array as one function of its index. -/
def cmbArr (A X : S100000x64.Idx → EReal) (D : S100000x1.Idx → EReal) (B : S1x64.Idx → EReal) :
    S100000x64.Idx → EReal :=
  fun j => cmb A X D B ⟨(j 0).val, idx2_lt0 j⟩ ⟨(j 1).val, idx2_lt1 j⟩

/-- A one-row block holding, at each lane, the sum over all rows of a function of row and lane. -/
def colSums (f : Fin 100000 → Fin 64 → EReal) : S1x64.Idx → EReal :=
  fun j => ∑ i : Fin 100000, f i ⟨(j 1).val, idx2_lt1 j⟩

theorem colSums_apply (f : Fin 100000 → Fin 64 → EReal) (q : Fin 64) :
    colSums f (ix2 (0 : Fin 1) q) = ∑ i : Fin 100000, f i q := by
  unfold colSums
  exact Finset.sum_congr rfl fun i _ => congrArg (f i) (Fin.ext rfl)

theorem cmbArr_apply (A X : S100000x64.Idx → EReal) (D : S100000x1.Idx → EReal) (B : S1x64.Idx → EReal)
    (i : Fin 100000) (q : Fin 64) : cmbArr A X D B (ix2 i q) = cmb A X D B i q := rfl

/-- A function of the row, as a function of the row's number (zero past the last row). -/
def rowN (f : Fin 100000 → EReal) (i : ℕ) : EReal := if h : i < 100000 then f ⟨i, h⟩ else 0

theorem rowN_of_lt (f : Fin 100000 → EReal) (i : ℕ) (h : i < 100000) : rowN f i = f ⟨i, h⟩ := dif_pos h

/-- The sums of the twenty tiles add up to the sum over all rows. -/
theorem sum_tiles (f : Fin 100000 → EReal) :
    ∑ s ∈ Finset.range 20, ∑ r : Fin 5000, rowN f (s * 5000 + r.val) = ∑ i : Fin 100000, f i := by
  rw [Cert.LibBlockSum.sum_range_eq_fin, ← Cert.LibBlockSum.sum_blocks_nat 20 5000 (rowN f)]
  show ∑ i : Fin 100000, rowN f i.val = _
  exact Finset.sum_congr rfl fun i _ => rowN_of_lt f i.val i.isLt

/-- A running total that starts at zero plus the first term and then takes one more term per step holds, after
    step n, the sum of the terms 0, …, n. -/
theorem running_total {N : ℕ} (a : (n : ℕ) → n < N → EReal) (g : ℕ → EReal)
    (h0 : ∀ h, a 0 h = 0 + g 0)
    (hs : ∀ n (h : n + 1 < N), a (n + 1) h = a n (Nat.lt_of_succ_lt h) + g (n + 1)) :
    ∀ n (h : n < N), a n h = ∑ s ∈ Finset.range (n + 1), g s
  | 0, h => by rw [h0, Finset.sum_range_one, zero_add]
  | n + 1, h => by rw [hs n h, running_total a g h0 hs n, Finset.sum_range_succ _ (n + 1)]

/-! ## Region 2 -/

section Region2
variable (V : (c : Dev nD) → (b : Ref sig .tc) → Buf (Elt Ideal) ((c : Thread nD τ).loc b)) (c : Dev nD)

/-- Which array of the whole program each of the seven windows moves. -/
theorem arr2_0 : Pipeline.arrRef spec2 0 = main_v45 := rfl
theorem arr2_1 : Pipeline.arrRef spec2 1 = main_v32 := rfl
theorem arr2_2 : Pipeline.arrRef spec2 2 = main_v27 := rfl
theorem arr2_3 : Pipeline.arrRef spec2 3 = main_v46 := rfl
theorem arr2_4 : Pipeline.arrRef spec2 4 = main_v47_0 := rfl
theorem arr2_5 : Pipeline.arrRef spec2 5 = main_v47_1 := rfl
theorem arr2_6 : Pipeline.arrRef spec2 6 = main_v47_2 := rfl

/-- The windows' block indices at every point: the row windows sit at row block t, the one-row windows stay. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

/-- Row r of tile t is a row of the array. -/
theorem row_lt2 (t : Fin cfg2.N) (r : Fin 5000) : t.val * 5000 + r.val < 100000 := by
  have hN : t.val < 20 := lt_of_lt_of_eq t.isLt (show cfg2.N = 20 from N_2)
  have := r.isLt
  omega

theorem emb2_0 (t : Fin cfg2.N) (r : Fin 5000) (q : Fin 64) :
    ((cfg2.win 0).blk t).view.emb (ix2 r q) = (ix2 (⟨t.val * 5000 + r.val, row_lt2 t r⟩ : Fin 100000) q : S100000x64.Idx) := by
  obtain ⟨e00, e01, e10, e11, e20, e21, e30, e31, e40, e41, -⟩ := idx2 t
  refine funext fun a => Fin.ext ?_
  match a with
  | ⟨0, _⟩ => show win2_0.index t (0 : Fin 2) * 5000 + 1 * r.val = t.val * 5000 + r.val; rw [e00]; omega
  | ⟨1, _⟩ => show win2_0.index t (1 : Fin 2) * 64 + 1 * q.val = q.val; rw [e01]; omega

theorem emb2_1 (t : Fin cfg2.N) (r : Fin 5000) (q : Fin 64) :
    ((cfg2.win 1).blk t).view.emb (ix2 r q) = (ix2 (⟨t.val * 5000 + r.val, row_lt2 t r⟩ : Fin 100000) q : S100000x64.Idx) := by
  obtain ⟨e00, e01, e10, e11, e20, e21, e30, e31, e40, e41, -⟩ := idx2 t
  refine funext fun a => Fin.ext ?_
  match a with
  | ⟨0, _⟩ => show win2_1.index t (0 : Fin 2) * 5000 + 1 * r.val = t.val * 5000 + r.val; rw [e10]; omega
  | ⟨1, _⟩ => show win2_1.index t (1 : Fin 2) * 64 + 1 * q.val = q.val; rw [e11]; omega

theorem emb2_2 (t : Fin cfg2.N) (r : Fin 5000) (q : Fin 1) :
    ((cfg2.win 2).blk t).view.emb (ix2 r q) = (ix2 (⟨t.val * 5000 + r.val, row_lt2 t r⟩ : Fin 100000) q : S100000x1.Idx) := by
  obtain ⟨e00, e01, e10, e11, e20, e21, e30, e31, e40, e41, -⟩ := idx2 t
  refine funext fun a => Fin.ext ?_
  match a with
  | ⟨0, _⟩ => show win2_2.index t (0 : Fin 2) * 5000 + 1 * r.val = t.val * 5000 + r.val; rw [e20]; omega
  | ⟨1, _⟩ => show win2_2.index t (1 : Fin 2) * 1 + 1 * q.val = q.val; rw [e21]; omega

theorem emb2_4 (t : Fin cfg2.N) (r : Fin 5000) (q : Fin 64) :
    ((cfg2.win 4).blk t).view.emb (ix2 r q) = (ix2 (⟨t.val * 5000 + r.val, row_lt2 t r⟩ : Fin 100000) q : S100000x64.Idx) := by
  obtain ⟨e00, e01, e10, e11, e20, e21, e30, e31, e40, e41, -⟩ := idx2 t
  refine funext fun a => Fin.ext ?_
  match a with
  | ⟨0, _⟩ => show win2_4.index t (0 : Fin 2) * 5000 + 1 * r.val = t.val * 5000 + r.val; rw [e40]; omega
  | ⟨1, _⟩ => show win2_4.index t (1 : Fin 2) * 64 + 1 * q.val = q.val; rw [e41]; omega

theorem emb2_3 (t : Fin cfg2.N) (q : Fin 64) :
    ((cfg2.win 3).blk t).view.emb (ix2 (0 : Fin 1) q) = (ix2 (0 : Fin 1) q : S1x64.Idx) := by
  obtain ⟨-, -, -, -, -, -, e30, e31, -⟩ := idx2 t
  refine funext fun a => Fin.ext ?_
  match a with
  | ⟨0, _⟩ => show win2_3.index t (0 : Fin 2) * 1 + 1 * 0 = 0; rw [e30]
  | ⟨1, _⟩ => show win2_3.index t (1 : Fin 2) * 64 + 1 * q.val = q.val; rw [e31]; omega

theorem blk2_0_apply (t : Fin cfg2.N) (r : Fin 5000) (q : Fin 64) :
    (iblk2 V c 0 t : Vec Ideal S5000x64 .f32) (ix2 r q)
      = V c (Pipeline.arrRef spec2 0) (ix2 (⟨t.val * 5000 + r.val, row_lt2 t r⟩ : Fin 100000) q) := by
  unfold iblk2
  rw [View.read_apply, emb2_0 t r q]
  rfl

theorem blk2_1_apply (t : Fin cfg2.N) (r : Fin 5000) (q : Fin 64) :
    (iblk2 V c 1 t : Vec Ideal S5000x64 .f32) (ix2 r q)
      = V c (Pipeline.arrRef spec2 1) (ix2 (⟨t.val * 5000 + r.val, row_lt2 t r⟩ : Fin 100000) q) := by
  unfold iblk2
  rw [View.read_apply, emb2_1 t r q]
  rfl

theorem blk2_2_apply (t : Fin cfg2.N) (r : Fin 5000) (q : Fin 1) :
    (iblk2 V c 2 t : Vec Ideal S5000x1 .f32) (ix2 r q)
      = V c (Pipeline.arrRef spec2 2) (ix2 (⟨t.val * 5000 + r.val, row_lt2 t r⟩ : Fin 100000) q) := by
  unfold iblk2
  rw [View.read_apply, emb2_2 t r q]
  rfl

theorem blk2_3_apply (t : Fin cfg2.N) (q : Fin 64) :
    (iblk2 V c 3 t : Vec Ideal S1x64 .f32) (ix2 (0 : Fin 1) q)
      = V c (Pipeline.arrRef spec2 3) (ix2 (0 : Fin 1) q) := by
  unfold iblk2
  rw [View.read_apply, emb2_3 t q]
  rfl

/-- An entry of the combined tile of point t is the combined array's entry at row 5000·t + r. -/
theorem tile2_entry (t : Fin cfg2.N) (r : Fin 5000) (q : Fin 64) :
    combAt (iblk2 V c 0 t) (iblk2 V c 1 t) (iblk2 V c 2 t) (iblk2 V c 3 t) r q
      = cmb (V c (Pipeline.arrRef spec2 0)) (V c (Pipeline.arrRef spec2 1)) (V c (Pipeline.arrRef spec2 2)) (V c (Pipeline.arrRef spec2 3)) ⟨t.val * 5000 + r.val, row_lt2 t r⟩ q := by
  unfold combAt cmb
  rw [blk2_0_apply V c t r q, blk2_1_apply V c t r q, blk2_2_apply V c t r (0 : Fin 1), blk2_3_apply V c t q]

/-- Block t of any array of the combined array's shape, at row r, is that array at row 5000·t + r. -/
theorem read2_4 (t : Fin cfg2.N) (G : S100000x64.Idx → EReal) (r : Fin 5000) (q : Fin 64) :
    ((cfg2.win 4).blk t).view.read (Elt Ideal) G (ix2 r q)
      = G (ix2 (⟨t.val * 5000 + r.val, row_lt2 t r⟩ : Fin 100000) q) := by
  rw [View.read_apply, emb2_4 t r q]
  rfl

/-- What point t writes back to the combined array is its block of the combined array. -/
theorem flushed2_4 (t : Fin cfg2.N) :
    (dat2 V c).flushed 4 t = ((cfg2.win 4).blk t).view.read (Elt Ideal) (cmbArr (V c (Pipeline.arrRef spec2 0)) (V c (Pipeline.arrRef spec2 1)) (V c (Pipeline.arrRef spec2 2)) (V c (Pipeline.arrRef spec2 3))) := by
  show (cfg2.win 4).cut (grid2.coords t) ((dat2 V c).after 4 t) = _
  rw [after2_4]
  refine funext fun (j : S5000x64.Idx) => ?_
  obtain ⟨r, q, rfl⟩ : ∃ (r : Fin 5000) (q : Fin 64), j = ix2 r q := ⟨j 0, j 1, eq_ix2 j⟩
  refine Eq.trans ?_ ((read2_4 t _ r q).trans (cmbArr_apply _ _ _ _ _ q)).symm
  show (outsAt2 V c t.val t.isLt).1 (ix2 r q) = cmb (V c (Pipeline.arrRef spec2 0)) (V c (Pipeline.arrRef spec2 1)) (V c (Pipeline.arrRef spec2 2)) (V c (Pipeline.arrRef spec2 3)) ⟨t.val * 5000 + r.val, row_lt2 t r⟩ q
  by_cases h0 : t.val % 20 = 0
  · rw [outsAt2_A V c t h0]
    dsimp only
    refine (congrFun (out2_A_4_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (iblk2 V c 0 t) (iblk2 V c 1 t) (iblk2 V c 2 t) (iblk2 V c 3 t)) (ix2 r q)).trans ?_
    exact (pay3_2 (iblk2 V c 0 t) (iblk2 V c 1 t) (iblk2 V c 2 t) (iblk2 V c 3 t) r q).trans (tile2_entry V c t r q)
  · rw [outsAt2_B V c t h0]
    dsimp only
    refine (congrFun (out2_B_4_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2) (ix2 r q)).trans ?_
    exact (pay3_2 (iblk2 V c 0 t) (iblk2 V c 1 t) (iblk2 V c 2 t) (iblk2 V c 3 t) r q).trans (tile2_entry V c t r q)

/-- Every row of the combined array is in the block of the point that handles its tile. -/
theorem cover2_4 (i : ((cfg2.win 4).arr.view.loc (c.tc : Thread nD τ)).2.ty.Idx) :
    ∃ t : Fin cfg2.N, (cfg2.win 4).flush t = true ∧ i ∈ ((cfg2.win 4).blk t).view.set := by
  have i0 : (i 0 : Nat) < 100000 := (i 0).isLt
  have i1 : (i 1 : Nat) < 64 := (i 1).isLt
  have ht : (i 0 : Nat) / 5000 < cfg2.N := by rw [show cfg2.N = 20 from N_2]; omega
  refine ⟨⟨(i 0 : Nat) / 5000, ht⟩, flush2_4 _, ?_⟩
  obtain ⟨-, -, -, -, -, -, -, -, e40, e41, -⟩ := idx2 ⟨(i 0 : Nat) / 5000, ht⟩
  show i ∈ ((View.whole main_v47_0).slice (win2_4.rect ⟨(i 0 : Nat) / 5000, ht⟩)).set
  rw [View.set_slice_whole, Rect.mem_set_unit]
  intro a
  match a with
  | ⟨0, _⟩ =>
    show win2_4.index ⟨(i 0 : Nat) / 5000, ht⟩ (0 : Fin 2) * 5000 ≤ (i 0 : Nat) ∧ (i 0 : Nat) < win2_4.index ⟨(i 0 : Nat) / 5000, ht⟩ (0 : Fin 2) * 5000 + 5000
    rw [show win2_4.index ⟨(i 0 : Nat) / 5000, ht⟩ (0 : Fin 2) = (i 0 : Nat) / 5000 from e40]; omega
  | ⟨1, _⟩ =>
    show win2_4.index ⟨(i 0 : Nat) / 5000, ht⟩ (1 : Fin 2) * 64 ≤ (i 1 : Nat) ∧ (i 1 : Nat) < win2_4.index ⟨(i 0 : Nat) / 5000, ht⟩ (1 : Fin 2) * 64 + 64
    rw [e41]; omega

/-- So the combined array ends holding the combination, entry by entry. -/
theorem final2_4 : (dat2 V c).arrAt 4 cfg2.N = cmbArr (V c (Pipeline.arrRef spec2 0)) (V c (Pipeline.arrRef spec2 1)) (V c (Pipeline.arrRef spec2 2)) (V c (Pipeline.arrRef spec2 3)) :=
  (dat2 V c).arrAt_eq_of_cover 4 _ (fun t _ => flushed2_4 V c t) (cover2_4 c)

/-- The tile of point t contributes, at lane q, the sum over its 5000 rows. -/
theorem tile2_5 (t : Fin cfg2.N) (q : Fin 64) :
    ∑ r : Fin 5000, combAt (iblk2 V c 0 t) (iblk2 V c 1 t) (iblk2 V c 2 t) (iblk2 V c 3 t) r q
      = ∑ r : Fin 5000, rowN (fun i => cmb (V c (Pipeline.arrRef spec2 0)) (V c (Pipeline.arrRef spec2 1)) (V c (Pipeline.arrRef spec2 2)) (V c (Pipeline.arrRef spec2 3)) i q) (t.val * 5000 + r.val) :=
  Finset.sum_congr rfl fun r _ => by
    rw [tile2_entry V c t r q, rowN_of_lt _ _ (row_lt2 t r)]

/-- At the first point the block is zeroed and then takes the first tile's sums. -/
theorem acc2_5_first (t : Fin cfg2.N) (h0 : t.val % 20 = 0) (q : Fin 64) :
    (outsAt2 V c t.val t.isLt).2.1 (ix2 (0 : Fin 1) q)
      = 0 + ∑ r : Fin 5000, rowN (fun i => cmb (V c (Pipeline.arrRef spec2 0)) (V c (Pipeline.arrRef spec2 1)) (V c (Pipeline.arrRef spec2 2)) (V c (Pipeline.arrRef spec2 3)) i q) (t.val * 5000 + r.val) := by
  rw [outsAt2_A V c t h0]
  dsimp only
  refine (congrFun (out2_A_5_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (iblk2 V c 0 t) (iblk2 V c 1 t) (iblk2 V c 2 t) (iblk2 V c 3 t)) (ix2 (0 : Fin 1) q)).trans ?_
  refine (pay4_2 (iblk2 V c 0 t) (iblk2 V c 1 t) (iblk2 V c 2 t) (iblk2 V c 3 t) (k2_pay1 (F := Ideal)) q).trans ?_
  rw [pay1_2z q, tile2_5 V c t q]

/-- At every later point it takes that point's tile's sums on top of what the point before left. -/
theorem acc2_5_next (t : Fin cfg2.N) (h0 : ¬t.val % 20 = 0) (q : Fin 64) :
    (outsAt2 V c t.val t.isLt).2.1 (ix2 (0 : Fin 1) q)
      = (outsAt2 V c (t.val - 1) (Nat.lt_of_le_of_lt (Nat.sub_le _ _) t.isLt)).2.1 (ix2 (0 : Fin 1) q)
        + ∑ r : Fin 5000, rowN (fun i => cmb (V c (Pipeline.arrRef spec2 0)) (V c (Pipeline.arrRef spec2 1)) (V c (Pipeline.arrRef spec2 2)) (V c (Pipeline.arrRef spec2 3)) i q) (t.val * 5000 + r.val) := by
  rw [outsAt2_B V c t h0]
  dsimp only
  refine (congrFun (out2_B_5_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2) (ix2 (0 : Fin 1) q)).trans ?_
  refine (pay4_2 (iblk2 V c 0 t) (iblk2 V c 1 t) (iblk2 V c 2 t) (iblk2 V c 3 t) (outsAt2 V c (t.val - 1) (Nat.lt_of_le_of_lt (Nat.sub_le _ _) t.isLt)).2.1 q).trans ?_
  rw [tile2_5 V c t q]

/-- So after point n the block holds, at lane q, the sum over the rows of the tiles 0, …, n. -/
theorem acc2_5 (q : Fin 64) (n : ℕ) (h : n < cfg2.N) :
    (outsAt2 V c n h).2.1 (ix2 (0 : Fin 1) q)
      = ∑ s ∈ Finset.range (n + 1), ∑ r : Fin 5000, rowN (fun i => cmb (V c (Pipeline.arrRef spec2 0)) (V c (Pipeline.arrRef spec2 1)) (V c (Pipeline.arrRef spec2 2)) (V c (Pipeline.arrRef spec2 3)) i q) (s * 5000 + r.val) := by
  have hN : cfg2.N = 20 := N_2
  refine running_total (fun n h => (outsAt2 V c n h).2.1 (ix2 (0 : Fin 1) q))
    (fun s => ∑ r : Fin 5000, rowN (fun i => cmb (V c (Pipeline.arrRef spec2 0)) (V c (Pipeline.arrRef spec2 1)) (V c (Pipeline.arrRef spec2 2)) (V c (Pipeline.arrRef spec2 3)) i q) (s * 5000 + r.val)) ?_ ?_ n h
  · intro h
    exact acc2_5_first V c ⟨0, h⟩ (Nat.zero_mod _) q
  · intro n h
    have h' : n + 1 < 20 := lt_of_lt_of_eq h hN
    exact acc2_5_next V c ⟨n + 1, h⟩ (by dsimp only; omega) q

/-- Its block read off any one-row array is that array. -/
theorem read2_5 (t : Fin cfg2.N) (G : S1x64.Idx → EReal) (q : Fin 64) :
    ((cfg2.win 5).blk t).view.read (Elt Ideal) G (ix2 (0 : Fin 1) q) = G (ix2 (0 : Fin 1) q) := by
  have he : ((cfg2.win 5).blk t).view.emb (ix2 (0 : Fin 1) q) = (ix2 (0 : Fin 1) q : S1x64.Idx) := by
    obtain ⟨-, -, -, -, -, -, -, -, -, -, e50, e51, e60, e61⟩ := idx2 t
    refine funext fun a => Fin.ext ?_
    match a with
    | ⟨0, _⟩ => show win2_5.index t (0 : Fin 2) * 1 + 1 * 0 = 0; rw [e50]
    | ⟨1, _⟩ => show win2_5.index t (1 : Fin 2) * 64 + 1 * q.val = q.val; rw [e51]; omega
  rw [View.read_apply, he]
  rfl

/-- The one write-back of the block, at the last point, writes the sums over all rows. -/
theorem flushed2_5 (t : Fin cfg2.N) (hf : (cfg2.win 5).flush t = true) :
    (dat2 V c).flushed 5 t
      = ((cfg2.win 5).blk t).view.read (Elt Ideal) (colSums fun i q => cmb (V c (Pipeline.arrRef spec2 0)) (V c (Pipeline.arrRef spec2 1)) (V c (Pipeline.arrRef spec2 2)) (V c (Pipeline.arrRef spec2 3)) i q) := by
  have hN : t.val < 20 := lt_of_lt_of_eq t.isLt (show cfg2.N = 20 from N_2)
  have h19 : t.val = 19 := by have := (flush2_5 t).mp hf; omega
  show (cfg2.win 5).cut (grid2.coords t) ((dat2 V c).after 5 t) = _
  rw [after2_5]
  refine funext fun (j : S1x64.Idx) => ?_
  obtain ⟨z, q, rfl⟩ : ∃ (z : Fin 1) (q : Fin 64), j = ix2 z q := ⟨j 0, j 1, eq_ix2 j⟩
  obtain rfl : z = 0 := Subsingleton.elim _ _
  refine Eq.trans ?_ ((read2_5 t _ q).trans (colSums_apply _ q)).symm
  refine Eq.trans (acc2_5 V c q t.val t.isLt) ?_
  rw [h19]
  exact sum_tiles _

/-- That point's block is the whole one-row array. -/
theorem cover2_5 (i : ((cfg2.win 5).arr.view.loc (c.tc : Thread nD τ)).2.ty.Idx) :
    ∃ t : Fin cfg2.N, (cfg2.win 5).flush t = true ∧ i ∈ ((cfg2.win 5).blk t).view.set := by
  have h19 : 19 < cfg2.N := by rw [show cfg2.N = 20 from N_2]; decide
  refine ⟨⟨19, h19⟩, (flush2_5 _).mpr rfl, ?_⟩
  obtain ⟨-, -, -, -, -, -, -, -, -, -, e50, e51, e60, e61⟩ := idx2 ⟨19, h19⟩
  show i ∈ ((View.whole main_v47_1).slice (win2_5.rect ⟨19, h19⟩)).set
  rw [View.set_slice_whole, Rect.mem_set_unit]
  intro a
  have i0 : (i 0 : Nat) < 1 := (i 0).isLt
  have i1 : (i 1 : Nat) < 64 := (i 1).isLt
  match a with
  | ⟨0, _⟩ =>
    show win2_5.index ⟨19, h19⟩ (0 : Fin 2) * 1 ≤ (i 0 : Nat) ∧ (i 0 : Nat) < win2_5.index ⟨19, h19⟩ (0 : Fin 2) * 1 + 1
    rw [e50]; omega
  | ⟨1, _⟩ =>
    show win2_5.index ⟨19, h19⟩ (1 : Fin 2) * 64 ≤ (i 1 : Nat) ∧ (i 1 : Nat) < win2_5.index ⟨19, h19⟩ (1 : Fin 2) * 64 + 64
    rw [e51]; omega

/-- So the array ends holding the sums over all rows. -/
theorem final2_5 : (dat2 V c).arrAt 5 cfg2.N = colSums fun i q => cmb (V c (Pipeline.arrRef spec2 0)) (V c (Pipeline.arrRef spec2 1)) (V c (Pipeline.arrRef spec2 2)) (V c (Pipeline.arrRef spec2 3)) i q :=
  (dat2 V c).arrAt_eq_of_cover 5 _ (flushed2_5 V c) (cover2_5 c)

/-- The tile of point t contributes, at lane q, the sum over its 5000 rows. -/
theorem tile2_6 (t : Fin cfg2.N) (q : Fin 64) :
    ∑ r : Fin 5000, combAt (iblk2 V c 0 t) (iblk2 V c 1 t) (iblk2 V c 2 t) (iblk2 V c 3 t) r q * combAt (iblk2 V c 0 t) (iblk2 V c 1 t) (iblk2 V c 2 t) (iblk2 V c 3 t) r q
      = ∑ r : Fin 5000, rowN (fun i => cmb (V c (Pipeline.arrRef spec2 0)) (V c (Pipeline.arrRef spec2 1)) (V c (Pipeline.arrRef spec2 2)) (V c (Pipeline.arrRef spec2 3)) i q * cmb (V c (Pipeline.arrRef spec2 0)) (V c (Pipeline.arrRef spec2 1)) (V c (Pipeline.arrRef spec2 2)) (V c (Pipeline.arrRef spec2 3)) i q) (t.val * 5000 + r.val) :=
  Finset.sum_congr rfl fun r _ => by
    rw [tile2_entry V c t r q, rowN_of_lt _ _ (row_lt2 t r)]

/-- At the first point the block is zeroed and then takes the first tile's sums. -/
theorem acc2_6_first (t : Fin cfg2.N) (h0 : t.val % 20 = 0) (q : Fin 64) :
    (outsAt2 V c t.val t.isLt).2.2 (ix2 (0 : Fin 1) q)
      = 0 + ∑ r : Fin 5000, rowN (fun i => cmb (V c (Pipeline.arrRef spec2 0)) (V c (Pipeline.arrRef spec2 1)) (V c (Pipeline.arrRef spec2 2)) (V c (Pipeline.arrRef spec2 3)) i q * cmb (V c (Pipeline.arrRef spec2 0)) (V c (Pipeline.arrRef spec2 1)) (V c (Pipeline.arrRef spec2 2)) (V c (Pipeline.arrRef spec2 3)) i q) (t.val * 5000 + r.val) := by
  rw [outsAt2_A V c t h0]
  dsimp only
  refine (congrFun (out2_A_6_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (iblk2 V c 0 t) (iblk2 V c 1 t) (iblk2 V c 2 t) (iblk2 V c 3 t)) (ix2 (0 : Fin 1) q)).trans ?_
  refine (pay5_2 (iblk2 V c 0 t) (iblk2 V c 1 t) (iblk2 V c 2 t) (iblk2 V c 3 t) (k2_pay2 (F := Ideal)) q).trans ?_
  rw [pay2_2z q, tile2_6 V c t q]

/-- At every later point it takes that point's tile's sums on top of what the point before left. -/
theorem acc2_6_next (t : Fin cfg2.N) (h0 : ¬t.val % 20 = 0) (q : Fin 64) :
    (outsAt2 V c t.val t.isLt).2.2 (ix2 (0 : Fin 1) q)
      = (outsAt2 V c (t.val - 1) (Nat.lt_of_le_of_lt (Nat.sub_le _ _) t.isLt)).2.2 (ix2 (0 : Fin 1) q)
        + ∑ r : Fin 5000, rowN (fun i => cmb (V c (Pipeline.arrRef spec2 0)) (V c (Pipeline.arrRef spec2 1)) (V c (Pipeline.arrRef spec2 2)) (V c (Pipeline.arrRef spec2 3)) i q * cmb (V c (Pipeline.arrRef spec2 0)) (V c (Pipeline.arrRef spec2 1)) (V c (Pipeline.arrRef spec2 2)) (V c (Pipeline.arrRef spec2 3)) i q) (t.val * 5000 + r.val) := by
  rw [outsAt2_B V c t h0]
  dsimp only
  refine (congrFun (out2_B_6_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2) (ix2 (0 : Fin 1) q)).trans ?_
  refine (pay5_2 (iblk2 V c 0 t) (iblk2 V c 1 t) (iblk2 V c 2 t) (iblk2 V c 3 t) (outsAt2 V c (t.val - 1) (Nat.lt_of_le_of_lt (Nat.sub_le _ _) t.isLt)).2.2 q).trans ?_
  rw [tile2_6 V c t q]

/-- So after point n the block holds, at lane q, the sum over the rows of the tiles 0, …, n. -/
theorem acc2_6 (q : Fin 64) (n : ℕ) (h : n < cfg2.N) :
    (outsAt2 V c n h).2.2 (ix2 (0 : Fin 1) q)
      = ∑ s ∈ Finset.range (n + 1), ∑ r : Fin 5000, rowN (fun i => cmb (V c (Pipeline.arrRef spec2 0)) (V c (Pipeline.arrRef spec2 1)) (V c (Pipeline.arrRef spec2 2)) (V c (Pipeline.arrRef spec2 3)) i q * cmb (V c (Pipeline.arrRef spec2 0)) (V c (Pipeline.arrRef spec2 1)) (V c (Pipeline.arrRef spec2 2)) (V c (Pipeline.arrRef spec2 3)) i q) (s * 5000 + r.val) := by
  have hN : cfg2.N = 20 := N_2
  refine running_total (fun n h => (outsAt2 V c n h).2.2 (ix2 (0 : Fin 1) q))
    (fun s => ∑ r : Fin 5000, rowN (fun i => cmb (V c (Pipeline.arrRef spec2 0)) (V c (Pipeline.arrRef spec2 1)) (V c (Pipeline.arrRef spec2 2)) (V c (Pipeline.arrRef spec2 3)) i q * cmb (V c (Pipeline.arrRef spec2 0)) (V c (Pipeline.arrRef spec2 1)) (V c (Pipeline.arrRef spec2 2)) (V c (Pipeline.arrRef spec2 3)) i q) (s * 5000 + r.val)) ?_ ?_ n h
  · intro h
    exact acc2_6_first V c ⟨0, h⟩ (Nat.zero_mod _) q
  · intro n h
    have h' : n + 1 < 20 := lt_of_lt_of_eq h hN
    exact acc2_6_next V c ⟨n + 1, h⟩ (by dsimp only; omega) q

/-- Its block read off any one-row array is that array. -/
theorem read2_6 (t : Fin cfg2.N) (G : S1x64.Idx → EReal) (q : Fin 64) :
    ((cfg2.win 6).blk t).view.read (Elt Ideal) G (ix2 (0 : Fin 1) q) = G (ix2 (0 : Fin 1) q) := by
  have he : ((cfg2.win 6).blk t).view.emb (ix2 (0 : Fin 1) q) = (ix2 (0 : Fin 1) q : S1x64.Idx) := by
    obtain ⟨-, -, -, -, -, -, -, -, -, -, e50, e51, e60, e61⟩ := idx2 t
    refine funext fun a => Fin.ext ?_
    match a with
    | ⟨0, _⟩ => show win2_6.index t (0 : Fin 2) * 1 + 1 * 0 = 0; rw [e60]
    | ⟨1, _⟩ => show win2_6.index t (1 : Fin 2) * 64 + 1 * q.val = q.val; rw [e61]; omega
  rw [View.read_apply, he]
  rfl

/-- The one write-back of the block, at the last point, writes the sums over all rows. -/
theorem flushed2_6 (t : Fin cfg2.N) (hf : (cfg2.win 6).flush t = true) :
    (dat2 V c).flushed 6 t
      = ((cfg2.win 6).blk t).view.read (Elt Ideal) (colSums fun i q => cmb (V c (Pipeline.arrRef spec2 0)) (V c (Pipeline.arrRef spec2 1)) (V c (Pipeline.arrRef spec2 2)) (V c (Pipeline.arrRef spec2 3)) i q * cmb (V c (Pipeline.arrRef spec2 0)) (V c (Pipeline.arrRef spec2 1)) (V c (Pipeline.arrRef spec2 2)) (V c (Pipeline.arrRef spec2 3)) i q) := by
  have hN : t.val < 20 := lt_of_lt_of_eq t.isLt (show cfg2.N = 20 from N_2)
  have h19 : t.val = 19 := by have := (flush2_6 t).mp hf; omega
  show (cfg2.win 6).cut (grid2.coords t) ((dat2 V c).after 6 t) = _
  rw [after2_6]
  refine funext fun (j : S1x64.Idx) => ?_
  obtain ⟨z, q, rfl⟩ : ∃ (z : Fin 1) (q : Fin 64), j = ix2 z q := ⟨j 0, j 1, eq_ix2 j⟩
  obtain rfl : z = 0 := Subsingleton.elim _ _
  refine Eq.trans ?_ ((read2_6 t _ q).trans (colSums_apply _ q)).symm
  refine Eq.trans (acc2_6 V c q t.val t.isLt) ?_
  rw [h19]
  exact sum_tiles _

/-- That point's block is the whole one-row array. -/
theorem cover2_6 (i : ((cfg2.win 6).arr.view.loc (c.tc : Thread nD τ)).2.ty.Idx) :
    ∃ t : Fin cfg2.N, (cfg2.win 6).flush t = true ∧ i ∈ ((cfg2.win 6).blk t).view.set := by
  have h19 : 19 < cfg2.N := by rw [show cfg2.N = 20 from N_2]; decide
  refine ⟨⟨19, h19⟩, (flush2_6 _).mpr rfl, ?_⟩
  obtain ⟨-, -, -, -, -, -, -, -, -, -, e50, e51, e60, e61⟩ := idx2 ⟨19, h19⟩
  show i ∈ ((View.whole main_v47_2).slice (win2_6.rect ⟨19, h19⟩)).set
  rw [View.set_slice_whole, Rect.mem_set_unit]
  intro a
  have i0 : (i 0 : Nat) < 1 := (i 0).isLt
  have i1 : (i 1 : Nat) < 64 := (i 1).isLt
  match a with
  | ⟨0, _⟩ =>
    show win2_6.index ⟨19, h19⟩ (0 : Fin 2) * 1 ≤ (i 0 : Nat) ∧ (i 0 : Nat) < win2_6.index ⟨19, h19⟩ (0 : Fin 2) * 1 + 1
    rw [e60]; omega
  | ⟨1, _⟩ =>
    show win2_6.index ⟨19, h19⟩ (1 : Fin 2) * 64 ≤ (i 1 : Nat) ∧ (i 1 : Nat) < win2_6.index ⟨19, h19⟩ (1 : Fin 2) * 64 + 64
    rw [e61]; omega

/-- So the array ends holding the sums over all rows. -/
theorem final2_6 : (dat2 V c).arrAt 6 cfg2.N = colSums fun i q => cmb (V c (Pipeline.arrRef spec2 0)) (V c (Pipeline.arrRef spec2 1)) (V c (Pipeline.arrRef spec2 2)) (V c (Pipeline.arrRef spec2 3)) i q * cmb (V c (Pipeline.arrRef spec2 0)) (V c (Pipeline.arrRef spec2 1)) (V c (Pipeline.arrRef spec2 2)) (V c (Pipeline.arrRef spec2 3)) i q :=
  (dat2 V c).arrAt_eq_of_cover 6 _ (flushed2_6 V c) (cover2_6 c)

/-- REGION 2, THE VALUES. The combined array, entry by entry; -/
theorem combined2 (i : Fin 100000) (q : Fin 64) :
    ((dat2 V c).arrAt 4 cfg2.N) (ix2 i q) = cmb (V c (Pipeline.arrRef spec2 0)) (V c (Pipeline.arrRef spec2 1)) (V c (Pipeline.arrRef spec2 2)) (V c (Pipeline.arrRef spec2 3)) i q := by
  rw [final2_4]; exact cmbArr_apply _ _ _ _ i q

/-- its column sums; -/
theorem colsum2 (q : Fin 64) :
    ((dat2 V c).arrAt 5 cfg2.N) (ix2 (0 : Fin 1) q) = ∑ i : Fin 100000, cmb (V c (Pipeline.arrRef spec2 0)) (V c (Pipeline.arrRef spec2 1)) (V c (Pipeline.arrRef spec2 2)) (V c (Pipeline.arrRef spec2 3)) i q := by
  rw [final2_5]; exact colSums_apply _ q

/-- and the column sums of its squares. -/
theorem colsumsq2 (q : Fin 64) :
    ((dat2 V c).arrAt 6 cfg2.N) (ix2 (0 : Fin 1) q)
      = ∑ i : Fin 100000, cmb (V c (Pipeline.arrRef spec2 0)) (V c (Pipeline.arrRef spec2 1)) (V c (Pipeline.arrRef spec2 2)) (V c (Pipeline.arrRef spec2 3)) i q * cmb (V c (Pipeline.arrRef spec2 0)) (V c (Pipeline.arrRef spec2 1)) (V c (Pipeline.arrRef spec2 2)) (V c (Pipeline.arrRef spec2 3)) i q := by
  rw [final2_6]; exact colSums_apply _ q

end Region2

/-! ## Region 5 -/

section Region5
variable (V : (c : Dev nD) → (b : Ref sig .tc) → Buf (Elt Ideal) ((c : Thread nD τ).loc b)) (c : Dev nD)

/-- Which array of the whole program each of the seven windows moves. -/
theorem arr5_0 : Pipeline.arrRef spec5 0 = main_v82 := rfl
theorem arr5_1 : Pipeline.arrRef spec5 1 = main_v69 := rfl
theorem arr5_2 : Pipeline.arrRef spec5 2 = main_v27 := rfl
theorem arr5_3 : Pipeline.arrRef spec5 3 = main_v83 := rfl
theorem arr5_4 : Pipeline.arrRef spec5 4 = main_v84_0 := rfl
theorem arr5_5 : Pipeline.arrRef spec5 5 = main_v84_1 := rfl
theorem arr5_6 : Pipeline.arrRef spec5 6 = main_v84_2 := rfl

/-- The windows' block indices at every point: the row windows sit at row block t, the one-row windows stay. -/
theorem idx5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0 :=
  (by decide +kernel : ∀ t : Fin grid5.N, _)

/-- Row r of tile t is a row of the array. -/
theorem row_lt5 (t : Fin cfg5.N) (r : Fin 5000) : t.val * 5000 + r.val < 100000 := by
  have hN : t.val < 20 := lt_of_lt_of_eq t.isLt (show cfg5.N = 20 from N_5)
  have := r.isLt
  omega

theorem emb5_0 (t : Fin cfg5.N) (r : Fin 5000) (q : Fin 64) :
    ((cfg5.win 0).blk t).view.emb (ix2 r q) = (ix2 (⟨t.val * 5000 + r.val, row_lt5 t r⟩ : Fin 100000) q : S100000x64.Idx) := by
  obtain ⟨e00, e01, e10, e11, e20, e21, e30, e31, e40, e41, -⟩ := idx5 t
  refine funext fun a => Fin.ext ?_
  match a with
  | ⟨0, _⟩ => show win5_0.index t (0 : Fin 2) * 5000 + 1 * r.val = t.val * 5000 + r.val; rw [e00]; omega
  | ⟨1, _⟩ => show win5_0.index t (1 : Fin 2) * 64 + 1 * q.val = q.val; rw [e01]; omega

theorem emb5_1 (t : Fin cfg5.N) (r : Fin 5000) (q : Fin 64) :
    ((cfg5.win 1).blk t).view.emb (ix2 r q) = (ix2 (⟨t.val * 5000 + r.val, row_lt5 t r⟩ : Fin 100000) q : S100000x64.Idx) := by
  obtain ⟨e00, e01, e10, e11, e20, e21, e30, e31, e40, e41, -⟩ := idx5 t
  refine funext fun a => Fin.ext ?_
  match a with
  | ⟨0, _⟩ => show win5_1.index t (0 : Fin 2) * 5000 + 1 * r.val = t.val * 5000 + r.val; rw [e10]; omega
  | ⟨1, _⟩ => show win5_1.index t (1 : Fin 2) * 64 + 1 * q.val = q.val; rw [e11]; omega

theorem emb5_2 (t : Fin cfg5.N) (r : Fin 5000) (q : Fin 1) :
    ((cfg5.win 2).blk t).view.emb (ix2 r q) = (ix2 (⟨t.val * 5000 + r.val, row_lt5 t r⟩ : Fin 100000) q : S100000x1.Idx) := by
  obtain ⟨e00, e01, e10, e11, e20, e21, e30, e31, e40, e41, -⟩ := idx5 t
  refine funext fun a => Fin.ext ?_
  match a with
  | ⟨0, _⟩ => show win5_2.index t (0 : Fin 2) * 5000 + 1 * r.val = t.val * 5000 + r.val; rw [e20]; omega
  | ⟨1, _⟩ => show win5_2.index t (1 : Fin 2) * 1 + 1 * q.val = q.val; rw [e21]; omega

theorem emb5_4 (t : Fin cfg5.N) (r : Fin 5000) (q : Fin 64) :
    ((cfg5.win 4).blk t).view.emb (ix2 r q) = (ix2 (⟨t.val * 5000 + r.val, row_lt5 t r⟩ : Fin 100000) q : S100000x64.Idx) := by
  obtain ⟨e00, e01, e10, e11, e20, e21, e30, e31, e40, e41, -⟩ := idx5 t
  refine funext fun a => Fin.ext ?_
  match a with
  | ⟨0, _⟩ => show win5_4.index t (0 : Fin 2) * 5000 + 1 * r.val = t.val * 5000 + r.val; rw [e40]; omega
  | ⟨1, _⟩ => show win5_4.index t (1 : Fin 2) * 64 + 1 * q.val = q.val; rw [e41]; omega

theorem emb5_3 (t : Fin cfg5.N) (q : Fin 64) :
    ((cfg5.win 3).blk t).view.emb (ix2 (0 : Fin 1) q) = (ix2 (0 : Fin 1) q : S1x64.Idx) := by
  obtain ⟨-, -, -, -, -, -, e30, e31, -⟩ := idx5 t
  refine funext fun a => Fin.ext ?_
  match a with
  | ⟨0, _⟩ => show win5_3.index t (0 : Fin 2) * 1 + 1 * 0 = 0; rw [e30]
  | ⟨1, _⟩ => show win5_3.index t (1 : Fin 2) * 64 + 1 * q.val = q.val; rw [e31]; omega

theorem blk5_0_apply (t : Fin cfg5.N) (r : Fin 5000) (q : Fin 64) :
    (iblk5 V c 0 t : Vec Ideal S5000x64 .f32) (ix2 r q)
      = V c (Pipeline.arrRef spec5 0) (ix2 (⟨t.val * 5000 + r.val, row_lt5 t r⟩ : Fin 100000) q) := by
  unfold iblk5
  rw [View.read_apply, emb5_0 t r q]
  rfl

theorem blk5_1_apply (t : Fin cfg5.N) (r : Fin 5000) (q : Fin 64) :
    (iblk5 V c 1 t : Vec Ideal S5000x64 .f32) (ix2 r q)
      = V c (Pipeline.arrRef spec5 1) (ix2 (⟨t.val * 5000 + r.val, row_lt5 t r⟩ : Fin 100000) q) := by
  unfold iblk5
  rw [View.read_apply, emb5_1 t r q]
  rfl

theorem blk5_2_apply (t : Fin cfg5.N) (r : Fin 5000) (q : Fin 1) :
    (iblk5 V c 2 t : Vec Ideal S5000x1 .f32) (ix2 r q)
      = V c (Pipeline.arrRef spec5 2) (ix2 (⟨t.val * 5000 + r.val, row_lt5 t r⟩ : Fin 100000) q) := by
  unfold iblk5
  rw [View.read_apply, emb5_2 t r q]
  rfl

theorem blk5_3_apply (t : Fin cfg5.N) (q : Fin 64) :
    (iblk5 V c 3 t : Vec Ideal S1x64 .f32) (ix2 (0 : Fin 1) q)
      = V c (Pipeline.arrRef spec5 3) (ix2 (0 : Fin 1) q) := by
  unfold iblk5
  rw [View.read_apply, emb5_3 t q]
  rfl

/-- An entry of the combined tile of point t is the combined array's entry at row 5000·t + r. -/
theorem tile5_entry (t : Fin cfg5.N) (r : Fin 5000) (q : Fin 64) :
    combAt (iblk5 V c 0 t) (iblk5 V c 1 t) (iblk5 V c 2 t) (iblk5 V c 3 t) r q
      = cmb (V c (Pipeline.arrRef spec5 0)) (V c (Pipeline.arrRef spec5 1)) (V c (Pipeline.arrRef spec5 2)) (V c (Pipeline.arrRef spec5 3)) ⟨t.val * 5000 + r.val, row_lt5 t r⟩ q := by
  unfold combAt cmb
  rw [blk5_0_apply V c t r q, blk5_1_apply V c t r q, blk5_2_apply V c t r (0 : Fin 1), blk5_3_apply V c t q]

/-- Block t of any array of the combined array's shape, at row r, is that array at row 5000·t + r. -/
theorem read5_4 (t : Fin cfg5.N) (G : S100000x64.Idx → EReal) (r : Fin 5000) (q : Fin 64) :
    ((cfg5.win 4).blk t).view.read (Elt Ideal) G (ix2 r q)
      = G (ix2 (⟨t.val * 5000 + r.val, row_lt5 t r⟩ : Fin 100000) q) := by
  rw [View.read_apply, emb5_4 t r q]
  rfl

/-- What point t writes back to the combined array is its block of the combined array. -/
theorem flushed5_4 (t : Fin cfg5.N) :
    (dat5 V c).flushed 4 t = ((cfg5.win 4).blk t).view.read (Elt Ideal) (cmbArr (V c (Pipeline.arrRef spec5 0)) (V c (Pipeline.arrRef spec5 1)) (V c (Pipeline.arrRef spec5 2)) (V c (Pipeline.arrRef spec5 3))) := by
  show (cfg5.win 4).cut (grid5.coords t) ((dat5 V c).after 4 t) = _
  rw [after5_4]
  refine funext fun (j : S5000x64.Idx) => ?_
  obtain ⟨r, q, rfl⟩ : ∃ (r : Fin 5000) (q : Fin 64), j = ix2 r q := ⟨j 0, j 1, eq_ix2 j⟩
  refine Eq.trans ?_ ((read5_4 t _ r q).trans (cmbArr_apply _ _ _ _ _ q)).symm
  show (outsAt5 V c t.val t.isLt).1 (ix2 r q) = cmb (V c (Pipeline.arrRef spec5 0)) (V c (Pipeline.arrRef spec5 1)) (V c (Pipeline.arrRef spec5 2)) (V c (Pipeline.arrRef spec5 3)) ⟨t.val * 5000 + r.val, row_lt5 t r⟩ q
  by_cases h0 : t.val % 20 = 0
  · rw [outsAt5_A V c t h0]
    dsimp only
    refine (congrFun (out5_A_4_eq (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) ((hcond5_0 t).mpr h0) (iblk5 V c 0 t) (iblk5 V c 1 t) (iblk5 V c 2 t) (iblk5 V c 3 t)) (ix2 r q)).trans ?_
    exact (pay3_5 (iblk5 V c 0 t) (iblk5 V c 1 t) (iblk5 V c 2 t) (iblk5 V c 3 t) r q).trans (tile5_entry V c t r q)
  · rw [outsAt5_B V c t h0]
    dsimp only
    refine (congrFun (out5_B_4_eq (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (fun h => h0 ((hcond5_0 t).mp h)) (iblk5 V c 0 t) (iblk5 V c 1 t) (iblk5 V c 2 t) (iblk5 V c 3 t) (outsAt5 V c (t.val - 1) (Nat.lt_of_le_of_lt (Nat.sub_le _ _) t.isLt)).2.1 (outsAt5 V c (t.val - 1) (Nat.lt_of_le_of_lt (Nat.sub_le _ _) t.isLt)).2.2) (ix2 r q)).trans ?_
    exact (pay3_5 (iblk5 V c 0 t) (iblk5 V c 1 t) (iblk5 V c 2 t) (iblk5 V c 3 t) r q).trans (tile5_entry V c t r q)

/-- Every row of the combined array is in the block of the point that handles its tile. -/
theorem cover5_4 (i : ((cfg5.win 4).arr.view.loc (c.tc : Thread nD τ)).2.ty.Idx) :
    ∃ t : Fin cfg5.N, (cfg5.win 4).flush t = true ∧ i ∈ ((cfg5.win 4).blk t).view.set := by
  have i0 : (i 0 : Nat) < 100000 := (i 0).isLt
  have i1 : (i 1 : Nat) < 64 := (i 1).isLt
  have ht : (i 0 : Nat) / 5000 < cfg5.N := by rw [show cfg5.N = 20 from N_5]; omega
  refine ⟨⟨(i 0 : Nat) / 5000, ht⟩, flush5_4 _, ?_⟩
  obtain ⟨-, -, -, -, -, -, -, -, e40, e41, -⟩ := idx5 ⟨(i 0 : Nat) / 5000, ht⟩
  show i ∈ ((View.whole main_v84_0).slice (win5_4.rect ⟨(i 0 : Nat) / 5000, ht⟩)).set
  rw [View.set_slice_whole, Rect.mem_set_unit]
  intro a
  match a with
  | ⟨0, _⟩ =>
    show win5_4.index ⟨(i 0 : Nat) / 5000, ht⟩ (0 : Fin 2) * 5000 ≤ (i 0 : Nat) ∧ (i 0 : Nat) < win5_4.index ⟨(i 0 : Nat) / 5000, ht⟩ (0 : Fin 2) * 5000 + 5000
    rw [show win5_4.index ⟨(i 0 : Nat) / 5000, ht⟩ (0 : Fin 2) = (i 0 : Nat) / 5000 from e40]; omega
  | ⟨1, _⟩ =>
    show win5_4.index ⟨(i 0 : Nat) / 5000, ht⟩ (1 : Fin 2) * 64 ≤ (i 1 : Nat) ∧ (i 1 : Nat) < win5_4.index ⟨(i 0 : Nat) / 5000, ht⟩ (1 : Fin 2) * 64 + 64
    rw [e41]; omega

/-- So the combined array ends holding the combination, entry by entry. -/
theorem final5_4 : (dat5 V c).arrAt 4 cfg5.N = cmbArr (V c (Pipeline.arrRef spec5 0)) (V c (Pipeline.arrRef spec5 1)) (V c (Pipeline.arrRef spec5 2)) (V c (Pipeline.arrRef spec5 3)) :=
  (dat5 V c).arrAt_eq_of_cover 4 _ (fun t _ => flushed5_4 V c t) (cover5_4 c)

/-- The tile of point t contributes, at lane q, the sum over its 5000 rows. -/
theorem tile5_5 (t : Fin cfg5.N) (q : Fin 64) :
    ∑ r : Fin 5000, combAt (iblk5 V c 0 t) (iblk5 V c 1 t) (iblk5 V c 2 t) (iblk5 V c 3 t) r q
      = ∑ r : Fin 5000, rowN (fun i => cmb (V c (Pipeline.arrRef spec5 0)) (V c (Pipeline.arrRef spec5 1)) (V c (Pipeline.arrRef spec5 2)) (V c (Pipeline.arrRef spec5 3)) i q) (t.val * 5000 + r.val) :=
  Finset.sum_congr rfl fun r _ => by
    rw [tile5_entry V c t r q, rowN_of_lt _ _ (row_lt5 t r)]

/-- At the first point the block is zeroed and then takes the first tile's sums. -/
theorem acc5_5_first (t : Fin cfg5.N) (h0 : t.val % 20 = 0) (q : Fin 64) :
    (outsAt5 V c t.val t.isLt).2.1 (ix2 (0 : Fin 1) q)
      = 0 + ∑ r : Fin 5000, rowN (fun i => cmb (V c (Pipeline.arrRef spec5 0)) (V c (Pipeline.arrRef spec5 1)) (V c (Pipeline.arrRef spec5 2)) (V c (Pipeline.arrRef spec5 3)) i q) (t.val * 5000 + r.val) := by
  rw [outsAt5_A V c t h0]
  dsimp only
  refine (congrFun (out5_A_5_eq (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) ((hcond5_0 t).mpr h0) (iblk5 V c 0 t) (iblk5 V c 1 t) (iblk5 V c 2 t) (iblk5 V c 3 t)) (ix2 (0 : Fin 1) q)).trans ?_
  refine (pay4_5 (iblk5 V c 0 t) (iblk5 V c 1 t) (iblk5 V c 2 t) (iblk5 V c 3 t) (k5_pay1 (F := Ideal)) q).trans ?_
  rw [pay1_5z q, tile5_5 V c t q]

/-- At every later point it takes that point's tile's sums on top of what the point before left. -/
theorem acc5_5_next (t : Fin cfg5.N) (h0 : ¬t.val % 20 = 0) (q : Fin 64) :
    (outsAt5 V c t.val t.isLt).2.1 (ix2 (0 : Fin 1) q)
      = (outsAt5 V c (t.val - 1) (Nat.lt_of_le_of_lt (Nat.sub_le _ _) t.isLt)).2.1 (ix2 (0 : Fin 1) q)
        + ∑ r : Fin 5000, rowN (fun i => cmb (V c (Pipeline.arrRef spec5 0)) (V c (Pipeline.arrRef spec5 1)) (V c (Pipeline.arrRef spec5 2)) (V c (Pipeline.arrRef spec5 3)) i q) (t.val * 5000 + r.val) := by
  rw [outsAt5_B V c t h0]
  dsimp only
  refine (congrFun (out5_B_5_eq (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (fun h => h0 ((hcond5_0 t).mp h)) (iblk5 V c 0 t) (iblk5 V c 1 t) (iblk5 V c 2 t) (iblk5 V c 3 t) (outsAt5 V c (t.val - 1) (Nat.lt_of_le_of_lt (Nat.sub_le _ _) t.isLt)).2.1 (outsAt5 V c (t.val - 1) (Nat.lt_of_le_of_lt (Nat.sub_le _ _) t.isLt)).2.2) (ix2 (0 : Fin 1) q)).trans ?_
  refine (pay4_5 (iblk5 V c 0 t) (iblk5 V c 1 t) (iblk5 V c 2 t) (iblk5 V c 3 t) (outsAt5 V c (t.val - 1) (Nat.lt_of_le_of_lt (Nat.sub_le _ _) t.isLt)).2.1 q).trans ?_
  rw [tile5_5 V c t q]

/-- So after point n the block holds, at lane q, the sum over the rows of the tiles 0, …, n. -/
theorem acc5_5 (q : Fin 64) (n : ℕ) (h : n < cfg5.N) :
    (outsAt5 V c n h).2.1 (ix2 (0 : Fin 1) q)
      = ∑ s ∈ Finset.range (n + 1), ∑ r : Fin 5000, rowN (fun i => cmb (V c (Pipeline.arrRef spec5 0)) (V c (Pipeline.arrRef spec5 1)) (V c (Pipeline.arrRef spec5 2)) (V c (Pipeline.arrRef spec5 3)) i q) (s * 5000 + r.val) := by
  have hN : cfg5.N = 20 := N_5
  refine running_total (fun n h => (outsAt5 V c n h).2.1 (ix2 (0 : Fin 1) q))
    (fun s => ∑ r : Fin 5000, rowN (fun i => cmb (V c (Pipeline.arrRef spec5 0)) (V c (Pipeline.arrRef spec5 1)) (V c (Pipeline.arrRef spec5 2)) (V c (Pipeline.arrRef spec5 3)) i q) (s * 5000 + r.val)) ?_ ?_ n h
  · intro h
    exact acc5_5_first V c ⟨0, h⟩ (Nat.zero_mod _) q
  · intro n h
    have h' : n + 1 < 20 := lt_of_lt_of_eq h hN
    exact acc5_5_next V c ⟨n + 1, h⟩ (by dsimp only; omega) q

/-- Its block read off any one-row array is that array. -/
theorem read5_5 (t : Fin cfg5.N) (G : S1x64.Idx → EReal) (q : Fin 64) :
    ((cfg5.win 5).blk t).view.read (Elt Ideal) G (ix2 (0 : Fin 1) q) = G (ix2 (0 : Fin 1) q) := by
  have he : ((cfg5.win 5).blk t).view.emb (ix2 (0 : Fin 1) q) = (ix2 (0 : Fin 1) q : S1x64.Idx) := by
    obtain ⟨-, -, -, -, -, -, -, -, -, -, e50, e51, e60, e61⟩ := idx5 t
    refine funext fun a => Fin.ext ?_
    match a with
    | ⟨0, _⟩ => show win5_5.index t (0 : Fin 2) * 1 + 1 * 0 = 0; rw [e50]
    | ⟨1, _⟩ => show win5_5.index t (1 : Fin 2) * 64 + 1 * q.val = q.val; rw [e51]; omega
  rw [View.read_apply, he]
  rfl

/-- The one write-back of the block, at the last point, writes the sums over all rows. -/
theorem flushed5_5 (t : Fin cfg5.N) (hf : (cfg5.win 5).flush t = true) :
    (dat5 V c).flushed 5 t
      = ((cfg5.win 5).blk t).view.read (Elt Ideal) (colSums fun i q => cmb (V c (Pipeline.arrRef spec5 0)) (V c (Pipeline.arrRef spec5 1)) (V c (Pipeline.arrRef spec5 2)) (V c (Pipeline.arrRef spec5 3)) i q) := by
  have hN : t.val < 20 := lt_of_lt_of_eq t.isLt (show cfg5.N = 20 from N_5)
  have h19 : t.val = 19 := by have := (flush5_5 t).mp hf; omega
  show (cfg5.win 5).cut (grid5.coords t) ((dat5 V c).after 5 t) = _
  rw [after5_5]
  refine funext fun (j : S1x64.Idx) => ?_
  obtain ⟨z, q, rfl⟩ : ∃ (z : Fin 1) (q : Fin 64), j = ix2 z q := ⟨j 0, j 1, eq_ix2 j⟩
  obtain rfl : z = 0 := Subsingleton.elim _ _
  refine Eq.trans ?_ ((read5_5 t _ q).trans (colSums_apply _ q)).symm
  refine Eq.trans (acc5_5 V c q t.val t.isLt) ?_
  rw [h19]
  exact sum_tiles _

/-- That point's block is the whole one-row array. -/
theorem cover5_5 (i : ((cfg5.win 5).arr.view.loc (c.tc : Thread nD τ)).2.ty.Idx) :
    ∃ t : Fin cfg5.N, (cfg5.win 5).flush t = true ∧ i ∈ ((cfg5.win 5).blk t).view.set := by
  have h19 : 19 < cfg5.N := by rw [show cfg5.N = 20 from N_5]; decide
  refine ⟨⟨19, h19⟩, (flush5_5 _).mpr rfl, ?_⟩
  obtain ⟨-, -, -, -, -, -, -, -, -, -, e50, e51, e60, e61⟩ := idx5 ⟨19, h19⟩
  show i ∈ ((View.whole main_v84_1).slice (win5_5.rect ⟨19, h19⟩)).set
  rw [View.set_slice_whole, Rect.mem_set_unit]
  intro a
  have i0 : (i 0 : Nat) < 1 := (i 0).isLt
  have i1 : (i 1 : Nat) < 64 := (i 1).isLt
  match a with
  | ⟨0, _⟩ =>
    show win5_5.index ⟨19, h19⟩ (0 : Fin 2) * 1 ≤ (i 0 : Nat) ∧ (i 0 : Nat) < win5_5.index ⟨19, h19⟩ (0 : Fin 2) * 1 + 1
    rw [e50]; omega
  | ⟨1, _⟩ =>
    show win5_5.index ⟨19, h19⟩ (1 : Fin 2) * 64 ≤ (i 1 : Nat) ∧ (i 1 : Nat) < win5_5.index ⟨19, h19⟩ (1 : Fin 2) * 64 + 64
    rw [e51]; omega

/-- So the array ends holding the sums over all rows. -/
theorem final5_5 : (dat5 V c).arrAt 5 cfg5.N = colSums fun i q => cmb (V c (Pipeline.arrRef spec5 0)) (V c (Pipeline.arrRef spec5 1)) (V c (Pipeline.arrRef spec5 2)) (V c (Pipeline.arrRef spec5 3)) i q :=
  (dat5 V c).arrAt_eq_of_cover 5 _ (flushed5_5 V c) (cover5_5 c)

/-- The tile of point t contributes, at lane q, the sum over its 5000 rows. -/
theorem tile5_6 (t : Fin cfg5.N) (q : Fin 64) :
    ∑ r : Fin 5000, combAt (iblk5 V c 0 t) (iblk5 V c 1 t) (iblk5 V c 2 t) (iblk5 V c 3 t) r q * combAt (iblk5 V c 0 t) (iblk5 V c 1 t) (iblk5 V c 2 t) (iblk5 V c 3 t) r q
      = ∑ r : Fin 5000, rowN (fun i => cmb (V c (Pipeline.arrRef spec5 0)) (V c (Pipeline.arrRef spec5 1)) (V c (Pipeline.arrRef spec5 2)) (V c (Pipeline.arrRef spec5 3)) i q * cmb (V c (Pipeline.arrRef spec5 0)) (V c (Pipeline.arrRef spec5 1)) (V c (Pipeline.arrRef spec5 2)) (V c (Pipeline.arrRef spec5 3)) i q) (t.val * 5000 + r.val) :=
  Finset.sum_congr rfl fun r _ => by
    rw [tile5_entry V c t r q, rowN_of_lt _ _ (row_lt5 t r)]

/-- At the first point the block is zeroed and then takes the first tile's sums. -/
theorem acc5_6_first (t : Fin cfg5.N) (h0 : t.val % 20 = 0) (q : Fin 64) :
    (outsAt5 V c t.val t.isLt).2.2 (ix2 (0 : Fin 1) q)
      = 0 + ∑ r : Fin 5000, rowN (fun i => cmb (V c (Pipeline.arrRef spec5 0)) (V c (Pipeline.arrRef spec5 1)) (V c (Pipeline.arrRef spec5 2)) (V c (Pipeline.arrRef spec5 3)) i q * cmb (V c (Pipeline.arrRef spec5 0)) (V c (Pipeline.arrRef spec5 1)) (V c (Pipeline.arrRef spec5 2)) (V c (Pipeline.arrRef spec5 3)) i q) (t.val * 5000 + r.val) := by
  rw [outsAt5_A V c t h0]
  dsimp only
  refine (congrFun (out5_A_6_eq (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) ((hcond5_0 t).mpr h0) (iblk5 V c 0 t) (iblk5 V c 1 t) (iblk5 V c 2 t) (iblk5 V c 3 t)) (ix2 (0 : Fin 1) q)).trans ?_
  refine (pay5_5 (iblk5 V c 0 t) (iblk5 V c 1 t) (iblk5 V c 2 t) (iblk5 V c 3 t) (k5_pay2 (F := Ideal)) q).trans ?_
  rw [pay2_5z q, tile5_6 V c t q]

/-- At every later point it takes that point's tile's sums on top of what the point before left. -/
theorem acc5_6_next (t : Fin cfg5.N) (h0 : ¬t.val % 20 = 0) (q : Fin 64) :
    (outsAt5 V c t.val t.isLt).2.2 (ix2 (0 : Fin 1) q)
      = (outsAt5 V c (t.val - 1) (Nat.lt_of_le_of_lt (Nat.sub_le _ _) t.isLt)).2.2 (ix2 (0 : Fin 1) q)
        + ∑ r : Fin 5000, rowN (fun i => cmb (V c (Pipeline.arrRef spec5 0)) (V c (Pipeline.arrRef spec5 1)) (V c (Pipeline.arrRef spec5 2)) (V c (Pipeline.arrRef spec5 3)) i q * cmb (V c (Pipeline.arrRef spec5 0)) (V c (Pipeline.arrRef spec5 1)) (V c (Pipeline.arrRef spec5 2)) (V c (Pipeline.arrRef spec5 3)) i q) (t.val * 5000 + r.val) := by
  rw [outsAt5_B V c t h0]
  dsimp only
  refine (congrFun (out5_B_6_eq (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (fun h => h0 ((hcond5_0 t).mp h)) (iblk5 V c 0 t) (iblk5 V c 1 t) (iblk5 V c 2 t) (iblk5 V c 3 t) (outsAt5 V c (t.val - 1) (Nat.lt_of_le_of_lt (Nat.sub_le _ _) t.isLt)).2.1 (outsAt5 V c (t.val - 1) (Nat.lt_of_le_of_lt (Nat.sub_le _ _) t.isLt)).2.2) (ix2 (0 : Fin 1) q)).trans ?_
  refine (pay5_5 (iblk5 V c 0 t) (iblk5 V c 1 t) (iblk5 V c 2 t) (iblk5 V c 3 t) (outsAt5 V c (t.val - 1) (Nat.lt_of_le_of_lt (Nat.sub_le _ _) t.isLt)).2.2 q).trans ?_
  rw [tile5_6 V c t q]

/-- So after point n the block holds, at lane q, the sum over the rows of the tiles 0, …, n. -/
theorem acc5_6 (q : Fin 64) (n : ℕ) (h : n < cfg5.N) :
    (outsAt5 V c n h).2.2 (ix2 (0 : Fin 1) q)
      = ∑ s ∈ Finset.range (n + 1), ∑ r : Fin 5000, rowN (fun i => cmb (V c (Pipeline.arrRef spec5 0)) (V c (Pipeline.arrRef spec5 1)) (V c (Pipeline.arrRef spec5 2)) (V c (Pipeline.arrRef spec5 3)) i q * cmb (V c (Pipeline.arrRef spec5 0)) (V c (Pipeline.arrRef spec5 1)) (V c (Pipeline.arrRef spec5 2)) (V c (Pipeline.arrRef spec5 3)) i q) (s * 5000 + r.val) := by
  have hN : cfg5.N = 20 := N_5
  refine running_total (fun n h => (outsAt5 V c n h).2.2 (ix2 (0 : Fin 1) q))
    (fun s => ∑ r : Fin 5000, rowN (fun i => cmb (V c (Pipeline.arrRef spec5 0)) (V c (Pipeline.arrRef spec5 1)) (V c (Pipeline.arrRef spec5 2)) (V c (Pipeline.arrRef spec5 3)) i q * cmb (V c (Pipeline.arrRef spec5 0)) (V c (Pipeline.arrRef spec5 1)) (V c (Pipeline.arrRef spec5 2)) (V c (Pipeline.arrRef spec5 3)) i q) (s * 5000 + r.val)) ?_ ?_ n h
  · intro h
    exact acc5_6_first V c ⟨0, h⟩ (Nat.zero_mod _) q
  · intro n h
    have h' : n + 1 < 20 := lt_of_lt_of_eq h hN
    exact acc5_6_next V c ⟨n + 1, h⟩ (by dsimp only; omega) q

/-- Its block read off any one-row array is that array. -/
theorem read5_6 (t : Fin cfg5.N) (G : S1x64.Idx → EReal) (q : Fin 64) :
    ((cfg5.win 6).blk t).view.read (Elt Ideal) G (ix2 (0 : Fin 1) q) = G (ix2 (0 : Fin 1) q) := by
  have he : ((cfg5.win 6).blk t).view.emb (ix2 (0 : Fin 1) q) = (ix2 (0 : Fin 1) q : S1x64.Idx) := by
    obtain ⟨-, -, -, -, -, -, -, -, -, -, e50, e51, e60, e61⟩ := idx5 t
    refine funext fun a => Fin.ext ?_
    match a with
    | ⟨0, _⟩ => show win5_6.index t (0 : Fin 2) * 1 + 1 * 0 = 0; rw [e60]
    | ⟨1, _⟩ => show win5_6.index t (1 : Fin 2) * 64 + 1 * q.val = q.val; rw [e61]; omega
  rw [View.read_apply, he]
  rfl

/-- The one write-back of the block, at the last point, writes the sums over all rows. -/
theorem flushed5_6 (t : Fin cfg5.N) (hf : (cfg5.win 6).flush t = true) :
    (dat5 V c).flushed 6 t
      = ((cfg5.win 6).blk t).view.read (Elt Ideal) (colSums fun i q => cmb (V c (Pipeline.arrRef spec5 0)) (V c (Pipeline.arrRef spec5 1)) (V c (Pipeline.arrRef spec5 2)) (V c (Pipeline.arrRef spec5 3)) i q * cmb (V c (Pipeline.arrRef spec5 0)) (V c (Pipeline.arrRef spec5 1)) (V c (Pipeline.arrRef spec5 2)) (V c (Pipeline.arrRef spec5 3)) i q) := by
  have hN : t.val < 20 := lt_of_lt_of_eq t.isLt (show cfg5.N = 20 from N_5)
  have h19 : t.val = 19 := by have := (flush5_6 t).mp hf; omega
  show (cfg5.win 6).cut (grid5.coords t) ((dat5 V c).after 6 t) = _
  rw [after5_6]
  refine funext fun (j : S1x64.Idx) => ?_
  obtain ⟨z, q, rfl⟩ : ∃ (z : Fin 1) (q : Fin 64), j = ix2 z q := ⟨j 0, j 1, eq_ix2 j⟩
  obtain rfl : z = 0 := Subsingleton.elim _ _
  refine Eq.trans ?_ ((read5_6 t _ q).trans (colSums_apply _ q)).symm
  refine Eq.trans (acc5_6 V c q t.val t.isLt) ?_
  rw [h19]
  exact sum_tiles _

/-- That point's block is the whole one-row array. -/
theorem cover5_6 (i : ((cfg5.win 6).arr.view.loc (c.tc : Thread nD τ)).2.ty.Idx) :
    ∃ t : Fin cfg5.N, (cfg5.win 6).flush t = true ∧ i ∈ ((cfg5.win 6).blk t).view.set := by
  have h19 : 19 < cfg5.N := by rw [show cfg5.N = 20 from N_5]; decide
  refine ⟨⟨19, h19⟩, (flush5_6 _).mpr rfl, ?_⟩
  obtain ⟨-, -, -, -, -, -, -, -, -, -, e50, e51, e60, e61⟩ := idx5 ⟨19, h19⟩
  show i ∈ ((View.whole main_v84_2).slice (win5_6.rect ⟨19, h19⟩)).set
  rw [View.set_slice_whole, Rect.mem_set_unit]
  intro a
  have i0 : (i 0 : Nat) < 1 := (i 0).isLt
  have i1 : (i 1 : Nat) < 64 := (i 1).isLt
  match a with
  | ⟨0, _⟩ =>
    show win5_6.index ⟨19, h19⟩ (0 : Fin 2) * 1 ≤ (i 0 : Nat) ∧ (i 0 : Nat) < win5_6.index ⟨19, h19⟩ (0 : Fin 2) * 1 + 1
    rw [e60]; omega
  | ⟨1, _⟩ =>
    show win5_6.index ⟨19, h19⟩ (1 : Fin 2) * 64 ≤ (i 1 : Nat) ∧ (i 1 : Nat) < win5_6.index ⟨19, h19⟩ (1 : Fin 2) * 64 + 64
    rw [e61]; omega

/-- So the array ends holding the sums over all rows. -/
theorem final5_6 : (dat5 V c).arrAt 6 cfg5.N = colSums fun i q => cmb (V c (Pipeline.arrRef spec5 0)) (V c (Pipeline.arrRef spec5 1)) (V c (Pipeline.arrRef spec5 2)) (V c (Pipeline.arrRef spec5 3)) i q * cmb (V c (Pipeline.arrRef spec5 0)) (V c (Pipeline.arrRef spec5 1)) (V c (Pipeline.arrRef spec5 2)) (V c (Pipeline.arrRef spec5 3)) i q :=
  (dat5 V c).arrAt_eq_of_cover 6 _ (flushed5_6 V c) (cover5_6 c)

/-- REGION 5, THE VALUES. The combined array, entry by entry; -/
theorem combined5 (i : Fin 100000) (q : Fin 64) :
    ((dat5 V c).arrAt 4 cfg5.N) (ix2 i q) = cmb (V c (Pipeline.arrRef spec5 0)) (V c (Pipeline.arrRef spec5 1)) (V c (Pipeline.arrRef spec5 2)) (V c (Pipeline.arrRef spec5 3)) i q := by
  rw [final5_4]; exact cmbArr_apply _ _ _ _ i q

/-- its column sums; -/
theorem colsum5 (q : Fin 64) :
    ((dat5 V c).arrAt 5 cfg5.N) (ix2 (0 : Fin 1) q) = ∑ i : Fin 100000, cmb (V c (Pipeline.arrRef spec5 0)) (V c (Pipeline.arrRef spec5 1)) (V c (Pipeline.arrRef spec5 2)) (V c (Pipeline.arrRef spec5 3)) i q := by
  rw [final5_5]; exact colSums_apply _ q

/-- and the column sums of its squares. -/
theorem colsumsq5 (q : Fin 64) :
    ((dat5 V c).arrAt 6 cfg5.N) (ix2 (0 : Fin 1) q)
      = ∑ i : Fin 100000, cmb (V c (Pipeline.arrRef spec5 0)) (V c (Pipeline.arrRef spec5 1)) (V c (Pipeline.arrRef spec5 2)) (V c (Pipeline.arrRef spec5 3)) i q * cmb (V c (Pipeline.arrRef spec5 0)) (V c (Pipeline.arrRef spec5 1)) (V c (Pipeline.arrRef spec5 2)) (V c (Pipeline.arrRef spec5 3)) i q := by
  rw [final5_6]; exact colSums_apply _ q

end Region5

end Cert.KernelIdeal.RegionCombine

end
-- ==== Proof.RegionNormalize.lean ====
/-
  The two row-normalizing kernels, read as arrays.

  Both kernels take a table X of 100000 rows by 64 columns and five rows of 64 entries (mean, inv_std, alpha, gamma,
  beta) and produce, entry by entry,

      y(i, q) = gamma(q) * (X(i, q) - alpha(q) * mean(q)) * inv_std(q) + beta(q),

  grouped exactly so; the first of the two then applies the leaky rectifier of slope 0.2 (y where y > 0, 0.2 * y
  elsewhere), the second stores y itself.  Each works on tiles of 5000 consecutive rows, one tile per grid point, 20
  points in all, with the five parameter rows present whole at every point.  Since the value at (i, q) depends on row i
  of the table and column q of the rows only, the tile a point writes is the restriction of ONE function of the whole
  arrays, and the tiles cover every row (row r lies in tile r / 5000): so after the last point the result array IS that
  function.  The file states this for the contents the arrays have when each kernel starts, whatever they are.
-/
import proofs.«169252_j42494406426958_1_alg».proof.Proof.Gen.KernelIdeal.Frame
import Idealize.ShloMosaic.Lib.ValueIdx
import Idealize.ShloMosaic.Lib.ValueLayout
import Idealize.ShloMosaic.Lib.Pipeline.Value

noncomputable section

namespace Cert.KernelIdeal.RegionNormalize

open Cert.KernelIdeal Cert.KernelIdeal.Gen Idealize.ShloMosaic Idealize.ShloMosaic.TcCoe Idealize.SL.Sem Idealize.ShloMosaic.ValueIdx
open Idealize.ShloMosaic.Pipeline (Dat)

/-! ## One entry of a normalized tile

A tile is 5000 rows of the 64-column table; each of the five parameters is one row of 64 entries, read at its column
whatever the tile's row. -/

/-- The normalized value of a table at row `i`, column `q`: the entry, less the product of the `alpha` and `mean` rows
    at `q`, scaled by the `gamma` row on the left and the `inv_std` row on the right, plus the `beta` row. -/
abbrev entry {n : ℕ} (X : (⟨2, ![n, 64]⟩ : Shape).Idx → EReal) (M IS A G Bt : S1x64.Idx → EReal) (i : Fin n) (q : Fin 64) : EReal :=
  G (ix2 (0 : Fin 1) q) * (X (ix2 i q) - A (ix2 (0 : Fin 1) q) * M (ix2 (0 : Fin 1) q)) * IS (ix2 (0 : Fin 1) q)
    + Bt (ix2 (0 : Fin 1) q)

/-- The leaky rectifier of slope 0.2 on one value: the value where it is above zero, a fifth of it elsewhere. -/
abbrev leaky (y : EReal) : EReal :=
  Scalar.select (FloatOps.cmpf (F := Ideal) .ogt y (Scalar.ofBits (F := Ideal) .f32 0x00000000#32)) y
    (Scalar.ofBits (F := Ideal) .f32 0x3E4CCCCD#32 * y)

/-- The normalized table as one function of its index. -/
def normalized (X : S100000x64.Idx → EReal) (M IS A G Bt : S1x64.Idx → EReal) : S100000x64.Idx → EReal :=
  fun k => entry X M IS A G Bt ⟨(k 0).val, idx2_lt0 k⟩ ⟨(k 1).val, idx2_lt1 k⟩

/-- At an index whose column is `q`, the normalized table reads the table there and the five rows at `q`. -/
theorem normalized_at (X : S100000x64.Idx → EReal) (M IS A G Bt : S1x64.Idx → EReal) (k : S100000x64.Idx) (q : Fin 64)
    (hq : (k 1).val = q.val) :
    normalized X M IS A G Bt k
      = G (ix2 (0 : Fin 1) q) * (X k - A (ix2 (0 : Fin 1) q) * M (ix2 (0 : Fin 1) q)) * IS (ix2 (0 : Fin 1) q)
        + Bt (ix2 (0 : Fin 1) q) := by
  obtain ⟨i, q', rfl⟩ : ∃ (i : Fin 100000) (q' : Fin 64), k = ix2 i q' := ⟨k 0, k 1, eq_ix2 k⟩
  obtain rfl : q' = q := Fin.ext hq
  rfl

/-- The tile the second normalizing kernel stores, at row `p` and column `q` of the tile. -/
theorem tile_apply (x : Vec Ideal S5000x64 .f32) (al mn ga is be : Vec Ideal S1x64 .f32) (p : Fin 5000) (q : Fin 64) :
    k6_pay1 (F := Ideal) x al mn ga is be (ix2 p q)
      = ga (ix2 (0 : Fin 1) q) * (x (ix2 p q) - al (ix2 (0 : Fin 1) q) * mn (ix2 (0 : Fin 1) q)) * is (ix2 (0 : Fin 1) q)
        + be (ix2 (0 : Fin 1) q) := by
  unfold k6_pay1
  simp only [shapeCast_self, addf_apply, mulf_apply, subf_apply, broadcastTo_1b_ab_apply]

/-- The tile the first normalizing kernel stores is the rectifier of the same value. -/
theorem tile_leaky_apply (x : Vec Ideal S5000x64 .f32) (al mn ga is be : Vec Ideal S1x64 .f32) (p : Fin 5000) (q : Fin 64) :
    k3_pay1 (F := Ideal) x al mn ga is be (ix2 p q) = leaky (k6_pay1 (F := Ideal) x al mn ga is be (ix2 p q)) := by
  unfold k3_pay1 k6_pay1
  rfl

/-- The normalized value depends on its six readings only. -/
theorem entry_congr {x x' m m' s s' a a' g g' b b' : EReal} (hx : x = x') (hm : m = m') (hs : s = s') (ha : a = a') (hg : g = g')
    (hb : b = b') : g * (x - a * m) * s + b = g' * (x' - a' * m') * s' + b' := by
  subst hx hm hs ha hg hb; rfl

theorem zero_offsets : (![0, 0] : Fin 2 → Nat) = fun _ => 0 := funext fun a => by fin_cases a <;> rfl

/-! ## Region 6

Grid point `t` of 20 works on rows `5000 t … 5000 t + 4999`: the table's window and the result's move together, and
each parameter row is staged whole at every point. -/

section Region6

variable (V : (c : Dev nD) → (b : Ref sig .tc) → Buf (Elt Ideal) ((c : Thread nD τ).loc b))

/-- Which buffer of the program each window of region 6 stages. -/
theorem arrRef6_0 : Pipeline.arrRef spec6 0 = main_v84_0 := rfl
theorem arrRef6_1 : Pipeline.arrRef spec6 1 = main_v86 := rfl
theorem arrRef6_2 : Pipeline.arrRef spec6 2 = main_v99 := rfl
theorem arrRef6_3 : Pipeline.arrRef spec6 3 = main_v100 := rfl
theorem arrRef6_4 : Pipeline.arrRef spec6 4 = main_v101 := rfl
theorem arrRef6_5 : Pipeline.arrRef spec6 5 = main_v102 := rfl
theorem arrRef6_6 : Pipeline.arrRef spec6 6 = main_v103 := rfl

/-- The block indices, decided over the 20 grid points: the table's and the result's block is the point's own on the row
    axis, and every other block index is zero. -/
theorem blockIndex6 : ∀ t : Fin cfg6.N,
    win6_0.index t (0 : Fin 2) = t.val ∧ win6_0.index t (1 : Fin 2) = 0
    ∧ win6_6.index t (0 : Fin 2) = t.val ∧ win6_6.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0 :=
  (by decide +kernel : ∀ t : Fin grid6.N, _)

/-- The table's tile at point `t` reads the table where the result's tile at `t` lies. -/
theorem tile6_read (c : Dev nD) (t : Fin cfg6.N) (p : Fin 5000) (q : Fin 64) :
    (iblk6 V c 0 t : Vec Ideal S5000x64 .f32) (ix2 p q)
      = (V c (Pipeline.arrRef spec6 0) : S100000x64.Idx → EReal) (((cfg6.win 6).blk t).view.emb (ix2 p q)) := by
  obtain ⟨e0, e1, e2, e3, -⟩ := blockIndex6 t
  unfold iblk6
  show (V c (Pipeline.arrRef spec6 0) : S100000x64.Idx → EReal) (((cfg6.win 0).blk t).view.emb (ix2 p q)) = _
  refine congrArg (V c (Pipeline.arrRef spec6 0) : S100000x64.Idx → EReal) ?_
  funext a; apply Fin.ext
  match a with
  | ⟨0, _⟩ => show win6_0.index t (0 : Fin 2) * 5000 + 1 * p.val = win6_6.index t (0 : Fin 2) * 5000 + 1 * p.val; rw [e0, e2]
  | ⟨1, _⟩ => show win6_0.index t (1 : Fin 2) * 64 + 1 * q.val = win6_6.index t (1 : Fin 2) * 64 + 1 * q.val; rw [e1, e3]

/-- The result's tile at point `t` keeps the column. -/
theorem tile6_col (t : Fin cfg6.N) (p : Fin 5000) (q : Fin 64) :
    (((((cfg6.win 6).blk t).view.emb (ix2 p q) : S100000x64.Idx) 1 : Fin 64)).val = q.val := by
  obtain ⟨-, -, -, e3, -⟩ := blockIndex6 t
  show win6_6.index t (1 : Fin 2) * 64 + 1 * q.val = q.val
  rw [e3]; omega

/-- Each parameter row's block at any point is the row. -/
theorem row6_1_read (c : Dev nD) (t : Fin cfg6.N) (q : Fin 64) :
    (iblk6 V c 1 t : Vec Ideal S1x64 .f32) (ix2 (0 : Fin 1) q) = (V c (Pipeline.arrRef spec6 1) : S1x64.Idx → EReal) (ix2 (0 : Fin 1) q) := by
  obtain ⟨-, -, -, -, e0, e1, -⟩ := blockIndex6 t
  unfold iblk6
  show (V c (Pipeline.arrRef spec6 1) : S1x64.Idx → EReal) (((cfg6.win 1).blk t).view.emb (ix2 (0 : Fin 1) q)) = _
  refine congrArg (V c (Pipeline.arrRef spec6 1) : S1x64.Idx → EReal) ?_
  funext a; apply Fin.ext
  match a with
  | ⟨0, _⟩ => show win6_1.index t (0 : Fin 2) * 1 + 1 * 0 = 0; rw [e0]
  | ⟨1, _⟩ => show win6_1.index t (1 : Fin 2) * 64 + 1 * q.val = q.val; rw [e1]; omega
theorem row6_2_read (c : Dev nD) (t : Fin cfg6.N) (q : Fin 64) :
    (iblk6 V c 2 t : Vec Ideal S1x64 .f32) (ix2 (0 : Fin 1) q) = (V c (Pipeline.arrRef spec6 2) : S1x64.Idx → EReal) (ix2 (0 : Fin 1) q) := by
  obtain ⟨-, -, -, -, -, -, e0, e1, -⟩ := blockIndex6 t
  unfold iblk6
  show (V c (Pipeline.arrRef spec6 2) : S1x64.Idx → EReal) (((cfg6.win 2).blk t).view.emb (ix2 (0 : Fin 1) q)) = _
  refine congrArg (V c (Pipeline.arrRef spec6 2) : S1x64.Idx → EReal) ?_
  funext a; apply Fin.ext
  match a with
  | ⟨0, _⟩ => show win6_2.index t (0 : Fin 2) * 1 + 1 * 0 = 0; rw [e0]
  | ⟨1, _⟩ => show win6_2.index t (1 : Fin 2) * 64 + 1 * q.val = q.val; rw [e1]; omega
theorem row6_3_read (c : Dev nD) (t : Fin cfg6.N) (q : Fin 64) :
    (iblk6 V c 3 t : Vec Ideal S1x64 .f32) (ix2 (0 : Fin 1) q) = (V c (Pipeline.arrRef spec6 3) : S1x64.Idx → EReal) (ix2 (0 : Fin 1) q) := by
  obtain ⟨-, -, -, -, -, -, -, -, e0, e1, -⟩ := blockIndex6 t
  unfold iblk6
  show (V c (Pipeline.arrRef spec6 3) : S1x64.Idx → EReal) (((cfg6.win 3).blk t).view.emb (ix2 (0 : Fin 1) q)) = _
  refine congrArg (V c (Pipeline.arrRef spec6 3) : S1x64.Idx → EReal) ?_
  funext a; apply Fin.ext
  match a with
  | ⟨0, _⟩ => show win6_3.index t (0 : Fin 2) * 1 + 1 * 0 = 0; rw [e0]
  | ⟨1, _⟩ => show win6_3.index t (1 : Fin 2) * 64 + 1 * q.val = q.val; rw [e1]; omega
theorem row6_4_read (c : Dev nD) (t : Fin cfg6.N) (q : Fin 64) :
    (iblk6 V c 4 t : Vec Ideal S1x64 .f32) (ix2 (0 : Fin 1) q) = (V c (Pipeline.arrRef spec6 4) : S1x64.Idx → EReal) (ix2 (0 : Fin 1) q) := by
  obtain ⟨-, -, -, -, -, -, -, -, -, -, e0, e1, -⟩ := blockIndex6 t
  unfold iblk6
  show (V c (Pipeline.arrRef spec6 4) : S1x64.Idx → EReal) (((cfg6.win 4).blk t).view.emb (ix2 (0 : Fin 1) q)) = _
  refine congrArg (V c (Pipeline.arrRef spec6 4) : S1x64.Idx → EReal) ?_
  funext a; apply Fin.ext
  match a with
  | ⟨0, _⟩ => show win6_4.index t (0 : Fin 2) * 1 + 1 * 0 = 0; rw [e0]
  | ⟨1, _⟩ => show win6_4.index t (1 : Fin 2) * 64 + 1 * q.val = q.val; rw [e1]; omega
theorem row6_5_read (c : Dev nD) (t : Fin cfg6.N) (q : Fin 64) :
    (iblk6 V c 5 t : Vec Ideal S1x64 .f32) (ix2 (0 : Fin 1) q) = (V c (Pipeline.arrRef spec6 5) : S1x64.Idx → EReal) (ix2 (0 : Fin 1) q) := by
  obtain ⟨-, -, -, -, -, -, -, -, -, -, -, -, e0, e1⟩ := blockIndex6 t
  unfold iblk6
  show (V c (Pipeline.arrRef spec6 5) : S1x64.Idx → EReal) (((cfg6.win 5).blk t).view.emb (ix2 (0 : Fin 1) q)) = _
  refine congrArg (V c (Pipeline.arrRef spec6 5) : S1x64.Idx → EReal) ?_
  funext a; apply Fin.ext
  match a with
  | ⟨0, _⟩ => show win6_5.index t (0 : Fin 2) * 1 + 1 * 0 = 0; rw [e0]
  | ⟨1, _⟩ => show win6_5.index t (1 : Fin 2) * 64 + 1 * q.val = q.val; rw [e1]; omega

/-- The write-back takes the whole staged tile, -/
theorem staged6_apply (t : Fin cfg6.N) (X : Vec Ideal S5000x64 .f32) (p : Fin 5000) (q : Fin 64) :
    (cfg6.win 6).cut (grid6.coords t) X (ix2 p q) = X (ix2 p q) := rfl

/-- and a whole-array function read through the result's tile at point `t` is the function where the tile lies. -/
theorem tile6_of (t : Fin cfg6.N) (G : S100000x64.Idx → EReal) (p : Fin 5000) (q : Fin 64) :
    ((cfg6.win 6).blk t).view.read (Elt Ideal) G (ix2 p q) = G (((cfg6.win 6).blk t).view.emb (ix2 p q)) := rfl

/-- What point `t` writes back is its tile of the normalized table of the arrays the region finds. -/
theorem written6 (c : Dev nD) (t : Fin cfg6.N) :
    (dat6 (F := Ideal) V c).flushed 6 t
      = ((cfg6.win 6).blk t).view.read (Elt Ideal) (normalized (V c (Pipeline.arrRef spec6 0)) (V c (Pipeline.arrRef spec6 1)) (V c (Pipeline.arrRef spec6 2)) (V c (Pipeline.arrRef spec6 3)) (V c (Pipeline.arrRef spec6 4)) (V c (Pipeline.arrRef spec6 5))) := by
  show (cfg6.win 6).cut (grid6.coords t) ((dat6 (F := Ideal) V c).after 6 t) = _
  rw [after6_6]
  unfold out6_6
  rw [View.canon_unit_zero zero_offsets]
  simp only [View.ld_unit_zero (S := S5000x64) zero_offsets, View.ld_unit_zero (S := S1x64) zero_offsets]
  funext j
  obtain ⟨p, q, rfl⟩ : ∃ (p : Fin 5000) (q : Fin 64), j = ix2 p q := ⟨j 0, j 1, eq_ix2 j⟩
  refine (staged6_apply t _ p q).trans ?_
  refine Eq.trans ?_ (tile6_of t _ p q).symm
  refine (tile_apply (iblk6 V c 0 t) (iblk6 V c 3 t) (iblk6 V c 1 t) (iblk6 V c 4 t) (iblk6 V c 2 t) (iblk6 V c 5 t) p q).trans ?_
  refine Eq.trans ?_ (normalized_at (V c (Pipeline.arrRef spec6 0)) (V c (Pipeline.arrRef spec6 1)) (V c (Pipeline.arrRef spec6 2)) (V c (Pipeline.arrRef spec6 3)) (V c (Pipeline.arrRef spec6 4)) (V c (Pipeline.arrRef spec6 5))
      (((cfg6.win 6).blk t).view.emb (ix2 p q)) q (tile6_col t p q)).symm
  exact entry_congr (tile6_read V c t p q) (row6_1_read V c t q) (row6_2_read V c t q) (row6_3_read V c t q)
    (row6_4_read V c t q) (row6_5_read V c t q)

/-- An index of the result lies in point `t`'s tile iff each coordinate lies in the tile's range on its axis. -/
theorem mem_tile6 (t : Fin cfg6.N) (i : S100000x64.Idx) :
    i ∈ ((cfg6.win 6).blk t).view.set ↔ ∀ a : Fin 2, win6_6.index t a * S5000x64.size a ≤ (i a).val ∧ (i a).val < win6_6.index t a * S5000x64.size a + S5000x64.size a := by
  show i ∈ ((View.whole main_v103).slice (win6_6.rect t)).set ↔ _
  rw [View.set_slice_whole, Rect.mem_set_unit]
  exact Iff.rfl

/-- Row `r` of the result lies in the tile of point `r / 5000`, which writes back. -/
theorem covered6 (i : S100000x64.Idx) :
    ∃ t : Fin cfg6.N, (cfg6.win 6).flush t = true ∧ i ∈ ((cfg6.win 6).blk t).view.set := by
  have hi0 : (i 0).val < 100000 := idx2_lt0 i
  have hi1 : (i 1).val < 64 := idx2_lt1 i
  have hN : cfg6.N = 20 := N_6
  have ht : (i 0).val / 5000 < cfg6.N := by rw [hN]; omega
  obtain ⟨-, -, e2, e3, -⟩ := blockIndex6 ⟨(i 0).val / 5000, ht⟩
  refine ⟨⟨(i 0).val / 5000, ht⟩, flush6_6 _, ?_⟩
  rw [mem_tile6]
  intro a
  match a with
  | ⟨0, _⟩ =>
    show win6_6.index ⟨(i 0).val / 5000, ht⟩ (0 : Fin 2) * 5000 ≤ (i 0).val ∧ (i 0).val < win6_6.index ⟨(i 0).val / 5000, ht⟩ (0 : Fin 2) * 5000 + 5000
    rw [e2]; show (i 0).val / 5000 * 5000 ≤ (i 0).val ∧ (i 0).val < (i 0).val / 5000 * 5000 + 5000; omega
  | ⟨1, _⟩ =>
    show win6_6.index ⟨(i 0).val / 5000, ht⟩ (1 : Fin 2) * 64 ≤ (i 1).val ∧ (i 1).val < win6_6.index ⟨(i 0).val / 5000, ht⟩ (1 : Fin 2) * 64 + 64
    rw [e3]; omega

/-- The result array after the region's last point, as one function of the arrays the region finds. -/
theorem result6 (c : Dev nD) :
    (dat6 (F := Ideal) V c).arrAt 6 cfg6.N = (normalized (V c (Pipeline.arrRef spec6 0)) (V c (Pipeline.arrRef spec6 1)) (V c (Pipeline.arrRef spec6 2)) (V c (Pipeline.arrRef spec6 3)) (V c (Pipeline.arrRef spec6 4)) (V c (Pipeline.arrRef spec6 5))) :=
  (dat6 (F := Ideal) V c).arrAt_eq_of_cover 6 (normalized (V c (Pipeline.arrRef spec6 0)) (V c (Pipeline.arrRef spec6 1)) (V c (Pipeline.arrRef spec6 2)) (V c (Pipeline.arrRef spec6 3)) (V c (Pipeline.arrRef spec6 4)) (V c (Pipeline.arrRef spec6 5))) (fun t _ => written6 V c t) covered6

/-- The result array after the region's last point, entry by entry. -/
theorem result6_apply (c : Dev nD) (i : Fin 100000) (q : Fin 64) :
    ((dat6 (F := Ideal) V c).arrAt 6 cfg6.N : S100000x64.Idx → EReal) (ix2 i q)
      = entry (V c (Pipeline.arrRef spec6 0) : S100000x64.Idx → EReal) (V c (Pipeline.arrRef spec6 1) : S1x64.Idx → EReal)
          (V c (Pipeline.arrRef spec6 2) : S1x64.Idx → EReal) (V c (Pipeline.arrRef spec6 3) : S1x64.Idx → EReal)
          (V c (Pipeline.arrRef spec6 4) : S1x64.Idx → EReal) (V c (Pipeline.arrRef spec6 5) : S1x64.Idx → EReal) i q := by
  rw [result6 V c]
  rfl

end Region6

/-! ## Region 3

Grid point `t` of 20 works on rows `5000 t … 5000 t + 4999`: the table's window and the result's move together, and
each parameter row is staged whole at every point. -/

section Region3

variable (V : (c : Dev nD) → (b : Ref sig .tc) → Buf (Elt Ideal) ((c : Thread nD τ).loc b))

/-- Which buffer of the program each window of region 3 stages. -/
theorem arrRef3_0 : Pipeline.arrRef spec3 0 = main_v47_0 := rfl
theorem arrRef3_1 : Pipeline.arrRef spec3 1 = main_v49 := rfl
theorem arrRef3_2 : Pipeline.arrRef spec3 2 = main_v62 := rfl
theorem arrRef3_3 : Pipeline.arrRef spec3 3 = main_v63 := rfl
theorem arrRef3_4 : Pipeline.arrRef spec3 4 = main_v64 := rfl
theorem arrRef3_5 : Pipeline.arrRef spec3 5 = main_v65 := rfl
theorem arrRef3_6 : Pipeline.arrRef spec3 6 = main_v66 := rfl

/-- The block indices, decided over the 20 grid points: the table's and the result's block is the point's own on the row
    axis, and every other block index is zero. -/
theorem blockIndex3 : ∀ t : Fin cfg3.N,
    win3_0.index t (0 : Fin 2) = t.val ∧ win3_0.index t (1 : Fin 2) = 0
    ∧ win3_6.index t (0 : Fin 2) = t.val ∧ win3_6.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-- The table's tile at point `t` reads the table where the result's tile at `t` lies. -/
theorem tile3_read (c : Dev nD) (t : Fin cfg3.N) (p : Fin 5000) (q : Fin 64) :
    (iblk3 V c 0 t : Vec Ideal S5000x64 .f32) (ix2 p q)
      = (V c (Pipeline.arrRef spec3 0) : S100000x64.Idx → EReal) (((cfg3.win 6).blk t).view.emb (ix2 p q)) := by
  obtain ⟨e0, e1, e2, e3, -⟩ := blockIndex3 t
  unfold iblk3
  show (V c (Pipeline.arrRef spec3 0) : S100000x64.Idx → EReal) (((cfg3.win 0).blk t).view.emb (ix2 p q)) = _
  refine congrArg (V c (Pipeline.arrRef spec3 0) : S100000x64.Idx → EReal) ?_
  funext a; apply Fin.ext
  match a with
  | ⟨0, _⟩ => show win3_0.index t (0 : Fin 2) * 5000 + 1 * p.val = win3_6.index t (0 : Fin 2) * 5000 + 1 * p.val; rw [e0, e2]
  | ⟨1, _⟩ => show win3_0.index t (1 : Fin 2) * 64 + 1 * q.val = win3_6.index t (1 : Fin 2) * 64 + 1 * q.val; rw [e1, e3]

/-- The result's tile at point `t` keeps the column. -/
theorem tile3_col (t : Fin cfg3.N) (p : Fin 5000) (q : Fin 64) :
    (((((cfg3.win 6).blk t).view.emb (ix2 p q) : S100000x64.Idx) 1 : Fin 64)).val = q.val := by
  obtain ⟨-, -, -, e3, -⟩ := blockIndex3 t
  show win3_6.index t (1 : Fin 2) * 64 + 1 * q.val = q.val
  rw [e3]; omega

/-- Each parameter row's block at any point is the row. -/
theorem row3_1_read (c : Dev nD) (t : Fin cfg3.N) (q : Fin 64) :
    (iblk3 V c 1 t : Vec Ideal S1x64 .f32) (ix2 (0 : Fin 1) q) = (V c (Pipeline.arrRef spec3 1) : S1x64.Idx → EReal) (ix2 (0 : Fin 1) q) := by
  obtain ⟨-, -, -, -, e0, e1, -⟩ := blockIndex3 t
  unfold iblk3
  show (V c (Pipeline.arrRef spec3 1) : S1x64.Idx → EReal) (((cfg3.win 1).blk t).view.emb (ix2 (0 : Fin 1) q)) = _
  refine congrArg (V c (Pipeline.arrRef spec3 1) : S1x64.Idx → EReal) ?_
  funext a; apply Fin.ext
  match a with
  | ⟨0, _⟩ => show win3_1.index t (0 : Fin 2) * 1 + 1 * 0 = 0; rw [e0]
  | ⟨1, _⟩ => show win3_1.index t (1 : Fin 2) * 64 + 1 * q.val = q.val; rw [e1]; omega
theorem row3_2_read (c : Dev nD) (t : Fin cfg3.N) (q : Fin 64) :
    (iblk3 V c 2 t : Vec Ideal S1x64 .f32) (ix2 (0 : Fin 1) q) = (V c (Pipeline.arrRef spec3 2) : S1x64.Idx → EReal) (ix2 (0 : Fin 1) q) := by
  obtain ⟨-, -, -, -, -, -, e0, e1, -⟩ := blockIndex3 t
  unfold iblk3
  show (V c (Pipeline.arrRef spec3 2) : S1x64.Idx → EReal) (((cfg3.win 2).blk t).view.emb (ix2 (0 : Fin 1) q)) = _
  refine congrArg (V c (Pipeline.arrRef spec3 2) : S1x64.Idx → EReal) ?_
  funext a; apply Fin.ext
  match a with
  | ⟨0, _⟩ => show win3_2.index t (0 : Fin 2) * 1 + 1 * 0 = 0; rw [e0]
  | ⟨1, _⟩ => show win3_2.index t (1 : Fin 2) * 64 + 1 * q.val = q.val; rw [e1]; omega
theorem row3_3_read (c : Dev nD) (t : Fin cfg3.N) (q : Fin 64) :
    (iblk3 V c 3 t : Vec Ideal S1x64 .f32) (ix2 (0 : Fin 1) q) = (V c (Pipeline.arrRef spec3 3) : S1x64.Idx → EReal) (ix2 (0 : Fin 1) q) := by
  obtain ⟨-, -, -, -, -, -, -, -, e0, e1, -⟩ := blockIndex3 t
  unfold iblk3
  show (V c (Pipeline.arrRef spec3 3) : S1x64.Idx → EReal) (((cfg3.win 3).blk t).view.emb (ix2 (0 : Fin 1) q)) = _
  refine congrArg (V c (Pipeline.arrRef spec3 3) : S1x64.Idx → EReal) ?_
  funext a; apply Fin.ext
  match a with
  | ⟨0, _⟩ => show win3_3.index t (0 : Fin 2) * 1 + 1 * 0 = 0; rw [e0]
  | ⟨1, _⟩ => show win3_3.index t (1 : Fin 2) * 64 + 1 * q.val = q.val; rw [e1]; omega
theorem row3_4_read (c : Dev nD) (t : Fin cfg3.N) (q : Fin 64) :
    (iblk3 V c 4 t : Vec Ideal S1x64 .f32) (ix2 (0 : Fin 1) q) = (V c (Pipeline.arrRef spec3 4) : S1x64.Idx → EReal) (ix2 (0 : Fin 1) q) := by
  obtain ⟨-, -, -, -, -, -, -, -, -, -, e0, e1, -⟩ := blockIndex3 t
  unfold iblk3
  show (V c (Pipeline.arrRef spec3 4) : S1x64.Idx → EReal) (((cfg3.win 4).blk t).view.emb (ix2 (0 : Fin 1) q)) = _
  refine congrArg (V c (Pipeline.arrRef spec3 4) : S1x64.Idx → EReal) ?_
  funext a; apply Fin.ext
  match a with
  | ⟨0, _⟩ => show win3_4.index t (0 : Fin 2) * 1 + 1 * 0 = 0; rw [e0]
  | ⟨1, _⟩ => show win3_4.index t (1 : Fin 2) * 64 + 1 * q.val = q.val; rw [e1]; omega
theorem row3_5_read (c : Dev nD) (t : Fin cfg3.N) (q : Fin 64) :
    (iblk3 V c 5 t : Vec Ideal S1x64 .f32) (ix2 (0 : Fin 1) q) = (V c (Pipeline.arrRef spec3 5) : S1x64.Idx → EReal) (ix2 (0 : Fin 1) q) := by
  obtain ⟨-, -, -, -, -, -, -, -, -, -, -, -, e0, e1⟩ := blockIndex3 t
  unfold iblk3
  show (V c (Pipeline.arrRef spec3 5) : S1x64.Idx → EReal) (((cfg3.win 5).blk t).view.emb (ix2 (0 : Fin 1) q)) = _
  refine congrArg (V c (Pipeline.arrRef spec3 5) : S1x64.Idx → EReal) ?_
  funext a; apply Fin.ext
  match a with
  | ⟨0, _⟩ => show win3_5.index t (0 : Fin 2) * 1 + 1 * 0 = 0; rw [e0]
  | ⟨1, _⟩ => show win3_5.index t (1 : Fin 2) * 64 + 1 * q.val = q.val; rw [e1]; omega

/-- The write-back takes the whole staged tile, -/
theorem staged3_apply (t : Fin cfg3.N) (X : Vec Ideal S5000x64 .f32) (p : Fin 5000) (q : Fin 64) :
    (cfg3.win 6).cut (grid3.coords t) X (ix2 p q) = X (ix2 p q) := rfl

/-- and a whole-array function read through the result's tile at point `t` is the function where the tile lies. -/
theorem tile3_of (t : Fin cfg3.N) (G : S100000x64.Idx → EReal) (p : Fin 5000) (q : Fin 64) :
    ((cfg3.win 6).blk t).view.read (Elt Ideal) G (ix2 p q) = G (((cfg3.win 6).blk t).view.emb (ix2 p q)) := rfl

/-- What point `t` writes back is its tile of the rectified normalized table of the arrays the region finds. -/
theorem written3 (c : Dev nD) (t : Fin cfg3.N) :
    (dat3 (F := Ideal) V c).flushed 6 t
      = ((cfg3.win 6).blk t).view.read (Elt Ideal) (fun k => leaky (normalized (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) k)) := by
  show (cfg3.win 6).cut (grid3.coords t) ((dat3 (F := Ideal) V c).after 6 t) = _
  rw [after3_6]
  unfold out3_6
  rw [View.canon_unit_zero zero_offsets]
  simp only [View.ld_unit_zero (S := S5000x64) zero_offsets, View.ld_unit_zero (S := S1x64) zero_offsets]
  funext j
  obtain ⟨p, q, rfl⟩ : ∃ (p : Fin 5000) (q : Fin 64), j = ix2 p q := ⟨j 0, j 1, eq_ix2 j⟩
  refine (staged3_apply t _ p q).trans ?_
  refine Eq.trans ?_ (tile3_of t _ p q).symm
  refine (tile_leaky_apply (iblk3 V c 0 t) (iblk3 V c 3 t) (iblk3 V c 1 t) (iblk3 V c 4 t) (iblk3 V c 2 t) (iblk3 V c 5 t) p q).trans ?_
  refine congrArg leaky ?_
  refine (tile_apply (iblk3 V c 0 t) (iblk3 V c 3 t) (iblk3 V c 1 t) (iblk3 V c 4 t) (iblk3 V c 2 t) (iblk3 V c 5 t) p q).trans ?_
  refine Eq.trans ?_ (normalized_at (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))
      (((cfg3.win 6).blk t).view.emb (ix2 p q)) q (tile3_col t p q)).symm
  exact entry_congr (tile3_read V c t p q) (row3_1_read V c t q) (row3_2_read V c t q) (row3_3_read V c t q)
    (row3_4_read V c t q) (row3_5_read V c t q)

/-- An index of the result lies in point `t`'s tile iff each coordinate lies in the tile's range on its axis. -/
theorem mem_tile3 (t : Fin cfg3.N) (i : S100000x64.Idx) :
    i ∈ ((cfg3.win 6).blk t).view.set ↔ ∀ a : Fin 2, win3_6.index t a * S5000x64.size a ≤ (i a).val ∧ (i a).val < win3_6.index t a * S5000x64.size a + S5000x64.size a := by
  show i ∈ ((View.whole main_v66).slice (win3_6.rect t)).set ↔ _
  rw [View.set_slice_whole, Rect.mem_set_unit]
  exact Iff.rfl

/-- Row `r` of the result lies in the tile of point `r / 5000`, which writes back. -/
theorem covered3 (i : S100000x64.Idx) :
    ∃ t : Fin cfg3.N, (cfg3.win 6).flush t = true ∧ i ∈ ((cfg3.win 6).blk t).view.set := by
  have hi0 : (i 0).val < 100000 := idx2_lt0 i
  have hi1 : (i 1).val < 64 := idx2_lt1 i
  have hN : cfg3.N = 20 := N_3
  have ht : (i 0).val / 5000 < cfg3.N := by rw [hN]; omega
  obtain ⟨-, -, e2, e3, -⟩ := blockIndex3 ⟨(i 0).val / 5000, ht⟩
  refine ⟨⟨(i 0).val / 5000, ht⟩, flush3_6 _, ?_⟩
  rw [mem_tile3]
  intro a
  match a with
  | ⟨0, _⟩ =>
    show win3_6.index ⟨(i 0).val / 5000, ht⟩ (0 : Fin 2) * 5000 ≤ (i 0).val ∧ (i 0).val < win3_6.index ⟨(i 0).val / 5000, ht⟩ (0 : Fin 2) * 5000 + 5000
    rw [e2]; show (i 0).val / 5000 * 5000 ≤ (i 0).val ∧ (i 0).val < (i 0).val / 5000 * 5000 + 5000; omega
  | ⟨1, _⟩ =>
    show win3_6.index ⟨(i 0).val / 5000, ht⟩ (1 : Fin 2) * 64 ≤ (i 1).val ∧ (i 1).val < win3_6.index ⟨(i 0).val / 5000, ht⟩ (1 : Fin 2) * 64 + 64
    rw [e3]; omega

/-- The result array after the region's last point, as one function of the arrays the region finds. -/
theorem result3 (c : Dev nD) :
    (dat3 (F := Ideal) V c).arrAt 6 cfg3.N = (fun k => leaky (normalized (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) k)) :=
  (dat3 (F := Ideal) V c).arrAt_eq_of_cover 6 (fun k => leaky (normalized (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) k)) (fun t _ => written3 V c t) covered3

/-- The result array after the region's last point, entry by entry. -/
theorem result3_apply (c : Dev nD) (i : Fin 100000) (q : Fin 64) :
    ((dat3 (F := Ideal) V c).arrAt 6 cfg3.N : S100000x64.Idx → EReal) (ix2 i q)
      = leaky (entry (V c (Pipeline.arrRef spec3 0) : S100000x64.Idx → EReal) (V c (Pipeline.arrRef spec3 1) : S1x64.Idx → EReal)
          (V c (Pipeline.arrRef spec3 2) : S1x64.Idx → EReal) (V c (Pipeline.arrRef spec3 3) : S1x64.Idx → EReal)
          (V c (Pipeline.arrRef spec3 4) : S1x64.Idx → EReal) (V c (Pipeline.arrRef spec3 5) : S1x64.Idx → EReal) i q) := by
  rw [result3 V c]
  rfl

end Region3

end Cert.KernelIdeal.RegionNormalize

end
-- ==== Proof.KernelValue.lean ====
import proofs.«169252_j42494406426958_1_alg».proof.Proof.KernelWalk
import proofs.«169252_j42494406426958_1_alg».proof.Proof.KernelHost
import proofs.«169252_j42494406426958_1_alg».proof.Proof.SpecFinite
import proofs.«169252_j42494406426958_1_alg».proof.Proof.FiniteInputs
import proofs.«169252_j42494406426958_1_alg».proof.Proof.Bridges
import proofs.«169252_j42494406426958_1_alg».proof.Proof.RegionLinear
import proofs.«169252_j42494406426958_1_alg».proof.Proof.RegionCombine
import proofs.«169252_j42494406426958_1_alg».proof.Proof.RegionNormalize

/-!
# The kernel program's result is the network's value

The run of the kernel program ends with its result buffer at the seventh region's output array. Boundary by
boundary that array is read back to the arguments:

* the first stretch of host operations computes the edges' ends, the inverse root degrees and the edge weights;
* the first region computes the projection `x · W_in + b_in` (row tiles of the whole product);
* per layer: a region computes `h · W` (the bias row it adds is zero); a stretch gathers, weighs and sums the
  messages; a region adds the self term and the bias and accumulates, over the row tiles in order, the sums of
  the result and of its squares over the nodes; a stretch turns the two sums into the mean and into
  `(E[c²] + mean²·(α² − 2α) + ε)^(-1/2)`; a region normalizes.

The reference normalizes by the mean of `(c − α·mean)²`. The two variances agree because every entry of `c`
and of `α` is a real number, which follows from the inputs being finite; this is the only place the
precondition is used.
-/

set_option maxRecDepth 16384

noncomputable section

namespace Cert.KernelIdeal.Value

open Cert.KernelIdeal Cert.KernelIdeal.Gen Cert.KernelIdeal.Walk Cert.KernelIdeal.HostRead
open Idealize.ShloMosaic Idealize.ShloMosaic.TcCoe Idealize.SL.Sem Idealize.ShloMosaic.ValueIdx
open Cert.SpecFinite (RealValued)

variable [Cert.ReferenceIdeal.Facts₀]
variable (m : (ℓ : Loc nD τ sig) → Buf (Elt Ideal) ℓ) (ρ : Dev nD → PrngReg) (c : Dev nD)

/-! ## The arguments as launched, and the network's stages over them -/

abbrev a0 : Cert.Spec.FA Ideal Cert.ReferenceIdeal.S100000x128 := m ((c : Thread nD τ).loc main_arg0)
abbrev a1 : Cert.Spec.IA Ideal Cert.ReferenceIdeal.S2x1000000 := m ((c : Thread nD τ).loc main_arg1)
abbrev a2 : Cert.Spec.FA Ideal Cert.ReferenceIdeal.S128x64 := m ((c : Thread nD τ).loc main_arg2)
abbrev a3 : Cert.Spec.FA Ideal Cert.ReferenceIdeal.S64 := m ((c : Thread nD τ).loc main_arg3)
abbrev a4 : Cert.Spec.FA Ideal Cert.ReferenceIdeal.S64x64 := m ((c : Thread nD τ).loc main_arg4)
abbrev a5 : Cert.Spec.FA Ideal Cert.ReferenceIdeal.S64 := m ((c : Thread nD τ).loc main_arg5)
abbrev a6 : Cert.Spec.FA Ideal Cert.ReferenceIdeal.S64 := m ((c : Thread nD τ).loc main_arg6)
abbrev a7 : Cert.Spec.FA Ideal Cert.ReferenceIdeal.S64 := m ((c : Thread nD τ).loc main_arg7)
abbrev a8 : Cert.Spec.FA Ideal Cert.ReferenceIdeal.S64 := m ((c : Thread nD τ).loc main_arg8)
abbrev a9 : Cert.Spec.FA Ideal Cert.ReferenceIdeal.S64x64 := m ((c : Thread nD τ).loc main_arg9)
abbrev a10 : Cert.Spec.FA Ideal Cert.ReferenceIdeal.S64 := m ((c : Thread nD τ).loc main_arg10)
abbrev a11 : Cert.Spec.FA Ideal Cert.ReferenceIdeal.S64 := m ((c : Thread nD τ).loc main_arg11)
abbrev a12 : Cert.Spec.FA Ideal Cert.ReferenceIdeal.S64 := m ((c : Thread nD τ).loc main_arg12)
abbrev a13 : Cert.Spec.FA Ideal Cert.ReferenceIdeal.S64 := m ((c : Thread nD τ).loc main_arg13)

/-- The input projection. -/
def H0 : Cert.Spec.FA Ideal Cert.ReferenceIdeal.S100000x64 := Cert.Spec.proj (a0 m c) (a2 m c) (a3 m c)
/-- The first layer's product. -/
def XW1 : Cert.Spec.FA Ideal Cert.ReferenceIdeal.S100000x64 := Cert.Spec.prod (H0 m c) (a4 m c)
/-- The first layer's convolution. -/
def C1 : Cert.Spec.FA Ideal Cert.ReferenceIdeal.S100000x64 := Cert.Spec.combine (XW1 m c) (a1 m c) (a5 m c)
/-- The first layer's output after the activation. -/
def H2 : Cert.Spec.FA Ideal Cert.ReferenceIdeal.S100000x64 :=
  Cert.Spec.leaky (Cert.Spec.graphNorm (C1 m c) (a6 m c) (a7 m c) (a8 m c))
/-- The second layer's product. -/
def XW2 : Cert.Spec.FA Ideal Cert.ReferenceIdeal.S100000x64 := Cert.Spec.prod (H2 m c) (a9 m c)
/-- The second layer's convolution. -/
def C2 : Cert.Spec.FA Ideal Cert.ReferenceIdeal.S100000x64 := Cert.Spec.combine (XW2 m c) (a1 m c) (a10 m c)

/-! ## What the first stretch leaves -/

theorem W1_v1 : W1 m ρ c (Proc.devRef .tc main_v1) = Cert.Spec.srcOf (a1 m c) := edge_sources (W0 m ρ c)
theorem W1_v3 : W1 m ρ c (Proc.devRef .tc main_v3) = Cert.Spec.dstOf (a1 m c) := edge_destinations (W0 m ρ c)
theorem W1_v25 : W1 m ρ c (Proc.devRef .tc main_v25) = Cert.Spec.coef (a1 m c) := edge_weights (W0 m ρ c)
theorem W1_v27 : W1 m ρ c (Proc.devRef .tc main_v27)
    = shapeCast _ (mulf (Cert.Spec.dinv (a1 m c)) (Cert.Spec.dinv (a1 m c))) Facts₀.shapeCasts_S100000_S100000x1 :=
  node_factor_squares (W0 m ρ c)
theorem W1_v28 : W1 m ρ c (Proc.devRef .tc main_v28) = shapeCast _ (a3 m c) Facts₀.shapeCasts_S64_S1x64 :=
  input_bias_row (W0 m ρ c)

/-! ## The projection -/

/-- The first region's output is `x · W_in + b_in`. -/
theorem H0_at : W2 m ρ c (Proc.devRef .tc main_v29) = H0 m c := by
  refine (W2_arr m ρ c 3).trans ?_
  funext j
  obtain ⟨i, q, rfl⟩ : ∃ (i : Fin 100000) (q : Fin 64), j = ix2 i q := ⟨j 0, j 1, eq_ix2 j⟩
  refine (Cert.KernelIdeal.RegionLinear.projection_value (V1 m ρ) c
    Cert.ReferenceIdeal.Facts₀.dot_S100000x128_S128x64_S100000x64_1_0_0_1_n_n_wf i q).trans ?_
  have e0 : V1 m ρ c (Pipeline.arrRef spec0 0) = a0 m c := W1_arg0 m ρ c
  have e1 : V1 m ρ c (Pipeline.arrRef spec0 1) = a2 m c := W1_arg2 m ρ c
  have e2 : V1 m ρ c (Pipeline.arrRef spec0 2) = shapeCast _ (a3 m c) Facts₀.shapeCasts_S64_S1x64 := W1_v28 m ρ c
  rw [e0, e1, e2]
  exact Cert.Bridges.proj_entry _ _ _ _ _ i q

/-! ## Layer 1: product, messages, convolution and its two sums over the nodes -/

/-- The layer's product `h · W` is what its first region leaves: the tile products are the rows of the whole
    product, and the bias row it adds is all zeros. -/
theorem XW1_at : W4 m ρ c (Proc.devRef .tc main_v32) = XW1 m c := by
  refine (W4_arr m ρ c 3).trans ?_
  funext j
  obtain ⟨i, q, rfl⟩ : ∃ (i : Fin 100000) (q : Fin 64), j = ix2 i q := ⟨j 0, j 1, eq_ix2 j⟩
  refine (Cert.KernelIdeal.RegionLinear.layer1_product_value (V3 m ρ) c
    Cert.ReferenceIdeal.Facts₀.dot_S100000x64_S64x64_S100000x64_1_0_0_1_n_n_wf i q).trans ?_
  have e0 : V3 m ρ c (Pipeline.arrRef spec1 0) = H0 m c := (W3_v29 m ρ c).trans (H0_at m ρ c)
  have e1 : V3 m ρ c (Pipeline.arrRef spec1 1) = a4 m c := W3_arg4 m ρ c
  have e2 : V3 m ρ c (Pipeline.arrRef spec1 2)
      = shapeCast _ (broadcastInDim S64 ![] Facts₀.bcast_S_S64 (constant (F := Ideal) S_ .f32 0x00000000#32))
          Facts₀.shapeCasts_S64_S1x64 :=
    zero_row_first (W2 m ρ c)
  rw [e0, e1, e2]
  exact Cert.Bridges.prod_entry _ _ _ _ _ i q

/-- The messages summed at their destinations, from the product, the edges' ends and their weights. -/
theorem agg1_at : W5 m ρ c (Proc.devRef .tc main_v45) = Cert.Spec.agg (XW1 m c) (a1 m c) := by
  refine (messages_first (W4 m ρ c)).trans ?_
  rw [XW1_at m ρ c, (W4_v1 m ρ c).trans (W1_v1 m ρ c), (W4_v3 m ρ c).trans (W1_v3 m ρ c),
    (W4_v25 m ρ c).trans (W1_v25 m ρ c)]
  rfl

/-- The layer's bias as a row. -/
theorem bias1_at : W5 m ρ c (Proc.devRef .tc main_v46) = shapeCast _ (a5 m c) Facts₀.shapeCasts_S64_S1x64 :=
  (bias_row_first (W4 m ρ c)).trans (by rw [W4_arg5 m ρ c])

/-- What the layer's second region adds up at a node and a feature is the convolution's entry. -/
theorem cmb1_eq (i : Fin 100000) (q : Fin 64) :
    Cert.KernelIdeal.RegionCombine.cmb (V5 m ρ c (Pipeline.arrRef spec2 0)) (V5 m ρ c (Pipeline.arrRef spec2 1))
      (V5 m ρ c (Pipeline.arrRef spec2 2)) (V5 m ρ c (Pipeline.arrRef spec2 3)) i q = C1 m c (ix2 i q) := by
  have e0 : V5 m ρ c (Pipeline.arrRef spec2 0) = Cert.Spec.agg (XW1 m c) (a1 m c) := agg1_at m ρ c
  have e1 : V5 m ρ c (Pipeline.arrRef spec2 1) = XW1 m c :=
    (W5_v32 m ρ c).trans (XW1_at m ρ c)
  have e2 : V5 m ρ c (Pipeline.arrRef spec2 2)
      = shapeCast _ (mulf (Cert.Spec.dinv (a1 m c)) (Cert.Spec.dinv (a1 m c))) Facts₀.shapeCasts_S100000_S100000x1 :=
    (W5_v27 m ρ c).trans (W1_v27 m ρ c)
  have e3 : V5 m ρ c (Pipeline.arrRef spec2 3) = shapeCast _ (a5 m c) Facts₀.shapeCasts_S64_S1x64 :=
    bias1_at m ρ c
  rw [e0, e1, e2, e3]
  unfold Cert.KernelIdeal.RegionCombine.cmb
  exact Cert.Bridges.combine_entry _ _ _ _ _ i q

/-- The convolution's result. -/
theorem C1_at : W6 m ρ c (Proc.devRef .tc main_v47_0) = C1 m c := by
  refine (W6_arr m ρ c 4).trans ?_
  funext j
  obtain ⟨i, q, rfl⟩ : ∃ (i : Fin 100000) (q : Fin 64), j = ix2 i q := ⟨j 0, j 1, eq_ix2 j⟩
  exact (Cert.KernelIdeal.RegionCombine.combined2 (V5 m ρ) c i q).trans (cmb1_eq m ρ c i q)

/-- Its sums over the nodes. -/
theorem C1_sum_at (q : Fin 64) :
    @Eq EReal (W6 m ρ c (Proc.devRef .tc main_v47_1) (ix2 (0 : Fin 1) q)) (∑ k : Fin 100000, C1 m c (ix2 k q)) := by
  refine Eq.trans (congrFun (W6_arr m ρ c 5) (ix2 (0 : Fin 1) q)) ?_
  refine Eq.trans (Cert.KernelIdeal.RegionCombine.colsum2 (V5 m ρ) c q) ?_
  exact Finset.sum_congr rfl fun k _ => cmb1_eq m ρ c k q

/-- The sums of its squares over the nodes. -/
theorem C1_sumsq_at (q : Fin 64) :
    @Eq EReal (W6 m ρ c (Proc.devRef .tc main_v47_2) (ix2 (0 : Fin 1) q))
      (∑ k : Fin 100000, C1 m c (ix2 k q) * C1 m c (ix2 k q)) := by
  refine Eq.trans (congrFun (W6_arr m ρ c 6) (ix2 (0 : Fin 1) q)) ?_
  refine Eq.trans (Cert.KernelIdeal.RegionCombine.colsumsq2 (V5 m ρ) c q) ?_
  exact Finset.sum_congr rfl fun k _ => by rw [cmb1_eq m ρ c k q]

/-! ## The inverse standard deviation row read at a feature -/

/-- The stretch's inverse standard deviation at feature `q`, when the row of `α` it takes is the vector `α` laid
    as a row: `(s2/n + (s/n)² · (α² − 2α) + ε)^(-1/2)` over the two sums' entries and `α`'s entry. -/
theorem invStd_reading (s s2 : Cert.Spec.FA Ideal S1x64) (α : Cert.Spec.FA Ideal S64) (h : S64.ShapeCasts S1x64) (q : Fin 64) :
    invStdRow (F := Ideal) s s2 (shapeCast _ α h) (ix2 (0 : Fin 1) q)
      = FloatOps.hostUnary (F := Ideal) (φ := .f32) .rsqrt
          ((FloatOps.hostDivf (F := Ideal) (φ := .f32) (s2 (ix2 0 q)) (Ideal.ofBits .f32 0x47C35000#32)
              + (FloatOps.hostDivf (F := Ideal) (φ := .f32) (s (ix2 0 q)) (Ideal.ofBits .f32 0x47C35000#32)
                  * FloatOps.hostDivf (F := Ideal) (φ := .f32) (s (ix2 0 q)) (Ideal.ofBits .f32 0x47C35000#32))
                * (α (ix1 q) * α (ix1 q) - Ideal.ofBits .f32 0x40000000#32 * α (ix1 q)))
            + Ideal.ofBits .f32 0x3727C5AC#32) := by
  rw [invStdRow_apply, Cert.SpecRead.row64_of_vec_apply]

/-! ## Every stage is real-valued when the float inputs are

From here on the float inputs are real-valued (what the precondition gives). -/

variable (hr : Cert.FiniteInputs.RealArgs (a0 m c) (a2 m c) (a3 m c) (a4 m c) (a5 m c) (a6 m c) (a7 m c) (a8 m c) (a9 m c)
  (a10 m c) (a11 m c) (a12 m c) (a13 m c))
include hr

theorem H0_real : RealValued (H0 m c) := Cert.SpecFinite.proj_real hr.arg0 hr.arg2 hr.arg3
theorem C1_real : RealValued (C1 m c) :=
  Cert.SpecFinite.combine_real (Cert.SpecFinite.prod_real (H0_real m c hr) hr.arg4) (a1 m c) hr.arg5
theorem H2_real : RealValued (H2 m c) :=
  Cert.SpecFinite.leaky_real (Cert.SpecFinite.graphNorm_real (C1_real m c hr) hr.arg6 hr.arg7 hr.arg8)
theorem C2_real : RealValued (C2 m c) :=
  Cert.SpecFinite.combine_real (Cert.SpecFinite.prod_real (H2_real m c hr) hr.arg9) (a1 m c) hr.arg10

/-! ## Layer 1: the statistics and the normalization -/

/-- The array the layer's last region normalizes is the convolution. -/
theorem rd1_x (i : Fin 100000) (q : Fin 64) :
    @Eq EReal (V7 m ρ c (Pipeline.arrRef spec3 0) (ix2 i q)) (C1 m c (ix2 i q)) :=
  congrFun ((W7_v47 m ρ c).trans (C1_at m ρ c)) _

/-- The mean row at a feature: the sum over the nodes divided by their number. -/
theorem rd1_m (q : Fin 64) :
    @Eq EReal (V7 m ρ c (Pipeline.arrRef spec3 1) (ix2 (0 : Fin 1) q)) (FloatOps.hostDivf (F := Ideal) (φ := .f32) (W6 m ρ c (Proc.devRef .tc main_v47_1) (ix2 (0 : Fin 1) q)) (Ideal.ofBits .f32 0x47C35000#32)) :=
  (congrFun (mean_first (W6 m ρ c)) (ix2 (0 : Fin 1) q)).trans (meanRow_apply _ q)

/-- The inverse standard deviation row at a feature. -/
theorem rd1_s (q : Fin 64) :
    @Eq EReal (V7 m ρ c (Pipeline.arrRef spec3 2) (ix2 (0 : Fin 1) q))
      (FloatOps.hostUnary (F := Ideal) (φ := .f32) .rsqrt
          ((FloatOps.hostDivf (F := Ideal) (φ := .f32) (W6 m ρ c (Proc.devRef .tc main_v47_2) (ix2 (0 : Fin 1) q)) (Ideal.ofBits .f32 0x47C35000#32)
              + (FloatOps.hostDivf (F := Ideal) (φ := .f32) (W6 m ρ c (Proc.devRef .tc main_v47_1) (ix2 (0 : Fin 1) q)) (Ideal.ofBits .f32 0x47C35000#32)
                  * FloatOps.hostDivf (F := Ideal) (φ := .f32) (W6 m ρ c (Proc.devRef .tc main_v47_1) (ix2 (0 : Fin 1) q)) (Ideal.ofBits .f32 0x47C35000#32))
                * (a6 m c (ix1 q) * a6 m c (ix1 q) - Ideal.ofBits .f32 0x40000000#32 * a6 m c (ix1 q)))
            + Ideal.ofBits .f32 0x3727C5AC#32)) := by
  refine Eq.trans (congrFun (inv_std_first (W6 m ρ c)) (ix2 (0 : Fin 1) q)) ?_
  rw [W6_arg6 m ρ c]
  exact invStd_reading _ _ (a6 m c) Facts₀.shapeCasts_S64_S1x64 q

/-- The rows of `α`, `γ`, `β` at a feature are the vectors' entries. -/
theorem rd1_a (q : Fin 64) :
    @Eq EReal (V7 m ρ c (Pipeline.arrRef spec3 3) (ix2 (0 : Fin 1) q)) (a6 m c (ix1 q)) := by
  refine Eq.trans (congrFun (alpha_row_first (W6 m ρ c)) (ix2 (0 : Fin 1) q)) ?_
  rw [W6_arg6 m ρ c]
  exact Cert.SpecRead.row64_of_vec_apply (a6 m c) Facts₀.shapeCasts_S64_S1x64 q
theorem rd1_g (q : Fin 64) :
    @Eq EReal (V7 m ρ c (Pipeline.arrRef spec3 4) (ix2 (0 : Fin 1) q)) (a7 m c (ix1 q)) := by
  refine Eq.trans (congrFun (gamma_row_first (W6 m ρ c)) (ix2 (0 : Fin 1) q)) ?_
  rw [W6_arg7 m ρ c]
  exact Cert.SpecRead.row64_of_vec_apply (a7 m c) Facts₀.shapeCasts_S64_S1x64 q
theorem rd1_b (q : Fin 64) :
    @Eq EReal (V7 m ρ c (Pipeline.arrRef spec3 5) (ix2 (0 : Fin 1) q)) (a8 m c (ix1 q)) := by
  refine Eq.trans (congrFun (beta_row_first (W6 m ρ c)) (ix2 (0 : Fin 1) q)) ?_
  rw [W6_arg8 m ρ c]
  exact Cert.SpecRead.row64_of_vec_apply (a8 m c) Facts₀.shapeCasts_S64_S1x64 q

/-- The layer's last region normalizes the convolution by the mean and the inverse standard deviation the stretch
    before it computed from the two sums; with every entry real the variance so computed is the mean of the
    squared deviations, so the result is GraphNorm's, with the activation on top. -/
theorem H2_at : W8 m ρ c (Proc.devRef .tc main_v66) = H2 m c := by
  refine (W8_arr m ρ c 6).trans ?_
  funext j
  obtain ⟨i, q, rfl⟩ : ∃ (i : Fin 100000) (q : Fin 64), j = ix2 i q := ⟨j 0, j 1, eq_ix2 j⟩
  refine (Cert.KernelIdeal.RegionNormalize.result3_apply (V7 m ρ) c i q).trans ?_
  exact Cert.Bridges.leaky_graphNorm_entry (C1 m c) (a6 m c) (a7 m c) (a8 m c) (C1_real m c hr) hr.arg6 i q _ _ _
    (C1_sum_at m ρ c q) (C1_sumsq_at m ρ c q)
    (Cert.KernelIdeal.RegionNormalize.entry_congr (rd1_x m ρ c hr i q) (rd1_m m ρ c hr q) (rd1_s m ρ c hr q) (rd1_a m ρ c hr q)
      (rd1_g m ρ c hr q) (rd1_b m ρ c hr q))

/-! ## Layer 2: product, messages, convolution and its two sums over the nodes -/

/-- The layer's product `h · W` is what its first region leaves: the tile products are the rows of the whole
    product, and the bias row it adds is all zeros. -/
theorem XW2_at : W10 m ρ c (Proc.devRef .tc main_v69) = XW2 m c := by
  refine (W10_arr m ρ c 3).trans ?_
  funext j
  obtain ⟨i, q, rfl⟩ : ∃ (i : Fin 100000) (q : Fin 64), j = ix2 i q := ⟨j 0, j 1, eq_ix2 j⟩
  refine (Cert.KernelIdeal.RegionLinear.layer2_product_value (V9 m ρ) c
    Cert.ReferenceIdeal.Facts₀.dot_S100000x64_S64x64_S100000x64_1_0_0_1_n_n_wf i q).trans ?_
  have e0 : V9 m ρ c (Pipeline.arrRef spec4 0) = H2 m c := (W9_v66 m ρ c).trans (H2_at m ρ c hr)
  have e1 : V9 m ρ c (Pipeline.arrRef spec4 1) = a9 m c := W9_arg9 m ρ c
  have e2 : V9 m ρ c (Pipeline.arrRef spec4 2)
      = shapeCast _ (broadcastInDim S64 ![] Facts₀.bcast_S_S64 (constant (F := Ideal) S_ .f32 0x00000000#32))
          Facts₀.shapeCasts_S64_S1x64 :=
    zero_row_second (W8 m ρ c)
  rw [e0, e1, e2]
  exact Cert.Bridges.prod_entry _ _ _ _ _ i q

/-- The messages summed at their destinations, from the product, the edges' ends and their weights. -/
theorem agg2_at : W11 m ρ c (Proc.devRef .tc main_v82) = Cert.Spec.agg (XW2 m c) (a1 m c) := by
  refine (messages_second (W10 m ρ c)).trans ?_
  rw [XW2_at m ρ c hr, (W10_v1 m ρ c).trans (W1_v1 m ρ c), (W10_v3 m ρ c).trans (W1_v3 m ρ c),
    (W10_v25 m ρ c).trans (W1_v25 m ρ c)]
  rfl

/-- The layer's bias as a row. -/
theorem bias2_at : W11 m ρ c (Proc.devRef .tc main_v83) = shapeCast _ (a10 m c) Facts₀.shapeCasts_S64_S1x64 :=
  (bias_row_second (W10 m ρ c)).trans (by rw [W10_arg10 m ρ c])

/-- What the layer's second region adds up at a node and a feature is the convolution's entry. -/
theorem cmb2_eq (i : Fin 100000) (q : Fin 64) :
    Cert.KernelIdeal.RegionCombine.cmb (V11 m ρ c (Pipeline.arrRef spec5 0)) (V11 m ρ c (Pipeline.arrRef spec5 1))
      (V11 m ρ c (Pipeline.arrRef spec5 2)) (V11 m ρ c (Pipeline.arrRef spec5 3)) i q = C2 m c (ix2 i q) := by
  have e0 : V11 m ρ c (Pipeline.arrRef spec5 0) = Cert.Spec.agg (XW2 m c) (a1 m c) := agg2_at m ρ c hr
  have e1 : V11 m ρ c (Pipeline.arrRef spec5 1) = XW2 m c :=
    (W11_v69 m ρ c).trans (XW2_at m ρ c hr)
  have e2 : V11 m ρ c (Pipeline.arrRef spec5 2)
      = shapeCast _ (mulf (Cert.Spec.dinv (a1 m c)) (Cert.Spec.dinv (a1 m c))) Facts₀.shapeCasts_S100000_S100000x1 :=
    (W11_v27 m ρ c).trans (W1_v27 m ρ c)
  have e3 : V11 m ρ c (Pipeline.arrRef spec5 3) = shapeCast _ (a10 m c) Facts₀.shapeCasts_S64_S1x64 :=
    bias2_at m ρ c hr
  rw [e0, e1, e2, e3]
  unfold Cert.KernelIdeal.RegionCombine.cmb
  exact Cert.Bridges.combine_entry _ _ _ _ _ i q

/-- The convolution's result. -/
theorem C2_at : W12 m ρ c (Proc.devRef .tc main_v84_0) = C2 m c := by
  refine (W12_arr m ρ c 4).trans ?_
  funext j
  obtain ⟨i, q, rfl⟩ : ∃ (i : Fin 100000) (q : Fin 64), j = ix2 i q := ⟨j 0, j 1, eq_ix2 j⟩
  exact (Cert.KernelIdeal.RegionCombine.combined5 (V11 m ρ) c i q).trans (cmb2_eq m ρ c hr i q)

/-- Its sums over the nodes. -/
theorem C2_sum_at (q : Fin 64) :
    @Eq EReal (W12 m ρ c (Proc.devRef .tc main_v84_1) (ix2 (0 : Fin 1) q)) (∑ k : Fin 100000, C2 m c (ix2 k q)) := by
  refine Eq.trans (congrFun (W12_arr m ρ c 5) (ix2 (0 : Fin 1) q)) ?_
  refine Eq.trans (Cert.KernelIdeal.RegionCombine.colsum5 (V11 m ρ) c q) ?_
  exact Finset.sum_congr rfl fun k _ => cmb2_eq m ρ c hr k q

/-- The sums of its squares over the nodes. -/
theorem C2_sumsq_at (q : Fin 64) :
    @Eq EReal (W12 m ρ c (Proc.devRef .tc main_v84_2) (ix2 (0 : Fin 1) q))
      (∑ k : Fin 100000, C2 m c (ix2 k q) * C2 m c (ix2 k q)) := by
  refine Eq.trans (congrFun (W12_arr m ρ c 6) (ix2 (0 : Fin 1) q)) ?_
  refine Eq.trans (Cert.KernelIdeal.RegionCombine.colsumsq5 (V11 m ρ) c q) ?_
  exact Finset.sum_congr rfl fun k _ => by rw [cmb2_eq m ρ c hr k q]

/-! ## Layer 2: the statistics and the normalization -/

/-- The array the layer's last region normalizes is the convolution. -/
theorem rd2_x (i : Fin 100000) (q : Fin 64) :
    @Eq EReal (V13 m ρ c (Pipeline.arrRef spec6 0) (ix2 i q)) (C2 m c (ix2 i q)) :=
  congrFun ((W13_v84 m ρ c).trans (C2_at m ρ c hr)) _

/-- The mean row at a feature: the sum over the nodes divided by their number. -/
theorem rd2_m (q : Fin 64) :
    @Eq EReal (V13 m ρ c (Pipeline.arrRef spec6 1) (ix2 (0 : Fin 1) q)) (FloatOps.hostDivf (F := Ideal) (φ := .f32) (W12 m ρ c (Proc.devRef .tc main_v84_1) (ix2 (0 : Fin 1) q)) (Ideal.ofBits .f32 0x47C35000#32)) :=
  (congrFun (mean_second (W12 m ρ c)) (ix2 (0 : Fin 1) q)).trans (meanRow_apply _ q)

/-- The inverse standard deviation row at a feature. -/
theorem rd2_s (q : Fin 64) :
    @Eq EReal (V13 m ρ c (Pipeline.arrRef spec6 2) (ix2 (0 : Fin 1) q))
      (FloatOps.hostUnary (F := Ideal) (φ := .f32) .rsqrt
          ((FloatOps.hostDivf (F := Ideal) (φ := .f32) (W12 m ρ c (Proc.devRef .tc main_v84_2) (ix2 (0 : Fin 1) q)) (Ideal.ofBits .f32 0x47C35000#32)
              + (FloatOps.hostDivf (F := Ideal) (φ := .f32) (W12 m ρ c (Proc.devRef .tc main_v84_1) (ix2 (0 : Fin 1) q)) (Ideal.ofBits .f32 0x47C35000#32)
                  * FloatOps.hostDivf (F := Ideal) (φ := .f32) (W12 m ρ c (Proc.devRef .tc main_v84_1) (ix2 (0 : Fin 1) q)) (Ideal.ofBits .f32 0x47C35000#32))
                * (a11 m c (ix1 q) * a11 m c (ix1 q) - Ideal.ofBits .f32 0x40000000#32 * a11 m c (ix1 q)))
            + Ideal.ofBits .f32 0x3727C5AC#32)) := by
  refine Eq.trans (congrFun (inv_std_second (W12 m ρ c)) (ix2 (0 : Fin 1) q)) ?_
  rw [W12_arg11 m ρ c]
  exact invStd_reading _ _ (a11 m c) Facts₀.shapeCasts_S64_S1x64 q

/-- The rows of `α`, `γ`, `β` at a feature are the vectors' entries. -/
theorem rd2_a (q : Fin 64) :
    @Eq EReal (V13 m ρ c (Pipeline.arrRef spec6 3) (ix2 (0 : Fin 1) q)) (a11 m c (ix1 q)) := by
  refine Eq.trans (congrFun (alpha_row_second (W12 m ρ c)) (ix2 (0 : Fin 1) q)) ?_
  rw [W12_arg11 m ρ c]
  exact Cert.SpecRead.row64_of_vec_apply (a11 m c) Facts₀.shapeCasts_S64_S1x64 q
theorem rd2_g (q : Fin 64) :
    @Eq EReal (V13 m ρ c (Pipeline.arrRef spec6 4) (ix2 (0 : Fin 1) q)) (a12 m c (ix1 q)) := by
  refine Eq.trans (congrFun (gamma_row_second (W12 m ρ c)) (ix2 (0 : Fin 1) q)) ?_
  rw [W12_arg12 m ρ c]
  exact Cert.SpecRead.row64_of_vec_apply (a12 m c) Facts₀.shapeCasts_S64_S1x64 q
theorem rd2_b (q : Fin 64) :
    @Eq EReal (V13 m ρ c (Pipeline.arrRef spec6 5) (ix2 (0 : Fin 1) q)) (a13 m c (ix1 q)) := by
  refine Eq.trans (congrFun (beta_row_second (W12 m ρ c)) (ix2 (0 : Fin 1) q)) ?_
  rw [W12_arg13 m ρ c]
  exact Cert.SpecRead.row64_of_vec_apply (a13 m c) Facts₀.shapeCasts_S64_S1x64 q

/-- The layer's last region normalizes the convolution by the mean and the inverse standard deviation the stretch
    before it computed from the two sums; with every entry real the variance so computed is the mean of the
    squared deviations, so the result is GraphNorm's. -/
theorem out_at : W14 m ρ c (Proc.devRef .tc main_v103) = Cert.Spec.graphNorm (C2 m c) (a11 m c) (a12 m c) (a13 m c) := by
  refine (W14_arr m ρ c 6).trans ?_
  funext j
  obtain ⟨i, q, rfl⟩ : ∃ (i : Fin 100000) (q : Fin 64), j = ix2 i q := ⟨j 0, j 1, eq_ix2 j⟩
  refine (Cert.KernelIdeal.RegionNormalize.result6_apply (V13 m ρ) c i q).trans ?_
  exact (Cert.KernelIdeal.RegionNormalize.entry_congr (rd2_x m ρ c hr i q) (rd2_m m ρ c hr q) (rd2_s m ρ c hr q) (rd2_a m ρ c hr q)
      (rd2_g m ρ c hr q) (rd2_b m ρ c hr q)).trans
    (Cert.Bridges.graphNorm_entry_of_sums (C2 m c) (a11 m c) (a12 m c) (a13 m c) (C2_real m c hr) hr.arg11 i q _ _
      (C2_sum_at m ρ c hr q) (C2_sumsq_at m ρ c hr q))

/-! ## The result -/

/-- The kernel program's result buffer ends at the network's value of the arguments. -/
theorem result_eq : W14 m ρ c (Proc.devRef .tc main_v103)
    = Cert.Spec.model (a0 m c) (a1 m c) (a2 m c) (a3 m c) (a4 m c) (a5 m c) (a6 m c) (a7 m c) (a8 m c) (a9 m c)
        (a10 m c) (a11 m c) (a12 m c) (a13 m c) :=
  (out_at m ρ c hr).trans rfl

end Cert.KernelIdeal.Value

end
-- ==== Proof.RefRun.lean ====
import proofs.«169252_j42494406426958_1_alg».proof.Proof.RefOps
import proofs.«169252_j42494406426958_1_alg».proof.Proof.Spec
import proofs.«169252_j42494406426958_1_alg».proof.Defs

/-!
# The reference program computes `Spec.model`

The reference's @main is a straight line of 179 host operations. It is read here stage by stage: the line is cut
into fifteen consecutive stretches — the edge table's two rows, the input projection, and then per layer the product,
the degrees, the edge weights, the aggregation, the combination and GraphNorm, with the LeakyReLU between the layers —
and for each stretch, from ANY contents `W` of the buffers, the stretch leaves in its last buffer the corresponding
stage of `Cert.Spec` applied to what `W` holds in the buffers the stretch reads, and leaves alone every buffer it does
not write. Joining the stretches in order gives the whole line: its last buffer holds `Spec.model` of the arguments,
and the arguments are unchanged.
-/

noncomputable section

namespace Cert.ReferenceIdeal.RefRun

open Cert.ReferenceIdeal Cert.ReferenceIdeal.Gen Cert.ReferenceIdeal.RefOps Idealize.ShloMosaic Idealize.ShloMosaic.TcCoe Idealize.SL.Sem Idealize.ShloMosaic.StableHlo

variable {F : FTy → Type} [FloatOps F]

local notation:max "↟" r:max => Proc.devRef Proc.tc r

/-! ## Buffers a line does not write -/

/-- A line run after another is the two run as one. -/
theorem after_append : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append l₁ l₂]

/-- An operation whose one written buffer is `y` writes inside any list of references holding `y`. -/
theorem writes_sub {wl : List (Ref sig .tc)} {y : Ref sig .tc} (hy : y ∈ wl) :
    ({Proc.devRef .tc y} : Finset (DevRef τ sig)) ⊆ (wl.map (Proc.devRef (τ := τ) .tc)).toFinset :=
  Finset.singleton_subset_iff.mpr (List.mem_toFinset.mpr (List.mem_map.mpr ⟨y, hy, rfl⟩))

/-- The two contents agree on every reference of the list. -/
def Same (L : List (Ref sig .tc)) (V V' : Valuation τ sig (Elt F)) : Prop :=
  ∀ r ∈ L, V' (Proc.devRef .tc r) = V (Proc.devRef .tc r)

theorem Same.trans {L : List (Ref sig .tc)} {V V' V'' : Valuation τ sig (Elt F)} (h : Same L V V') (h' : Same L V' V'') :
    Same L V V'' := fun r hr => (h' r hr).trans (h r hr)

/-- A line that writes only references of `wl` leaves alone a list of references disjoint from `wl`. -/
theorem same_after {L wl : List (Ref sig .tc)} (l : List (HloOp τ sig (Elt F)))
    (hW : l.Forall fun op => op.writes ⊆ (wl.map (Proc.devRef (τ := τ) .tc)).toFinset)
    (hd : ∀ r ∈ L, r ∉ wl) (W : Valuation τ sig (Elt F)) : Same L W (after l W) :=
  fun r hr => after_of_writes_sub l W hW (hd r hr)

/-- The arguments. -/
def argRefs : List (Ref sig .tc) :=
  [main_arg0, main_arg1, main_arg2, main_arg3, main_arg4, main_arg5, main_arg6, main_arg7, main_arg8, main_arg9,
    main_arg10, main_arg11, main_arg12, main_arg13]

/-- The arguments and the edges' two ends: what every stage after the first may still read. -/
def keptRefs : List (Ref sig .tc) := main_v1 :: main_v3 :: argRefs

/-! ## The stretches -/
/-- The two rows of the edge table, each flattened: the sources and the destinations. -/
def edgeOps : List (HloOp τ sig (Elt F)) :=
  unary main_arg1 main_v0 ((extractStridedSlice S1x1000000 ![0, 0] · slices_S2x1000000_S1x1000000_0_0) : (⟨S2x1000000, .i32⟩ : BufTy).Contents (Elt F) → (⟨S1x1000000, .i32⟩ : BufTy).Contents (Elt F)) ::
  reshape main_v0 main_v1 rfl shapeCasts_S1x1000000_S1000000 ::
  unary main_arg1 main_v2 ((extractStridedSlice S1x1000000 ![1, 0] · slices_S2x1000000_S1x1000000_1_0) : (⟨S2x1000000, .i32⟩ : BufTy).Contents (Elt F) → (⟨S1x1000000, .i32⟩ : BufTy).Contents (Elt F)) ::
  reshape main_v2 main_v3 rfl shapeCasts_S1x1000000_S1000000 ::
  []

/-- The references `edgeOps` writes. -/
def edgeWrites : List (Ref sig .tc) := [main_v0, main_v1, main_v2, main_v3]

theorem edgeOps_writes : (edgeOps (F := F)).Forall fun op => op.writes ⊆ ((edgeWrites).map (Proc.devRef (τ := τ) .tc)).toFinset := by
  unfold edgeOps
  exact ⟨writes_sub (y := main_v0) (by decide), writes_sub (y := main_v1) (by decide), writes_sub (y := main_v2) (by decide), writes_sub (y := main_v3) (by decide)⟩

/-- `edgeOps` leaves alone every reference it does not write. -/
theorem edgeOps_frame (W : Valuation τ sig (Elt F)) {r : Ref sig .tc} (hr : r ∉ edgeWrites) :
    after edgeOps W (Proc.devRef .tc r) = W (Proc.devRef .tc r) :=
  after_of_writes_sub edgeOps W edgeOps_writes hr

/-- The input projection `x · W_in + b_in`. -/
def projOps : List (HloOp τ sig (Elt F)) :=
  binary main_arg0 main_arg2 main_v4 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) ::
  unary main_arg3 main_v5 (broadcastInDim S1x64 ![1] bcast_S64_S1x64_1 : (⟨S64, .f32⟩ : BufTy).Contents (Elt F) → (⟨S1x64, .f32⟩ : BufTy).Contents (Elt F)) ::
  unary main_v5 main_v6 (broadcastInDim S100000x64 ![0, 1] bcast_S1x64_S100000x64_0_1 : (⟨S1x64, .f32⟩ : BufTy).Contents (Elt F) → (⟨S100000x64, .f32⟩ : BufTy).Contents (Elt F)) ::
  binary main_v4 main_v6 main_v7 (addf : (⟨S100000x64, .f32⟩ : BufTy).Contents (Elt F) → (⟨S100000x64, .f32⟩ : BufTy).Contents (Elt F) → (⟨S100000x64, .f32⟩ : BufTy).Contents (Elt F)) ::
  []

/-- The references `projOps` writes. -/
def projWrites : List (Ref sig .tc) := [main_v4, main_v5, main_v6, main_v7]

theorem projOps_writes : (projOps (F := F)).Forall fun op => op.writes ⊆ ((projWrites).map (Proc.devRef (τ := τ) .tc)).toFinset := by
  unfold projOps
  exact ⟨writes_sub (y := main_v4) (by decide), writes_sub (y := main_v5) (by decide), writes_sub (y := main_v6) (by decide), writes_sub (y := main_v7) (by decide)⟩

/-- `projOps` leaves alone every reference it does not write. -/
theorem projOps_frame (W : Valuation τ sig (Elt F)) {r : Ref sig .tc} (hr : r ∉ projWrites) :
    after projOps W (Proc.devRef .tc r) = W (Proc.devRef .tc r) :=
  after_of_writes_sub projOps W projOps_writes hr

/-- Layer 1: the product `h · W`. -/
def prodOps1 : List (HloOp τ sig (Elt F)) :=
  binary main_v7 main_arg4 main_v8 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ::
  []

/-- The references `prodOps1` writes. -/
def prodWrites1 : List (Ref sig .tc) := [main_v8]

theorem prodOps1_writes : (prodOps1 (F := F)).Forall fun op => op.writes ⊆ ((prodWrites1).map (Proc.devRef (τ := τ) .tc)).toFinset := by
  unfold prodOps1
  exact writes_sub (y := main_v8) (by decide)

/-- `prodOps1` leaves alone every reference it does not write. -/
theorem prodOps1_frame (W : Valuation τ sig (Elt F)) {r : Ref sig .tc} (hr : r ∉ prodWrites1) :
    after prodOps1 W (Proc.devRef .tc r) = W (Proc.devRef .tc r) :=
  after_of_writes_sub prodOps1 W prodOps1_writes hr

/-- Layer 1: the degrees with self-loops and their inverse square roots. -/
def degOps1 : List (HloOp τ sig (Elt F)) :=
  nullary main_cst (constant S_ .f32 0x3F800000#32) ::
  unary main_cst main_v9 (broadcastInDim S1000000 ![] bcast_S_S1000000 : (⟨S_, .f32⟩ : BufTy).Contents (Elt F) → (⟨S1000000, .f32⟩ : BufTy).Contents (Elt F)) ::
  nullary main_cst_0 (constant S_ .f32 0x00000000#32) ::
  unary main_cst_0 main_v10 (broadcastInDim S100000 ![] bcast_S_S100000 : (⟨S_, .f32⟩ : BufTy).Contents (Elt F) → (⟨S100000, .f32⟩ : BufTy).Contents (Elt F)) ::
  unary main_v3 main_v11 (broadcastInDim S1000000x1 ![0] bcast_S1000000_S1000000x1_0 : (⟨S1000000, .i32⟩ : BufTy).Contents (Elt F) → (⟨S1000000x1, .i32⟩ : BufTy).Contents (Elt F)) ::
  ternary main_v10 main_v11 main_v9 main_v12 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)) ::
  nullary main_cst_1 (constant S_ .f32 0x3F800000#32) ::
  unary main_cst_1 main_v13 (broadcastInDim S100000 ![] bcast_S_S100000 : (⟨S_, .f32⟩ : BufTy).Contents (Elt F) → (⟨S100000, .f32⟩ : BufTy).Contents (Elt F)) ::
  binary main_v12 main_v13 main_v14 (addf : (⟨S100000, .f32⟩ : BufTy).Contents (Elt F) → (⟨S100000, .f32⟩ : BufTy).Contents (Elt F) → (⟨S100000, .f32⟩ : BufTy).Contents (Elt F)) ::
  unary main_v14 main_v15 (Host.rsqrt : (⟨S100000, .f32⟩ : BufTy).Contents (Elt F) → (⟨S100000, .f32⟩ : BufTy).Contents (Elt F)) ::
  []

/-- The references `degOps1` writes. -/
def degWrites1 : List (Ref sig .tc) := [main_cst, main_v9, main_cst_0, main_v10, main_v11, main_v12, main_cst_1, main_v13, main_v14, main_v15]

theorem degOps1_writes : (degOps1 (F := F)).Forall fun op => op.writes ⊆ ((degWrites1).map (Proc.devRef (τ := τ) .tc)).toFinset := by
  unfold degOps1
  exact ⟨writes_sub (y := main_cst) (by decide), writes_sub (y := main_v9) (by decide), writes_sub (y := main_cst_0) (by decide), writes_sub (y := main_v10) (by decide), writes_sub (y := main_v11) (by decide), writes_sub (y := main_v12) (by decide), writes_sub (y := main_cst_1) (by decide), writes_sub (y := main_v13) (by decide), writes_sub (y := main_v14) (by decide), writes_sub (y := main_v15) (by decide)⟩

/-- `degOps1` leaves alone every reference it does not write. -/
theorem degOps1_frame (W : Valuation τ sig (Elt F)) {r : Ref sig .tc} (hr : r ∉ degWrites1) :
    after degOps1 W (Proc.devRef .tc r) = W (Proc.devRef .tc r) :=
  after_of_writes_sub degOps1 W degOps1_writes hr

/-- Layer 1: the edge weights `dinv[src] · dinv[dst]`. -/
def coefOps1 : List (HloOp τ sig (Elt F)) :=
  nullary main_c (constantI S_ 32 0#32) ::
  unary main_c main_v16 (broadcastInDim S1000000 ![] bcast_S_S1000000 : (⟨S_, .i32⟩ : BufTy).Contents (Elt F) → (⟨S1000000, .i32⟩ : BufTy).Contents (Elt F)) ::
  binary main_v1 main_v16 main_v17 (cmpi .slt : (⟨S1000000, .i32⟩ : BufTy).Contents (Elt F) → (⟨S1000000, .i32⟩ : BufTy).Contents (Elt F) → (⟨S1000000, .i1⟩ : BufTy).Contents (Elt F)) ::
  nullary main_c_2 (constantI S_ 32 100000#32) ::
  unary main_c_2 main_v18 (broadcastInDim S1000000 ![] bcast_S_S1000000 : (⟨S_, .i32⟩ : BufTy).Contents (Elt F) → (⟨S1000000, .i32⟩ : BufTy).Contents (Elt F)) ::
  binary main_v1 main_v18 main_v19 (addi : (⟨S1000000, .i32⟩ : BufTy).Contents (Elt F) → (⟨S1000000, .i32⟩ : BufTy).Contents (Elt F) → (⟨S1000000, .i32⟩ : BufTy).Contents (Elt F)) ::
  ternary main_v17 main_v19 main_v1 main_v20 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ::
  unary main_v20 main_v21 (broadcastInDim S1000000x1 ![0] bcast_S1000000_S1000000x1_0 : (⟨S1000000, .i32⟩ : BufTy).Contents (Elt F) → (⟨S1000000x1, .i32⟩ : BufTy).Contents (Elt F)) ::
  binary main_v15 main_v21 main_v22 ((fun x i => Host.gather gather_S100000_S1000000x1_S1000000_n_0_n_n_0_1_1 x i) : (⟨S100000, .f32⟩ : BufTy).Contents (Elt F) → (⟨S1000000x1, .i32⟩ : BufTy).Contents (Elt F) → (⟨S1000000, .f32⟩ : BufTy).Contents (Elt F)) ::
  nullary main_c_3 (constantI S_ 32 0#32) ::
  unary main_c_3 main_v23 (broadcastInDim S1000000 ![] bcast_S_S1000000 : (⟨S_, .i32⟩ : BufTy).Contents (Elt F) → (⟨S1000000, .i32⟩ : BufTy).Contents (Elt F)) ::
  binary main_v3 main_v23 main_v24 (cmpi .slt : (⟨S1000000, .i32⟩ : BufTy).Contents (Elt F) → (⟨S1000000, .i32⟩ : BufTy).Contents (Elt F) → (⟨S1000000, .i1⟩ : BufTy).Contents (Elt F)) ::
  nullary main_c_4 (constantI S_ 32 100000#32) ::
  unary main_c_4 main_v25 (broadcastInDim S1000000 ![] bcast_S_S1000000 : (⟨S_, .i32⟩ : BufTy).Contents (Elt F) → (⟨S1000000, .i32⟩ : BufTy).Contents (Elt F)) ::
  binary main_v3 main_v25 main_v26 (addi : (⟨S1000000, .i32⟩ : BufTy).Contents (Elt F) → (⟨S1000000, .i32⟩ : BufTy).Contents (Elt F) → (⟨S1000000, .i32⟩ : BufTy).Contents (Elt F)) ::
  ternary main_v24 main_v26 main_v3 main_v27 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ::
  unary main_v27 main_v28 (broadcastInDim S1000000x1 ![0] bcast_S1000000_S1000000x1_0 : (⟨S1000000, .i32⟩ : BufTy).Contents (Elt F) → (⟨S1000000x1, .i32⟩ : BufTy).Contents (Elt F)) ::
  binary main_v15 main_v28 main_v29 ((fun x i => Host.gather gather_S100000_S1000000x1_S1000000_n_0_n_n_0_1_1 x i) : (⟨S100000, .f32⟩ : BufTy).Contents (Elt F) → (⟨S1000000x1, .i32⟩ : BufTy).Contents (Elt F) → (⟨S1000000, .f32⟩ : BufTy).Contents (Elt F)) ::
  binary main_v22 main_v29 main_v30 (mulf : (⟨S1000000, .f32⟩ : BufTy).Contents (Elt F) → (⟨S1000000, .f32⟩ : BufTy).Contents (Elt F) → (⟨S1000000, .f32⟩ : BufTy).Contents (Elt F)) ::
  []

/-- The references `coefOps1` writes. -/
def coefWrites1 : List (Ref sig .tc) := [main_c, main_v16, main_v17, main_c_2, main_v18, main_v19, main_v20, main_v21, main_v22, main_c_3, main_v23, main_v24, main_c_4, main_v25, main_v26, main_v27, main_v28, main_v29, main_v30]

theorem coefOps1_writes : (coefOps1 (F := F)).Forall fun op => op.writes ⊆ ((coefWrites1).map (Proc.devRef (τ := τ) .tc)).toFinset := by
  unfold coefOps1
  exact ⟨writes_sub (y := main_c) (by decide), writes_sub (y := main_v16) (by decide), writes_sub (y := main_v17) (by decide), writes_sub (y := main_c_2) (by decide), writes_sub (y := main_v18) (by decide), writes_sub (y := main_v19) (by decide), writes_sub (y := main_v20) (by decide), writes_sub (y := main_v21) (by decide), writes_sub (y := main_v22) (by decide), writes_sub (y := main_c_3) (by decide), writes_sub (y := main_v23) (by decide), writes_sub (y := main_v24) (by decide), writes_sub (y := main_c_4) (by decide), writes_sub (y := main_v25) (by decide), writes_sub (y := main_v26) (by decide), writes_sub (y := main_v27) (by decide), writes_sub (y := main_v28) (by decide), writes_sub (y := main_v29) (by decide), writes_sub (y := main_v30) (by decide)⟩

/-- `coefOps1` leaves alone every reference it does not write. -/
theorem coefOps1_frame (W : Valuation τ sig (Elt F)) {r : Ref sig .tc} (hr : r ∉ coefWrites1) :
    after coefOps1 W (Proc.devRef .tc r) = W (Proc.devRef .tc r) :=
  after_of_writes_sub coefOps1 W coefOps1_writes hr

/-- Layer 1: the weighted messages summed at their destinations. -/
def aggOps1 : List (HloOp τ sig (Elt F)) :=
  nullary main_c_5 (constantI S_ 32 0#32) ::
  unary main_c_5 main_v31 (broadcastInDim S1000000 ![] bcast_S_S1000000 : (⟨S_, .i32⟩ : BufTy).Contents (Elt F) → (⟨S1000000, .i32⟩ : BufTy).Contents (Elt F)) ::
  binary main_v1 main_v31 main_v32 (cmpi .slt : (⟨S1000000, .i32⟩ : BufTy).Contents (Elt F) → (⟨S1000000, .i32⟩ : BufTy).Contents (Elt F) → (⟨S1000000, .i1⟩ : BufTy).Contents (Elt F)) ::
  nullary main_c_6 (constantI S_ 32 100000#32) ::
  unary main_c_6 main_v33 (broadcastInDim S1000000 ![] bcast_S_S1000000 : (⟨S_, .i32⟩ : BufTy).Contents (Elt F) → (⟨S1000000, .i32⟩ : BufTy).Contents (Elt F)) ::
  binary main_v1 main_v33 main_v34 (addi : (⟨S1000000, .i32⟩ : BufTy).Contents (Elt F) → (⟨S1000000, .i32⟩ : BufTy).Contents (Elt F) → (⟨S1000000, .i32⟩ : BufTy).Contents (Elt F)) ::
  ternary main_v32 main_v34 main_v1 main_v35 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ::
  unary main_v35 main_v36 (broadcastInDim S1000000x1 ![0] bcast_S1000000_S1000000x1_0 : (⟨S1000000, .i32⟩ : BufTy).Contents (Elt F) → (⟨S1000000x1, .i32⟩ : BufTy).Contents (Elt F)) ::
  binary main_v8 main_v36 main_v37 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)) ::
  unary main_v30 main_v38 (broadcastInDim S1000000x1 ![0] bcast_S1000000_S1000000x1_0 : (⟨S1000000, .f32⟩ : BufTy).Contents (Elt F) → (⟨S1000000x1, .f32⟩ : BufTy).Contents (Elt F)) ::
  unary main_v38 main_v39 (broadcastInDim S1000000x64 ![0, 1] bcast_S1000000x1_S1000000x64_0_1 : (⟨S1000000x1, .f32⟩ : BufTy).Contents (Elt F) → (⟨S1000000x64, .f32⟩ : BufTy).Contents (Elt F)) ::
  binary main_v37 main_v39 main_v40 (mulf : (⟨S1000000x64, .f32⟩ : BufTy).Contents (Elt F) → (⟨S1000000x64, .f32⟩ : BufTy).Contents (Elt F) → (⟨S1000000x64, .f32⟩ : BufTy).Contents (Elt F)) ::
  nullary main_cst_7 (constant S_ .f32 0x00000000#32) ::
  unary main_cst_7 main_v41 (broadcastInDim S100000x64 ![] bcast_S_S100000x64 : (⟨S_, .f32⟩ : BufTy).Contents (Elt F) → (⟨S100000x64, .f32⟩ : BufTy).Contents (Elt F)) ::
  unary main_v3 main_v42 (broadcastInDim S1000000x1 ![0] bcast_S1000000_S1000000x1_0 : (⟨S1000000, .i32⟩ : BufTy).Contents (Elt F) → (⟨S1000000x1, .i32⟩ : BufTy).Contents (Elt F)) ::
  ternary main_v41 main_v42 main_v40 main_v43 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)) ::
  []

/-- The references `aggOps1` writes. -/
def aggWrites1 : List (Ref sig .tc) := [main_c_5, main_v31, main_v32, main_c_6, main_v33, main_v34, main_v35, main_v36, main_v37, main_v38, main_v39, main_v40, main_cst_7, main_v41, main_v42, main_v43]

theorem aggOps1_writes : (aggOps1 (F := F)).Forall fun op => op.writes ⊆ ((aggWrites1).map (Proc.devRef (τ := τ) .tc)).toFinset := by
  unfold aggOps1
  exact ⟨writes_sub (y := main_c_5) (by decide), writes_sub (y := main_v31) (by decide), writes_sub (y := main_v32) (by decide), writes_sub (y := main_c_6) (by decide), writes_sub (y := main_v33) (by decide), writes_sub (y := main_v34) (by decide), writes_sub (y := main_v35) (by decide), writes_sub (y := main_v36) (by decide), writes_sub (y := main_v37) (by decide), writes_sub (y := main_v38) (by decide), writes_sub (y := main_v39) (by decide), writes_sub (y := main_v40) (by decide), writes_sub (y := main_cst_7) (by decide), writes_sub (y := main_v41) (by decide), writes_sub (y := main_v42) (by decide), writes_sub (y := main_v43) (by decide)⟩

/-- `aggOps1` leaves alone every reference it does not write. -/
theorem aggOps1_frame (W : Valuation τ sig (Elt F)) {r : Ref sig .tc} (hr : r ∉ aggWrites1) :
    after aggOps1 W (Proc.devRef .tc r) = W (Proc.devRef .tc r) :=
  after_of_writes_sub aggOps1 W aggOps1_writes hr

/-- Layer 1: the sum with the self-loop term and the bias. -/
def combOps1 : List (HloOp τ sig (Elt F)) :=
  binary main_v15 main_v15 main_v44 (mulf : (⟨S100000, .f32⟩ : BufTy).Contents (Elt F) → (⟨S100000, .f32⟩ : BufTy).Contents (Elt F) → (⟨S100000, .f32⟩ : BufTy).Contents (Elt F)) ::
  unary main_v44 main_v45 (broadcastInDim S100000x1 ![0] bcast_S100000_S100000x1_0 : (⟨S100000, .f32⟩ : BufTy).Contents (Elt F) → (⟨S100000x1, .f32⟩ : BufTy).Contents (Elt F)) ::
  unary main_v45 main_v46 (broadcastInDim S100000x64 ![0, 1] bcast_S100000x1_S100000x64_0_1 : (⟨S100000x1, .f32⟩ : BufTy).Contents (Elt F) → (⟨S100000x64, .f32⟩ : BufTy).Contents (Elt F)) ::
  binary main_v8 main_v46 main_v47 (mulf : (⟨S100000x64, .f32⟩ : BufTy).Contents (Elt F) → (⟨S100000x64, .f32⟩ : BufTy).Contents (Elt F) → (⟨S100000x64, .f32⟩ : BufTy).Contents (Elt F)) ::
  binary main_v43 main_v47 main_v48 (addf : (⟨S100000x64, .f32⟩ : BufTy).Contents (Elt F) → (⟨S100000x64, .f32⟩ : BufTy).Contents (Elt F) → (⟨S100000x64, .f32⟩ : BufTy).Contents (Elt F)) ::
  unary main_arg5 main_v49 (broadcastInDim S1x64 ![1] bcast_S64_S1x64_1 : (⟨S64, .f32⟩ : BufTy).Contents (Elt F) → (⟨S1x64, .f32⟩ : BufTy).Contents (Elt F)) ::
  unary main_v49 main_v50 (broadcastInDim S100000x64 ![0, 1] bcast_S1x64_S100000x64_0_1 : (⟨S1x64, .f32⟩ : BufTy).Contents (Elt F) → (⟨S100000x64, .f32⟩ : BufTy).Contents (Elt F)) ::
  binary main_v48 main_v50 main_v51 (addf : (⟨S100000x64, .f32⟩ : BufTy).Contents (Elt F) → (⟨S100000x64, .f32⟩ : BufTy).Contents (Elt F) → (⟨S100000x64, .f32⟩ : BufTy).Contents (Elt F)) ::
  []

/-- The references `combOps1` writes. -/
def combWrites1 : List (Ref sig .tc) := [main_v44, main_v45, main_v46, main_v47, main_v48, main_v49, main_v50, main_v51]

theorem combOps1_writes : (combOps1 (F := F)).Forall fun op => op.writes ⊆ ((combWrites1).map (Proc.devRef (τ := τ) .tc)).toFinset := by
  unfold combOps1
  exact ⟨writes_sub (y := main_v44) (by decide), writes_sub (y := main_v45) (by decide), writes_sub (y := main_v46) (by decide), writes_sub (y := main_v47) (by decide), writes_sub (y := main_v48) (by decide), writes_sub (y := main_v49) (by decide), writes_sub (y := main_v50) (by decide), writes_sub (y := main_v51) (by decide)⟩

/-- `combOps1` leaves alone every reference it does not write. -/
theorem combOps1_frame (W : Valuation τ sig (Elt F)) {r : Ref sig .tc} (hr : r ∉ combWrites1) :
    after combOps1 W (Proc.devRef .tc r) = W (Proc.devRef .tc r) :=
  after_of_writes_sub combOps1 W combOps1_writes hr

/-- Layer 1: GraphNorm over the node axis. -/
def normOps1 : List (HloOp τ sig (Elt F)) :=
  nullary main_cst_8 (constant S_ .f32 0x00000000#32) ::
  binary main_v51 main_cst_8 main_v52 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) ::
  nullary main_cst_9 (constant S_ .f32 0x47C35000#32) ::
  unary main_cst_9 main_v53 (broadcastInDim S64 ![] bcast_S_S64 : (⟨S_, .f32⟩ : BufTy).Contents (Elt F) → (⟨S64, .f32⟩ : BufTy).Contents (Elt F)) ::
  binary main_v52 main_v53 main_v54 (Host.divf : (⟨S64, .f32⟩ : BufTy).Contents (Elt F) → (⟨S64, .f32⟩ : BufTy).Contents (Elt F) → (⟨S64, .f32⟩ : BufTy).Contents (Elt F)) ::
  binary main_arg6 main_v54 main_v55 (mulf : (⟨S64, .f32⟩ : BufTy).Contents (Elt F) → (⟨S64, .f32⟩ : BufTy).Contents (Elt F) → (⟨S64, .f32⟩ : BufTy).Contents (Elt F)) ::
  unary main_v55 main_v56 (broadcastInDim S1x64 ![1] bcast_S64_S1x64_1 : (⟨S64, .f32⟩ : BufTy).Contents (Elt F) → (⟨S1x64, .f32⟩ : BufTy).Contents (Elt F)) ::
  unary main_v56 main_v57 (broadcastInDim S100000x64 ![0, 1] bcast_S1x64_S100000x64_0_1 : (⟨S1x64, .f32⟩ : BufTy).Contents (Elt F) → (⟨S100000x64, .f32⟩ : BufTy).Contents (Elt F)) ::
  binary main_v51 main_v57 main_v58 (subf : (⟨S100000x64, .f32⟩ : BufTy).Contents (Elt F) → (⟨S100000x64, .f32⟩ : BufTy).Contents (Elt F) → (⟨S100000x64, .f32⟩ : BufTy).Contents (Elt F)) ::
  binary main_v58 main_v58 main_v59 (mulf : (⟨S100000x64, .f32⟩ : BufTy).Contents (Elt F) → (⟨S100000x64, .f32⟩ : BufTy).Contents (Elt F) → (⟨S100000x64, .f32⟩ : BufTy).Contents (Elt F)) ::
  nullary main_cst_10 (constant S_ .f32 0x00000000#32) ::
  binary main_v59 main_cst_10 main_v60 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) ::
  nullary main_cst_11 (constant S_ .f32 0x47C35000#32) ::
  unary main_cst_11 main_v61 (broadcastInDim S64 ![] bcast_S_S64 : (⟨S_, .f32⟩ : BufTy).Contents (Elt F) → (⟨S64, .f32⟩ : BufTy).Contents (Elt F)) ::
  binary main_v60 main_v61 main_v62 (Host.divf : (⟨S64, .f32⟩ : BufTy).Contents (Elt F) → (⟨S64, .f32⟩ : BufTy).Contents (Elt F) → (⟨S64, .f32⟩ : BufTy).Contents (Elt F)) ::
  unary main_arg7 main_v63 (broadcastInDim S1x64 ![1] bcast_S64_S1x64_1 : (⟨S64, .f32⟩ : BufTy).Contents (Elt F) → (⟨S1x64, .f32⟩ : BufTy).Contents (Elt F)) ::
  unary main_v63 main_v64 (broadcastInDim S100000x64 ![0, 1] bcast_S1x64_S100000x64_0_1 : (⟨S1x64, .f32⟩ : BufTy).Contents (Elt F) → (⟨S100000x64, .f32⟩ : BufTy).Contents (Elt F)) ::
  binary main_v64 main_v58 main_v65 (mulf : (⟨S100000x64, .f32⟩ : BufTy).Contents (Elt F) → (⟨S100000x64, .f32⟩ : BufTy).Contents (Elt F) → (⟨S100000x64, .f32⟩ : BufTy).Contents (Elt F)) ::
  nullary main_cst_12 (constant S_ .f32 0x3727C5AC#32) ::
  unary main_cst_12 main_v66 (broadcastInDim S64 ![] bcast_S_S64 : (⟨S_, .f32⟩ : BufTy).Contents (Elt F) → (⟨S64, .f32⟩ : BufTy).Contents (Elt F)) ::
  binary main_v62 main_v66 main_v67 (addf : (⟨S64, .f32⟩ : BufTy).Contents (Elt F) → (⟨S64, .f32⟩ : BufTy).Contents (Elt F) → (⟨S64, .f32⟩ : BufTy).Contents (Elt F)) ::
  unary main_v67 main_v68 (Host.rsqrt : (⟨S64, .f32⟩ : BufTy).Contents (Elt F) → (⟨S64, .f32⟩ : BufTy).Contents (Elt F)) ::
  unary main_v68 main_v69 (broadcastInDim S1x64 ![1] bcast_S64_S1x64_1 : (⟨S64, .f32⟩ : BufTy).Contents (Elt F) → (⟨S1x64, .f32⟩ : BufTy).Contents (Elt F)) ::
  unary main_v69 main_v70 (broadcastInDim S100000x64 ![0, 1] bcast_S1x64_S100000x64_0_1 : (⟨S1x64, .f32⟩ : BufTy).Contents (Elt F) → (⟨S100000x64, .f32⟩ : BufTy).Contents (Elt F)) ::
  binary main_v65 main_v70 main_v71 (mulf : (⟨S100000x64, .f32⟩ : BufTy).Contents (Elt F) → (⟨S100000x64, .f32⟩ : BufTy).Contents (Elt F) → (⟨S100000x64, .f32⟩ : BufTy).Contents (Elt F)) ::
  unary main_arg8 main_v72 (broadcastInDim S1x64 ![1] bcast_S64_S1x64_1 : (⟨S64, .f32⟩ : BufTy).Contents (Elt F) → (⟨S1x64, .f32⟩ : BufTy).Contents (Elt F)) ::
  unary main_v72 main_v73 (broadcastInDim S100000x64 ![0, 1] bcast_S1x64_S100000x64_0_1 : (⟨S1x64, .f32⟩ : BufTy).Contents (Elt F) → (⟨S100000x64, .f32⟩ : BufTy).Contents (Elt F)) ::
  binary main_v71 main_v73 main_v74 (addf : (⟨S100000x64, .f32⟩ : BufTy).Contents (Elt F) → (⟨S100000x64, .f32⟩ : BufTy).Contents (Elt F) → (⟨S100000x64, .f32⟩ : BufTy).Contents (Elt F)) ::
  []

/-- The references `normOps1` writes. -/
def normWrites1 : List (Ref sig .tc) := [main_cst_8, main_v52, main_cst_9, main_v53, main_v54, main_v55, main_v56, main_v57, main_v58, main_v59, main_cst_10, main_v60, main_cst_11, main_v61, main_v62, main_v63, main_v64, main_v65, main_cst_12, main_v66, main_v67, main_v68, main_v69, main_v70, main_v71, main_v72, main_v73, main_v74]

theorem normOps1_writes : (normOps1 (F := F)).Forall fun op => op.writes ⊆ ((normWrites1).map (Proc.devRef (τ := τ) .tc)).toFinset := by
  unfold normOps1
  exact ⟨writes_sub (y := main_cst_8) (by decide), writes_sub (y := main_v52) (by decide), writes_sub (y := main_cst_9) (by decide), writes_sub (y := main_v53) (by decide), writes_sub (y := main_v54) (by decide), writes_sub (y := main_v55) (by decide), writes_sub (y := main_v56) (by decide), writes_sub (y := main_v57) (by decide), writes_sub (y := main_v58) (by decide), writes_sub (y := main_v59) (by decide), writes_sub (y := main_cst_10) (by decide), writes_sub (y := main_v60) (by decide), writes_sub (y := main_cst_11) (by decide), writes_sub (y := main_v61) (by decide), writes_sub (y := main_v62) (by decide), writes_sub (y := main_v63) (by decide), writes_sub (y := main_v64) (by decide), writes_sub (y := main_v65) (by decide), writes_sub (y := main_cst_12) (by decide), writes_sub (y := main_v66) (by decide), writes_sub (y := main_v67) (by decide), writes_sub (y := main_v68) (by decide), writes_sub (y := main_v69) (by decide), writes_sub (y := main_v70) (by decide), writes_sub (y := main_v71) (by decide), writes_sub (y := main_v72) (by decide), writes_sub (y := main_v73) (by decide), writes_sub (y := main_v74) (by decide)⟩

/-- `normOps1` leaves alone every reference it does not write. -/
theorem normOps1_frame (W : Valuation τ sig (Elt F)) {r : Ref sig .tc} (hr : r ∉ normWrites1) :
    after normOps1 W (Proc.devRef .tc r) = W (Proc.devRef .tc r) :=
  after_of_writes_sub normOps1 W normOps1_writes hr

/-- The LeakyReLU between the layers. -/
def leakyOps : List (HloOp τ sig (Elt F)) :=
  nullary main_cst_13 (constant S_ .f32 0x00000000#32) ::
  unary main_cst_13 main_v75 (broadcastInDim S100000x64 ![] bcast_S_S100000x64 : (⟨S_, .f32⟩ : BufTy).Contents (Elt F) → (⟨S100000x64, .f32⟩ : BufTy).Contents (Elt F)) ::
  binary main_v74 main_v75 main_v76 (cmpf .ogt : (⟨S100000x64, .f32⟩ : BufTy).Contents (Elt F) → (⟨S100000x64, .f32⟩ : BufTy).Contents (Elt F) → (⟨S100000x64, .i1⟩ : BufTy).Contents (Elt F)) ::
  nullary main_cst_14 (constant S_ .f32 0x3E4CCCCD#32) ::
  unary main_cst_14 main_v77 (broadcastInDim S100000x64 ![] bcast_S_S100000x64 : (⟨S_, .f32⟩ : BufTy).Contents (Elt F) → (⟨S100000x64, .f32⟩ : BufTy).Contents (Elt F)) ::
  binary main_v77 main_v74 main_v78 (mulf : (⟨S100000x64, .f32⟩ : BufTy).Contents (Elt F) → (⟨S100000x64, .f32⟩ : BufTy).Contents (Elt F) → (⟨S100000x64, .f32⟩ : BufTy).Contents (Elt F)) ::
  TRef.ternary (TRef.of (T := ⟨S100000x64, .i1⟩) main_v76) (TRef.of (T := ⟨S100000x64, .f32⟩) main_v74) (TRef.of (T := ⟨S100000x64, .f32⟩) main_v78) (TRef.of (T := ⟨S100000x64, .f32⟩) main_v79) select ::
  []

/-- The references `leakyOps` writes. -/
def leakyWrites : List (Ref sig .tc) := [main_cst_13, main_v75, main_v76, main_cst_14, main_v77, main_v78, main_v79]

theorem leakyOps_writes : (leakyOps (F := F)).Forall fun op => op.writes ⊆ ((leakyWrites).map (Proc.devRef (τ := τ) .tc)).toFinset := by
  unfold leakyOps
  exact ⟨writes_sub (y := main_cst_13) (by decide), writes_sub (y := main_v75) (by decide), writes_sub (y := main_v76) (by decide), writes_sub (y := main_cst_14) (by decide), writes_sub (y := main_v77) (by decide), writes_sub (y := main_v78) (by decide), writes_sub (y := main_v79) (by decide)⟩

/-- `leakyOps` leaves alone every reference it does not write. -/
theorem leakyOps_frame (W : Valuation τ sig (Elt F)) {r : Ref sig .tc} (hr : r ∉ leakyWrites) :
    after leakyOps W (Proc.devRef .tc r) = W (Proc.devRef .tc r) :=
  after_of_writes_sub leakyOps W leakyOps_writes hr

/-- Layer 2: the product `h · W`. -/
def prodOps2 : List (HloOp τ sig (Elt F)) :=
  binary main_v79 main_arg9 main_v80 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ::
  []

/-- The references `prodOps2` writes. -/
def prodWrites2 : List (Ref sig .tc) := [main_v80]

theorem prodOps2_writes : (prodOps2 (F := F)).Forall fun op => op.writes ⊆ ((prodWrites2).map (Proc.devRef (τ := τ) .tc)).toFinset := by
  unfold prodOps2
  exact writes_sub (y := main_v80) (by decide)

/-- `prodOps2` leaves alone every reference it does not write. -/
theorem prodOps2_frame (W : Valuation τ sig (Elt F)) {r : Ref sig .tc} (hr : r ∉ prodWrites2) :
    after prodOps2 W (Proc.devRef .tc r) = W (Proc.devRef .tc r) :=
  after_of_writes_sub prodOps2 W prodOps2_writes hr

/-- Layer 2: the degrees with self-loops and their inverse square roots. -/
def degOps2 : List (HloOp τ sig (Elt F)) :=
  nullary main_cst_15 (constant S_ .f32 0x3F800000#32) ::
  unary main_cst_15 main_v81 (broadcastInDim S1000000 ![] bcast_S_S1000000 : (⟨S_, .f32⟩ : BufTy).Contents (Elt F) → (⟨S1000000, .f32⟩ : BufTy).Contents (Elt F)) ::
  nullary main_cst_16 (constant S_ .f32 0x00000000#32) ::
  unary main_cst_16 main_v82 (broadcastInDim S100000 ![] bcast_S_S100000 : (⟨S_, .f32⟩ : BufTy).Contents (Elt F) → (⟨S100000, .f32⟩ : BufTy).Contents (Elt F)) ::
  unary main_v3 main_v83 (broadcastInDim S1000000x1 ![0] bcast_S1000000_S1000000x1_0 : (⟨S1000000, .i32⟩ : BufTy).Contents (Elt F) → (⟨S1000000x1, .i32⟩ : BufTy).Contents (Elt F)) ::
  ternary main_v82 main_v83 main_v81 main_v84 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)) ::
  nullary main_cst_17 (constant S_ .f32 0x3F800000#32) ::
  unary main_cst_17 main_v85 (broadcastInDim S100000 ![] bcast_S_S100000 : (⟨S_, .f32⟩ : BufTy).Contents (Elt F) → (⟨S100000, .f32⟩ : BufTy).Contents (Elt F)) ::
  binary main_v84 main_v85 main_v86 (addf : (⟨S100000, .f32⟩ : BufTy).Contents (Elt F) → (⟨S100000, .f32⟩ : BufTy).Contents (Elt F) → (⟨S100000, .f32⟩ : BufTy).Contents (Elt F)) ::
  unary main_v86 main_v87 (Host.rsqrt : (⟨S100000, .f32⟩ : BufTy).Contents (Elt F) → (⟨S100000, .f32⟩ : BufTy).Contents (Elt F)) ::
  []

/-- The references `degOps2` writes. -/
def degWrites2 : List (Ref sig .tc) := [main_cst_15, main_v81, main_cst_16, main_v82, main_v83, main_v84, main_cst_17, main_v85, main_v86, main_v87]

theorem degOps2_writes : (degOps2 (F := F)).Forall fun op => op.writes ⊆ ((degWrites2).map (Proc.devRef (τ := τ) .tc)).toFinset := by
  unfold degOps2
  exact ⟨writes_sub (y := main_cst_15) (by decide), writes_sub (y := main_v81) (by decide), writes_sub (y := main_cst_16) (by decide), writes_sub (y := main_v82) (by decide), writes_sub (y := main_v83) (by decide), writes_sub (y := main_v84) (by decide), writes_sub (y := main_cst_17) (by decide), writes_sub (y := main_v85) (by decide), writes_sub (y := main_v86) (by decide), writes_sub (y := main_v87) (by decide)⟩

/-- `degOps2` leaves alone every reference it does not write. -/
theorem degOps2_frame (W : Valuation τ sig (Elt F)) {r : Ref sig .tc} (hr : r ∉ degWrites2) :
    after degOps2 W (Proc.devRef .tc r) = W (Proc.devRef .tc r) :=
  after_of_writes_sub degOps2 W degOps2_writes hr

/-- Layer 2: the edge weights `dinv[src] · dinv[dst]`. -/
def coefOps2 : List (HloOp τ sig (Elt F)) :=
  nullary main_c_18 (constantI S_ 32 0#32) ::
  unary main_c_18 main_v88 (broadcastInDim S1000000 ![] bcast_S_S1000000 : (⟨S_, .i32⟩ : BufTy).Contents (Elt F) → (⟨S1000000, .i32⟩ : BufTy).Contents (Elt F)) ::
  binary main_v1 main_v88 main_v89 (cmpi .slt : (⟨S1000000, .i32⟩ : BufTy).Contents (Elt F) → (⟨S1000000, .i32⟩ : BufTy).Contents (Elt F) → (⟨S1000000, .i1⟩ : BufTy).Contents (Elt F)) ::
  nullary main_c_19 (constantI S_ 32 100000#32) ::
  unary main_c_19 main_v90 (broadcastInDim S1000000 ![] bcast_S_S1000000 : (⟨S_, .i32⟩ : BufTy).Contents (Elt F) → (⟨S1000000, .i32⟩ : BufTy).Contents (Elt F)) ::
  binary main_v1 main_v90 main_v91 (addi : (⟨S1000000, .i32⟩ : BufTy).Contents (Elt F) → (⟨S1000000, .i32⟩ : BufTy).Contents (Elt F) → (⟨S1000000, .i32⟩ : BufTy).Contents (Elt F)) ::
  ternary main_v89 main_v91 main_v1 main_v92 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ::
  unary main_v92 main_v93 (broadcastInDim S1000000x1 ![0] bcast_S1000000_S1000000x1_0 : (⟨S1000000, .i32⟩ : BufTy).Contents (Elt F) → (⟨S1000000x1, .i32⟩ : BufTy).Contents (Elt F)) ::
  binary main_v87 main_v93 main_v94 ((fun x i => Host.gather gather_S100000_S1000000x1_S1000000_n_0_n_n_0_1_1 x i) : (⟨S100000, .f32⟩ : BufTy).Contents (Elt F) → (⟨S1000000x1, .i32⟩ : BufTy).Contents (Elt F) → (⟨S1000000, .f32⟩ : BufTy).Contents (Elt F)) ::
  nullary main_c_20 (constantI S_ 32 0#32) ::
  unary main_c_20 main_v95 (broadcastInDim S1000000 ![] bcast_S_S1000000 : (⟨S_, .i32⟩ : BufTy).Contents (Elt F) → (⟨S1000000, .i32⟩ : BufTy).Contents (Elt F)) ::
  binary main_v3 main_v95 main_v96 (cmpi .slt : (⟨S1000000, .i32⟩ : BufTy).Contents (Elt F) → (⟨S1000000, .i32⟩ : BufTy).Contents (Elt F) → (⟨S1000000, .i1⟩ : BufTy).Contents (Elt F)) ::
  nullary main_c_21 (constantI S_ 32 100000#32) ::
  unary main_c_21 main_v97 (broadcastInDim S1000000 ![] bcast_S_S1000000 : (⟨S_, .i32⟩ : BufTy).Contents (Elt F) → (⟨S1000000, .i32⟩ : BufTy).Contents (Elt F)) ::
  binary main_v3 main_v97 main_v98 (addi : (⟨S1000000, .i32⟩ : BufTy).Contents (Elt F) → (⟨S1000000, .i32⟩ : BufTy).Contents (Elt F) → (⟨S1000000, .i32⟩ : BufTy).Contents (Elt F)) ::
  ternary main_v96 main_v98 main_v3 main_v99 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ::
  unary main_v99 main_v100 (broadcastInDim S1000000x1 ![0] bcast_S1000000_S1000000x1_0 : (⟨S1000000, .i32⟩ : BufTy).Contents (Elt F) → (⟨S1000000x1, .i32⟩ : BufTy).Contents (Elt F)) ::
  binary main_v87 main_v100 main_v101 ((fun x i => Host.gather gather_S100000_S1000000x1_S1000000_n_0_n_n_0_1_1 x i) : (⟨S100000, .f32⟩ : BufTy).Contents (Elt F) → (⟨S1000000x1, .i32⟩ : BufTy).Contents (Elt F) → (⟨S1000000, .f32⟩ : BufTy).Contents (Elt F)) ::
  binary main_v94 main_v101 main_v102 (mulf : (⟨S1000000, .f32⟩ : BufTy).Contents (Elt F) → (⟨S1000000, .f32⟩ : BufTy).Contents (Elt F) → (⟨S1000000, .f32⟩ : BufTy).Contents (Elt F)) ::
  []

/-- The references `coefOps2` writes. -/
def coefWrites2 : List (Ref sig .tc) := [main_c_18, main_v88, main_v89, main_c_19, main_v90, main_v91, main_v92, main_v93, main_v94, main_c_20, main_v95, main_v96, main_c_21, main_v97, main_v98, main_v99, main_v100, main_v101, main_v102]

theorem coefOps2_writes : (coefOps2 (F := F)).Forall fun op => op.writes ⊆ ((coefWrites2).map (Proc.devRef (τ := τ) .tc)).toFinset := by
  unfold coefOps2
  exact ⟨writes_sub (y := main_c_18) (by decide), writes_sub (y := main_v88) (by decide), writes_sub (y := main_v89) (by decide), writes_sub (y := main_c_19) (by decide), writes_sub (y := main_v90) (by decide), writes_sub (y := main_v91) (by decide), writes_sub (y := main_v92) (by decide), writes_sub (y := main_v93) (by decide), writes_sub (y := main_v94) (by decide), writes_sub (y := main_c_20) (by decide), writes_sub (y := main_v95) (by decide), writes_sub (y := main_v96) (by decide), writes_sub (y := main_c_21) (by decide), writes_sub (y := main_v97) (by decide), writes_sub (y := main_v98) (by decide), writes_sub (y := main_v99) (by decide), writes_sub (y := main_v100) (by decide), writes_sub (y := main_v101) (by decide), writes_sub (y := main_v102) (by decide)⟩

/-- `coefOps2` leaves alone every reference it does not write. -/
theorem coefOps2_frame (W : Valuation τ sig (Elt F)) {r : Ref sig .tc} (hr : r ∉ coefWrites2) :
    after coefOps2 W (Proc.devRef .tc r) = W (Proc.devRef .tc r) :=
  after_of_writes_sub coefOps2 W coefOps2_writes hr

/-- Layer 2: the weighted messages summed at their destinations. -/
def aggOps2 : List (HloOp τ sig (Elt F)) :=
  nullary main_c_22 (constantI S_ 32 0#32) ::
  unary main_c_22 main_v103 (broadcastInDim S1000000 ![] bcast_S_S1000000 : (⟨S_, .i32⟩ : BufTy).Contents (Elt F) → (⟨S1000000, .i32⟩ : BufTy).Contents (Elt F)) ::
  binary main_v1 main_v103 main_v104 (cmpi .slt : (⟨S1000000, .i32⟩ : BufTy).Contents (Elt F) → (⟨S1000000, .i32⟩ : BufTy).Contents (Elt F) → (⟨S1000000, .i1⟩ : BufTy).Contents (Elt F)) ::
  nullary main_c_23 (constantI S_ 32 100000#32) ::
  unary main_c_23 main_v105 (broadcastInDim S1000000 ![] bcast_S_S1000000 : (⟨S_, .i32⟩ : BufTy).Contents (Elt F) → (⟨S1000000, .i32⟩ : BufTy).Contents (Elt F)) ::
  binary main_v1 main_v105 main_v106 (addi : (⟨S1000000, .i32⟩ : BufTy).Contents (Elt F) → (⟨S1000000, .i32⟩ : BufTy).Contents (Elt F) → (⟨S1000000, .i32⟩ : BufTy).Contents (Elt F)) ::
  ternary main_v104 main_v106 main_v1 main_v107 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ::
  unary main_v107 main_v108 (broadcastInDim S1000000x1 ![0] bcast_S1000000_S1000000x1_0 : (⟨S1000000, .i32⟩ : BufTy).Contents (Elt F) → (⟨S1000000x1, .i32⟩ : BufTy).Contents (Elt F)) ::
  binary main_v80 main_v108 main_v109 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)) ::
  unary main_v102 main_v110 (broadcastInDim S1000000x1 ![0] bcast_S1000000_S1000000x1_0 : (⟨S1000000, .f32⟩ : BufTy).Contents (Elt F) → (⟨S1000000x1, .f32⟩ : BufTy).Contents (Elt F)) ::
  unary main_v110 main_v111 (broadcastInDim S1000000x64 ![0, 1] bcast_S1000000x1_S1000000x64_0_1 : (⟨S1000000x1, .f32⟩ : BufTy).Contents (Elt F) → (⟨S1000000x64, .f32⟩ : BufTy).Contents (Elt F)) ::
  binary main_v109 main_v111 main_v112 (mulf : (⟨S1000000x64, .f32⟩ : BufTy).Contents (Elt F) → (⟨S1000000x64, .f32⟩ : BufTy).Contents (Elt F) → (⟨S1000000x64, .f32⟩ : BufTy).Contents (Elt F)) ::
  nullary main_cst_24 (constant S_ .f32 0x00000000#32) ::
  unary main_cst_24 main_v113 (broadcastInDim S100000x64 ![] bcast_S_S100000x64 : (⟨S_, .f32⟩ : BufTy).Contents (Elt F) → (⟨S100000x64, .f32⟩ : BufTy).Contents (Elt F)) ::
  unary main_v3 main_v114 (broadcastInDim S1000000x1 ![0] bcast_S1000000_S1000000x1_0 : (⟨S1000000, .i32⟩ : BufTy).Contents (Elt F) → (⟨S1000000x1, .i32⟩ : BufTy).Contents (Elt F)) ::
  ternary main_v113 main_v114 main_v112 main_v115 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)) ::
  []

/-- The references `aggOps2` writes. -/
def aggWrites2 : List (Ref sig .tc) := [main_c_22, main_v103, main_v104, main_c_23, main_v105, main_v106, main_v107, main_v108, main_v109, main_v110, main_v111, main_v112, main_cst_24, main_v113, main_v114, main_v115]

theorem aggOps2_writes : (aggOps2 (F := F)).Forall fun op => op.writes ⊆ ((aggWrites2).map (Proc.devRef (τ := τ) .tc)).toFinset := by
  unfold aggOps2
  exact ⟨writes_sub (y := main_c_22) (by decide), writes_sub (y := main_v103) (by decide), writes_sub (y := main_v104) (by decide), writes_sub (y := main_c_23) (by decide), writes_sub (y := main_v105) (by decide), writes_sub (y := main_v106) (by decide), writes_sub (y := main_v107) (by decide), writes_sub (y := main_v108) (by decide), writes_sub (y := main_v109) (by decide), writes_sub (y := main_v110) (by decide), writes_sub (y := main_v111) (by decide), writes_sub (y := main_v112) (by decide), writes_sub (y := main_cst_24) (by decide), writes_sub (y := main_v113) (by decide), writes_sub (y := main_v114) (by decide), writes_sub (y := main_v115) (by decide)⟩

/-- `aggOps2` leaves alone every reference it does not write. -/
theorem aggOps2_frame (W : Valuation τ sig (Elt F)) {r : Ref sig .tc} (hr : r ∉ aggWrites2) :
    after aggOps2 W (Proc.devRef .tc r) = W (Proc.devRef .tc r) :=
  after_of_writes_sub aggOps2 W aggOps2_writes hr

/-- Layer 2: the sum with the self-loop term and the bias. -/
def combOps2 : List (HloOp τ sig (Elt F)) :=
  binary main_v87 main_v87 main_v116 (mulf : (⟨S100000, .f32⟩ : BufTy).Contents (Elt F) → (⟨S100000, .f32⟩ : BufTy).Contents (Elt F) → (⟨S100000, .f32⟩ : BufTy).Contents (Elt F)) ::
  unary main_v116 main_v117 (broadcastInDim S100000x1 ![0] bcast_S100000_S100000x1_0 : (⟨S100000, .f32⟩ : BufTy).Contents (Elt F) → (⟨S100000x1, .f32⟩ : BufTy).Contents (Elt F)) ::
  unary main_v117 main_v118 (broadcastInDim S100000x64 ![0, 1] bcast_S100000x1_S100000x64_0_1 : (⟨S100000x1, .f32⟩ : BufTy).Contents (Elt F) → (⟨S100000x64, .f32⟩ : BufTy).Contents (Elt F)) ::
  binary main_v80 main_v118 main_v119 (mulf : (⟨S100000x64, .f32⟩ : BufTy).Contents (Elt F) → (⟨S100000x64, .f32⟩ : BufTy).Contents (Elt F) → (⟨S100000x64, .f32⟩ : BufTy).Contents (Elt F)) ::
  binary main_v115 main_v119 main_v120 (addf : (⟨S100000x64, .f32⟩ : BufTy).Contents (Elt F) → (⟨S100000x64, .f32⟩ : BufTy).Contents (Elt F) → (⟨S100000x64, .f32⟩ : BufTy).Contents (Elt F)) ::
  unary main_arg10 main_v121 (broadcastInDim S1x64 ![1] bcast_S64_S1x64_1 : (⟨S64, .f32⟩ : BufTy).Contents (Elt F) → (⟨S1x64, .f32⟩ : BufTy).Contents (Elt F)) ::
  unary main_v121 main_v122 (broadcastInDim S100000x64 ![0, 1] bcast_S1x64_S100000x64_0_1 : (⟨S1x64, .f32⟩ : BufTy).Contents (Elt F) → (⟨S100000x64, .f32⟩ : BufTy).Contents (Elt F)) ::
  binary main_v120 main_v122 main_v123 (addf : (⟨S100000x64, .f32⟩ : BufTy).Contents (Elt F) → (⟨S100000x64, .f32⟩ : BufTy).Contents (Elt F) → (⟨S100000x64, .f32⟩ : BufTy).Contents (Elt F)) ::
  []

/-- The references `combOps2` writes. -/
def combWrites2 : List (Ref sig .tc) := [main_v116, main_v117, main_v118, main_v119, main_v120, main_v121, main_v122, main_v123]

theorem combOps2_writes : (combOps2 (F := F)).Forall fun op => op.writes ⊆ ((combWrites2).map (Proc.devRef (τ := τ) .tc)).toFinset := by
  unfold combOps2
  exact ⟨writes_sub (y := main_v116) (by decide), writes_sub (y := main_v117) (by decide), writes_sub (y := main_v118) (by decide), writes_sub (y := main_v119) (by decide), writes_sub (y := main_v120) (by decide), writes_sub (y := main_v121) (by decide), writes_sub (y := main_v122) (by decide), writes_sub (y := main_v123) (by decide)⟩

/-- `combOps2` leaves alone every reference it does not write. -/
theorem combOps2_frame (W : Valuation τ sig (Elt F)) {r : Ref sig .tc} (hr : r ∉ combWrites2) :
    after combOps2 W (Proc.devRef .tc r) = W (Proc.devRef .tc r) :=
  after_of_writes_sub combOps2 W combOps2_writes hr

/-- Layer 2: GraphNorm over the node axis. -/
def normOps2 : List (HloOp τ sig (Elt F)) :=
  nullary main_cst_25 (constant S_ .f32 0x00000000#32) ::
  binary main_v123 main_cst_25 main_v124 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) ::
  nullary main_cst_26 (constant S_ .f32 0x47C35000#32) ::
  unary main_cst_26 main_v125 (broadcastInDim S64 ![] bcast_S_S64 : (⟨S_, .f32⟩ : BufTy).Contents (Elt F) → (⟨S64, .f32⟩ : BufTy).Contents (Elt F)) ::
  binary main_v124 main_v125 main_v126 (Host.divf : (⟨S64, .f32⟩ : BufTy).Contents (Elt F) → (⟨S64, .f32⟩ : BufTy).Contents (Elt F) → (⟨S64, .f32⟩ : BufTy).Contents (Elt F)) ::
  binary main_arg11 main_v126 main_v127 (mulf : (⟨S64, .f32⟩ : BufTy).Contents (Elt F) → (⟨S64, .f32⟩ : BufTy).Contents (Elt F) → (⟨S64, .f32⟩ : BufTy).Contents (Elt F)) ::
  unary main_v127 main_v128 (broadcastInDim S1x64 ![1] bcast_S64_S1x64_1 : (⟨S64, .f32⟩ : BufTy).Contents (Elt F) → (⟨S1x64, .f32⟩ : BufTy).Contents (Elt F)) ::
  unary main_v128 main_v129 (broadcastInDim S100000x64 ![0, 1] bcast_S1x64_S100000x64_0_1 : (⟨S1x64, .f32⟩ : BufTy).Contents (Elt F) → (⟨S100000x64, .f32⟩ : BufTy).Contents (Elt F)) ::
  binary main_v123 main_v129 main_v130 (subf : (⟨S100000x64, .f32⟩ : BufTy).Contents (Elt F) → (⟨S100000x64, .f32⟩ : BufTy).Contents (Elt F) → (⟨S100000x64, .f32⟩ : BufTy).Contents (Elt F)) ::
  binary main_v130 main_v130 main_v131 (mulf : (⟨S100000x64, .f32⟩ : BufTy).Contents (Elt F) → (⟨S100000x64, .f32⟩ : BufTy).Contents (Elt F) → (⟨S100000x64, .f32⟩ : BufTy).Contents (Elt F)) ::
  nullary main_cst_27 (constant S_ .f32 0x00000000#32) ::
  binary main_v131 main_cst_27 main_v132 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) ::
  nullary main_cst_28 (constant S_ .f32 0x47C35000#32) ::
  unary main_cst_28 main_v133 (broadcastInDim S64 ![] bcast_S_S64 : (⟨S_, .f32⟩ : BufTy).Contents (Elt F) → (⟨S64, .f32⟩ : BufTy).Contents (Elt F)) ::
  binary main_v132 main_v133 main_v134 (Host.divf : (⟨S64, .f32⟩ : BufTy).Contents (Elt F) → (⟨S64, .f32⟩ : BufTy).Contents (Elt F) → (⟨S64, .f32⟩ : BufTy).Contents (Elt F)) ::
  unary main_arg12 main_v135 (broadcastInDim S1x64 ![1] bcast_S64_S1x64_1 : (⟨S64, .f32⟩ : BufTy).Contents (Elt F) → (⟨S1x64, .f32⟩ : BufTy).Contents (Elt F)) ::
  unary main_v135 main_v136 (broadcastInDim S100000x64 ![0, 1] bcast_S1x64_S100000x64_0_1 : (⟨S1x64, .f32⟩ : BufTy).Contents (Elt F) → (⟨S100000x64, .f32⟩ : BufTy).Contents (Elt F)) ::
  binary main_v136 main_v130 main_v137 (mulf : (⟨S100000x64, .f32⟩ : BufTy).Contents (Elt F) → (⟨S100000x64, .f32⟩ : BufTy).Contents (Elt F) → (⟨S100000x64, .f32⟩ : BufTy).Contents (Elt F)) ::
  nullary main_cst_29 (constant S_ .f32 0x3727C5AC#32) ::
  unary main_cst_29 main_v138 (broadcastInDim S64 ![] bcast_S_S64 : (⟨S_, .f32⟩ : BufTy).Contents (Elt F) → (⟨S64, .f32⟩ : BufTy).Contents (Elt F)) ::
  binary main_v134 main_v138 main_v139 (addf : (⟨S64, .f32⟩ : BufTy).Contents (Elt F) → (⟨S64, .f32⟩ : BufTy).Contents (Elt F) → (⟨S64, .f32⟩ : BufTy).Contents (Elt F)) ::
  unary main_v139 main_v140 (Host.rsqrt : (⟨S64, .f32⟩ : BufTy).Contents (Elt F) → (⟨S64, .f32⟩ : BufTy).Contents (Elt F)) ::
  unary main_v140 main_v141 (broadcastInDim S1x64 ![1] bcast_S64_S1x64_1 : (⟨S64, .f32⟩ : BufTy).Contents (Elt F) → (⟨S1x64, .f32⟩ : BufTy).Contents (Elt F)) ::
  unary main_v141 main_v142 (broadcastInDim S100000x64 ![0, 1] bcast_S1x64_S100000x64_0_1 : (⟨S1x64, .f32⟩ : BufTy).Contents (Elt F) → (⟨S100000x64, .f32⟩ : BufTy).Contents (Elt F)) ::
  binary main_v137 main_v142 main_v143 (mulf : (⟨S100000x64, .f32⟩ : BufTy).Contents (Elt F) → (⟨S100000x64, .f32⟩ : BufTy).Contents (Elt F) → (⟨S100000x64, .f32⟩ : BufTy).Contents (Elt F)) ::
  unary main_arg13 main_v144 (broadcastInDim S1x64 ![1] bcast_S64_S1x64_1 : (⟨S64, .f32⟩ : BufTy).Contents (Elt F) → (⟨S1x64, .f32⟩ : BufTy).Contents (Elt F)) ::
  unary main_v144 main_v145 (broadcastInDim S100000x64 ![0, 1] bcast_S1x64_S100000x64_0_1 : (⟨S1x64, .f32⟩ : BufTy).Contents (Elt F) → (⟨S100000x64, .f32⟩ : BufTy).Contents (Elt F)) ::
  binary main_v143 main_v145 main_v146 (addf : (⟨S100000x64, .f32⟩ : BufTy).Contents (Elt F) → (⟨S100000x64, .f32⟩ : BufTy).Contents (Elt F) → (⟨S100000x64, .f32⟩ : BufTy).Contents (Elt F)) ::
  []

/-- The references `normOps2` writes. -/
def normWrites2 : List (Ref sig .tc) := [main_cst_25, main_v124, main_cst_26, main_v125, main_v126, main_v127, main_v128, main_v129, main_v130, main_v131, main_cst_27, main_v132, main_cst_28, main_v133, main_v134, main_v135, main_v136, main_v137, main_cst_29, main_v138, main_v139, main_v140, main_v141, main_v142, main_v143, main_v144, main_v145, main_v146]

theorem normOps2_writes : (normOps2 (F := F)).Forall fun op => op.writes ⊆ ((normWrites2).map (Proc.devRef (τ := τ) .tc)).toFinset := by
  unfold normOps2
  exact ⟨writes_sub (y := main_cst_25) (by decide), writes_sub (y := main_v124) (by decide), writes_sub (y := main_cst_26) (by decide), writes_sub (y := main_v125) (by decide), writes_sub (y := main_v126) (by decide), writes_sub (y := main_v127) (by decide), writes_sub (y := main_v128) (by decide), writes_sub (y := main_v129) (by decide), writes_sub (y := main_v130) (by decide), writes_sub (y := main_v131) (by decide), writes_sub (y := main_cst_27) (by decide), writes_sub (y := main_v132) (by decide), writes_sub (y := main_cst_28) (by decide), writes_sub (y := main_v133) (by decide), writes_sub (y := main_v134) (by decide), writes_sub (y := main_v135) (by decide), writes_sub (y := main_v136) (by decide), writes_sub (y := main_v137) (by decide), writes_sub (y := main_cst_29) (by decide), writes_sub (y := main_v138) (by decide), writes_sub (y := main_v139) (by decide), writes_sub (y := main_v140) (by decide), writes_sub (y := main_v141) (by decide), writes_sub (y := main_v142) (by decide), writes_sub (y := main_v143) (by decide), writes_sub (y := main_v144) (by decide), writes_sub (y := main_v145) (by decide), writes_sub (y := main_v146) (by decide)⟩

/-- `normOps2` leaves alone every reference it does not write. -/
theorem normOps2_frame (W : Valuation τ sig (Elt F)) {r : Ref sig .tc} (hr : r ∉ normWrites2) :
    after normOps2 W (Proc.devRef .tc r) = W (Proc.devRef .tc r) :=
  after_of_writes_sub normOps2 W normOps2_writes hr

/-! ## What each stretch computes -/

theorem edgeOps_src (W : Valuation τ sig (Elt F)) :
    after edgeOps W ↟main_v1 = Spec.srcOf (W ↟main_arg1) := by
  unfold edgeOps
  after_results_simp <;> rfl

theorem edgeOps_dst (W : Valuation τ sig (Elt F)) :
    after edgeOps W ↟main_v3 = Spec.dstOf (W ↟main_arg1) := by
  unfold edgeOps
  after_results_simp <;> rfl

theorem projOps_val (W : Valuation τ sig (Elt F)) :
    after projOps W ↟main_v7 = Spec.proj (W ↟main_arg0) (W ↟main_arg2) (W ↟main_arg3) := by
  unfold projOps
  after_results_simp <;> rfl

theorem prodOps1_val (W : Valuation τ sig (Elt F)) :
    after prodOps1 W ↟main_v8 = Spec.prod (W ↟main_v7) (W ↟main_arg4) := by
  unfold prodOps1
  after_results_simp <;> rfl

theorem degOps1_val (W : Valuation τ sig (Elt F)) (e : Spec.IA F S2x1000000) (h3 : W ↟main_v3 = Spec.dstOf e) :
    after degOps1 W ↟main_v15 = Spec.dinv e := by
  unfold degOps1
  after_results_simp
  rw [h3]
  rfl

theorem coefOps1_val (W : Valuation τ sig (Elt F)) :
    after coefOps1 W ↟main_v30 = Spec.coefCore (W ↟main_v15) (W ↟main_v1) (W ↟main_v3) := by
  unfold coefOps1
  after_results_simp <;> rfl

theorem aggOps1_val (W : Valuation τ sig (Elt F)) :
    after aggOps1 W ↟main_v43 = Spec.aggCore (W ↟main_v8) (W ↟main_v1) (W ↟main_v3) (W ↟main_v30) := by
  unfold aggOps1
  after_results_simp <;> rfl

theorem combOps1_val (W : Valuation τ sig (Elt F)) (e : Spec.IA F S2x1000000)
    (hagg : W ↟main_v43 = Spec.agg (W ↟main_v8) e) (hdinv : W ↟main_v15 = Spec.dinv e) :
    after combOps1 W ↟main_v51 = Spec.combine (W ↟main_v8) e (W ↟main_arg5) := by
  unfold combOps1
  after_results_simp
  rw [hagg, hdinv]
  rfl

theorem normOps1_val (W : Valuation τ sig (Elt F)) :
    after normOps1 W ↟main_v74 = Spec.graphNorm (W ↟main_v51) (W ↟main_arg6) (W ↟main_arg7) (W ↟main_arg8) := by
  unfold normOps1
  after_results_simp <;> rfl

theorem leakyOps_val (W : Valuation τ sig (Elt F)) :
    after leakyOps W ↟main_v79 = Spec.leaky (W ↟main_v74) := by
  unfold leakyOps
  after_results_simp
  simp only [TRef.toBuf, TRef.ofBuf, cast_eq, id]
  rfl

theorem prodOps2_val (W : Valuation τ sig (Elt F)) :
    after prodOps2 W ↟main_v80 = Spec.prod (W ↟main_v79) (W ↟main_arg9) := by
  unfold prodOps2
  after_results_simp <;> rfl

theorem degOps2_val (W : Valuation τ sig (Elt F)) (e : Spec.IA F S2x1000000) (h3 : W ↟main_v3 = Spec.dstOf e) :
    after degOps2 W ↟main_v87 = Spec.dinv e := by
  unfold degOps2
  after_results_simp
  rw [h3]
  rfl

theorem coefOps2_val (W : Valuation τ sig (Elt F)) :
    after coefOps2 W ↟main_v102 = Spec.coefCore (W ↟main_v87) (W ↟main_v1) (W ↟main_v3) := by
  unfold coefOps2
  after_results_simp <;> rfl

theorem aggOps2_val (W : Valuation τ sig (Elt F)) :
    after aggOps2 W ↟main_v115 = Spec.aggCore (W ↟main_v80) (W ↟main_v1) (W ↟main_v3) (W ↟main_v102) := by
  unfold aggOps2
  after_results_simp <;> rfl

theorem combOps2_val (W : Valuation τ sig (Elt F)) (e : Spec.IA F S2x1000000)
    (hagg : W ↟main_v115 = Spec.agg (W ↟main_v80) e) (hdinv : W ↟main_v87 = Spec.dinv e) :
    after combOps2 W ↟main_v123 = Spec.combine (W ↟main_v80) e (W ↟main_arg10) := by
  unfold combOps2
  after_results_simp
  rw [hagg, hdinv]
  rfl

theorem normOps2_val (W : Valuation τ sig (Elt F)) :
    after normOps2 W ↟main_v146 = Spec.graphNorm (W ↟main_v123) (W ↟main_arg11) (W ↟main_arg12) (W ↟main_arg13) := by
  unfold normOps2
  after_results_simp <;> rfl

/-! ## The whole line -/

set_option maxRecDepth 8192 in
/-- The line is its fifteen stretches in order. -/
theorem ops_eq : (ops (F := F)) = edgeOps ++ (projOps ++ (prodOps1 ++ (degOps1 ++ (coefOps1 ++ (aggOps1 ++ (combOps1 ++ (normOps1 ++ (leakyOps ++ (prodOps2 ++ (degOps2 ++ (coefOps2 ++ (aggOps2 ++ (combOps2 ++ (normOps2)))))))))))))) := rfl

/-- From any contents `V` whose argument buffers hold `x`, `e`, …: the line leaves `Spec.model` of them in its last
    buffer, and the arguments where they were. -/
theorem after_ops_of (V : Valuation τ sig (Elt F))
    (x : Spec.FA F S100000x128) (e : Spec.IA F S2x1000000) (wIn : Spec.FA F S128x64) (bIn : Spec.FA F S64)
    (w1 : Spec.FA F S64x64) (b1 α1 γ1 β1 : Spec.FA F S64) (w2 : Spec.FA F S64x64) (b2 α2 γ2 β2 : Spec.FA F S64)
    (hx : V ↟main_arg0 = x)
    (he : V ↟main_arg1 = e)
    (hwIn : V ↟main_arg2 = wIn)
    (hbIn : V ↟main_arg3 = bIn)
    (hw1 : V ↟main_arg4 = w1)
    (hb1 : V ↟main_arg5 = b1)
    (hα1 : V ↟main_arg6 = α1)
    (hγ1 : V ↟main_arg7 = γ1)
    (hβ1 : V ↟main_arg8 = β1)
    (hw2 : V ↟main_arg9 = w2)
    (hb2 : V ↟main_arg10 = b2)
    (hα2 : V ↟main_arg11 = α2)
    (hγ2 : V ↟main_arg12 = γ2)
    (hβ2 : V ↟main_arg13 = β2) :
    after ops V ↟main_v146 = Spec.model x e wIn bIn w1 b1 α1 γ1 β1 w2 b2 α2 γ2 β2 ∧ Same argRefs V (after ops V) := by
  obtain ⟨V1, h1⟩ : ∃ V1, V1 = after edgeOps V := ⟨_, rfl⟩
  obtain ⟨V2, h2⟩ : ∃ V2, V2 = after projOps V1 := ⟨_, rfl⟩
  obtain ⟨V3, h3⟩ : ∃ V3, V3 = after prodOps1 V2 := ⟨_, rfl⟩
  obtain ⟨V4, h4⟩ : ∃ V4, V4 = after degOps1 V3 := ⟨_, rfl⟩
  obtain ⟨V5, h5⟩ : ∃ V5, V5 = after coefOps1 V4 := ⟨_, rfl⟩
  obtain ⟨V6, h6⟩ : ∃ V6, V6 = after aggOps1 V5 := ⟨_, rfl⟩
  obtain ⟨V7, h7⟩ : ∃ V7, V7 = after combOps1 V6 := ⟨_, rfl⟩
  obtain ⟨V8, h8⟩ : ∃ V8, V8 = after normOps1 V7 := ⟨_, rfl⟩
  obtain ⟨V9, h9⟩ : ∃ V9, V9 = after leakyOps V8 := ⟨_, rfl⟩
  obtain ⟨V10, h10⟩ : ∃ V10, V10 = after prodOps2 V9 := ⟨_, rfl⟩
  obtain ⟨V11, h11⟩ : ∃ V11, V11 = after degOps2 V10 := ⟨_, rfl⟩
  obtain ⟨V12, h12⟩ : ∃ V12, V12 = after coefOps2 V11 := ⟨_, rfl⟩
  obtain ⟨V13, h13⟩ : ∃ V13, V13 = after aggOps2 V12 := ⟨_, rfl⟩
  obtain ⟨V14, h14⟩ : ∃ V14, V14 = after combOps2 V13 := ⟨_, rfl⟩
  obtain ⟨V15, h15⟩ : ∃ V15, V15 = after normOps2 V14 := ⟨_, rfl⟩
  have hall : after ops V = V15 := by
    rw [h15, h14, h13, h12, h11, h10, h9, h8, h7, h6, h5, h4, h3, h2, h1, ops_eq]
    simp only [after_append]
  -- what each stretch leaves alone: the arguments, and after the first stretch the edges' two ends too
  have a1 : Same argRefs V V1 := by rw [h1]; exact same_after edgeOps edgeOps_writes (by decide) V
  have src1 : V1 ↟main_v1 = Spec.srcOf e := by rw [h1, edgeOps_src V, he]
  have dst1 : V1 ↟main_v3 = Spec.dstOf e := by rw [h1, edgeOps_dst V, he]
  have s2 : Same keptRefs V1 V2 := by rw [h2]; exact same_after projOps projOps_writes (by decide) V1
  have a2 : Same argRefs V V2 := fun r hr => (s2 r (List.mem_cons_of_mem _ (List.mem_cons_of_mem _ hr))).trans (a1 r hr)
  have src2 : V2 ↟main_v1 = Spec.srcOf e := (s2 main_v1 (by decide)).trans src1
  have dst2 : V2 ↟main_v3 = Spec.dstOf e := (s2 main_v3 (by decide)).trans dst1
  have s3 : Same keptRefs V2 V3 := by rw [h3]; exact same_after prodOps1 prodOps1_writes (by decide) V2
  have a3 : Same argRefs V V3 := fun r hr => (s3 r (List.mem_cons_of_mem _ (List.mem_cons_of_mem _ hr))).trans (a2 r hr)
  have src3 : V3 ↟main_v1 = Spec.srcOf e := (s3 main_v1 (by decide)).trans src2
  have dst3 : V3 ↟main_v3 = Spec.dstOf e := (s3 main_v3 (by decide)).trans dst2
  have s4 : Same keptRefs V3 V4 := by rw [h4]; exact same_after degOps1 degOps1_writes (by decide) V3
  have a4 : Same argRefs V V4 := fun r hr => (s4 r (List.mem_cons_of_mem _ (List.mem_cons_of_mem _ hr))).trans (a3 r hr)
  have src4 : V4 ↟main_v1 = Spec.srcOf e := (s4 main_v1 (by decide)).trans src3
  have dst4 : V4 ↟main_v3 = Spec.dstOf e := (s4 main_v3 (by decide)).trans dst3
  have s5 : Same keptRefs V4 V5 := by rw [h5]; exact same_after coefOps1 coefOps1_writes (by decide) V4
  have a5 : Same argRefs V V5 := fun r hr => (s5 r (List.mem_cons_of_mem _ (List.mem_cons_of_mem _ hr))).trans (a4 r hr)
  have src5 : V5 ↟main_v1 = Spec.srcOf e := (s5 main_v1 (by decide)).trans src4
  have dst5 : V5 ↟main_v3 = Spec.dstOf e := (s5 main_v3 (by decide)).trans dst4
  have s6 : Same keptRefs V5 V6 := by rw [h6]; exact same_after aggOps1 aggOps1_writes (by decide) V5
  have a6 : Same argRefs V V6 := fun r hr => (s6 r (List.mem_cons_of_mem _ (List.mem_cons_of_mem _ hr))).trans (a5 r hr)
  have src6 : V6 ↟main_v1 = Spec.srcOf e := (s6 main_v1 (by decide)).trans src5
  have dst6 : V6 ↟main_v3 = Spec.dstOf e := (s6 main_v3 (by decide)).trans dst5
  have s7 : Same keptRefs V6 V7 := by rw [h7]; exact same_after combOps1 combOps1_writes (by decide) V6
  have a7 : Same argRefs V V7 := fun r hr => (s7 r (List.mem_cons_of_mem _ (List.mem_cons_of_mem _ hr))).trans (a6 r hr)
  have src7 : V7 ↟main_v1 = Spec.srcOf e := (s7 main_v1 (by decide)).trans src6
  have dst7 : V7 ↟main_v3 = Spec.dstOf e := (s7 main_v3 (by decide)).trans dst6
  have s8 : Same keptRefs V7 V8 := by rw [h8]; exact same_after normOps1 normOps1_writes (by decide) V7
  have a8 : Same argRefs V V8 := fun r hr => (s8 r (List.mem_cons_of_mem _ (List.mem_cons_of_mem _ hr))).trans (a7 r hr)
  have src8 : V8 ↟main_v1 = Spec.srcOf e := (s8 main_v1 (by decide)).trans src7
  have dst8 : V8 ↟main_v3 = Spec.dstOf e := (s8 main_v3 (by decide)).trans dst7
  have s9 : Same keptRefs V8 V9 := by rw [h9]; exact same_after leakyOps leakyOps_writes (by decide) V8
  have a9 : Same argRefs V V9 := fun r hr => (s9 r (List.mem_cons_of_mem _ (List.mem_cons_of_mem _ hr))).trans (a8 r hr)
  have src9 : V9 ↟main_v1 = Spec.srcOf e := (s9 main_v1 (by decide)).trans src8
  have dst9 : V9 ↟main_v3 = Spec.dstOf e := (s9 main_v3 (by decide)).trans dst8
  have s10 : Same keptRefs V9 V10 := by rw [h10]; exact same_after prodOps2 prodOps2_writes (by decide) V9
  have a10 : Same argRefs V V10 := fun r hr => (s10 r (List.mem_cons_of_mem _ (List.mem_cons_of_mem _ hr))).trans (a9 r hr)
  have src10 : V10 ↟main_v1 = Spec.srcOf e := (s10 main_v1 (by decide)).trans src9
  have dst10 : V10 ↟main_v3 = Spec.dstOf e := (s10 main_v3 (by decide)).trans dst9
  have s11 : Same keptRefs V10 V11 := by rw [h11]; exact same_after degOps2 degOps2_writes (by decide) V10
  have a11 : Same argRefs V V11 := fun r hr => (s11 r (List.mem_cons_of_mem _ (List.mem_cons_of_mem _ hr))).trans (a10 r hr)
  have src11 : V11 ↟main_v1 = Spec.srcOf e := (s11 main_v1 (by decide)).trans src10
  have dst11 : V11 ↟main_v3 = Spec.dstOf e := (s11 main_v3 (by decide)).trans dst10
  have s12 : Same keptRefs V11 V12 := by rw [h12]; exact same_after coefOps2 coefOps2_writes (by decide) V11
  have a12 : Same argRefs V V12 := fun r hr => (s12 r (List.mem_cons_of_mem _ (List.mem_cons_of_mem _ hr))).trans (a11 r hr)
  have src12 : V12 ↟main_v1 = Spec.srcOf e := (s12 main_v1 (by decide)).trans src11
  have dst12 : V12 ↟main_v3 = Spec.dstOf e := (s12 main_v3 (by decide)).trans dst11
  have s13 : Same keptRefs V12 V13 := by rw [h13]; exact same_after aggOps2 aggOps2_writes (by decide) V12
  have a13 : Same argRefs V V13 := fun r hr => (s13 r (List.mem_cons_of_mem _ (List.mem_cons_of_mem _ hr))).trans (a12 r hr)
  have src13 : V13 ↟main_v1 = Spec.srcOf e := (s13 main_v1 (by decide)).trans src12
  have dst13 : V13 ↟main_v3 = Spec.dstOf e := (s13 main_v3 (by decide)).trans dst12
  have s14 : Same keptRefs V13 V14 := by rw [h14]; exact same_after combOps2 combOps2_writes (by decide) V13
  have a14 : Same argRefs V V14 := fun r hr => (s14 r (List.mem_cons_of_mem _ (List.mem_cons_of_mem _ hr))).trans (a13 r hr)
  have src14 : V14 ↟main_v1 = Spec.srcOf e := (s14 main_v1 (by decide)).trans src13
  have dst14 : V14 ↟main_v3 = Spec.dstOf e := (s14 main_v3 (by decide)).trans dst13
  have s15 : Same keptRefs V14 V15 := by rw [h15]; exact same_after normOps2 normOps2_writes (by decide) V14
  have a15 : Same argRefs V V15 := fun r hr => (s15 r (List.mem_cons_of_mem _ (List.mem_cons_of_mem _ hr))).trans (a14 r hr)
  have src15 : V15 ↟main_v1 = Spec.srcOf e := (s15 main_v1 (by decide)).trans src14
  have dst15 : V15 ↟main_v3 = Spec.dstOf e := (s15 main_v3 (by decide)).trans dst14
  -- the input projection
  have p2 : V2 ↟main_v7 = Spec.proj x wIn bIn := by
    rw [h2, projOps_val V1, a1 main_arg0 (by decide), hx, a1 main_arg2 (by decide), hwIn, a1 main_arg3 (by decide), hbIn]
  -- layer 1
  have xw3 : V3 ↟main_v8 = Spec.prod (Spec.proj x wIn bIn) w1 := by
    rw [h3, prodOps1_val V2, p2, a2 main_arg4 (by decide), hw1]
  have dinv4 : V4 ↟main_v15 = Spec.dinv e := by rw [h4]; exact degOps1_val V3 e dst3
  have xw4 : V4 ↟main_v8 = Spec.prod (Spec.proj x wIn bIn) w1 := by rw [h4, degOps1_frame V3 (by decide), xw3]
  have coef5 : V5 ↟main_v30 = Spec.coef e := by
    rw [h5, coefOps1_val V4, dinv4, src4, dst4]
    rfl
  have xw5 : V5 ↟main_v8 = Spec.prod (Spec.proj x wIn bIn) w1 := by rw [h5, coefOps1_frame V4 (by decide), xw4]
  have dinv5 : V5 ↟main_v15 = Spec.dinv e := by rw [h5, coefOps1_frame V4 (by decide), dinv4]
  have agg6 : V6 ↟main_v43 = Spec.agg (Spec.prod (Spec.proj x wIn bIn) w1) e := by
    rw [h6, aggOps1_val V5, xw5, src5, dst5, coef5]
    rfl
  have xw6 : V6 ↟main_v8 = Spec.prod (Spec.proj x wIn bIn) w1 := by rw [h6, aggOps1_frame V5 (by decide), xw5]
  have dinv6 : V6 ↟main_v15 = Spec.dinv e := by rw [h6, aggOps1_frame V5 (by decide), dinv5]
  have comb7 : V7 ↟main_v51 = Spec.combine (Spec.prod (Spec.proj x wIn bIn) w1) e b1 := by
    rw [h7, combOps1_val V6 e (by rw [agg6, xw6]) dinv6, xw6, a6 main_arg5 (by decide), hb1]
  have out8 : V8 ↟main_v74 = Spec.layer (Spec.proj x wIn bIn) w1 b1 α1 γ1 β1 e := by
    rw [h8, normOps1_val V7, comb7, a7 main_arg6 (by decide), hα1, a7 main_arg7 (by decide), hγ1, a7 main_arg8 (by decide), hβ1]
    rfl
  -- the LeakyReLU between the layers
  have act9 : V9 ↟main_v79 = Spec.leaky (Spec.layer (Spec.proj x wIn bIn) w1 b1 α1 γ1 β1 e) := by rw [h9, leakyOps_val V8, out8]
  -- layer 2
  have xw10 : V10 ↟main_v80 = Spec.prod (Spec.leaky (Spec.layer (Spec.proj x wIn bIn) w1 b1 α1 γ1 β1 e)) w2 := by
    rw [h10, prodOps2_val V9, act9, a9 main_arg9 (by decide), hw2]
  have dinv11 : V11 ↟main_v87 = Spec.dinv e := by rw [h11]; exact degOps2_val V10 e dst10
  have xw11 : V11 ↟main_v80 = Spec.prod (Spec.leaky (Spec.layer (Spec.proj x wIn bIn) w1 b1 α1 γ1 β1 e)) w2 := by rw [h11, degOps2_frame V10 (by decide), xw10]
  have coef12 : V12 ↟main_v102 = Spec.coef e := by
    rw [h12, coefOps2_val V11, dinv11, src11, dst11]
    rfl
  have xw12 : V12 ↟main_v80 = Spec.prod (Spec.leaky (Spec.layer (Spec.proj x wIn bIn) w1 b1 α1 γ1 β1 e)) w2 := by rw [h12, coefOps2_frame V11 (by decide), xw11]
  have dinv12 : V12 ↟main_v87 = Spec.dinv e := by rw [h12, coefOps2_frame V11 (by decide), dinv11]
  have agg13 : V13 ↟main_v115 = Spec.agg (Spec.prod (Spec.leaky (Spec.layer (Spec.proj x wIn bIn) w1 b1 α1 γ1 β1 e)) w2) e := by
    rw [h13, aggOps2_val V12, xw12, src12, dst12, coef12]
    rfl
  have xw13 : V13 ↟main_v80 = Spec.prod (Spec.leaky (Spec.layer (Spec.proj x wIn bIn) w1 b1 α1 γ1 β1 e)) w2 := by rw [h13, aggOps2_frame V12 (by decide), xw12]
  have dinv13 : V13 ↟main_v87 = Spec.dinv e := by rw [h13, aggOps2_frame V12 (by decide), dinv12]
  have comb14 : V14 ↟main_v123 = Spec.combine (Spec.prod (Spec.leaky (Spec.layer (Spec.proj x wIn bIn) w1 b1 α1 γ1 β1 e)) w2) e b2 := by
    rw [h14, combOps2_val V13 e (by rw [agg13, xw13]) dinv13, xw13, a13 main_arg10 (by decide), hb2]
  have out15 : V15 ↟main_v146 = Spec.layer (Spec.leaky (Spec.layer (Spec.proj x wIn bIn) w1 b1 α1 γ1 β1 e)) w2 b2 α2 γ2 β2 e := by
    rw [h15, normOps2_val V14, comb14, a14 main_arg11 (by decide), hα2, a14 main_arg12 (by decide), hγ2, a14 main_arg13 (by decide), hβ2]
    rfl
  rw [hall]
  exact ⟨out15, a15⟩

/-! ## The run -/

set_option maxRecDepth 8192 in
/-- On every device, for any float values, from any memory with zero counters: every weakly fair execution of the
    reference terminates with `Spec.model` of the arguments in its result buffer and the arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v146) = Spec.model (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => by
      obtain ⟨hv, ha⟩ := after_ops_of (launchContents m c) _ _ _ _ _ _ _ _ _ _ _ _ _ _
        rfl rfl rfl rfl rfl rfl rfl rfl rfl rfl rfl rfl rfl rfl
      exact ⟨(h c main_v146).trans hv,
        (h c main_arg0).trans (ha main_arg0 (by decide)),
        (h c main_arg1).trans (ha main_arg1 (by decide)),
        (h c main_arg2).trans (ha main_arg2 (by decide)),
        (h c main_arg3).trans (ha main_arg3 (by decide)),
        (h c main_arg4).trans (ha main_arg4 (by decide)),
        (h c main_arg5).trans (ha main_arg5 (by decide)),
        (h c main_arg6).trans (ha main_arg6 (by decide)),
        (h c main_arg7).trans (ha main_arg7 (by decide)),
        (h c main_arg8).trans (ha main_arg8 (by decide)),
        (h c main_arg9).trans (ha main_arg9 (by decide)),
        (h c main_arg10).trans (ha main_arg10 (by decide)),
        (h c main_arg11).trans (ha main_arg11 (by decide)),
        (h c main_arg12).trans (ha main_arg12 (by decide)),
        (h c main_arg13).trans (ha main_arg13 (by decide))⟩)
    (run_seq scopedRefs_eq scopedSems_eq defs main (fun _ => ops) main_eq (fun _ => ops_sub) m ρ)

/-- The reference runs and leaves its arguments unchanged. -/
theorem frame_ri [Cert.ReferenceIdeal.Facts] [Cert.Pre_finite_inputs.Facts] : Cert.frame_ReferenceIdeal :=
  fun m ρ _ => (θ_run Cert.ReferenceIdeal.defs _ _).mono (fun _ h c => (h c).2) (ref_run (F := Ideal) m ρ)

end Cert.ReferenceIdeal.RefRun

end
-- ==== Proof.lean ====
/-
  The claim, assembled. Both programs compute, at the extended reals, the one function Cert.Spec.model of the
  fourteen argument arrays: the two-layer graph network (projection, then per layer the product, the
  degree-normalized aggregation over the edges, the bias, GraphNorm, with LeakyReLU between the layers).

  * The three frame claims: each program runs to its end without a fault and leaves its arguments as launched.
    The kernel's two are the generated frames; the reference's is its run with the result forgotten.
  * The idealization rewrote no operation, so what it must preserve is nothing.
  * The algebraic claim: under the precondition every floating-point argument entry is a real number
    (Cert.FiniteInputs), and then the kernel's result buffer, which its run leaves at the contents of the last
    region's output array, is Cert.Spec.model of the arguments (Cert.KernelIdeal.Value.result_eq); the
    reference's run leaves Cert.Spec.model of ITS arguments, which agree with the kernel's one by one. The common
    value is the witness.
-/
import proofs.«169252_j42494406426958_1_alg».proof.Defs
import proofs.«169252_j42494406426958_1_alg».proof.Proof.Gen.Kernel
import proofs.«169252_j42494406426958_1_alg».proof.Proof.Gen.Kernel.Skeleton
import proofs.«169252_j42494406426958_1_alg».proof.Proof.Gen.Kernel.Launch
import proofs.«169252_j42494406426958_1_alg».proof.Proof.Gen.Kernel.Points
import proofs.«169252_j42494406426958_1_alg».proof.Proof.Gen.Kernel.Frame
import proofs.«169252_j42494406426958_1_alg».proof.Proof.Gen.KernelIdeal
import proofs.«169252_j42494406426958_1_alg».proof.Proof.Gen.KernelIdeal.Skeleton
import proofs.«169252_j42494406426958_1_alg».proof.Proof.Gen.KernelIdeal.Launch
import proofs.«169252_j42494406426958_1_alg».proof.Proof.Gen.KernelIdeal.Points
import proofs.«169252_j42494406426958_1_alg».proof.Proof.Gen.KernelIdeal.Frame
import proofs.«169252_j42494406426958_1_alg».proof.Proof.Gen.ReferenceIdeal
import proofs.«169252_j42494406426958_1_alg».proof.Proof.Gen.Pre_finite_inputs
import proofs.«169252_j42494406426958_1_alg».proof.Proof.Spec
import proofs.«169252_j42494406426958_1_alg».proof.Proof.FiniteInputs
import proofs.«169252_j42494406426958_1_alg».proof.Proof.KernelRun
import proofs.«169252_j42494406426958_1_alg».proof.Proof.KernelValue
import proofs.«169252_j42494406426958_1_alg».proof.Proof.RefRun
import Idealize.ShloMosaic.Adequacy
import Idealize.ShloMosaic.Init

noncomputable section

open Idealize.ShloMosaic Idealize.ShloMosaic.TcCoe Idealize.SL.Sem

namespace Cert.Proof

/-- The kernel program as printed runs and leaves its arguments unchanged: the generated frame. -/
theorem frame_k : Cert.frame_Kernel := fun m ρ _ => Cert.Kernel.Gen.frame m ρ

/-- The idealized kernel program runs and leaves its arguments unchanged: the generated frame. -/
theorem frame_ki : Cert.frame_KernelIdeal := fun m ρ _ => Cert.KernelIdeal.Gen.frame m ρ

/-- The reference runs and leaves its arguments unchanged: its run, the result forgotten. -/
theorem frame_ri : Cert.frame_ReferenceIdeal := Cert.ReferenceIdeal.RefRun.frame_ri

/-- The idealization rewrote no operation: nothing to preserve. -/
theorem preserves : Cert.preserves_Kernel_KernelIdeal := trivial

/-- At the extended reals, from memories agreeing on the arguments, the kernel and the reference both end with
    Cert.Spec.model of the kernel's arguments in their result buffers: the kernel by its run and the value of its last
    region's output (which needs the arguments' entries real: the precondition), the reference by its run at its own
    arguments, which are the kernel's. -/
theorem algebraic : Cert.algebraic_KernelIdeal_ReferenceIdeal := by
  intro m ρ m' ρ' hpre hagree
  refine ⟨fun c => Cert.Spec.model (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13)), ?_, ?_⟩
  · exact (θ_run Cert.KernelIdeal.defs _ _).mono
      (fun _ h c => ⟨(h c).1.trans
          (Cert.KernelIdeal.Value.result_eq m ρ c (Cert.FiniteInputs.real_args_KernelIdeal m hpre c)), (h c).2⟩)
      (Cert.KernelIdeal.RunNamed.run_named (F := Ideal) m ρ)
  · refine (θ_run Cert.ReferenceIdeal.defs _ _).mono (fun _ h c => ⟨(h c).1.trans ?_, (h c).2⟩)
      (Cert.ReferenceIdeal.RefRun.ref_run (F := Ideal) m' ρ')
    obtain ⟨h0, h1, h2, h3, h4, h5, h6, h7, h8, h9, h10, h11, h12, h13⟩ := hagree c
    rw [h0, h1, h2, h3, h4, h5, h6, h7, h8, h9, h10, h11, h12, h13]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
